-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "neg_big" .f32 0xF149F2CA#32 ⊥
  ∧ IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3200000 : Shape := ⟨1, ![3200000]⟩
abbrev S100000 : Shape := ⟨1, ![100000]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_arg10 : FVec F S16x1 .f32) (main_arg11 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S16x1 .f32 := Host.absf main_arg10
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S16x16 .f32) (main_arg7 : FVec F S16 .f32) (main_arg8 : FVec F S16x1 .f32) (main_arg9 : FVec F S1 .f32) (main_arg10 : FVec F S16x1 .f32) (main_arg11 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg8
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x3 .f32) (main_arg1 : IVec S2x3200000 32) (main_arg2 : FVec F S3200000 .f32) (main_arg3 : IVec S100000 1) (main_arg4 : FVec F S3x16 .f32) (main_arg5 : FVec F S16 .f32) (main_arg6 : FVec F S16x16 .f32) (main_arg7 : FVec F S16 .f32) (main_arg8 : FVec F S16x1 .f32) (main_arg9 : FVec F S1 .f32) (main_arg10 : FVec F S16x1 .f32) (main_arg11 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3x16 .f32 := Host.absf main_arg4
  let main_cst_2 : FVec F S_ .f32 := constant S_ .f32 0x7F800000#32
  let main_v10 : FVec F S3x16 .f32 := broadcastInDim S3x16 ![] bcast_S_S3x16 main_cst_2
  let main_v11 : IVec S3x16 1 := cmpf .olt main_v9 main_v10
  let main_c_3 : IVec S_ 1 := constantI S_ 1 1#1
  let main_v12 : IVec S_ 1 := (fun x v => Host.reduce IntOp.andi x v reducesTo_S3x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_v13 main_v16
-- ==== Kernel.lean ====
abbrev S100000x3 : Shape := ⟨2, ![100000, 3]⟩
abbrev S2x3200000 : Shape := ⟨2, ![2, 3200000]⟩
abbrev S3200000 : Shape := ⟨1, ![3200000]⟩
abbrev S100000 : Shape := ⟨1, ![100000]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x3 : Shape := ⟨2, ![2000, 3]⟩
abbrev S2000x16 : Shape := ⟨2, ![2000, 16]⟩
abbrev S3300000x16 : Shape := ⟨2, ![3300000, 16]⟩
abbrev S4000x16 : Shape := ⟨2, ![4000, 16]⟩
abbrev S4000x1 : Shape := ⟨2, ![4000, 1]⟩
abbrev S1x16 : Shape := ⟨2, ![1, 16]⟩
abbrev S100000x1 : Shape := ⟨2, ![100000, 1]⟩
abbrev S2000x1 : Shape := ⟨2, ![2000, 1]⟩
abbrev S1x1 : Shape := ⟨2, ![1, 1]⟩
abbrev S100096 : Shape := ⟨1, ![100096]⟩
abbrev S782x128 : Shape := ⟨2, ![782, 128]⟩
abbrev S782 : Shape := ⟨1, ![782]⟩
abbrev S782x1 : Shape := ⟨2, ![782, 1]⟩

abbrev nBuf : Space → Nat
  | .hbm => 123
  | .vmem => 57
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3200000, .f32⟩
  | .hbm, ⟨3, _⟩ => ⟨S100000, .i1⟩
  | .hbm, ⟨4, _⟩ => ⟨S3x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x1, .f32⟩
  | .hbm, ⟨9, _⟩ => ⟨S1, .f32⟩
  | .hbm, ⟨10, _⟩ => ⟨S16x1, .f32⟩
  | .hbm, ⟨11, _⟩ => ⟨S1, .f32⟩
  | .hbm, ⟨12, _⟩ => ⟨S100000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S_, .f32⟩
  | .hbm, ⟨20, _⟩ => ⟨S100000, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000, .f32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x16, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x16, .f32⟩
  | .hbm, ⟨64, _⟩ => ⟨S3300000x1, .f32⟩
  | .hbm, ⟨65, _⟩ => ⟨S3300000x16, .f32⟩
  | .hbm, ⟨66, _⟩ => ⟨S_, .f32⟩
  | .hbm, ⟨67, _⟩ => ⟨S100000x16, .f32⟩
  | .hbm, ⟨68, _⟩ => ⟨S3300000x1, .i32⟩
  | .hbm, ⟨69, _⟩ => ⟨S100000x16, .f32⟩
  | .hbm, ⟨70, _⟩ => ⟨S1x16, .f32⟩
  | .hbm, ⟨71, _⟩ => ⟨S100000x16, .f32⟩
  | .hbm, ⟨72, _⟩ => ⟨S100000x16, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x16, .f32⟩
  | .hbm, ⟨82, _⟩ => ⟨S3300000x1, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x1, .f32⟩
  | .hbm, ⟨91, _⟩ => ⟨S_, .i32⟩
  | .hbm, ⟨92, _⟩ => ⟨S3300000, .i32⟩
  | .hbm, ⟨93, _⟩ => ⟨S3300000, .i1⟩
  | .hbm, ⟨94, _⟩ => ⟨S_, .i32⟩
  | .hbm, ⟨95, _⟩ => ⟨S3300000, .i32⟩
  | .hbm, ⟨96, _⟩ => ⟨S3300000, .i32⟩
  | .hbm, ⟨97, _⟩ => ⟨S3300000, .i32⟩
  | .hbm, ⟨98, _⟩ => ⟨S3300000x1, .i32⟩
  | .hbm, ⟨99, _⟩ => ⟨S3300000x1, .f32⟩
  | .hbm, ⟨100, _⟩ => ⟨S3300000x1, .f32⟩
  | .hbm, ⟨101, _⟩ => ⟨S3300000x1, .f32⟩
  | .hbm, ⟨102, _⟩ => ⟨S_, .f32⟩
  | .hbm, ⟨103, _⟩ => ⟨S100000x1, .f32⟩
  | .hbm, ⟨104, _⟩ => ⟨S3300000x1, .i32⟩
  | .hbm, ⟨105, _⟩ => ⟨S100000x1, .f32⟩
  | .hbm, ⟨106, _⟩ => ⟨S1x1, .f32⟩
  | .hbm, ⟨107, _⟩ => ⟨S100000x1, .f32⟩
  | .hbm, ⟨108, _⟩ => ⟨S100000, .f32⟩
  | .hbm, ⟨109, _⟩ => ⟨S_, .i32⟩
  | .hbm, ⟨110, _⟩ => ⟨S_, .f32⟩
  | .hbm, ⟨111, _⟩ => ⟨S100096, .f32⟩
  | .hbm, ⟨112, _⟩ => ⟨S100000, .f32⟩
  | .hbm, ⟨113, _⟩ => ⟨S_, .i32⟩
  | .hbm, ⟨114, _⟩ => ⟨S_, .f32⟩
  | .hbm, ⟨115, _⟩ => ⟨S100096, .f32⟩
  | .hbm, ⟨116, _⟩ => ⟨S782x128, .f32⟩
  | .hbm, ⟨117, _⟩ => ⟨S782x128, .f32⟩
  | .hbm, ⟨118, _⟩ => ⟨S782x128, .f32⟩
  | .hbm, ⟨119, _⟩ => ⟨S100096, .f32⟩
  | .hbm, ⟨120, _⟩ => ⟨S100000, .f32⟩
  | .hbm, ⟨121, _⟩ => ⟨S1x1, .f32⟩
  | .hbm, ⟨122, _⟩ => ⟨S1x1, .f32⟩
  | .local _ .vmem, ⟨0, _⟩ => ⟨S2000x3, .f32⟩
  | .local _ .vmem, ⟨1, _⟩ => ⟨S2000x3, .f32⟩
  | .local _ .vmem, ⟨2, _⟩ => ⟨S3x16, .f32⟩
  | .local _ .vmem, ⟨3, _⟩ => ⟨S2000x16, .f32⟩
  | .local _ .vmem, ⟨4, _⟩ => ⟨S2000x16, .f32⟩
  | .local _ .vmem, ⟨5, _⟩ => ⟨S4000x16, .f32⟩
  | .local _ .vmem, ⟨6, _⟩ => ⟨S4000x16, .f32⟩
  | .local _ .vmem, ⟨7, _⟩ => ⟨S4000x1, .f32⟩
  | .local _ .vmem, ⟨8, _⟩ => ⟨S4000x1, .f32⟩
  | .local _ .vmem, ⟨9, _⟩ => ⟨S4000x16, .f32⟩
  | .local _ .vmem, ⟨10, _⟩ => ⟨S4000x16, .f32⟩
  | .local _ .vmem, ⟨11, _⟩ => ⟨S2000x16, .f32⟩
  | .local _ .vmem, ⟨12, _⟩ => ⟨S2000x16, .f32⟩
  | .local _ .vmem, ⟨13, _⟩ => ⟨S1x16, .f32⟩
  | .local _ .vmem, ⟨14, _⟩ => ⟨S2000x16, .f32⟩
  | .local _ .vmem, ⟨15, _⟩ => ⟨S2000x16, .f32⟩
  | .local _ .vmem, ⟨16, _⟩ => ⟨S2000x16, .f32⟩
  | .local _ .vmem, ⟨17, _⟩ => ⟨S2000x16, .f32⟩
  | .local _ .vmem, ⟨18, _⟩ => ⟨S16x16, .f32⟩
  | .local _ .vmem, ⟨19, _⟩ => ⟨S2000x16, .f32⟩
  | .local _ .vmem, ⟨20, _⟩ => ⟨S2000x16, .f32⟩
  | .local _ .vmem, ⟨21, _⟩ => ⟨S4000x16, .f32⟩
  | .local _ .vmem, ⟨22, _⟩ => ⟨S4000x16, .f32⟩
  | .local _ .vmem, ⟨23, _⟩ => ⟨S4000x1, .f32⟩
  | .local _ .vmem, ⟨24, _⟩ => ⟨S4000x1, .f32⟩
  | .local _ .vmem, ⟨25, _⟩ => ⟨S4000x16, .f32⟩
  | .local _ .vmem, ⟨26, _⟩ => ⟨S4000x16, .f32⟩
  | .local _ .vmem, ⟨27, _⟩ => ⟨S2000x16, .f32⟩
  | .local _ .vmem, ⟨28, _⟩ => ⟨S2000x16, .f32⟩
  | .local _ .vmem, ⟨29, _⟩ => ⟨S1x16, .f32⟩
  | .local _ .vmem, ⟨30, _⟩ => ⟨S2000x16, .f32⟩
  | .local _ .vmem, ⟨31, _⟩ => ⟨S2000x16, .f32⟩
  | .local _ .vmem, ⟨32, _⟩ => ⟨S2000x16, .f32⟩
  | .local _ .vmem, ⟨33, _⟩ => ⟨S2000x16, .f32⟩
  | .local _ .vmem, ⟨34, _⟩ => ⟨S16x1, .f32⟩
  | .local _ .vmem, ⟨35, _⟩ => ⟨S2000x1, .f32⟩
  | .local _ .vmem, ⟨36, _⟩ => ⟨S2000x1, .f32⟩
  | .local _ .vmem, ⟨37, _⟩ => ⟨S4000x1, .f32⟩
  | .local _ .vmem, ⟨38, _⟩ => ⟨S4000x1, .f32⟩
  | .local _ .vmem, ⟨39, _⟩ => ⟨S4000x1, .f32⟩
  | .local _ .vmem, ⟨40, _⟩ => ⟨S4000x1, .f32⟩
  | .local _ .vmem, ⟨41, _⟩ => ⟨S4000x1, .f32⟩
  | .local _ .vmem, ⟨42, _⟩ => ⟨S4000x1, .f32⟩
  | .local _ .vmem, ⟨43, _⟩ => ⟨S2000x1, .f32⟩
  | .local _ .vmem, ⟨44, _⟩ => ⟨S2000x1, .f32⟩
  | .local _ .vmem, ⟨45, _⟩ => ⟨S1x1, .f32⟩
  | .local _ .vmem, ⟨46, _⟩ => ⟨S2000x1, .f32⟩
  | .local _ .vmem, ⟨47, _⟩ => ⟨S2000x1, .f32⟩
  | .local _ .vmem, ⟨48, _⟩ => ⟨S782x128, .f32⟩
  | .local _ .vmem, ⟨49, _⟩ => ⟨S782x128, .f32⟩
  | .local _ .vmem, ⟨50, _⟩ => ⟨S782x128, .f32⟩
  | .local _ .vmem, ⟨51, _⟩ => ⟨S2000x16, .f32⟩
  | .local _ .vmem, ⟨52, _⟩ => ⟨S2000x16, .f32⟩
  | .local _ .vmem, ⟨53, _⟩ => ⟨S16x1, .f32⟩
  | .local _ .vmem, ⟨54, _⟩ => ⟨S1x1, .f32⟩
  | .local _ .vmem, ⟨55, _⟩ => ⟨S1x1, .f32⟩
  | .local _ .vmem, ⟨56, _⟩ => ⟨S1x16, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_c_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_15 : Ref sig .tc := ⟨.hbm, 109, rfl⟩
abbrev main_call1_v0 : Ref sig .tc := ⟨.hbm, 110, rfl⟩
abbrev main_v78 : Ref sig .tc := ⟨.hbm, 111, rfl⟩
abbrev main_v79 : Ref sig .tc := ⟨.hbm, 112, rfl⟩
abbrev main_c_16 : Ref sig .tc := ⟨.hbm, 113, rfl⟩
abbrev main_call2_v0 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc9_stg0_0 : Ref sig .tc := ⟨.vmem, 48, rfl⟩
abbrev cc9_stg1_0 : Ref sig .tc := ⟨.vmem, 49, rfl⟩
abbrev cc9_stg2_0 : Ref sig .tc := ⟨.vmem, 50, rfl⟩
abbrev cc10_stg0_0 : Ref sig .tc := ⟨.vmem, 51, rfl⟩
abbrev cc10_stg0_1 : Ref sig .tc := ⟨.vmem, 52, rfl⟩
abbrev cc10_stg1_0 : Ref sig .tc := ⟨.vmem, 53, rfl⟩
abbrev cc10_stg2_0 : Ref sig .tc := ⟨.vmem, 54, rfl⟩
abbrev cc10_stg3_0 : Ref sig .tc := ⟨.vmem, 55, rfl⟩
abbrev cc10_scratch0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47
abbrev cc9_sem0_0 : DmaSem sig := 48
abbrev cc9_sem1_0 : DmaSem sig := 49
abbrev cc9_sem2_0 : DmaSem sig := 50
abbrev cc10_sem0_0 : DmaSem sig := 51
abbrev cc10_sem0_1 : DmaSem sig := 52
abbrev cc10_sem1_0 : DmaSem sig := 53
abbrev cc10_sem2_0 : DmaSem sig := 54
abbrev cc10_sem3_0 : DmaSem sig := 55

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![825], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![825], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![825], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S782x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S782x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S782x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![50], ![false]⟩

def k10_cond2 (i : grid10.Coords) : BitVec 1 :=
  let arg0 : BitVec 32 := BitVec.ofNat 32 (i 0).val
  let c49_i32 : BitVec 32 := 49#32
  let v12 : BitVec 1 := Scalar.cmpi .eq arg0 c49_i32
  let v13 : BitVec 32 := Scalar.extui v12
  let c0_i32_6 : BitVec 32 := 0#32
  let v14 : BitVec 1 := Scalar.cmpi .ne v13 c0_i32_6
  v14

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x16 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S16x1 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S2000x16_S2000x16_0_0 : ∀ a, (![0, 0] : Fin 2 → Nat) a + S2000x16.size a ≤ S2000x16.size a
  h_S2000x16 : 0 < S2000x16.numel
  shapeCasts_S3300000_S3300000x1 : S3300000.ShapeCasts S3300000x1
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  inb_S2000x1_S2000x1_0_0 : ∀ a, (![0, 0] : Fin 2 → Nat) a + S2000x1.size a ≤ S2000x1.size a
  h_S2000x1 : 0 < S2000x1.numel
  bcast_S_S100000x1 : S_.BroadcastsInDim S100000x1 (![] : Fin 0 → Fin S100000x1.rank)
  shapeCasts_S1_S1x1 : S1.ShapeCasts S1x1
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S100000x1_S100000 : S100000x1.ShapeCasts S100000
  pads_S100000_S100096_0960 : S100000.Pads (![0] : Fin 1 → Nat) ![96] ![0] S100096
  h_S_ : 0 < S_.numel
  shapeCasts_S100096_S782x128 : S100096.ShapeCasts S782x128
  inb_S782x128_S782x128_0_0 : ∀ a, (![0, 0] : Fin 2 → Nat) a + S782x128.size a ≤ S782x128.size a
  h_S782x128 : 0 < S782x128.numel
  shapeCasts_S782x128_S782x128 : S782x128.ShapeCasts S782x128
  reduces_S782x128_S782 : S782x128.Reduces [1] S782
  shapeCasts_S782_S782x1 : S782.ShapeCasts S782x1
  reduces_S782x1_S1 : S782x1.Reduces [0] S1
  broadcasts_S1x1_S782x128 : S1x1.Broadcasts S782x128
  shapeCasts_S782x128_S100096 : S782x128.ShapeCasts S100096
  slices_S100096_S100000_0 : S100096.Slices ![0] S100000
  reduces_S2000x16_S16 : S2000x16.Reduces [0] S16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x3_S3x16_S2000x16_1_0_0_1_n_n_wf : DotDims.WF S2000x3 S3x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x16_S2000x16_1_0_0_1_n_n_wf : DotDims.WF S2000x16 S16x16 S2000x16 [1] [0] [0] [1] [] []
  dot_S2000x16_S16x1_S2000x1_1_0_0_1_n_n_wf : DotDims.WF S2000x16 S16x1 S2000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  dot_S1x16_S16x1_S1x1_1_0_0_1_n_n_wf : DotDims.WF S1x16 S16x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S100000x3.size a
  hwx0_0 : ∀ i : grid0.Coords, EltTy.bits .f32 = 32 ∨ (Rect.block (s := S100000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S3300000x16.size a
  hwx1_0 : ∀ i : grid1.Coords, EltTy.bits .f32 = 32 ∨ (Rect.block (s := S3300000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S3300000x1.size a
  hwx1_1 : ∀ i : grid1.Coords, EltTy.bits .f32 = 32 ∨ (Rect.block (s := S3300000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S3300000x16.size a
  hwx1_2 : ∀ i : grid1.Coords, EltTy.bits .f32 = 32 ∨ (Rect.block (s := S3300000x16) S4000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x16.size a ≤ S100000x16.size a
  hwx3_0 : ∀ i : grid3.Coords, EltTy.bits .f32 = 32 ∨ (Rect.block (s := S100000x16) S2000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x16.size a ≤ S16x16.size a
  hwx3_1 : ∀ i : grid3.Coords, EltTy.bits .f32 = 32 ∨ (Rect.block (s := S16x16) S16x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x16.size a ≤ S3300000x16.size a
  hwx4_0 : ∀ i : grid4.Coords, EltTy.bits .f32 = 32 ∨ (Rect.block (s := S3300000x16) S4000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S3300000x1.size a
  hwx4_1 : ∀ i : grid4.Coords, EltTy.bits .f32 = 32 ∨ (Rect.block (s := S3300000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x16.size a ≤ S3300000x16.size a
  hwx4_2 : ∀ i : grid4.Coords, EltTy.bits .f32 = 32 ∨ (Rect.block (s := S3300000x16) S4000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x16.size a ≤ S100000x16.size a
  hwx5_0 : ∀ i : grid5.Coords, EltTy.bits .f32 = 32 ∨ (Rect.block (s := S100000x16) S2000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x16.size a ≤ S100000x16.size a
  hwx5_2 : ∀ i : grid5.Coords, EltTy.bits .f32 = 32 ∨ (Rect.block (s := S100000x16) S2000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x16.size a ≤ S100000x16.size a
  hwx6_0 : ∀ i : grid6.Coords, EltTy.bits .f32 = 32 ∨ (Rect.block (s := S100000x16) S2000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x1.size a ≤ S16x1.size a
  hwx6_1 : ∀ i : grid6.Coords, EltTy.bits .f32 = 32 ∨ (Rect.block (s := S16x1) S16x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S100000x1.size a
  hwx6_2 : ∀ i : grid6.Coords, EltTy.bits .f32 = 32 ∨ (Rect.block (s := S100000x1) S2000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x1.size a ≤ S3300000x1.size a
  hwx7_0 : ∀ i : grid7.Coords, EltTy.bits .f32 = 32 ∨ (Rect.block (s := S3300000x1) S4000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x1.size a ≤ S3300000x1.size a
  hwx7_1 : ∀ i : grid7.Coords, EltTy.bits .f32 = 32 ∨ (Rect.block (s := S3300000x1) S4000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x1.size a ≤ S3300000x1.size a
  hwx7_2 : ∀ i : grid7.Coords, EltTy.bits .f32 = 32 ∨ (Rect.block (s := S3300000x1) S4000x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x1.size a ≤ S100000x1.size a
  hwx8_0 : ∀ i : grid8.Coords, EltTy.bits .f32 = 32 ∨ (Rect.block (s := S100000x1) S2000x1.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x1.size a ≤ S1x1.size a
  hwx8_1 : ∀ i : grid8.Coords, EltTy.bits .f32 = 32 ∨ (Rect.block (s := S1x1) S1x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S100000x1.size a
  hwx8_2 : ∀ i : grid8.Coords, EltTy.bits .f32 = 32 ∨ (Rect.block (s := S100000x1) S2000x1.size (cc8_transform_2 i) (hinb8_2 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S782x128.size a ≤ S782x128.size a
  hwx9_0 : ∀ i : grid9.Coords, EltTy.bits .f32 = 32 ∨ (Rect.block (s := S782x128) S782x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S782x128.size a ≤ S782x128.size a
  hwx9_1 : ∀ i : grid9.Coords, EltTy.bits .f32 = 32 ∨ (Rect.block (s := S782x128) S782x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S782x128.size a ≤ S782x128.size a
  hwx9_2 : ∀ i : grid9.Coords, EltTy.bits .f32 = 32 ∨ (Rect.block (s := S782x128) S782x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x16.size a ≤ S100000x16.size a
  hwx10_0 : ∀ i : grid10.Coords, EltTy.bits .f32 = 32 ∨ (Rect.block (s := S100000x16) S2000x16.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S16x1.size a ≤ S16x1.size a
  hwx10_1 : ∀ i : grid10.Coords, EltTy.bits .f32 = 32 ∨ (Rect.block (s := S16x1) S16x1.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x1.size a ≤ S1x1.size a
  hwx10_3 : ∀ i : grid10.Coords, EltTy.bits .f32 = 32 ∨ (Rect.block (s := S1x1) S1x1.size (cc10_transform_3 i) (hinb10_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x3_S3x16_S2000x16_1_0_0_1_n_n : DotDims S2000x3 S3x16 S2000x16 where
  lhsContracting := [1]
  rhsContracting := [0]
  lhsNonContracting := [0]
  rhsNonContracting := [1]
  lhsBatch := []
  rhsBatch := []
  wf := dot_S2000x3_S3x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x16_S2000x16_1_0_0_1_n_n : DotDims S2000x16 S16x16 S2000x16 where
  lhsContracting := [1]
  rhsContracting := [0]
  lhsNonContracting := [0]
  rhsNonContracting := [1]
  lhsBatch := []
  rhsBatch := []
  wf := dot_S2000x16_S16x16_S2000x16_1_0_0_1_n_n_wf
def dot_S2000x16_S16x1_S2000x1_1_0_0_1_n_n : DotDims S2000x16 S16x1 S2000x1 where
  lhsContracting := [1]
  rhsContracting := [0]
  lhsNonContracting := [0]
  rhsNonContracting := [1]
  lhsBatch := []
  rhsBatch := []
  wf := dot_S2000x16_S16x1_S2000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def dot_S1x16_S16x1_S1x1_1_0_0_1_n_n : DotDims S1x16 S16x1 S1x1 where
  lhsContracting := [1]
  rhsContracting := [0]
  lhsNonContracting := [0]
  rhsNonContracting := [1]
  lhsBatch := []
  rhsBatch := []
  wf := dot_S1x16_S16x1_S1x1_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S2000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S16x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S4000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S4000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S2000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S2000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v61) S2000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S16x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v62) S2000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v69) S4000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70) S4000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v71) S4000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v74) S2000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v75) S1x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v76) S2000x1.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v81) S782x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v82) S782x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v83) S782x128.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v61) S2000x16.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg10) S16x1.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v86) S1x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v87) S1x1.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

class Facts : Prop extends Facts₀ where

variable [Facts]
-- ==== ReferenceIdeal.lean ====
abbrev S100000x3 : Shape := ⟨2, ![100000, 3]⟩
abbrev S2x3200000 : Shape := ⟨2, ![2, 3200000]⟩
abbrev S3200000 : Shape := ⟨1, ![3200000]⟩
abbrev S100000 : Shape := ⟨1, ![100000]⟩
abbrev S3x16 : Shape := ⟨2, ![3, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 145
  | .vmem => 0
  | .smem => 0
  | _ => 0

abbrev hbmTy0_0 (i : Nat) : BufTy := match i % 128 with
  | 0 => ⟨S100000x3, .f32⟩
  | 1 => ⟨S2x3200000, .i32⟩
  | 2 => ⟨S3200000, .f32⟩
  | 3 => ⟨S100000, .i1⟩
  | 4 => ⟨S3x16, .f32⟩
  | 5 => ⟨S16, .f32⟩
  | 6 => ⟨S16x16, .f32⟩
  | 7 => ⟨S16, .f32⟩
  | 8 => ⟨S16x1, .f32⟩
  | 9 => ⟨S1, .f32⟩
  | 10 => ⟨S16x1, .f32⟩
  | 11 => ⟨S1, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S100000, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S100000x16, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x16, .f32⟩
  | 64 => ⟨S3300000x1, .f32⟩
  | 65 => ⟨S3300000x16, .f32⟩
  | 66 => ⟨S3300000x16, .f32⟩
  | 67 => ⟨S_, .f32⟩
  | 68 => ⟨S100000x16, .f32⟩
  | 69 => ⟨S3300000x1, .i32⟩
  | 70 => ⟨S100000x16, .f32⟩
  | 71 => ⟨S1x16, .f32⟩
  | 72 => ⟨S100000x16, .f32⟩
  | 73 => ⟨S100000x16, .f32⟩
  | 74 => ⟨S_, .f32⟩
  | 75 => ⟨S100000x16, .f32⟩
  | 76 => ⟨S100000x16, .f32⟩
  | 77 => ⟨S100000x16, .f32⟩
  | 78 => ⟨S_, .i32⟩
  | 79 => ⟨S3300000, .i32⟩
  | 80 => ⟨S3300000, .i1⟩
  | 81 => ⟨S_, .i32⟩
  | 82 => ⟨S3300000, .i32⟩
  | 83 => ⟨S3300000, .i32⟩
  | 84 => ⟨S3300000, .i32⟩
  | 85 => ⟨S3300000x1, .i32⟩
  | 86 => ⟨S3300000x16, .f32⟩
  | 87 => ⟨S3300000x1, .f32⟩
  | 88 => ⟨S3300000x16, .f32⟩
  | 89 => ⟨S3300000x16, .f32⟩
  | 90 => ⟨S_, .f32⟩
  | 91 => ⟨S100000x16, .f32⟩
  | 92 => ⟨S3300000x1, .i32⟩
  | 93 => ⟨S100000x16, .f32⟩
  | 94 => ⟨S1x16, .f32⟩
  | 95 => ⟨S100000x16, .f32⟩
  | 96 => ⟨S100000x16, .f32⟩
  | 97 => ⟨S_, .f32⟩
  | 98 => ⟨S100000x16, .f32⟩
  | 99 => ⟨S100000x16, .f32⟩
  | 100 => ⟨S100000x1, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000x1, .f32⟩
  | 110 => ⟨S3300000x1, .f32⟩
  | 111 => ⟨S3300000x1, .f32⟩
  | 112 => ⟨S_, .f32⟩
  | 113 => ⟨S100000x1, .f32⟩
  | 114 => ⟨S3300000x1, .i32⟩
  | 115 => ⟨S100000x1, .f32⟩
  | 116 => ⟨S1x1, .f32⟩
  | 117 => ⟨S100000x1, .f32⟩
  | 118 => ⟨S100000x1, .f32⟩
  | 119 => ⟨S100000, .f32⟩
  | 120 => ⟨S_, .f32⟩
  | 121 => ⟨S100000, .f32⟩
  | 122 => ⟨S100000, .f32⟩
  | 123 => ⟨S_, .f32⟩
  | 124 => ⟨S_, .f32⟩
  | 125 => ⟨S100000, .f32⟩
  | 126 => ⟨S100000, .f32⟩
  | 127 => ⟨S100000, .f32⟩
  | _ => ⟨S100000x3, .f32⟩

abbrev hbmTy0_1 (i : Nat) : BufTy := match i % 128 with
  | 0 => ⟨S_, .f32⟩
  | 1 => ⟨S_, .f32⟩
  | 2 => ⟨S100000, .f32⟩
  | 3 => ⟨S100000, .f32⟩
  | 4 => ⟨S_, .f32⟩
  | 5 => ⟨S_, .f32⟩
  | 6 => ⟨S100000, .f32⟩
  | 7 => ⟨S100000, .f32⟩
  | 8 => ⟨S_, .f32⟩
  | 9 => ⟨S16, .f32⟩
  | 10 => ⟨S1x16, .f32⟩
  | 11 => ⟨S_, .f32⟩
  | 12 => ⟨S1x16, .f32⟩
  | 13 => ⟨S1x16, .f32⟩
  | 14 => ⟨S1x1, .f32⟩
  | 15 => ⟨S1x1, .f32⟩
  | 16 => ⟨S1x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_12 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_14 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_15 : Ref sig .tc := ⟨.hbm, 120, rfl⟩
abbrev main_call3_v0 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_17 : Ref sig .tc := ⟨.hbm, 128, rfl⟩
abbrev main_call4_v0 : Ref sig .tc := ⟨.hbm, 129, rfl⟩
abbrev main_call4_v1 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_19 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  reducesTo_S100000_S_d0 : S100000.ReducesTo [0] S_
  h_S_ : 0 < S_.numel
  reducesTo_S100000x16_S16_d0 : S100000x16.ReducesTo [0] S16
  bcast_S_S1x16 : S_.BroadcastsInDim S1x16 (![] : Fin 0 → Fin S1x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x3_S3x16_S100000x16_1_0_0_1_n_n_wf : DotDims.WF S100000x3 S3x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  dot_S1x16_S16x1_S1x1_1_0_0_1_n_n_wf : DotDims.WF S1x16 S16x1 S1x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def dot_S1x16_S16x1_S1x1_1_0_0_1_n_n : DotDims S1x16 S16x1 S1x1 where
  lhsContracting := [1]
  rhsContracting := [0]
  lhsNonContracting := [0]
  rhsNonContracting := [1]
  lhsBatch := []
  rhsBatch := []
  wf := dot_S1x16_S16x1_S1x1_1_0_0_1_n_n_wf

class Facts : Prop extends Facts₀ where

variable [Facts]
-- ==== Proof.Small.lean ====
/-
  Two of the five claims that need no kernel run.
  * The reference is a straight line of host operations: it terminates, nothing faults, and no operation writes an
    argument buffer; its generated run states every argument unchanged beside the two results, so the frame is
    that run with the results forgotten.
  * The idealized kernel differs from the printed one by two named constants: the mask fill, a finite stand-in
    that denotes −∞, and the reciprocal of the node count, which denotes the rational 1/100000. Each is its
    rule's statement at the table's entry.
-/
import proofs.«125778_j7670811590827_2_alg».proof.Defs
import proofs.«125778_j7670811590827_2_alg».proof.Proof.Gen.ReferenceIdeal
import proofs.«125778_j7670811590827_2_alg».proof.Proof.Gen.ReferenceIdeal.Run
import proofs.«125778_j7670811590827_2_alg».proof.Proof.Gen.Pre_finite_inputs

noncomputable section

namespace Cert.Proof.Small

open Idealize.ShloMosaic Idealize.SL.Sem

/-- The reference's frame: its run, with the two result equations dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two ledger entries: the fill denotes −∞ and the reciprocal denotes 1/100000, by the certificate's table. -/
theorem preserves : Cert.preserves_Kernel_KernelIdeal :=
  ⟨IdealRules.named_const.statement Cert.KernelIdeal.κ "neg_big" .f32 0xF149F2CA#32 ⊥ rfl,
   IdealRules.named_const.statement Cert.KernelIdeal.κ "inv_100000" .f32 0x3727C5AC#32 ((1 / 100000 : ℝ) : EReal) rfl⟩

end Cert.Proof.Small

end
-- ==== Proof.K.RegA0.lean ====
/- Region 0, the half that does not depend on where the region sits in the run: at ANY contents `V` of the core's
   buffers when the region is entered, what one call of the body does to the three staging buffers, and the proof data
   of the pipeline built from it. The body computes the product of a block of rows with the whole weight matrix, both rounded to the narrow type first and accumulated from zero;
   window 0 walks the rows block by block, window 1 is the whole weight matrix (the same block at every point), window 2 the matching block of rows of the product. Stated for any float model `F`. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: where the window is not fetched its block index has
    not moved, so the block already there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2000x3 := Rect.unit (s := S2000x3) ![0, 0] S2000x3.size inb_S2000x3_S2000x3_0_0
abbrev r0_1 : Rect S3x16 := Rect.unit (s := S3x16) ![0, 0] S3x16.size inb_S3x16_S3x16_0_0
abbrev r0_2 : Rect S2000x16 := Rect.unit (s := S2000x16) ![0, 0] S2000x16.size inb_S2000x16_S2000x16_0_0

/-! ## What the body leaves in the output window's buffer -/

/-- Window 2's staging buffer after the body, from the two input blocks: its one store, of the whole block. -/
def out0_2 (x0 : Vec F S2000x3 .f32) (x1 : Vec F S3x16 .f32) : Vec F S2000x16 .f32 :=
  View.canon [⟨r0_2, k0_pay1 (View.ld x0 r0_0) (View.ld x1 r0_1)⟩]

/-- The one store covers the buffer. -/
theorem cover0_2 (p0 : Vec F S2000x16 .f32) (y : S2000x16.Idx) :
    ∃ pc ∈ ([⟨r0_2, p0⟩] : List (View.Piece (Elt F) S2000x16 .f32)), y ∈ pc.1.set :=
  View.cover_of_tiled [⟨r0_2, p0⟩] S2000x16.size (by rfl) y

/-! ## The body's triple -/

set_option maxHeartbeats 1000000 in
/-- The body on whole staging buffers, the inputs' holding `x0`, `x1` and the output's anything, runs to the
    continuation with the inputs' as they were and the output's at `out0_2 x0 x1`: it reads both inputs whole, reads
    the output buffer (a value it never uses) and stores the payload over the whole of it. -/
theorem sound_kernel0 (c : Dev nD) (E : Set ℕ) (i : grid0.Coords) (arg1 : Memref sig .tc .vmem S2000x3 .f32) (harg1 : arg1.IsWhole) (arg2 : Memref sig .tc .vmem S3x16 .f32) (harg2 : arg2.IsWhole) (arg3 : Memref sig .tc .vmem S2000x16 .f32) (harg3 : arg3.IsWhole)
    (x0 : Vec F S2000x3 .f32) (x1 : Vec F S3x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them; after the body at point
    `t` each input's buffer still at its block and the output's at `out0_2` of the two input blocks; the invariant is
    the rest of the core's scoped memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.RegA1.lean ====
/- Region 1, the half that does not depend on where the region sits in the run: at ANY contents `V` of the core's
   buffers when the region is entered, what one call of the body does to the three staging buffers, and the proof data
   of the pipeline built from it. The body computes the block of rows scaled row by row: each row times the one weight of that row, the weight column spread across the lanes;
   windows 0 and 1 walk the rows of the values and of the weight column together, window 2 the matching block of the scaled rows. Stated for any float model `F`. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index has
    not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S4000x16 := Rect.unit (s := S4000x16) ![0, 0] S4000x16.size inb_S4000x16_S4000x16_0_0
abbrev r1_1 : Rect S4000x1 := Rect.unit (s := S4000x1) ![0, 0] S4000x1.size inb_S4000x1_S4000x1_0_0
abbrev r1_2 : Rect S4000x16 := Rect.unit (s := S4000x16) ![0, 0] S4000x16.size inb_S4000x16_S4000x16_0_0

/-! ## What the body leaves in the output window's buffer -/

/-- Window 2's staging buffer after the body, from the two input blocks: its one store, of the whole block. -/
def out1_2 (x0 : Vec F S4000x16 .f32) (x1 : Vec F S4000x1 .f32) : Vec F S4000x16 .f32 :=
  View.canon [⟨r1_2, k1_pay1 (View.ld x0 r1_0) (View.ld x1 r1_1)⟩]

/-- The one store covers the buffer. -/
theorem cover1_2 (p0 : Vec F S4000x16 .f32) (y : S4000x16.Idx) :
    ∃ pc ∈ ([⟨r1_2, p0⟩] : List (View.Piece (Elt F) S4000x16 .f32)), y ∈ pc.1.set :=
  View.cover_of_tiled [⟨r1_2, p0⟩] S4000x16.size (by rfl) y

/-! ## The body's triple -/

set_option maxHeartbeats 1000000 in
/-- The body on whole staging buffers, the inputs' holding `x0`, `x1` and the output's anything, runs to the
    continuation with the inputs' as they were and the output's at `out1_2 x0 x1`: it reads both inputs whole, reads
    the output buffer (a value it never uses) and stores the payload over the whole of it. -/
theorem sound_kernel1 (c : Dev nD) (E : Set ℕ) (i : grid1.Coords) (arg1 : Memref sig .tc .vmem S4000x16 .f32) (harg1 : arg1.IsWhole) (arg2 : Memref sig .tc .vmem S4000x1 .f32) (harg2 : arg2.IsWhole) (arg3 : Memref sig .tc .vmem S4000x16 .f32) (harg3 : arg3.IsWhole)
    (x0 : Vec F S4000x16 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__weight_mul_kernel i arg1 harg1 arg2 harg2 arg3 harg3) K := by
  simp only [cc1__weight_mul_kernel_eq_skeleton]; unfold cc1__weight_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them; after the body at point
    `t` each input's buffer still at its block and the output's at `out1_2` of the two input blocks; the invariant is
    the rest of the core's scoped memory and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.RegA2.lean ====
/- Region 2, the half that does not depend on where the region sits in the run: at ANY contents `V` of the core's
   buffers when the region is entered, what one call of the body does to the three staging buffers, and the proof data
   of the pipeline built from it. The body computes the block of rows plus the bias row spread down the rows, then the larger of that and zero;
   window 0 walks the rows block by block, window 1 is the whole bias row (the same block at every point), window 2 the matching block of rows of the result. Stated for any float model `F`. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: where the window is not fetched its block index has
    not moved, so the block already there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S2000x16 := Rect.unit (s := S2000x16) ![0, 0] S2000x16.size inb_S2000x16_S2000x16_0_0
abbrev r2_1 : Rect S1x16 := Rect.unit (s := S1x16) ![0, 0] S1x16.size inb_S1x16_S1x16_0_0
abbrev r2_2 : Rect S2000x16 := Rect.unit (s := S2000x16) ![0, 0] S2000x16.size inb_S2000x16_S2000x16_0_0

/-! ## What the body leaves in the output window's buffer -/

/-- Window 2's staging buffer after the body, from the two input blocks: its one store, of the whole block. -/
def out2_2 (x0 : Vec F S2000x16 .f32) (x1 : Vec F S1x16 .f32) : Vec F S2000x16 .f32 :=
  View.canon [⟨r2_2, k2_pay1 (View.ld x0 r2_0) (View.ld x1 r2_1)⟩]

/-- The one store covers the buffer. -/
theorem cover2_2 (p0 : Vec F S2000x16 .f32) (y : S2000x16.Idx) :
    ∃ pc ∈ ([⟨r2_2, p0⟩] : List (View.Piece (Elt F) S2000x16 .f32)), y ∈ pc.1.set :=
  View.cover_of_tiled [⟨r2_2, p0⟩] S2000x16.size (by rfl) y

/-! ## The body's triple -/

set_option maxHeartbeats 1000000 in
/-- The body on whole staging buffers, the inputs' holding `x0`, `x1` and the output's anything, runs to the
    continuation with the inputs' as they were and the output's at `out2_2 x0 x1`: it reads both inputs whole, reads
    the output buffer (a value it never uses) and stores the payload over the whole of it. -/
theorem sound_kernel2 (c : Dev nD) (E : Set ℕ) (i : grid2.Coords) (arg1 : Memref sig .tc .vmem S2000x16 .f32) (harg1 : arg1.IsWhole) (arg2 : Memref sig .tc .vmem S1x16 .f32) (harg2 : arg2.IsWhole) (arg3 : Memref sig .tc .vmem S2000x16 .f32) (harg3 : arg3.IsWhole)
    (x0 : Vec F S2000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_act_kernel i arg1 harg1 arg2 harg2 arg3 harg3) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region's pipeline on core `c`: the arrays as the region finds them; after the body at point
    `t` each input's buffer still at its block and the output's at `out2_2` of the two input blocks; the invariant is
    the rest of the core's scoped memory and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.RegA3.lean ====
/- Region 3, the half that does not depend on where the region sits in the run: at ANY contents `V` of the core's
   buffers when the region is entered, what one call of the body does to the three staging buffers, and the proof data
   of the pipeline built from it. The body computes the product of a block of rows with the whole weight matrix, both rounded to the narrow type first and accumulated from zero;
   window 0 walks the rows block by block, window 1 is the whole weight matrix (the same block at every point), window 2 the matching block of rows of the product. Stated for any float model `F`. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place: where the window is not fetched its block index has
    not moved, so the block already there is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S2000x16 := Rect.unit (s := S2000x16) ![0, 0] S2000x16.size inb_S2000x16_S2000x16_0_0
abbrev r3_1 : Rect S16x16 := Rect.unit (s := S16x16) ![0, 0] S16x16.size inb_S16x16_S16x16_0_0
abbrev r3_2 : Rect S2000x16 := Rect.unit (s := S2000x16) ![0, 0] S2000x16.size inb_S2000x16_S2000x16_0_0

/-! ## What the body leaves in the output window's buffer -/

/-- Window 2's staging buffer after the body, from the two input blocks: its one store, of the whole block. -/
def out3_2 (x0 : Vec F S2000x16 .f32) (x1 : Vec F S16x16 .f32) : Vec F S2000x16 .f32 :=
  View.canon [⟨r3_2, k3_pay1 (View.ld x0 r3_0) (View.ld x1 r3_1)⟩]

/-- The one store covers the buffer. -/
theorem cover3_2 (p0 : Vec F S2000x16 .f32) (y : S2000x16.Idx) :
    ∃ pc ∈ ([⟨r3_2, p0⟩] : List (View.Piece (Elt F) S2000x16 .f32)), y ∈ pc.1.set :=
  View.cover_of_tiled [⟨r3_2, p0⟩] S2000x16.size (by rfl) y

/-! ## The body's triple -/

set_option maxHeartbeats 1000000 in
/-- The body on whole staging buffers, the inputs' holding `x0`, `x1` and the output's anything, runs to the
    continuation with the inputs' as they were and the output's at `out3_2 x0 x1`: it reads both inputs whole, reads
    the output buffer (a value it never uses) and stores the payload over the whole of it. -/
theorem sound_kernel3 (c : Dev nD) (E : Set ℕ) (i : grid3.Coords) (arg1 : Memref sig .tc .vmem S2000x16 .f32) (harg1 : arg1.IsWhole) (arg2 : Memref sig .tc .vmem S16x16 .f32) (harg2 : arg2.IsWhole) (arg3 : Memref sig .tc .vmem S2000x16 .f32) (harg3 : arg3.IsWhole)
    (x0 : Vec F S2000x16 .f32) (x1 : Vec F S16x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region's pipeline on core `c`: the arrays as the region finds them; after the body at point
    `t` each input's buffer still at its block and the output's at `out3_2` of the two input blocks; the invariant is
    the rest of the core's scoped memory and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's owed count pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.RegA4.lean ====
/- Region 4, the half that does not depend on where the region sits in the run: at ANY contents `V` of the core's
   buffers when the region is entered, what one call of the body does to the three staging buffers, and the proof data
   of the pipeline built from it. The body computes the block of rows scaled row by row: each row times the one weight of that row, the weight column spread across the lanes;
   windows 0 and 1 walk the rows of the values and of the weight column together, window 2 the matching block of the scaled rows. Stated for any float model `F`. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place: where the window is not fetched its block index has
    not moved, so the block already there is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S4000x16 := Rect.unit (s := S4000x16) ![0, 0] S4000x16.size inb_S4000x16_S4000x16_0_0
abbrev r4_1 : Rect S4000x1 := Rect.unit (s := S4000x1) ![0, 0] S4000x1.size inb_S4000x1_S4000x1_0_0
abbrev r4_2 : Rect S4000x16 := Rect.unit (s := S4000x16) ![0, 0] S4000x16.size inb_S4000x16_S4000x16_0_0

/-! ## What the body leaves in the output window's buffer -/

/-- Window 2's staging buffer after the body, from the two input blocks: its one store, of the whole block. -/
def out4_2 (x0 : Vec F S4000x16 .f32) (x1 : Vec F S4000x1 .f32) : Vec F S4000x16 .f32 :=
  View.canon [⟨r4_2, k4_pay1 (View.ld x0 r4_0) (View.ld x1 r4_1)⟩]

/-- The one store covers the buffer. -/
theorem cover4_2 (p0 : Vec F S4000x16 .f32) (y : S4000x16.Idx) :
    ∃ pc ∈ ([⟨r4_2, p0⟩] : List (View.Piece (Elt F) S4000x16 .f32)), y ∈ pc.1.set :=
  View.cover_of_tiled [⟨r4_2, p0⟩] S4000x16.size (by rfl) y

/-! ## The body's triple -/

set_option maxHeartbeats 1000000 in
/-- The body on whole staging buffers, the inputs' holding `x0`, `x1` and the output's anything, runs to the
    continuation with the inputs' as they were and the output's at `out4_2 x0 x1`: it reads both inputs whole, reads
    the output buffer (a value it never uses) and stores the payload over the whole of it. -/
theorem sound_kernel4 (c : Dev nD) (E : Set ℕ) (i : grid4.Coords) (arg1 : Memref sig .tc .vmem S4000x16 .f32) (harg1 : arg1.IsWhole) (arg2 : Memref sig .tc .vmem S4000x1 .f32) (harg2 : arg2.IsWhole) (arg3 : Memref sig .tc .vmem S4000x16 .f32) (harg3 : arg3.IsWhole)
    (x0 : Vec F S4000x16 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__weight_mul_kernel i arg1 harg1 arg2 harg2 arg3 harg3) K := by
  simp only [cc4__weight_mul_kernel_eq_skeleton]; unfold cc4__weight_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region's pipeline on core `c`: the arrays as the region finds them; after the body at point
    `t` each input's buffer still at its block and the output's at `out4_2` of the two input blocks; the invariant is
    the rest of the core's scoped memory and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and the
    core's owed count pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.RegA5.lean ====
/- Region 5, the half that does not depend on where the region sits in the run: at ANY contents `V` of the core's
   buffers when the region is entered, what one call of the body does to the three staging buffers, and the proof data
   of the pipeline built from it. The body computes the block of rows plus the bias row spread down the rows, then the larger of that and zero;
   window 0 walks the rows block by block, window 1 is the whole bias row (the same block at every point), window 2 the matching block of rows of the result. Stated for any float model `F`. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place: where the window is not fetched its block index has
    not moved, so the block already there is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same for input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S2000x16 := Rect.unit (s := S2000x16) ![0, 0] S2000x16.size inb_S2000x16_S2000x16_0_0
abbrev r5_1 : Rect S1x16 := Rect.unit (s := S1x16) ![0, 0] S1x16.size inb_S1x16_S1x16_0_0
abbrev r5_2 : Rect S2000x16 := Rect.unit (s := S2000x16) ![0, 0] S2000x16.size inb_S2000x16_S2000x16_0_0

/-! ## What the body leaves in the output window's buffer -/

/-- Window 2's staging buffer after the body, from the two input blocks: its one store, of the whole block. -/
def out5_2 (x0 : Vec F S2000x16 .f32) (x1 : Vec F S1x16 .f32) : Vec F S2000x16 .f32 :=
  View.canon [⟨r5_2, k5_pay1 (View.ld x0 r5_0) (View.ld x1 r5_1)⟩]

/-- The one store covers the buffer. -/
theorem cover5_2 (p0 : Vec F S2000x16 .f32) (y : S2000x16.Idx) :
    ∃ pc ∈ ([⟨r5_2, p0⟩] : List (View.Piece (Elt F) S2000x16 .f32)), y ∈ pc.1.set :=
  View.cover_of_tiled [⟨r5_2, p0⟩] S2000x16.size (by rfl) y

/-! ## The body's triple -/

set_option maxHeartbeats 1000000 in
/-- The body on whole staging buffers, the inputs' holding `x0`, `x1` and the output's anything, runs to the
    continuation with the inputs' as they were and the output's at `out5_2 x0 x1`: it reads both inputs whole, reads
    the output buffer (a value it never uses) and stores the payload over the whole of it. -/
theorem sound_kernel5 (c : Dev nD) (E : Set ℕ) (i : grid5.Coords) (arg1 : Memref sig .tc .vmem S2000x16 .f32) (harg1 : arg1.IsWhole) (arg2 : Memref sig .tc .vmem S1x16 .f32) (harg2 : arg2.IsWhole) (arg3 : Memref sig .tc .vmem S2000x16 .f32) (harg3 : arg3.IsWhole)
    (x0 : Vec F S2000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region's pipeline on core `c`: the arrays as the region finds them; after the body at point
    `t` each input's buffer still at its block and the output's at `out5_2` of the two input blocks; the invariant is
    the rest of the core's scoped memory and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and the
    core's owed count pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.RegA6.lean ====
/- Region 6, the half that does not depend on where the region sits in the run: at ANY contents `V` of the core's
   buffers when the region is entered, what one call of the body does to the three staging buffers, and the proof data
   of the pipeline built from it. The body computes the product of a block of rows with the whole weight matrix, both rounded to the narrow type first and accumulated from zero;
   window 0 walks the rows block by block, window 1 is the whole weight matrix (the same block at every point), window 2 the matching block of rows of the product. Stated for any float model `F`. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is `V`'s and whose body leaves the block in place: where the window is not fetched its block index has
    not moved, so the block already there is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same for input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole of its buffer -/

abbrev r6_0 : Rect S2000x16 := Rect.unit (s := S2000x16) ![0, 0] S2000x16.size inb_S2000x16_S2000x16_0_0
abbrev r6_1 : Rect S16x1 := Rect.unit (s := S16x1) ![0, 0] S16x1.size inb_S16x1_S16x1_0_0
abbrev r6_2 : Rect S2000x1 := Rect.unit (s := S2000x1) ![0, 0] S2000x1.size inb_S2000x1_S2000x1_0_0

/-! ## What the body leaves in the output window's buffer -/

/-- Window 2's staging buffer after the body, from the two input blocks: its one store, of the whole block. -/
def out6_2 (x0 : Vec F S2000x16 .f32) (x1 : Vec F S16x1 .f32) : Vec F S2000x1 .f32 :=
  View.canon [⟨r6_2, k6_pay1 (View.ld x0 r6_0) (View.ld x1 r6_1)⟩]

/-- The one store covers the buffer. -/
theorem cover6_2 (p0 : Vec F S2000x1 .f32) (y : S2000x1.Idx) :
    ∃ pc ∈ ([⟨r6_2, p0⟩] : List (View.Piece (Elt F) S2000x1 .f32)), y ∈ pc.1.set :=
  View.cover_of_tiled [⟨r6_2, p0⟩] S2000x1.size (by rfl) y

/-! ## The body's triple -/

set_option maxHeartbeats 1000000 in
/-- The body on whole staging buffers, the inputs' holding `x0`, `x1` and the output's anything, runs to the
    continuation with the inputs' as they were and the output's at `out6_2 x0 x1`: it reads both inputs whole, reads
    the output buffer (a value it never uses) and stores the payload over the whole of it. -/
theorem sound_kernel6 (c : Dev nD) (E : Set ℕ) (i : grid6.Coords) (arg1 : Memref sig .tc .vmem S2000x16 .f32) (harg1 : arg1.IsWhole) (arg2 : Memref sig .tc .vmem S16x1 .f32) (harg2 : arg2.IsWhole) (arg3 : Memref sig .tc .vmem S2000x1 .f32) (harg3 : arg3.IsWhole)
    (x0 : Vec F S2000x16 .f32) (x1 : Vec F S16x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the region's pipeline on core `c`: the arrays as the region finds them; after the body at point
    `t` each input's buffer still at its block and the output's at `out6_2` of the two input blocks; the invariant is
    the rest of the core's scoped memory and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and the
    core's owed count pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.RegA7.lean ====
/- Region 7, the half that does not depend on where the region sits in the run: at ANY contents `V` of the core's
   buffers when the region is entered, what one call of the body does to the three staging buffers, and the proof data
   of the pipeline built from it. The body computes the block of rows scaled row by row: each row times the one weight of that row, the weight column spread across the lanes;
   windows 0 and 1 walk the rows of the values and of the weight column together, window 2 the matching block of the scaled rows. Stated for any float model `F`. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is `V`'s and whose body leaves the block in place: where the window is not fetched its block index has
    not moved, so the block already there is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is the whole of its buffer -/

abbrev r7_0 : Rect S4000x1 := Rect.unit (s := S4000x1) ![0, 0] S4000x1.size inb_S4000x1_S4000x1_0_0
abbrev r7_1 : Rect S4000x1 := Rect.unit (s := S4000x1) ![0, 0] S4000x1.size inb_S4000x1_S4000x1_0_0
abbrev r7_2 : Rect S4000x1 := Rect.unit (s := S4000x1) ![0, 0] S4000x1.size inb_S4000x1_S4000x1_0_0

/-! ## What the body leaves in the output window's buffer -/

/-- Window 2's staging buffer after the body, from the two input blocks: its one store, of the whole block. -/
def out7_2 (x0 : Vec F S4000x1 .f32) (x1 : Vec F S4000x1 .f32) : Vec F S4000x1 .f32 :=
  View.canon [⟨r7_2, k7_pay1 (View.ld x0 r7_0) (View.ld x1 r7_1)⟩]

/-- The one store covers the buffer. -/
theorem cover7_2 (p0 : Vec F S4000x1 .f32) (y : S4000x1.Idx) :
    ∃ pc ∈ ([⟨r7_2, p0⟩] : List (View.Piece (Elt F) S4000x1 .f32)), y ∈ pc.1.set :=
  View.cover_of_tiled [⟨r7_2, p0⟩] S4000x1.size (by rfl) y

/-! ## The body's triple -/

set_option maxHeartbeats 1000000 in
/-- The body on whole staging buffers, the inputs' holding `x0`, `x1` and the output's anything, runs to the
    continuation with the inputs' as they were and the output's at `out7_2 x0 x1`: it reads both inputs whole, reads
    the output buffer (a value it never uses) and stores the payload over the whole of it. -/
theorem sound_kernel7 (c : Dev nD) (E : Set ℕ) (i : grid7.Coords) (arg1 : Memref sig .tc .vmem S4000x1 .f32) (harg1 : arg1.IsWhole) (arg2 : Memref sig .tc .vmem S4000x1 .f32) (harg2 : arg2.IsWhole) (arg3 : Memref sig .tc .vmem S4000x1 .f32) (harg3 : arg3.IsWhole)
    (x0 : Vec F S4000x1 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__weight_mul_kernel i arg1 harg1 arg2 harg2 arg3 harg3) K := by
  simp only [cc7__weight_mul_kernel_eq_skeleton]; unfold cc7__weight_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of the region's pipeline on core `c`: the arrays as the region finds them; after the body at point
    `t` each input's buffer still at its block and the output's at `out7_2` of the two input blocks; the invariant is
    the rest of the core's scoped memory and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' buffers hold their blocks, so the body's triple applies; the invariant and the
    core's owed count pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.RegA8.lean ====
/- Region 8, the half that does not depend on where the region sits in the run: at ANY contents `V` of the core's
   buffers when the region is entered, what one call of the body does to the three staging buffers, and the proof data
   of the pipeline built from it. The body computes the block of rows plus the bias row spread down the rows;
   window 0 walks the rows block by block, window 1 is the whole bias row (the same block at every point), window 2 the matching block of rows of the result. Stated for any float model `F`. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is `V`'s and whose body leaves the block in place: where the window is not fetched its block index has
    not moved, so the block already there is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same for input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is the whole of its buffer -/

abbrev r8_0 : Rect S2000x1 := Rect.unit (s := S2000x1) ![0, 0] S2000x1.size inb_S2000x1_S2000x1_0_0
abbrev r8_1 : Rect S1x1 := Rect.unit (s := S1x1) ![0, 0] S1x1.size inb_S1x1_S1x1_0_0
abbrev r8_2 : Rect S2000x1 := Rect.unit (s := S2000x1) ![0, 0] S2000x1.size inb_S2000x1_S2000x1_0_0

/-! ## What the body leaves in the output window's buffer -/

/-- Window 2's staging buffer after the body, from the two input blocks: its one store, of the whole block. -/
def out8_2 (x0 : Vec F S2000x1 .f32) (x1 : Vec F S1x1 .f32) : Vec F S2000x1 .f32 :=
  View.canon [⟨r8_2, k8_pay1 (View.ld x0 r8_0) (View.ld x1 r8_1)⟩]

/-- The one store covers the buffer. -/
theorem cover8_2 (p0 : Vec F S2000x1 .f32) (y : S2000x1.Idx) :
    ∃ pc ∈ ([⟨r8_2, p0⟩] : List (View.Piece (Elt F) S2000x1 .f32)), y ∈ pc.1.set :=
  View.cover_of_tiled [⟨r8_2, p0⟩] S2000x1.size (by rfl) y

/-! ## The body's triple -/

set_option maxHeartbeats 1000000 in
/-- The body on whole staging buffers, the inputs' holding `x0`, `x1` and the output's anything, runs to the
    continuation with the inputs' as they were and the output's at `out8_2 x0 x1`: it reads both inputs whole, reads
    the output buffer (a value it never uses) and stores the payload over the whole of it. -/
theorem sound_kernel8 (c : Dev nD) (E : Set ℕ) (i : grid8.Coords) (arg1 : Memref sig .tc .vmem S2000x1 .f32) (harg1 : arg1.IsWhole) (arg2 : Memref sig .tc .vmem S1x1 .f32) (harg2 : arg2.IsWhole) (arg3 : Memref sig .tc .vmem S2000x1 .f32) (harg3 : arg3.IsWhole)
    (x0 : Vec F S2000x1 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__bias_act_kernel i arg1 harg1 arg2 harg2 arg3 harg3) K := by
  simp only [cc8__bias_act_kernel_eq_skeleton]; unfold cc8__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of the region's pipeline on core `c`: the arrays as the region finds them; after the body at point
    `t` each input's buffer still at its block and the output's at `out8_2` of the two input blocks; the invariant is
    the rest of the core's scoped memory and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so the body's triple applies; the invariant and the
    core's owed count pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.K.RegA9.lean ====
/- Region 9 of @main (the masked softmax over one 782x128 block, a grid of one point), at the buffer
   contents `V` the region is entered with: each window's block, what the body leaves in the output
   window's buffer (one whole-block store of the payload of the two blocks read), the body's triple,
   the proof data, and the body obligation. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, for any proof data whose
    array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same for input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole 782x128 block as a rectangle. -/
abbrev r9_0 : Rect S782x128 := Rect.unit (s := S782x128) ![0, 0] S782x128.size inb_S782x128_S782x128_0_0

/-! ## What the body leaves in the output window's buffer -/

/-- Window 2's staging buffer after the body, from the two input blocks: its one store, of the whole block. -/
def out9_2 (x0 : Vec F S782x128 .f32) (x1 : Vec F S782x128 .f32) : Vec F S782x128 .f32 :=
  View.canon [⟨r9_0, k9_pay1 (View.ld x0 r9_0) (View.ld x1 r9_0)⟩]

/-- The store covers the buffer. -/
theorem cover9_2 (p0 : Vec F S782x128 .f32) (y : S782x128.Idx) :
    ∃ pc ∈ ([⟨r9_0, p0⟩] : List (View.Piece (Elt F) S782x128 .f32)), y ∈ pc.1.set :=
  View.cover_of_tiled [⟨r9_0, p0⟩] S782x128.size (by rfl) y

/-! ## The body's triple -/

set_option maxHeartbeats 1000000 in
/-- The kernel body on whole staging memrefs, the inputs' at read contents and the output's at anything,
    runs to the continuation holding the inputs' as they were and the output's at `out9_2` of the inputs'. -/
theorem sound_kernel9 (c : Dev nD) (E : Set ℕ) (i : grid9.Coords) (arg1 : Memref sig .tc .vmem S782x128 .f32) (harg1 : arg1.IsWhole) (arg2 : Memref sig .tc .vmem S782x128 .f32) (harg2 : arg2.IsWhole) (arg3 : Memref sig .tc .vmem S782x128 .f32) (harg3 : arg3.IsWhole)
    (x0 : Vec F S782x128 .f32) (x1 : Vec F S782x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__softmax_kernel i arg1 harg1 arg2 harg2 arg3 harg3) K := by
  simp only [cc9__softmax_kernel_eq_skeleton]; unfold cc9__softmax_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 9 on core `c`: the arrays as the region finds them; after the body each
    input's buffer at its block and the output's at `out9_2` of the input blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.RegR10Core.lean ====
/- Region 10 (the pooled value), first half: the kernel body's triple case by case, the scratch point by point,
   the invariant between points and the pipeline's proof data. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffers when the region is entered
variable (V : (c : Dev nD) → (b : Ref sig .tc) → Buf (Elt F) ((c : Thread nD τ).loc b))

/-! # Region 10: the pooled value. A grid of 50 points; a (1,16) scratch carried from point to point
    (zeroed at the first point, the block's column sums added at every point); the (1,1) output stored at
    the last point only. -/

/-! ## The two conditions on the grid point -/

/-- The condition of the first conditional (the scratch is zeroed), from the grid coordinates. -/
abbrev cond10_1 (i : grid10.Coords) : Prop := (Scalar.cmpi .ne (Scalar.extui (Scalar.cmpi .eq (BitVec.ofNat 32 (i 0).val) 0#32)) 0#32) = 1#1
/-- It holds at the first point only. -/
theorem hcond10_1 : ∀ t : Fin cfg10.N, cond10_1 (grid10.coords t) ↔ t.val % 50 = 0 :=
  (by decide +kernel : ∀ t : Fin grid10.N, cond10_1 (grid10.coords t) ↔ t.val % 50 = 0)
/-- The second condition (the output is stored) holds at the last point only. -/
theorem hcond10_2 : ∀ t : Fin cfg10.N, k10_cond2 (grid10.coords t) = 1#1 ↔ t.val % 50 = 49 :=
  (by decide +kernel : ∀ t : Fin grid10.N, k10_cond2 (grid10.coords t) = 1#1 ↔ t.val % 50 = 49)
/-- The output window is idle exactly where the second condition fails. -/
theorem idle10_3 : ∀ t : Fin cfg10.N, cfg10.idle 3 (cfg10.grid.coords t) = true ↔ t.val % 50 ≠ 49 :=
  (by decide +kernel : ∀ t : Fin grid10.N, idle10 3 (grid10.coords t) = true ↔ t.val % 50 ≠ 49)

theorem N10 : cfg10.N = 50 := N_10

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not (unfetched, the
    block index has not moved), for any proof data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: every load and store is of a whole buffer -/

abbrev r10_0 : Rect S2000x16 := Rect.unit (s := S2000x16) ![0, 0] S2000x16.size inb_S2000x16_S2000x16_0_0
abbrev r10_1 : Rect S16x1 := Rect.unit (s := S16x1) ![0, 0] S16x1.size inb_S16x1_S16x1_0_0
abbrev r10_2 : Rect S1x1 := Rect.unit (s := S1x1) ![0, 0] S1x1.size inb_S1x1_S1x1_0_0
abbrev r10_3 : Rect S1x1 := Rect.unit (s := S1x1) ![0, 0] S1x1.size inb_S1x1_S1x1_0_0
abbrev r10_s : Rect S1x16 := Rect.unit (s := S1x16) ![0, 0] S1x16.size inb_S1x16_S1x16_0_0

/-- One store of the whole scratch covers it. -/
theorem cover10_s (p0 : Vec F S1x16 .f32) (y : S1x16.Idx) :
    ∃ pc ∈ ([⟨r10_s, p0⟩] : List (View.Piece (Elt F) S1x16 .f32)), y ∈ pc.1.set :=
  View.cover_of_tiled [⟨r10_s, p0⟩] S1x16.size (by rfl) y
/-- One store of the whole output block covers it. -/
theorem cover10_3 (p0 : Vec F S1x1 .f32) (y : S1x1.Idx) :
    ∃ pc ∈ ([⟨r10_3, p0⟩] : List (View.Piece (Elt F) S1x1 .f32)), y ∈ pc.1.set :=
  View.cover_of_tiled [⟨r10_3, p0⟩] S1x1.size (by rfl) y

theorem mem_r10_s (p0 : Vec F S1x16 .f32) (y : S1x16.Idx) : y ∈ r10_s.set := by
  obtain ⟨pc, hm, hy⟩ := cover10_s p0 y
  rw [List.mem_singleton] at hm; subst hm; exact hy

/-- A last write whose rectangle holds every index hides every earlier write. -/
theorem canon_cons_of_full10 {s : Shape} {e : EltTy} (r : Rect s) (w : r.shape.Idx → Elt F e) (L : List (View.Piece (Elt F) s e))
    (h : ∀ y, y ∈ r.set) : View.canon (⟨r, w⟩ :: L) = View.canon [⟨r, w⟩] := by
  funext y
  obtain ⟨x, rfl⟩ : ∃ x, r.emb x = y := r.exists_idx_of_mem (h y)
  rw [View.canon_cons_emb, View.canon_cons_emb]

/-! ## What the body leaves in the scratch and in the output's buffer -/

/-- The scratch after the zeroing store. -/
def zero10 : Vec F S1x16 .f32 := View.canon [⟨r10_s, k10_pay1 (F := F)⟩]
/-- The scratch after the accumulating store, from what it held (`a`) and the point's block (`x0`): the block's
    column sums added to `a`. -/
def step10 (a : Vec F S1x16 .f32) (x0 : Vec F S2000x16 .f32) : Vec F S1x16 .f32 :=
  View.canon [⟨r10_s, k10_pay2 (View.ld a r10_s) (View.ld x0 r10_0)⟩]
/-- The output's buffer after the last point's store, from the scratch (`a`), the weight column (`x1`) and the bias (`x2`). -/
def out10_3 (a : Vec F S1x16 .f32) (x1 : Vec F S16x1 .f32) (x2 : Vec F S1x1 .f32) : Vec F S1x1 .f32 :=
  View.canon [⟨r10_3, k10_pay3 (View.ld a r10_s) (View.ld x1 r10_1) (View.ld x2 r10_2)⟩]

/-! ## The body's triple, case by case

The kernel body on whole memrefs — the three inputs' staging buffers at read contents `x0 x1 x2`, the output's at `x3`,
the scratch at `a` — runs to the continuation holding the inputs' as they were, and:
 * at the FIRST point (the first condition holds, the second fails) the scratch at `step10 zero10 x0`, whatever it held,
   the output's buffer as it was;
 * at a MIDDLE point (both fail) the scratch at `step10 a x0`, the output's buffer as it was;
 * at the LAST point (the first fails, the second holds) the scratch at `step10 a x0` and the output's buffer at
   `out10_3` of that scratch, whatever it held. -/

set_option maxHeartbeats 1000000 in
theorem run10_A (c : Dev nD) (E : Set ℕ) (i : grid10.Coords)
    (arg1 : Memref sig .tc .vmem S2000x16 .f32) (harg1 : arg1.IsWhole) (arg2 : Memref sig .tc .vmem S16x1 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x16 .f32) (harg5 : arg5.IsWhole)
    (hc1 : cond10_1 i) (hc2 : ¬k10_cond2 i = 1#1)
    (x0 : Vec F S2000x16 .f32) (x1 : Vec F S16x1 .f32) (x2 : Vec F S1x1 .f32) (x3 : Vec F S1x1 .f32) (a : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (x3) ∗ owns (c : Thread nD τ) arg5 fullShare (step10 zero10 x0)) -∗ K ⟨⟩))
      ⊢ wp frame (wpE (defs₀ (F := F)) Variants.none c none) E (cc10__pool_value_kernel i arg1 harg1 arg2 harg2 arg3 harg3 arg4 harg4 arg5 harg5) K := by
  simp only [cc10__pool_value_kernel_eq_skeleton]; unfold cc10__pool_value_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_run_names
  rw [View.read_writes_eq_canon _ _ _ (fun y => ⟨_, List.mem_cons_self, mem_r10_s (k10_pay1 (F := F)) y⟩),
    canon_cons_of_full10 _ _ _ (mem_r10_s (k10_pay1 (F := F))), View.readCov_eq_canon_ld _ _ _ (cover10_s _)]
  rfl

set_option maxHeartbeats 1000000 in
theorem run10_B (c : Dev nD) (E : Set ℕ) (i : grid10.Coords)
    (arg1 : Memref sig .tc .vmem S2000x16 .f32) (harg1 : arg1.IsWhole) (arg2 : Memref sig .tc .vmem S16x1 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x16 .f32) (harg5 : arg5.IsWhole)
    (hc1 : ¬cond10_1 i) (hc2 : ¬k10_cond2 i = 1#1)
    (x0 : Vec F S2000x16 .f32) (x1 : Vec F S16x1 .f32) (x2 : Vec F S1x1 .f32) (x3 : Vec F S1x1 .f32) (a : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (x3) ∗ owns (c : Thread nD τ) arg5 fullShare (step10 a x0)) -∗ K ⟨⟩))
      ⊢ wp frame (wpE (defs₀ (F := F)) Variants.none c none) E (cc10__pool_value_kernel i arg1 harg1 arg2 harg2 arg3 harg3 arg4 harg4 arg5 harg5) K := by
  simp only [cc10__pool_value_kernel_eq_skeleton]; unfold cc10__pool_value_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  exact View.read_writes_eq_canon _ _ _ (cover10_s _)

set_option maxHeartbeats 1000000 in
theorem run10_C (c : Dev nD) (E : Set ℕ) (i : grid10.Coords)
    (arg1 : Memref sig .tc .vmem S2000x16 .f32) (harg1 : arg1.IsWhole) (arg2 : Memref sig .tc .vmem S16x1 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x16 .f32) (harg5 : arg5.IsWhole)
    (hc1 : ¬cond10_1 i) (hc2 : k10_cond2 i = 1#1)
    (x0 : Vec F S2000x16 .f32) (x1 : Vec F S16x1 .f32) (x2 : Vec F S1x1 .f32) (x3 : Vec F S1x1 .f32) (a : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (out10_3 (step10 a x0) x1 x2) ∗ owns (c : Thread nD τ) arg5 fullShare (step10 a x0)) -∗ K ⟨⟩))
      ⊢ wp frame (wpE (defs₀ (F := F)) Variants.none c none) E (cc10__pool_value_kernel i arg1 harg1 arg2 harg2 arg3 harg3 arg4 harg4 arg5 harg5) K := by
  simp only [cc10__pool_value_kernel_eq_skeleton]; unfold cc10__pool_value_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (cover10_3 _), View.readCov_eq_canon_ld _ _ _ (cover10_s _)]
    rfl
  iexists _; isplitr
  swap; · iexact H5
  ipureintro
  exact View.read_writes_eq_canon _ _ _ (cover10_s _)

/-! ## The scratch point by point -/

/-- THE ACCUMULATION. The scratch after `n` points: zeroed, then the column sums of blocks `0 … n-1` added in order. -/
def acc10 (c : Dev nD) : ℕ → Vec F S1x16 .f32
  | 0 => zero10
  | n + 1 => if h : n < cfg10.N then step10 (acc10 c n) (iblk10 V c 0 ⟨n, h⟩) else acc10 c n

theorem acc10_zero (c : Dev nD) : acc10 V c 0 = zero10 := rfl
theorem acc10_succ (c : Dev nD) (t : Fin cfg10.N) : acc10 V c (t.val + 1) = step10 (acc10 V c t.val) (iblk10 V c 0 t) := by
  rw [acc10, dif_pos t.isLt]

/-! ## The invariant between points -/

/-- Between points: the generator register at some state; the scratch — before the first point at anything, after
    `t ≥ 1` points at `acc10 t`; every other scoped buffer at some contents. -/
def Φ10 (c : Dev nD) (t : Fin (cfg10.N + 1)) : sProp 𝕄 :=
  iprop((∃ r, prngReg c r)
    ∗ (∃ a : Vec F S1x16 .f32, ⌜t.val ≠ 0 → a = acc10 V c t.val⌝ ∗ owns (c : Thread nD τ) (Memref.whole cc10_scratch0) fullShare a)
    ∗ Pipeline.scopedRestBut spec10 c [cc10_scratch0])

/-! ## The pipeline's proof data -/

/-- The proof data of pipeline 10 on core `c`: the arrays as the region finds them (`V`); after the body at point `t`
    each input's buffer at its block, the output's at `out10_3` of the scratch after `t + 1` points (read at the last
    point only: elsewhere the window is idle and its buffer is handed back as found); the invariant `Φ10`; nothing owed;
    full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (acc10 V c (t.val + 1)) (iblk10 V c 1 t) (iblk10 V c 2 t)
  Φ t := Φ10 V c t
  q _ := fullShare
  owed _ := 0

theorem A_eq10 (c : Dev nD) (w : Fin cfg10.W) : (dat10 V c).A w = V c (Pipeline.arrRef spec10 w) := by
  dsimp only [dat10]
theorem Φ_eq10 (c : Dev nD) (t : Fin (cfg10.N + 1)) : (dat10 V c).Φ t = Φ10 V c t := by dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (acc10 V c (t.val + 1)) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- At a live point the exact post for a window's buffer is its `after`. -/
theorem leavesExact_live10 (c : Dev nD) (t : Fin cfg10.N) (hi : cfg10.idle 3 (cfg10.grid.coords t) = false) :
    (dat10 V c).leavesExact 3 t = owns (c : Thread nD τ) (st10_3 t) fullShare ((dat10 V c).after 3 t) := by
  unfold Dat.leavesExact; rw [hi]

/-! ## The body obligation, at a generic point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ (dat10 V c).leavesExact 3 t)

end Cert.Kernel.Hand

end
-- ==== Proof.K.RegR10.lean ====
/- Region 10 (the pooled value), second half: the body obligation at every point, and the invariant entered before the
   first point and left after the last. -/
import proofs.«125778_j7670811590827_2_alg».proof.Proof.K.RegR10Core
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body at any point -/

set_option maxHeartbeats 1600000 in
/-- The body at any point. The inputs' buffers hold their blocks. At the first point the scratch holds anything and is
    left at `acc10 1`; at a later point it holds `acc10 t` and is left at `acc10 (t + 1)`. The output's buffer is handed
    back as found at every point but the last, where it is left at `out10_3` of the scratch. The rest of the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl,
    after10_0, after10_1, after10_2, Φ_eq10, Φ_eq10]
  have hN : t.val < 50 := lt_of_lt_of_eq t.isLt N10
  unfold Φ10
  by_cases h0 : t.val % 50 = 0
  · -- the first point: the scratch is zeroed, then the block's column sums are added
    have ht0 : t.val = 0 := by omega
    have hc1 : cond10_1 (grid10.coords t) := (hcond10_1 t).mpr h0
    have hc2 : ¬k10_cond2 (grid10.coords t) = 1#1 := fun h => by have := (hcond10_2 t).mp h; omega
    have hi : cfg10.idle 3 (cfg10.grid.coords t) = true := (idle10_3 t).mpr (by omega)
    have hf : (cfg10.win 3).flush t = false := Bool.eq_false_iff.mpr fun h => by have := (flush10_3 t).mp h; omega
    rw [Dat.leavesExact_idle _ 3 t hi hf]
    iintro ⟨⟨Hr, ⟨%a, %ha, Hs⟩, Hrest⟩, Ho, ⟨%d0, H0⟩, ⟨%d1, H1⟩, ⟨%d2, H2⟩, ⟨%d3, H3⟩⟩
    iapply (run10_A c Set.univ (grid10.coords t) _ _ _ _ _ _ _ _ _ _ hc1 hc2 (iblk10 V c 0 t) (iblk10 V c 1 t) (iblk10 V c 2 t) _ a _)
    isplitl [H0]; · iexact H0
    isplitl [H1]; · iexact H1
    isplitl [H2]; · iexact H2
    isplitl [H3]; · iexact H3
    isplitl [Hs]; · iexact Hs
    iintro ⟨H0, H1, H2, H3, Hs⟩
    isplitl [Hr Hs Hrest]
    · isplitl [Hr]; · iexact Hr
      isplitl [Hs]
      · iexists _; isplitr
        swap; · iexact Hs
        ipureintro; intro _
        rw [show t.succ.val = t.val + 1 from rfl, acc10_succ, ht0, acc10_zero]
      iexact Hrest
    isplitl [Ho]; · iexact Ho
    isplitl [H0]; · iexact H0
    isplitl [H1]; · iexact H1
    isplitl [H2]; · iexact H2
    iexists d3; iexact H3
  · have ha0 : t.castSucc.val ≠ 0 := by show t.val ≠ 0; omega
    have hc1 : ¬cond10_1 (grid10.coords t) := fun h => h0 ((hcond10_1 t).mp h)
    by_cases h49 : t.val % 50 = 49
    · -- the last point: the column sums are added, then the output is stored from the scratch
      have hc2 : k10_cond2 (grid10.coords t) = 1#1 := (hcond10_2 t).mpr h49
      have hi : cfg10.idle 3 (cfg10.grid.coords t) = false := Bool.eq_false_iff.mpr fun h => (idle10_3 t).mp h h49
      rw [leavesExact_live10 V c t hi, after10_3]
      iintro ⟨⟨Hr, ⟨%a, %ha, Hs⟩, Hrest⟩, Ho, ⟨%d0, H0⟩, ⟨%d1, H1⟩, ⟨%d2, H2⟩, ⟨%d3, H3⟩⟩
      obtain rfl := ha ha0
      iapply (run10_C c Set.univ (grid10.coords t) _ _ _ _ _ _ _ _ _ _ hc1 hc2 (iblk10 V c 0 t) (iblk10 V c 1 t) (iblk10 V c 2 t) _ _ _)
      isplitl [H0]; · iexact H0
      isplitl [H1]; · iexact H1
      isplitl [H2]; · iexact H2
      isplitl [H3]; · iexact H3
      isplitl [Hs]; · iexact Hs
      iintro ⟨H0, H1, H2, H3, Hs⟩
      rw [show t.castSucc.val = t.val from rfl, ← acc10_succ]
      isplitl [Hr Hs Hrest]
      · isplitl [Hr]; · iexact Hr
        isplitl [Hs]
        · iexists _; isplitr
          swap; · iexact Hs
          ipureintro; intro _; rfl
        iexact Hrest
      isplitl [Ho]; · iexact Ho
      isplitl [H0]; · iexact H0
      isplitl [H1]; · iexact H1
      isplitl [H2]; · iexact H2
      iexact H3
    · -- a middle point: the column sums are added, the output's buffer is untouched
      have hc2 : ¬k10_cond2 (grid10.coords t) = 1#1 := fun h => h49 ((hcond10_2 t).mp h)
      have hi : cfg10.idle 3 (cfg10.grid.coords t) = true := (idle10_3 t).mpr h49
      have hf : (cfg10.win 3).flush t = false := Bool.eq_false_iff.mpr fun h => h49 ((flush10_3 t).mp h)
      rw [Dat.leavesExact_idle _ 3 t hi hf]
      iintro ⟨⟨Hr, ⟨%a, %ha, Hs⟩, Hrest⟩, Ho, ⟨%d0, H0⟩, ⟨%d1, H1⟩, ⟨%d2, H2⟩, ⟨%d3, H3⟩⟩
      obtain rfl := ha ha0
      iapply (run10_B c Set.univ (grid10.coords t) _ _ _ _ _ _ _ _ _ _ hc1 hc2 (iblk10 V c 0 t) (iblk10 V c 1 t) (iblk10 V c 2 t) _ _ _)
      isplitl [H0]; · iexact H0
      isplitl [H1]; · iexact H1
      isplitl [H2]; · iexact H2
      isplitl [H3]; · iexact H3
      isplitl [Hs]; · iexact Hs
      iintro ⟨H0, H1, H2, H3, Hs⟩
      rw [show t.castSucc.val = t.val from rfl, ← acc10_succ]
      isplitl [Hr Hs Hrest]
      · isplitl [Hr]; · iexact Hr
        isplitl [Hs]
        · iexists _; isplitr
          swap; · iexact Hs
          ipureintro; intro _; rfl
        iexact Hrest
      isplitl [Ho]; · iexact Ho
      isplitl [H0]; · iexact H0
      isplitl [H1]; · iexact H1
      isplitl [H2]; · iexact H2
      iexists d3; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant before the first point, and out of it after the last -/

/-- Before the first point the scratch, one of the scoped buffers, holds anything. -/
theorem Φ10_in (c : Dev nD) :
    (iprop((∃ r, prngReg c r) ∗ Pipeline.scopedRest spec10 c) : sProp 𝕄) ⊢ (dat10 V c).Φ 0 := by
  rw [scopedRest10_split, Φ_eq10]; unfold Φ10
  iintro ⟨Hr, ⟨%f, Hs⟩, Hrest⟩
  isplitl [Hr]; · iexact Hr
  isplitl [Hs]
  · iexists f; isplitr
    · ipureintro; exact fun h => absurd rfl h
    rw [owns_whole]; iexact Hs
  iexact Hrest

/-- After the last point the scratch's contents are forgotten. -/
theorem Φ10_out (c : Dev nD) :
    (dat10 V c).Φ (Fin.last cfg10.N) ⊢ (iprop((∃ r, prngReg c r) ∗ Pipeline.scopedRest spec10 c) : sProp 𝕄) := by
  rw [scopedRest10_split, Φ_eq10]; unfold Φ10
  simp only [owns_whole]
  iintro ⟨Hr, ⟨%a, -, Hs⟩, Hrest⟩
  isplitl [Hr]; · iexact Hr
  isplitl [Hs]
  · iexists a; iexact Hs
  iexact Hrest

end Cert.Kernel.Hand

end
-- ==== Proof.K.Run.lean ====
/- The run of the whole program: the buffers' contents at every boundary between its items, each region as a segment over
   the thread state, the launch to the return, and the arguments read back to their launch contents. -/
import proofs.«125778_j7670811590827_2_alg».proof.Proof.Gen.Kernel.Launch
import proofs.«125778_j7670811590827_2_alg».proof.Proof.Gen.Kernel.Skeleton
import proofs.«125778_j7670811590827_2_alg».proof.Proof.Gen.Kernel.Points
import proofs.«125778_j7670811590827_2_alg».proof.Proof.Gen.Kernel.Regions
import proofs.«125778_j7670811590827_2_alg».proof.Proof.K.RegA0
import proofs.«125778_j7670811590827_2_alg».proof.Proof.K.RegA1
import proofs.«125778_j7670811590827_2_alg».proof.Proof.K.RegA2
import proofs.«125778_j7670811590827_2_alg».proof.Proof.K.RegA3
import proofs.«125778_j7670811590827_2_alg».proof.Proof.K.RegA4
import proofs.«125778_j7670811590827_2_alg».proof.Proof.K.RegA5
import proofs.«125778_j7670811590827_2_alg».proof.Proof.K.RegA6
import proofs.«125778_j7670811590827_2_alg».proof.Proof.K.RegA7
import proofs.«125778_j7670811590827_2_alg».proof.Proof.K.RegA8
import proofs.«125778_j7670811590827_2_alg».proof.Proof.K.RegA9
import proofs.«125778_j7670811590827_2_alg».proof.Proof.K.RegR10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the program's items from the launch to the return

## The buffers' contents at each boundary between items: a fold through the program -/

/-- Core `c`'s buffers at launch. -/
abbrev W0 (m : (ℓ : Loc nD τ sig) → Buf (Elt F) ℓ) (ρ : Dev nD → PrngReg) : Dev nD → Valuation τ sig (Elt F) := fun c b => m (c, b)
/-- After the host stretch `hostOps0`. -/
abbrev W1 (m : (ℓ : Loc nD τ sig) → Buf (Elt F) ℓ) (ρ : Dev nD → PrngReg) : Dev nD → Valuation τ sig (Elt F) := fun c => StableHlo.after hostOps0 (W0 m ρ c)
/-- After the host stretch `hostOps0_1`. -/
abbrev W2 (m : (ℓ : Loc nD τ sig) → Buf (Elt F) ℓ) (ρ : Dev nD → PrngReg) : Dev nD → Valuation τ sig (Elt F) := fun c => StableHlo.after hostOps0_1 (W1 m ρ c)
/-- After the host stretch `hostOps0_2`. -/
abbrev W3 (m : (ℓ : Loc nD τ sig) → Buf (Elt F) ℓ) (ρ : Dev nD → PrngReg) : Dev nD → Valuation τ sig (Elt F) := fun c => StableHlo.after hostOps0_2 (W2 m ρ c)
/-- The contents region 0 is entered from, read at the TensorCore's references. -/
abbrev Vin0 (m : (ℓ : Loc nD τ sig) → Buf (Elt F) ℓ) (ρ : Dev nD → PrngReg) : (c : Dev nD) → (b : Ref sig .tc) → Buf (Elt F) ((c : Thread nD τ).loc b) := fun c b => W3 m ρ c b
/-- At region 0's exit: its arrays at what the pipeline leaves (the inputs as entered, the output's write-backs folded),
    every other buffer as entered. -/
def W4 (m : (ℓ : Loc nD τ sig) → Buf (Elt F) ℓ) (ρ : Dev nD → PrngReg) (c : Dev nD) : Valuation τ sig (Elt F) :=
  Pipeline.withArrays spec0 c (W3 m ρ c) fun w => (dat0 (Vin0 m ρ) c).arrAt w cfg0.N
theorem W4_arr (m : (ℓ : Loc nD τ sig) → Buf (Elt F) ℓ) (ρ : Dev nD → PrngReg) (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w
theorem W4_of_ne (m : (ℓ : Loc nD τ sig) → Buf (Elt F) ℓ) (ρ : Dev nD → PrngReg) (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev Vout0 (m : (ℓ : Loc nD τ sig) → Buf (Elt F) ℓ) (ρ : Dev nD → PrngReg) : (c : Dev nD) → (b : Ref sig .tc) → Buf (Elt F) ((c : Thread nD τ).loc b) := fun c b => W4 m ρ c b
/-- At region 0's exit each of its arrays holds what the pipeline leaves, and every other buffer what it held at entry. -/
theorem hF0 (m : (ℓ : Loc nD τ sig) → Buf (Elt F) ℓ) (ρ : Dev nD → PrngReg) (c : Dev nD) (w : Fin cfg0.W) : (dat0 (Vin0 m ρ) c).arrAt w cfg0.N = Vout0 m ρ c (Pipeline.arrRef spec0 w) :=
  (W4_arr m ρ c w).symm
theorem hrest0 (m : (ℓ : Loc nD τ sig) → Buf (Elt F) ℓ) (ρ : Dev nD → PrngReg) (c : Dev nD) : ∀ b, b ∉ Finset.univ.image (Pipeline.arrRef spec0) → Vout0 m ρ c b = Vin0 m ρ c b :=
  fun b hb => W4_of_ne m ρ c b fun w e => hb (Finset.mem_image.mpr ⟨w, Finset.mem_univ _, e⟩)
/-- Region 0 changes only its output array `main_v32`: an input array is read, never written back, and no other
    buffer is touched. -/
theorem W4_keep (m : (ℓ : Loc nD τ sig) → Buf (Elt F) ℓ) (ρ : Dev nD → PrngReg) (c : Dev nD) (b : Ref sig .tc) (hb : b ≠ main_v32) :
    W4 m ρ c (Proc.devRef .tc b) = W3 m ρ c (Proc.devRef .tc b) := by
  by_cases h : ∃ w, Pipeline.arrRef spec0 w = b
  · obtain ⟨w, rfl⟩ := h
    have hin : (cfg0.win w).isOut = false := by
      revert hb; revert w; decide
    rw [W4_arr, (dat0 (Vin0 m ρ) c).arrAt_in w hin, A_eq0]
  · exact W4_of_ne m ρ c b fun w e => h ⟨w, e⟩
/-- After the host stretch `hostOps1`. -/
abbrev W5 (m : (ℓ : Loc nD τ sig) → Buf (Elt F) ℓ) (ρ : Dev nD → PrngReg) : Dev nD → Valuation τ sig (Elt F) := fun c => StableHlo.after hostOps1 (W4 m ρ c)
/-- The contents region 1 is entered from, read at the TensorCore's references. -/
abbrev Vin1 (m : (ℓ : Loc nD τ sig) → Buf (Elt F) ℓ) (ρ : Dev nD → PrngReg) : (c : Dev nD) → (b : Ref sig .tc) → Buf (Elt F) ((c : Thread nD τ).loc b) := fun c b => W5 m ρ c b
/-- At region 1's exit: its arrays at what the pipeline leaves (the inputs as entered, the output's write-backs folded),
    every other buffer as entered. -/
def W6 (m : (ℓ : Loc nD τ sig) → Buf (Elt F) ℓ) (ρ : Dev nD → PrngReg) (c : Dev nD) : Valuation τ sig (Elt F) :=
  Pipeline.withArrays spec1 c (W5 m ρ c) fun w => (dat1 (Vin1 m ρ) c).arrAt w cfg1.N
theorem W6_arr (m : (ℓ : Loc nD τ sig) → Buf (Elt F) ℓ) (ρ : Dev nD → PrngReg) (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (m : (ℓ : Loc nD τ sig) → Buf (Elt F) ℓ) (ρ : Dev nD → PrngReg) (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev Vout1 (m : (ℓ : Loc nD τ sig) → Buf (Elt F) ℓ) (ρ : Dev nD → PrngReg) : (c : Dev nD) → (b : Ref sig .tc) → Buf (Elt F) ((c : Thread nD τ).loc b) := fun c b => W6 m ρ c b
/-- At region 1's exit each of its arrays holds what the pipeline leaves, and every other buffer what it held at entry. -/
theorem hF1 (m : (ℓ : Loc nD τ sig) → Buf (Elt F) ℓ) (ρ : Dev nD → PrngReg) (c : Dev nD) (w : Fin cfg1.W) : (dat1 (Vin1 m ρ) c).arrAt w cfg1.N = Vout1 m ρ c (Pipeline.arrRef spec1 w) :=
  (W6_arr m ρ c w).symm
theorem hrest1 (m : (ℓ : Loc nD τ sig) → Buf (Elt F) ℓ) (ρ : Dev nD → PrngReg) (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)
/-- Region 1 changes only its output array `main_v41`: an input array is read, never written back, and no other
    buffer is touched. -/
theorem W6_keep (m : (ℓ : Loc nD τ sig) → Buf (Elt F) ℓ) (ρ : Dev nD → PrngReg) (c : Dev nD) (b : Ref sig .tc) (hb : b ≠ main_v41) :
    W6 m ρ c (Proc.devRef .tc b) = W5 m ρ c (Proc.devRef .tc b) := by
  by_cases h : ∃ w, Pipeline.arrRef spec1 w = b
  · obtain ⟨w, rfl⟩ := h
    have hin : (cfg1.win w).isOut = false := by
      revert hb; revert w; decide
    rw [W6_arr, (dat1 (Vin1 m ρ) c).arrAt_in w hin, A_eq1]
  · exact W6_of_ne m ρ c b fun w e => h ⟨w, e⟩
/-- After the host stretch `hostOps2`. -/
abbrev W7 (m : (ℓ : Loc nD τ sig) → Buf (Elt F) ℓ) (ρ : Dev nD → PrngReg) : Dev nD → Valuation τ sig (Elt F) := fun c => StableHlo.after hostOps2 (W6 m ρ c)
/-- The contents region 2 is entered from, read at the TensorCore's references. -/
abbrev Vin2 (m : (ℓ : Loc nD τ sig) → Buf (Elt F) ℓ) (ρ : Dev nD → PrngReg) : (c : Dev nD) → (b : Ref sig .tc) → Buf (Elt F) ((c : Thread nD τ).loc b) := fun c b => W7 m ρ c b
/-- At region 2's exit: its arrays at what the pipeline leaves (the inputs as entered, the output's write-backs folded),
    every other buffer as entered. -/
def W8 (m : (ℓ : Loc nD τ sig) → Buf (Elt F) ℓ) (ρ : Dev nD → PrngReg) (c : Dev nD) : Valuation τ sig (Elt F) :=
  Pipeline.withArrays spec2 c (W7 m ρ c) fun w => (dat2 (Vin2 m ρ) c).arrAt w cfg2.N
theorem W8_arr (m : (ℓ : Loc nD τ sig) → Buf (Elt F) ℓ) (ρ : Dev nD → PrngReg) (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (m : (ℓ : Loc nD τ sig) → Buf (Elt F) ℓ) (ρ : Dev nD → PrngReg) (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev Vout2 (m : (ℓ : Loc nD τ sig) → Buf (Elt F) ℓ) (ρ : Dev nD → PrngReg) : (c : Dev nD) → (b : Ref sig .tc) → Buf (Elt F) ((c : Thread nD τ).loc b) := fun c b => W8 m ρ c b
/-- At region 2's exit each of its arrays holds what the pipeline leaves, and every other buffer what it held at entry. -/
theorem hF2 (m : (ℓ : Loc nD τ sig) → Buf (Elt F) ℓ) (ρ : Dev nD → PrngReg) (c : Dev nD) (w : Fin cfg2.W) : (dat2 (Vin2 m ρ) c).arrAt w cfg2.N = Vout2 m ρ c (Pipeline.arrRef spec2 w) :=
  (W8_arr m ρ c w).symm
theorem hrest2 (m : (ℓ : Loc nD τ sig) → Buf (Elt F) ℓ) (ρ : Dev nD → PrngReg) (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)
/-- Region 2 changes only its output array `main_v46`: an input array is read, never written back, and no other
    buffer is touched. -/
theorem W8_keep (m : (ℓ : Loc nD τ sig) → Buf (Elt F) ℓ) (ρ : Dev nD → PrngReg) (c : Dev nD) (b : Ref sig .tc) (hb : b ≠ main_v46) :
    W8 m ρ c (Proc.devRef .tc b) = W7 m ρ c (Proc.devRef .tc b) := by
  by_cases h : ∃ w, Pipeline.arrRef spec2 w = b
  · obtain ⟨w, rfl⟩ := h
    have hin : (cfg2.win w).isOut = false := by
      revert hb; revert w; decide
    rw [W8_arr, (dat2 (Vin2 m ρ) c).arrAt_in w hin, A_eq2]
  · exact W8_of_ne m ρ c b fun w e => h ⟨w, e⟩
/-- The contents region 3 is entered from, read at the TensorCore's references. -/
abbrev Vin3 (m : (ℓ : Loc nD τ sig) → Buf (Elt F) ℓ) (ρ : Dev nD → PrngReg) : (c : Dev nD) → (b : Ref sig .tc) → Buf (Elt F) ((c : Thread nD τ).loc b) := fun c b => W8 m ρ c b
/-- At region 3's exit: its arrays at what the pipeline leaves (the inputs as entered, the output's write-backs folded),
    every other buffer as entered. -/
def W9 (m : (ℓ : Loc nD τ sig) → Buf (Elt F) ℓ) (ρ : Dev nD → PrngReg) (c : Dev nD) : Valuation τ sig (Elt F) :=
  Pipeline.withArrays spec3 c (W8 m ρ c) fun w => (dat3 (Vin3 m ρ) c).arrAt w cfg3.N
theorem W9_arr (m : (ℓ : Loc nD τ sig) → Buf (Elt F) ℓ) (ρ : Dev nD → PrngReg) (c : Dev nD) (w : Fin cfg3.W) :
    W9 m ρ c (Proc.devRef .tc (Pipeline.arrRef spec3 w)) = (dat3 (Vin3 m ρ) c).arrAt w cfg3.N := by
  unfold W9; exact Pipeline.withArrays_arr spec3 launch3.win.arr_inj c _ _ w
theorem W9_of_ne (m : (ℓ : Loc nD τ sig) → Buf (Elt F) ℓ) (ρ : Dev nD → PrngReg) (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same read at the TensorCore's references (region 3's exit contents). -/
abbrev Vout3 (m : (ℓ : Loc nD τ sig) → Buf (Elt F) ℓ) (ρ : Dev nD → PrngReg) : (c : Dev nD) → (b : Ref sig .tc) → Buf (Elt F) ((c : Thread nD τ).loc b) := fun c b => W9 m ρ c b
/-- At region 3's exit each of its arrays holds what the pipeline leaves, and every other buffer what it held at entry. -/
theorem hF3 (m : (ℓ : Loc nD τ sig) → Buf (Elt F) ℓ) (ρ : Dev nD → PrngReg) (c : Dev nD) (w : Fin cfg3.W) : (dat3 (Vin3 m ρ) c).arrAt w cfg3.N = Vout3 m ρ c (Pipeline.arrRef spec3 w) :=
  (W9_arr m ρ c w).symm
theorem hrest3 (m : (ℓ : Loc nD τ sig) → Buf (Elt F) ℓ) (ρ : Dev nD → PrngReg) (c : Dev nD) : ∀ b, b ∉ Finset.univ.image (Pipeline.arrRef spec3) → Vout3 m ρ c b = Vin3 m ρ c b :=
  fun b hb => W9_of_ne m ρ c b fun w e => hb (Finset.mem_image.mpr ⟨w, Finset.mem_univ _, e⟩)
/-- Region 3 changes only its output array `main_v47`: an input array is read, never written back, and no other
    buffer is touched. -/
theorem W9_keep (m : (ℓ : Loc nD τ sig) → Buf (Elt F) ℓ) (ρ : Dev nD → PrngReg) (c : Dev nD) (b : Ref sig .tc) (hb : b ≠ main_v47) :
    W9 m ρ c (Proc.devRef .tc b) = W8 m ρ c (Proc.devRef .tc b) := by
  by_cases h : ∃ w, Pipeline.arrRef spec3 w = b
  · obtain ⟨w, rfl⟩ := h
    have hin : (cfg3.win w).isOut = false := by
      revert hb; revert w; decide
    rw [W9_arr, (dat3 (Vin3 m ρ) c).arrAt_in w hin, A_eq3]
  · exact W9_of_ne m ρ c b fun w e => h ⟨w, e⟩
/-- After the host stretch `hostOps4`. -/
abbrev W10 (m : (ℓ : Loc nD τ sig) → Buf (Elt F) ℓ) (ρ : Dev nD → PrngReg) : Dev nD → Valuation τ sig (Elt F) := fun c => StableHlo.after hostOps4 (W9 m ρ c)
/-- The contents region 4 is entered from, read at the TensorCore's references. -/
abbrev Vin4 (m : (ℓ : Loc nD τ sig) → Buf (Elt F) ℓ) (ρ : Dev nD → PrngReg) : (c : Dev nD) → (b : Ref sig .tc) → Buf (Elt F) ((c : Thread nD τ).loc b) := fun c b => W10 m ρ c b
/-- At region 4's exit: its arrays at what the pipeline leaves (the inputs as entered, the output's write-backs folded),
    every other buffer as entered. -/
def W11 (m : (ℓ : Loc nD τ sig) → Buf (Elt F) ℓ) (ρ : Dev nD → PrngReg) (c : Dev nD) : Valuation τ sig (Elt F) :=
  Pipeline.withArrays spec4 c (W10 m ρ c) fun w => (dat4 (Vin4 m ρ) c).arrAt w cfg4.N
theorem W11_arr (m : (ℓ : Loc nD τ sig) → Buf (Elt F) ℓ) (ρ : Dev nD → PrngReg) (c : Dev nD) (w : Fin cfg4.W) :
    W11 m ρ c (Proc.devRef .tc (Pipeline.arrRef spec4 w)) = (dat4 (Vin4 m ρ) c).arrAt w cfg4.N := by
  unfold W11; exact Pipeline.withArrays_arr spec4 launch4.win.arr_inj c _ _ w
theorem W11_of_ne (m : (ℓ : Loc nD τ sig) → Buf (Elt F) ℓ) (ρ : Dev nD → PrngReg) (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
/-- The same read at the TensorCore's references (region 4's exit contents). -/
abbrev Vout4 (m : (ℓ : Loc nD τ sig) → Buf (Elt F) ℓ) (ρ : Dev nD → PrngReg) : (c : Dev nD) → (b : Ref sig .tc) → Buf (Elt F) ((c : Thread nD τ).loc b) := fun c b => W11 m ρ c b
/-- At region 4's exit each of its arrays holds what the pipeline leaves, and every other buffer what it held at entry. -/
theorem hF4 (m : (ℓ : Loc nD τ sig) → Buf (Elt F) ℓ) (ρ : Dev nD → PrngReg) (c : Dev nD) (w : Fin cfg4.W) : (dat4 (Vin4 m ρ) c).arrAt w cfg4.N = Vout4 m ρ c (Pipeline.arrRef spec4 w) :=
  (W11_arr m ρ c w).symm
theorem hrest4 (m : (ℓ : Loc nD τ sig) → Buf (Elt F) ℓ) (ρ : Dev nD → PrngReg) (c : Dev nD) : ∀ b, b ∉ Finset.univ.image (Pipeline.arrRef spec4) → Vout4 m ρ c b = Vin4 m ρ c b :=
  fun b hb => W11_of_ne m ρ c b fun w e => hb (Finset.mem_image.mpr ⟨w, Finset.mem_univ _, e⟩)
/-- Region 4 changes only its output array `main_v56`: an input array is read, never written back, and no other
    buffer is touched. -/
theorem W11_keep (m : (ℓ : Loc nD τ sig) → Buf (Elt F) ℓ) (ρ : Dev nD → PrngReg) (c : Dev nD) (b : Ref sig .tc) (hb : b ≠ main_v56) :
    W11 m ρ c (Proc.devRef .tc b) = W10 m ρ c (Proc.devRef .tc b) := by
  by_cases h : ∃ w, Pipeline.arrRef spec4 w = b
  · obtain ⟨w, rfl⟩ := h
    have hin : (cfg4.win w).isOut = false := by
      revert hb; revert w; decide
    rw [W11_arr, (dat4 (Vin4 m ρ) c).arrAt_in w hin, A_eq4]
  · exact W11_of_ne m ρ c b fun w e => h ⟨w, e⟩
/-- After the host stretch `hostOps5`. -/
abbrev W12 (m : (ℓ : Loc nD τ sig) → Buf (Elt F) ℓ) (ρ : Dev nD → PrngReg) : Dev nD → Valuation τ sig (Elt F) := fun c => StableHlo.after hostOps5 (W11 m ρ c)
/-- The contents region 5 is entered from, read at the TensorCore's references. -/
abbrev Vin5 (m : (ℓ : Loc nD τ sig) → Buf (Elt F) ℓ) (ρ : Dev nD → PrngReg) : (c : Dev nD) → (b : Ref sig .tc) → Buf (Elt F) ((c : Thread nD τ).loc b) := fun c b => W12 m ρ c b
/-- At region 5's exit: its arrays at what the pipeline leaves (the inputs as entered, the output's write-backs folded),
    every other buffer as entered. -/
def W13 (m : (ℓ : Loc nD τ sig) → Buf (Elt F) ℓ) (ρ : Dev nD → PrngReg) (c : Dev nD) : Valuation τ sig (Elt F) :=
  Pipeline.withArrays spec5 c (W12 m ρ c) fun w => (dat5 (Vin5 m ρ) c).arrAt w cfg5.N
theorem W13_arr (m : (ℓ : Loc nD τ sig) → Buf (Elt F) ℓ) (ρ : Dev nD → PrngReg) (c : Dev nD) (w : Fin cfg5.W) :
    W13 m ρ c (Proc.devRef .tc (Pipeline.arrRef spec5 w)) = (dat5 (Vin5 m ρ) c).arrAt w cfg5.N := by
  unfold W13; exact Pipeline.withArrays_arr spec5 launch5.win.arr_inj c _ _ w
theorem W13_of_ne (m : (ℓ : Loc nD τ sig) → Buf (Elt F) ℓ) (ρ : Dev nD → PrngReg) (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
/-- The same read at the TensorCore's references (region 5's exit contents). -/
abbrev Vout5 (m : (ℓ : Loc nD τ sig) → Buf (Elt F) ℓ) (ρ : Dev nD → PrngReg) : (c : Dev nD) → (b : Ref sig .tc) → Buf (Elt F) ((c : Thread nD τ).loc b) := fun c b => W13 m ρ c b
/-- At region 5's exit each of its arrays holds what the pipeline leaves, and every other buffer what it held at entry. -/
theorem hF5 (m : (ℓ : Loc nD τ sig) → Buf (Elt F) ℓ) (ρ : Dev nD → PrngReg) (c : Dev nD) (w : Fin cfg5.W) : (dat5 (Vin5 m ρ) c).arrAt w cfg5.N = Vout5 m ρ c (Pipeline.arrRef spec5 w) :=
  (W13_arr m ρ c w).symm
theorem hrest5 (m : (ℓ : Loc nD τ sig) → Buf (Elt F) ℓ) (ρ : Dev nD → PrngReg) (c : Dev nD) : ∀ b, b ∉ Finset.univ.image (Pipeline.arrRef spec5) → Vout5 m ρ c b = Vin5 m ρ c b :=
  fun b hb => W13_of_ne m ρ c b fun w e => hb (Finset.mem_image.mpr ⟨w, Finset.mem_univ _, e⟩)
/-- Region 5 changes only its output array `main_v61`: an input array is read, never written back, and no other
    buffer is touched. -/
theorem W13_keep (m : (ℓ : Loc nD τ sig) → Buf (Elt F) ℓ) (ρ : Dev nD → PrngReg) (c : Dev nD) (b : Ref sig .tc) (hb : b ≠ main_v61) :
    W13 m ρ c (Proc.devRef .tc b) = W12 m ρ c (Proc.devRef .tc b) := by
  by_cases h : ∃ w, Pipeline.arrRef spec5 w = b
  · obtain ⟨w, rfl⟩ := h
    have hin : (cfg5.win w).isOut = false := by
      revert hb; revert w; decide
    rw [W13_arr, (dat5 (Vin5 m ρ) c).arrAt_in w hin, A_eq5]
  · exact W13_of_ne m ρ c b fun w e => h ⟨w, e⟩
/-- The contents region 6 is entered from, read at the TensorCore's references. -/
abbrev Vin6 (m : (ℓ : Loc nD τ sig) → Buf (Elt F) ℓ) (ρ : Dev nD → PrngReg) : (c : Dev nD) → (b : Ref sig .tc) → Buf (Elt F) ((c : Thread nD τ).loc b) := fun c b => W13 m ρ c b
/-- At region 6's exit: its arrays at what the pipeline leaves (the inputs as entered, the output's write-backs folded),
    every other buffer as entered. -/
def W14 (m : (ℓ : Loc nD τ sig) → Buf (Elt F) ℓ) (ρ : Dev nD → PrngReg) (c : Dev nD) : Valuation τ sig (Elt F) :=
  Pipeline.withArrays spec6 c (W13 m ρ c) fun w => (dat6 (Vin6 m ρ) c).arrAt w cfg6.N
theorem W14_arr (m : (ℓ : Loc nD τ sig) → Buf (Elt F) ℓ) (ρ : Dev nD → PrngReg) (c : Dev nD) (w : Fin cfg6.W) :
    W14 m ρ c (Proc.devRef .tc (Pipeline.arrRef spec6 w)) = (dat6 (Vin6 m ρ) c).arrAt w cfg6.N := by
  unfold W14; exact Pipeline.withArrays_arr spec6 launch6.win.arr_inj c _ _ w
theorem W14_of_ne (m : (ℓ : Loc nD τ sig) → Buf (Elt F) ℓ) (ρ : Dev nD → PrngReg) (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev Vout6 (m : (ℓ : Loc nD τ sig) → Buf (Elt F) ℓ) (ρ : Dev nD → PrngReg) : (c : Dev nD) → (b : Ref sig .tc) → Buf (Elt F) ((c : Thread nD τ).loc b) := fun c b => W14 m ρ c b
/-- At region 6's exit each of its arrays holds what the pipeline leaves, and every other buffer what it held at entry. -/
theorem hF6 (m : (ℓ : Loc nD τ sig) → Buf (Elt F) ℓ) (ρ : Dev nD → PrngReg) (c : Dev nD) (w : Fin cfg6.W) : (dat6 (Vin6 m ρ) c).arrAt w cfg6.N = Vout6 m ρ c (Pipeline.arrRef spec6 w) :=
  (W14_arr m ρ c w).symm
theorem hrest6 (m : (ℓ : Loc nD τ sig) → Buf (Elt F) ℓ) (ρ : Dev nD → PrngReg) (c : Dev nD) : ∀ b, b ∉ Finset.univ.image (Pipeline.arrRef spec6) → Vout6 m ρ c b = Vin6 m ρ c b :=
  fun b hb => W14_of_ne m ρ c b fun w e => hb (Finset.mem_image.mpr ⟨w, Finset.mem_univ _, e⟩)
/-- Region 6 changes only its output array `main_v62`: an input array is read, never written back, and no other
    buffer is touched. -/
theorem W14_keep (m : (ℓ : Loc nD τ sig) → Buf (Elt F) ℓ) (ρ : Dev nD → PrngReg) (c : Dev nD) (b : Ref sig .tc) (hb : b ≠ main_v62) :
    W14 m ρ c (Proc.devRef .tc b) = W13 m ρ c (Proc.devRef .tc b) := by
  by_cases h : ∃ w, Pipeline.arrRef spec6 w = b
  · obtain ⟨w, rfl⟩ := h
    have hin : (cfg6.win w).isOut = false := by
      revert hb; revert w; decide
    rw [W14_arr, (dat6 (Vin6 m ρ) c).arrAt_in w hin, A_eq6]
  · exact W14_of_ne m ρ c b fun w e => h ⟨w, e⟩
/-- After the host stretch `hostOps7`. -/
abbrev W15 (m : (ℓ : Loc nD τ sig) → Buf (Elt F) ℓ) (ρ : Dev nD → PrngReg) : Dev nD → Valuation τ sig (Elt F) := fun c => StableHlo.after hostOps7 (W14 m ρ c)
/-- The contents region 7 is entered from, read at the TensorCore's references. -/
abbrev Vin7 (m : (ℓ : Loc nD τ sig) → Buf (Elt F) ℓ) (ρ : Dev nD → PrngReg) : (c : Dev nD) → (b : Ref sig .tc) → Buf (Elt F) ((c : Thread nD τ).loc b) := fun c b => W15 m ρ c b
/-- At region 7's exit: its arrays at what the pipeline leaves (the inputs as entered, the output's write-backs folded),
    every other buffer as entered. -/
def W16 (m : (ℓ : Loc nD τ sig) → Buf (Elt F) ℓ) (ρ : Dev nD → PrngReg) (c : Dev nD) : Valuation τ sig (Elt F) :=
  Pipeline.withArrays spec7 c (W15 m ρ c) fun w => (dat7 (Vin7 m ρ) c).arrAt w cfg7.N
theorem W16_arr (m : (ℓ : Loc nD τ sig) → Buf (Elt F) ℓ) (ρ : Dev nD → PrngReg) (c : Dev nD) (w : Fin cfg7.W) :
    W16 m ρ c (Proc.devRef .tc (Pipeline.arrRef spec7 w)) = (dat7 (Vin7 m ρ) c).arrAt w cfg7.N := by
  unfold W16; exact Pipeline.withArrays_arr spec7 launch7.win.arr_inj c _ _ w
theorem W16_of_ne (m : (ℓ : Loc nD τ sig) → Buf (Elt F) ℓ) (ρ : Dev nD → PrngReg) (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev Vout7 (m : (ℓ : Loc nD τ sig) → Buf (Elt F) ℓ) (ρ : Dev nD → PrngReg) : (c : Dev nD) → (b : Ref sig .tc) → Buf (Elt F) ((c : Thread nD τ).loc b) := fun c b => W16 m ρ c b
/-- At region 7's exit each of its arrays holds what the pipeline leaves, and every other buffer what it held at entry. -/
theorem hF7 (m : (ℓ : Loc nD τ sig) → Buf (Elt F) ℓ) (ρ : Dev nD → PrngReg) (c : Dev nD) (w : Fin cfg7.W) : (dat7 (Vin7 m ρ) c).arrAt w cfg7.N = Vout7 m ρ c (Pipeline.arrRef spec7 w) :=
  (W16_arr m ρ c w).symm
theorem hrest7 (m : (ℓ : Loc nD τ sig) → Buf (Elt F) ℓ) (ρ : Dev nD → PrngReg) (c : Dev nD) : ∀ b, b ∉ Finset.univ.image (Pipeline.arrRef spec7) → Vout7 m ρ c b = Vin7 m ρ c b :=
  fun b hb => W16_of_ne m ρ c b fun w e => hb (Finset.mem_image.mpr ⟨w, Finset.mem_univ _, e⟩)
/-- Region 7 changes only its output array `main_v71`: an input array is read, never written back, and no other
    buffer is touched. -/
theorem W16_keep (m : (ℓ : Loc nD τ sig) → Buf (Elt F) ℓ) (ρ : Dev nD → PrngReg) (c : Dev nD) (b : Ref sig .tc) (hb : b ≠ main_v71) :
    W16 m ρ c (Proc.devRef .tc b) = W15 m ρ c (Proc.devRef .tc b) := by
  by_cases h : ∃ w, Pipeline.arrRef spec7 w = b
  · obtain ⟨w, rfl⟩ := h
    have hin : (cfg7.win w).isOut = false := by
      revert hb; revert w; decide
    rw [W16_arr, (dat7 (Vin7 m ρ) c).arrAt_in w hin, A_eq7]
  · exact W16_of_ne m ρ c b fun w e => h ⟨w, e⟩
/-- After the host stretch `hostOps8`. -/
abbrev W17 (m : (ℓ : Loc nD τ sig) → Buf (Elt F) ℓ) (ρ : Dev nD → PrngReg) : Dev nD → Valuation τ sig (Elt F) := fun c => StableHlo.after hostOps8 (W16 m ρ c)
/-- The contents region 8 is entered from, read at the TensorCore's references. -/
abbrev Vin8 (m : (ℓ : Loc nD τ sig) → Buf (Elt F) ℓ) (ρ : Dev nD → PrngReg) : (c : Dev nD) → (b : Ref sig .tc) → Buf (Elt F) ((c : Thread nD τ).loc b) := fun c b => W17 m ρ c b
/-- At region 8's exit: its arrays at what the pipeline leaves (the inputs as entered, the output's write-backs folded),
    every other buffer as entered. -/
def W18 (m : (ℓ : Loc nD τ sig) → Buf (Elt F) ℓ) (ρ : Dev nD → PrngReg) (c : Dev nD) : Valuation τ sig (Elt F) :=
  Pipeline.withArrays spec8 c (W17 m ρ c) fun w => (dat8 (Vin8 m ρ) c).arrAt w cfg8.N
theorem W18_arr (m : (ℓ : Loc nD τ sig) → Buf (Elt F) ℓ) (ρ : Dev nD → PrngReg) (c : Dev nD) (w : Fin cfg8.W) :
    W18 m ρ c (Proc.devRef .tc (Pipeline.arrRef spec8 w)) = (dat8 (Vin8 m ρ) c).arrAt w cfg8.N := by
  unfold W18; exact Pipeline.withArrays_arr spec8 launch8.win.arr_inj c _ _ w
theorem W18_of_ne (m : (ℓ : Loc nD τ sig) → Buf (Elt F) ℓ) (ρ : Dev nD → PrngReg) (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev Vout8 (m : (ℓ : Loc nD τ sig) → Buf (Elt F) ℓ) (ρ : Dev nD → PrngReg) : (c : Dev nD) → (b : Ref sig .tc) → Buf (Elt F) ((c : Thread nD τ).loc b) := fun c b => W18 m ρ c b
/-- At region 8's exit each of its arrays holds what the pipeline leaves, and every other buffer what it held at entry. -/
theorem hF8 (m : (ℓ : Loc nD τ sig) → Buf (Elt F) ℓ) (ρ : Dev nD → PrngReg) (c : Dev nD) (w : Fin cfg8.W) : (dat8 (Vin8 m ρ) c).arrAt w cfg8.N = Vout8 m ρ c (Pipeline.arrRef spec8 w) :=
  (W18_arr m ρ c w).symm
theorem hrest8 (m : (ℓ : Loc nD τ sig) → Buf (Elt F) ℓ) (ρ : Dev nD → PrngReg) (c : Dev nD) : ∀ b, b ∉ Finset.univ.image (Pipeline.arrRef spec8) → Vout8 m ρ c b = Vin8 m ρ c b :=
  fun b hb => W18_of_ne m ρ c b fun w e => hb (Finset.mem_image.mpr ⟨w, Finset.mem_univ _, e⟩)
/-- Region 8 changes only its output array `main_v76`: an input array is read, never written back, and no other
    buffer is touched. -/
theorem W18_keep (m : (ℓ : Loc nD τ sig) → Buf (Elt F) ℓ) (ρ : Dev nD → PrngReg) (c : Dev nD) (b : Ref sig .tc) (hb : b ≠ main_v76) :
    W18 m ρ c (Proc.devRef .tc b) = W17 m ρ c (Proc.devRef .tc b) := by
  by_cases h : ∃ w, Pipeline.arrRef spec8 w = b
  · obtain ⟨w, rfl⟩ := h
    have hin : (cfg8.win w).isOut = false := by
      revert hb; revert w; decide
    rw [W18_arr, (dat8 (Vin8 m ρ) c).arrAt_in w hin, A_eq8]
  · exact W18_of_ne m ρ c b fun w e => h ⟨w, e⟩
/-- After the host stretch `hostOps9`. -/
abbrev W19 (m : (ℓ : Loc nD τ sig) → Buf (Elt F) ℓ) (ρ : Dev nD → PrngReg) : Dev nD → Valuation τ sig (Elt F) := fun c => StableHlo.after hostOps9 (W18 m ρ c)
/-- After the host stretch `hostOps9_1`. -/
abbrev W20 (m : (ℓ : Loc nD τ sig) → Buf (Elt F) ℓ) (ρ : Dev nD → PrngReg) : Dev nD → Valuation τ sig (Elt F) := fun c => StableHlo.after hostOps9_1 (W19 m ρ c)
/-- After the host stretch `hostOps9_2`. -/
abbrev W21 (m : (ℓ : Loc nD τ sig) → Buf (Elt F) ℓ) (ρ : Dev nD → PrngReg) : Dev nD → Valuation τ sig (Elt F) := fun c => StableHlo.after hostOps9_2 (W20 m ρ c)
/-- After the host stretch `hostOps9_3`. -/
abbrev W22 (m : (ℓ : Loc nD τ sig) → Buf (Elt F) ℓ) (ρ : Dev nD → PrngReg) : Dev nD → Valuation τ sig (Elt F) := fun c => StableHlo.after hostOps9_3 (W21 m ρ c)
/-- After the host stretch `hostOps9_4`. -/
abbrev W23 (m : (ℓ : Loc nD τ sig) → Buf (Elt F) ℓ) (ρ : Dev nD → PrngReg) : Dev nD → Valuation τ sig (Elt F) := fun c => StableHlo.after hostOps9_4 (W22 m ρ c)
/-- The contents region 9 is entered from, read at the TensorCore's references. -/
abbrev Vin9 (m : (ℓ : Loc nD τ sig) → Buf (Elt F) ℓ) (ρ : Dev nD → PrngReg) : (c : Dev nD) → (b : Ref sig .tc) → Buf (Elt F) ((c : Thread nD τ).loc b) := fun c b => W23 m ρ c b
/-- At region 9's exit: its arrays at what the pipeline leaves (the inputs as entered, the output's write-backs folded),
    every other buffer as entered. -/
def W24 (m : (ℓ : Loc nD τ sig) → Buf (Elt F) ℓ) (ρ : Dev nD → PrngReg) (c : Dev nD) : Valuation τ sig (Elt F) :=
  Pipeline.withArrays spec9 c (W23 m ρ c) fun w => (dat9 (Vin9 m ρ) c).arrAt w cfg9.N
theorem W24_arr (m : (ℓ : Loc nD τ sig) → Buf (Elt F) ℓ) (ρ : Dev nD → PrngReg) (c : Dev nD) (w : Fin cfg9.W) :
    W24 m ρ c (Proc.devRef .tc (Pipeline.arrRef spec9 w)) = (dat9 (Vin9 m ρ) c).arrAt w cfg9.N := by
  unfold W24; exact Pipeline.withArrays_arr spec9 launch9.win.arr_inj c _ _ w
theorem W24_of_ne (m : (ℓ : Loc nD τ sig) → Buf (Elt F) ℓ) (ρ : Dev nD → PrngReg) (c : Dev nD) (b : Ref sig .tc) (hb : ∀ w, Pipeline.arrRef spec9 w ≠ b) :
    W24 m ρ c (Proc.devRef .tc b) = W23 m ρ c (Proc.devRef .tc b) := by
  unfold W24; exact Pipeline.withArrays_of_ne spec9 c _ _ b hb
/-- The same read at the TensorCore's references (region 9's exit contents). -/
abbrev Vout9 (m : (ℓ : Loc nD τ sig) → Buf (Elt F) ℓ) (ρ : Dev nD → PrngReg) : (c : Dev nD) → (b : Ref sig .tc) → Buf (Elt F) ((c : Thread nD τ).loc b) := fun c b => W24 m ρ c b
/-- At region 9's exit each of its arrays holds what the pipeline leaves, and every other buffer what it held at entry. -/
theorem hF9 (m : (ℓ : Loc nD τ sig) → Buf (Elt F) ℓ) (ρ : Dev nD → PrngReg) (c : Dev nD) (w : Fin cfg9.W) : (dat9 (Vin9 m ρ) c).arrAt w cfg9.N = Vout9 m ρ c (Pipeline.arrRef spec9 w) :=
  (W24_arr m ρ c w).symm
theorem hrest9 (m : (ℓ : Loc nD τ sig) → Buf (Elt F) ℓ) (ρ : Dev nD → PrngReg) (c : Dev nD) : ∀ b, b ∉ Finset.univ.image (Pipeline.arrRef spec9) → Vout9 m ρ c b = Vin9 m ρ c b :=
  fun b hb => W24_of_ne m ρ c b fun w e => hb (Finset.mem_image.mpr ⟨w, Finset.mem_univ _, e⟩)
/-- Region 9 changes only its output array `main_v83`: an input array is read, never written back, and no other
    buffer is touched. -/
theorem W24_keep (m : (ℓ : Loc nD τ sig) → Buf (Elt F) ℓ) (ρ : Dev nD → PrngReg) (c : Dev nD) (b : Ref sig .tc) (hb : b ≠ main_v83) :
    W24 m ρ c (Proc.devRef .tc b) = W23 m ρ c (Proc.devRef .tc b) := by
  by_cases h : ∃ w, Pipeline.arrRef spec9 w = b
  · obtain ⟨w, rfl⟩ := h
    have hin : (cfg9.win w).isOut = false := by
      revert hb; revert w; decide
    rw [W24_arr, (dat9 (Vin9 m ρ) c).arrAt_in w hin, A_eq9]
  · exact W24_of_ne m ρ c b fun w e => h ⟨w, e⟩
/-- After the host stretch `hostOps10`. -/
abbrev W25 (m : (ℓ : Loc nD τ sig) → Buf (Elt F) ℓ) (ρ : Dev nD → PrngReg) : Dev nD → Valuation τ sig (Elt F) := fun c => StableHlo.after hostOps10 (W24 m ρ c)
/-- The contents region 10 is entered from, read at the TensorCore's references. -/
abbrev Vin10 (m : (ℓ : Loc nD τ sig) → Buf (Elt F) ℓ) (ρ : Dev nD → PrngReg) : (c : Dev nD) → (b : Ref sig .tc) → Buf (Elt F) ((c : Thread nD τ).loc b) := fun c b => W25 m ρ c b
/-- At region 10's exit: its arrays at what the pipeline leaves (the inputs as entered, the output's write-backs folded),
    every other buffer as entered. -/
def W26 (m : (ℓ : Loc nD τ sig) → Buf (Elt F) ℓ) (ρ : Dev nD → PrngReg) (c : Dev nD) : Valuation τ sig (Elt F) :=
  Pipeline.withArrays spec10 c (W25 m ρ c) fun w => (dat10 (Vin10 m ρ) c).arrAt w cfg10.N
theorem W26_arr (m : (ℓ : Loc nD τ sig) → Buf (Elt F) ℓ) (ρ : Dev nD → PrngReg) (c : Dev nD) (w : Fin cfg10.W) :
    W26 m ρ c (Proc.devRef .tc (Pipeline.arrRef spec10 w)) = (dat10 (Vin10 m ρ) c).arrAt w cfg10.N := by
  unfold W26; exact Pipeline.withArrays_arr spec10 launch10.win.arr_inj c _ _ w
theorem W26_of_ne (m : (ℓ : Loc nD τ sig) → Buf (Elt F) ℓ) (ρ : Dev nD → PrngReg) (c : Dev nD) (b : Ref sig .tc) (hb : ∀ w, Pipeline.arrRef spec10 w ≠ b) :
    W26 m ρ c (Proc.devRef .tc b) = W25 m ρ c (Proc.devRef .tc b) := by
  unfold W26; exact Pipeline.withArrays_of_ne spec10 c _ _ b hb
/-- The same read at the TensorCore's references (region 10's exit contents). -/
abbrev Vout10 (m : (ℓ : Loc nD τ sig) → Buf (Elt F) ℓ) (ρ : Dev nD → PrngReg) : (c : Dev nD) → (b : Ref sig .tc) → Buf (Elt F) ((c : Thread nD τ).loc b) := fun c b => W26 m ρ c b
/-- At region 10's exit each of its arrays holds what the pipeline leaves, and every other buffer what it held at entry. -/
theorem hF10 (m : (ℓ : Loc nD τ sig) → Buf (Elt F) ℓ) (ρ : Dev nD → PrngReg) (c : Dev nD) (w : Fin cfg10.W) : (dat10 (Vin10 m ρ) c).arrAt w cfg10.N = Vout10 m ρ c (Pipeline.arrRef spec10 w) :=
  (W26_arr m ρ c w).symm
theorem hrest10 (m : (ℓ : Loc nD τ sig) → Buf (Elt F) ℓ) (ρ : Dev nD → PrngReg) (c : Dev nD) : ∀ b, b ∉ Finset.univ.image (Pipeline.arrRef spec10) → Vout10 m ρ c b = Vin10 m ρ c b :=
  fun b hb => W26_of_ne m ρ c b fun w e => hb (Finset.mem_image.mpr ⟨w, Finset.mem_univ _, e⟩)
/-- Region 10 changes only its output array `main_v87`: an input array is read, never written back, and no other
    buffer is touched. -/
theorem W26_keep (m : (ℓ : Loc nD τ sig) → Buf (Elt F) ℓ) (ρ : Dev nD → PrngReg) (c : Dev nD) (b : Ref sig .tc) (hb : b ≠ main_v87) :
    W26 m ρ c (Proc.devRef .tc b) = W25 m ρ c (Proc.devRef .tc b) := by
  by_cases h : ∃ w, Pipeline.arrRef spec10 w = b
  · obtain ⟨w, rfl⟩ := h
    have hin : (cfg10.win w).isOut = false := by
      revert hb; revert w; decide
    rw [W26_arr, (dat10 (Vin10 m ρ) c).arrAt_in w hin, A_eq10]
  · exact W26_of_ne m ρ c b fun w e => h ⟨w, e⟩

/-! ## The proof data of every pipeline and the thread state -/

/-- Every pipeline's proof data, each at its region's entry contents — a literal `match`, so that the configuration
    pinned at a numeral reduces to the printed one. -/
def pdats (m : (ℓ : Loc nD τ sig) → Buf (Elt F) ℓ) (ρ : Dev nD → PrngReg) : (p : Fin 11) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
  | ⟨7, _⟩ => fun c => dat7 (Vin7 m ρ) c
  | ⟨8, _⟩ => fun c => dat8 (Vin8 m ρ) c
  | ⟨9, _⟩ => fun c => dat9 (Vin9 m ρ) c
  | ⟨10, _⟩ => fun c => dat10 (Vin10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (m : (ℓ : Loc nD τ sig) → Buf (Elt F) ℓ) (ρ : Dev nD → PrngReg) (c : Dev nD) : sProp 𝕄 := iprop(StableHlo.held (c : Thread nD τ) (Pipeline.ucRefs τ sig) (W26 m ρ c) ∗ ∃ r, prngReg c r)

/-! ## The regions as segments -/

set_option backward.isDefEq.respectTransparency.types false in
/-- Region 0 (custom call 0) over the thread state: entered from every unscoped buffer at the contents of boundary 3,
    left at those of boundary 4. Its arrays are split out of the unscoped buffers and put back at the exit contents; the
    generator register goes into the region invariant and comes back; nothing is owed; the kernel has no semaphore of its own. -/
def reg0 (m : (ℓ : Loc nD τ sig) → Buf (Elt F) ℓ) (ρ : Dev nD → PrngReg) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom call 1) over the thread state: entered from every unscoped buffer at the contents of boundary 5,
    left at those of boundary 6. Its arrays are split out of the unscoped buffers and put back at the exit contents; the
    generator register goes into the region invariant and comes back; nothing is owed; the kernel has no semaphore of its own. -/
def reg1 (m : (ℓ : Loc nD τ sig) → Buf (Elt F) ℓ) (ρ : Dev nD → PrngReg) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (custom call 2) over the thread state: entered from every unscoped buffer at the contents of boundary 7,
    left at those of boundary 8. Its arrays are split out of the unscoped buffers and put back at the exit contents; the
    generator register goes into the region invariant and comes back; nothing is owed; the kernel has no semaphore of its own. -/
def reg2 (m : (ℓ : Loc nD τ sig) → Buf (Elt F) ℓ) (ρ : Dev nD → PrngReg) : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (custom call 3) over the thread state: entered from every unscoped buffer at the contents of boundary 8,
    left at those of boundary 9. Its arrays are split out of the unscoped buffers and put back at the exit contents; the
    generator register goes into the region invariant and comes back; nothing is owed; the kernel has no semaphore of its own. -/
def reg3 (m : (ℓ : Loc nD τ sig) → Buf (Elt F) ℓ) (ρ : Dev nD → PrngReg) : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (custom call 4) over the thread state: entered from every unscoped buffer at the contents of boundary 10,
    left at those of boundary 11. Its arrays are split out of the unscoped buffers and put back at the exit contents; the
    generator register goes into the region invariant and comes back; nothing is owed; the kernel has no semaphore of its own. -/
def reg4 (m : (ℓ : Loc nD τ sig) → Buf (Elt F) ℓ) (ρ : Dev nD → PrngReg) : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 (custom call 5) over the thread state: entered from every unscoped buffer at the contents of boundary 12,
    left at those of boundary 13. Its arrays are split out of the unscoped buffers and put back at the exit contents; the
    generator register goes into the region invariant and comes back; nothing is owed; the kernel has no semaphore of its own. -/
def reg5 (m : (ℓ : Loc nD τ sig) → Buf (Elt F) ℓ) (ρ : Dev nD → PrngReg) : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 (custom call 6) over the thread state: entered from every unscoped buffer at the contents of boundary 13,
    left at those of boundary 14. Its arrays are split out of the unscoped buffers and put back at the exit contents; the
    generator register goes into the region invariant and comes back; nothing is owed; the kernel has no semaphore of its own. -/
def reg6 (m : (ℓ : Loc nD τ sig) → Buf (Elt F) ℓ) (ρ : Dev nD → PrngReg) : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vin6 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (Vin6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vin6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vin6 m ρ c) (Vout6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 (custom call 7) over the thread state: entered from every unscoped buffer at the contents of boundary 15,
    left at those of boundary 16. Its arrays are split out of the unscoped buffers and put back at the exit contents; the
    generator register goes into the region invariant and comes back; nothing is owed; the kernel has no semaphore of its own. -/
def reg7 (m : (ℓ : Loc nD τ sig) → Buf (Elt F) ℓ) (ρ : Dev nD → PrngReg) : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vin7 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (Vin7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vin7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vin7 m ρ c) (Vout7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 (custom call 8) over the thread state: entered from every unscoped buffer at the contents of boundary 17,
    left at those of boundary 18. Its arrays are split out of the unscoped buffers and put back at the exit contents; the
    generator register goes into the region invariant and comes back; nothing is owed; the kernel has no semaphore of its own. -/
def reg8 (m : (ℓ : Loc nD τ sig) → Buf (Elt F) ℓ) (ρ : Dev nD → PrngReg) : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vin8 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (Vin8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vin8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vin8 m ρ c) (Vout8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 (custom call 9) over the thread state: entered from every unscoped buffer at the contents of boundary 23,
    left at those of boundary 24. Its arrays are split out of the unscoped buffers and put back at the exit contents; the
    generator register goes into the region invariant and comes back; nothing is owed; the kernel has no semaphore of its own. -/
def reg9 (m : (ℓ : Loc nD τ sig) → Buf (Elt F) ℓ) (ρ : Dev nD → PrngReg) : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vin9 m ρ) c).loose
  hwaits := Pipeline.hwaits_of_owed_zero _ _ _ _ L lv 9 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec9 c (Vin9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vin9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vin9 m ρ c) (Vout9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 (custom call 10) over the thread state: entered from every unscoped buffer at the contents of boundary 25,
    left at those of boundary 26. Its arrays are split out of the unscoped buffers and put back at the exit contents; the
    generator register goes into the region invariant and comes back; nothing is owed; the kernel has no semaphore of its own. -/
def reg10 (m : (ℓ : Loc nD τ sig) → Buf (Elt F) ℓ) (ρ : Dev nD → PrngReg) : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vin10 m ρ) c).loose
  hwaits := Pipeline.hwaits_of_owed_zero _ _ _ _ L lv 10 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec10 c (Vin10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vin10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (Vin10 m ρ) c).Φ 0 from rfl]
    iintro ⟨Hp, -, Hr⟩
    iapply (Φ10_in (Vin10 m ρ) c)
    isplitl [Hp]; · iexact Hp
    iexact Hr
  hout c := by
    rw [Pipeline.ownSems0_none, show (pdats m ρ 10 c).Φ (Fin.last _) = (dat10 (Vin10 m ρ) c).Φ (Fin.last cfg10.N) from rfl]
    refine (Φ10_out (Vin10 m ρ) c).trans ?_
    iintro ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vin10 m ρ c) (Vout10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 26 items in order: a host segment per stretch from its boundary's contents, a region per kernel call. -/
abbrev runSegs (m : (ℓ : Loc nD τ sig) → Buf (Elt F) ℓ) (ρ : Dev nD → PrngReg) : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .host (hseg hostOps9_1 hostOps9_1_sub hostOps9_1_fresh (W19 m ρ)),
    .host (hseg hostOps9_2 hostOps9_2_sub hostOps9_2_fresh (W20 m ρ)),
    .host (hseg hostOps9_3 hostOps9_3_sub hostOps9_3_fresh (W21 m ρ)),
    .host (hseg hostOps9_4 hostOps9_4_sub hostOps9_4_fresh (W22 m ρ)),
    .region (reg9 m ρ),
    .host (hseg hostOps10 hostOps10_sub hostOps10_fresh (W24 m ρ)),
    .region (reg10 m ρ) ]

set_option backward.isDefEq.respectTransparency.types false in
/-- The run, for any property `Q` of the final state that follows from every unscoped buffer holding the last boundary's
    contents: from any memory with zero counters, every weakly fair execution of the program on the TensorCores terminates,
    nothing faulting, and every final state satisfies `Q`. The launch theorem over the segments; the last thread state is read
    against the final state. -/
theorem run_gen (m : (ℓ : Loc nD τ sig) → Buf (Elt F) ℓ) (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W26 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (runSegs m ρ)
    (fun c Q => by
      rewrite [main_chain c, Pipeline.Seg.run_eq_chain,
        show (runSegs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          Prog.lift (.customCall (Pipeline.entry 9) ()),
          StableHlo.seq hostOps10,
          Prog.lift (.customCall (Pipeline.entry 10) ()) ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show (iprop(StableHlo.held (c : Thread nD τ) (Pipeline.ucRefs τ sig) (W26 m ρ c)
            ∗ (∃ r, prngReg c r) ∗ ∃ W, owes (c : Thread nD τ) (0 : CellTallies nD τ sig Unit) W) : sProp 𝕄)
          ⊢ iprop((StableHlo.held (c : Thread nD τ) (Pipeline.ucRefs τ sig) (W26 m ρ c) ∗ ∃ r, prngReg c r)
            ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := hQ)

/-- The run with the whole reading kept: every final state holds every unscoped buffer at the last boundary's contents. -/
theorem run_all (m : (ℓ : Loc nD τ sig) → Buf (Elt F) ℓ) (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W26 m ρ c b) :=
  run_gen m ρ fun _ h => h

/-! ## The arguments end as launched: no host stretch writes one and a region changes only its output array, so the fold at
    an argument's buffer walks back to the launch memory -/

theorem W26_main_arg0 (m : (ℓ : Loc nD τ sig) → Buf (Elt F) ℓ) (ρ : Dev nD → PrngReg) (c : Dev nD) : W26 m ρ c (Proc.devRef .tc main_arg0) = m ((c : Thread nD τ).loc main_arg0) :=
  calc W26 m ρ c (Proc.devRef .tc main_arg0)
    _ = W25 m ρ c (Proc.devRef .tc main_arg0) := W26_keep m ρ c main_arg0 (by decide)
    _ = W24 m ρ c (Proc.devRef .tc main_arg0) := StableHlo.after_of_writes_sub hostOps10 _ hostOps10_writes (by decide)
    _ = W23 m ρ c (Proc.devRef .tc main_arg0) := W24_keep m ρ c main_arg0 (by decide)
    _ = W22 m ρ c (Proc.devRef .tc main_arg0) := StableHlo.after_of_writes_sub hostOps9_4 _ hostOps9_4_writes (by decide)
    _ = W21 m ρ c (Proc.devRef .tc main_arg0) := StableHlo.after_of_writes_sub hostOps9_3 _ hostOps9_3_writes (by decide)
    _ = W20 m ρ c (Proc.devRef .tc main_arg0) := StableHlo.after_of_writes_sub hostOps9_2 _ hostOps9_2_writes (by decide)
    _ = W19 m ρ c (Proc.devRef .tc main_arg0) := StableHlo.after_of_writes_sub hostOps9_1 _ hostOps9_1_writes (by decide)
    _ = W18 m ρ c (Proc.devRef .tc main_arg0) := StableHlo.after_of_writes_sub hostOps9 _ hostOps9_writes (by decide)
    _ = W17 m ρ c (Proc.devRef .tc main_arg0) := W18_keep m ρ c main_arg0 (by decide)
    _ = W16 m ρ c (Proc.devRef .tc main_arg0) := StableHlo.after_of_writes_sub hostOps8 _ hostOps8_writes (by decide)
    _ = W15 m ρ c (Proc.devRef .tc main_arg0) := W16_keep m ρ c main_arg0 (by decide)
    _ = W14 m ρ c (Proc.devRef .tc main_arg0) := StableHlo.after_of_writes_sub hostOps7 _ hostOps7_writes (by decide)
    _ = W13 m ρ c (Proc.devRef .tc main_arg0) := W14_keep m ρ c main_arg0 (by decide)
    _ = W12 m ρ c (Proc.devRef .tc main_arg0) := W13_keep m ρ c main_arg0 (by decide)
    _ = W11 m ρ c (Proc.devRef .tc main_arg0) := StableHlo.after_of_writes_sub hostOps5 _ hostOps5_writes (by decide)
    _ = W10 m ρ c (Proc.devRef .tc main_arg0) := W11_keep m ρ c main_arg0 (by decide)
    _ = W9 m ρ c (Proc.devRef .tc main_arg0) := StableHlo.after_of_writes_sub hostOps4 _ hostOps4_writes (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := StableHlo.after_of_writes_sub hostOps2 _ hostOps2_writes (by decide)
    _ = W5 m ρ c (Proc.devRef .tc main_arg0) := W6_keep m ρ c main_arg0 (by decide)
    _ = W4 m ρ c (Proc.devRef .tc main_arg0) := StableHlo.after_of_writes_sub hostOps1 _ hostOps1_writes (by decide)
    _ = W3 m ρ c (Proc.devRef .tc main_arg0) := W4_keep m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W26_main_arg1 (m : (ℓ : Loc nD τ sig) → Buf (Elt F) ℓ) (ρ : Dev nD → PrngReg) (c : Dev nD) : W26 m ρ c (Proc.devRef .tc main_arg1) = m ((c : Thread nD τ).loc main_arg1) :=
  calc W26 m ρ c (Proc.devRef .tc main_arg1)
    _ = W25 m ρ c (Proc.devRef .tc main_arg1) := W26_keep m ρ c main_arg1 (by decide)
    _ = W24 m ρ c (Proc.devRef .tc main_arg1) := StableHlo.after_of_writes_sub hostOps10 _ hostOps10_writes (by decide)
    _ = W23 m ρ c (Proc.devRef .tc main_arg1) := W24_keep m ρ c main_arg1 (by decide)
    _ = W22 m ρ c (Proc.devRef .tc main_arg1) := StableHlo.after_of_writes_sub hostOps9_4 _ hostOps9_4_writes (by decide)
    _ = W21 m ρ c (Proc.devRef .tc main_arg1) := StableHlo.after_of_writes_sub hostOps9_3 _ hostOps9_3_writes (by decide)
    _ = W20 m ρ c (Proc.devRef .tc main_arg1) := StableHlo.after_of_writes_sub hostOps9_2 _ hostOps9_2_writes (by decide)
    _ = W19 m ρ c (Proc.devRef .tc main_arg1) := StableHlo.after_of_writes_sub hostOps9_1 _ hostOps9_1_writes (by decide)
    _ = W18 m ρ c (Proc.devRef .tc main_arg1) := StableHlo.after_of_writes_sub hostOps9 _ hostOps9_writes (by decide)
    _ = W17 m ρ c (Proc.devRef .tc main_arg1) := W18_keep m ρ c main_arg1 (by decide)
    _ = W16 m ρ c (Proc.devRef .tc main_arg1) := StableHlo.after_of_writes_sub hostOps8 _ hostOps8_writes (by decide)
    _ = W15 m ρ c (Proc.devRef .tc main_arg1) := W16_keep m ρ c main_arg1 (by decide)
    _ = W14 m ρ c (Proc.devRef .tc main_arg1) := StableHlo.after_of_writes_sub hostOps7 _ hostOps7_writes (by decide)
    _ = W13 m ρ c (Proc.devRef .tc main_arg1) := W14_keep m ρ c main_arg1 (by decide)
    _ = W12 m ρ c (Proc.devRef .tc main_arg1) := W13_keep m ρ c main_arg1 (by decide)
    _ = W11 m ρ c (Proc.devRef .tc main_arg1) := StableHlo.after_of_writes_sub hostOps5 _ hostOps5_writes (by decide)
    _ = W10 m ρ c (Proc.devRef .tc main_arg1) := W11_keep m ρ c main_arg1 (by decide)
    _ = W9 m ρ c (Proc.devRef .tc main_arg1) := StableHlo.after_of_writes_sub hostOps4 _ hostOps4_writes (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := StableHlo.after_of_writes_sub hostOps2 _ hostOps2_writes (by decide)
    _ = W5 m ρ c (Proc.devRef .tc main_arg1) := W6_keep m ρ c main_arg1 (by decide)
    _ = W4 m ρ c (Proc.devRef .tc main_arg1) := StableHlo.after_of_writes_sub hostOps1 _ hostOps1_writes (by decide)
    _ = W3 m ρ c (Proc.devRef .tc main_arg1) := W4_keep m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W26_main_arg2 (m : (ℓ : Loc nD τ sig) → Buf (Elt F) ℓ) (ρ : Dev nD → PrngReg) (c : Dev nD) : W26 m ρ c (Proc.devRef .tc main_arg2) = m ((c : Thread nD τ).loc main_arg2) :=
  calc W26 m ρ c (Proc.devRef .tc main_arg2)
    _ = W25 m ρ c (Proc.devRef .tc main_arg2) := W26_keep m ρ c main_arg2 (by decide)
    _ = W24 m ρ c (Proc.devRef .tc main_arg2) := StableHlo.after_of_writes_sub hostOps10 _ hostOps10_writes (by decide)
    _ = W23 m ρ c (Proc.devRef .tc main_arg2) := W24_keep m ρ c main_arg2 (by decide)
    _ = W22 m ρ c (Proc.devRef .tc main_arg2) := StableHlo.after_of_writes_sub hostOps9_4 _ hostOps9_4_writes (by decide)
    _ = W21 m ρ c (Proc.devRef .tc main_arg2) := StableHlo.after_of_writes_sub hostOps9_3 _ hostOps9_3_writes (by decide)
    _ = W20 m ρ c (Proc.devRef .tc main_arg2) := StableHlo.after_of_writes_sub hostOps9_2 _ hostOps9_2_writes (by decide)
    _ = W19 m ρ c (Proc.devRef .tc main_arg2) := StableHlo.after_of_writes_sub hostOps9_1 _ hostOps9_1_writes (by decide)
    _ = W18 m ρ c (Proc.devRef .tc main_arg2) := StableHlo.after_of_writes_sub hostOps9 _ hostOps9_writes (by decide)
    _ = W17 m ρ c (Proc.devRef .tc main_arg2) := W18_keep m ρ c main_arg2 (by decide)
    _ = W16 m ρ c (Proc.devRef .tc main_arg2) := StableHlo.after_of_writes_sub hostOps8 _ hostOps8_writes (by decide)
    _ = W15 m ρ c (Proc.devRef .tc main_arg2) := W16_keep m ρ c main_arg2 (by decide)
    _ = W14 m ρ c (Proc.devRef .tc main_arg2) := StableHlo.after_of_writes_sub hostOps7 _ hostOps7_writes (by decide)
    _ = W13 m ρ c (Proc.devRef .tc main_arg2) := W14_keep m ρ c main_arg2 (by decide)
    _ = W12 m ρ c (Proc.devRef .tc main_arg2) := W13_keep m ρ c main_arg2 (by decide)
    _ = W11 m ρ c (Proc.devRef .tc main_arg2) := StableHlo.after_of_writes_sub hostOps5 _ hostOps5_writes (by decide)
    _ = W10 m ρ c (Proc.devRef .tc main_arg2) := W11_keep m ρ c main_arg2 (by decide)
    _ = W9 m ρ c (Proc.devRef .tc main_arg2) := StableHlo.after_of_writes_sub hostOps4 _ hostOps4_writes (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := StableHlo.after_of_writes_sub hostOps2 _ hostOps2_writes (by decide)
    _ = W5 m ρ c (Proc.devRef .tc main_arg2) := W6_keep m ρ c main_arg2 (by decide)
    _ = W4 m ρ c (Proc.devRef .tc main_arg2) := StableHlo.after_of_writes_sub hostOps1 _ hostOps1_writes (by decide)
    _ = W3 m ρ c (Proc.devRef .tc main_arg2) := W4_keep m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W26_main_arg3 (m : (ℓ : Loc nD τ sig) → Buf (Elt F) ℓ) (ρ : Dev nD → PrngReg) (c : Dev nD) : W26 m ρ c (Proc.devRef .tc main_arg3) = m ((c : Thread nD τ).loc main_arg3) :=
  calc W26 m ρ c (Proc.devRef .tc main_arg3)
    _ = W25 m ρ c (Proc.devRef .tc main_arg3) := W26_keep m ρ c main_arg3 (by decide)
    _ = W24 m ρ c (Proc.devRef .tc main_arg3) := StableHlo.after_of_writes_sub hostOps10 _ hostOps10_writes (by decide)
    _ = W23 m ρ c (Proc.devRef .tc main_arg3) := W24_keep m ρ c main_arg3 (by decide)
    _ = W22 m ρ c (Proc.devRef .tc main_arg3) := StableHlo.after_of_writes_sub hostOps9_4 _ hostOps9_4_writes (by decide)
    _ = W21 m ρ c (Proc.devRef .tc main_arg3) := StableHlo.after_of_writes_sub hostOps9_3 _ hostOps9_3_writes (by decide)
    _ = W20 m ρ c (Proc.devRef .tc main_arg3) := StableHlo.after_of_writes_sub hostOps9_2 _ hostOps9_2_writes (by decide)
    _ = W19 m ρ c (Proc.devRef .tc main_arg3) := StableHlo.after_of_writes_sub hostOps9_1 _ hostOps9_1_writes (by decide)
    _ = W18 m ρ c (Proc.devRef .tc main_arg3) := StableHlo.after_of_writes_sub hostOps9 _ hostOps9_writes (by decide)
    _ = W17 m ρ c (Proc.devRef .tc main_arg3) := W18_keep m ρ c main_arg3 (by decide)
    _ = W16 m ρ c (Proc.devRef .tc main_arg3) := StableHlo.after_of_writes_sub hostOps8 _ hostOps8_writes (by decide)
    _ = W15 m ρ c (Proc.devRef .tc main_arg3) := W16_keep m ρ c main_arg3 (by decide)
    _ = W14 m ρ c (Proc.devRef .tc main_arg3) := StableHlo.after_of_writes_sub hostOps7 _ hostOps7_writes (by decide)
    _ = W13 m ρ c (Proc.devRef .tc main_arg3) := W14_keep m ρ c main_arg3 (by decide)
    _ = W12 m ρ c (Proc.devRef .tc main_arg3) := W13_keep m ρ c main_arg3 (by decide)
    _ = W11 m ρ c (Proc.devRef .tc main_arg3) := StableHlo.after_of_writes_sub hostOps5 _ hostOps5_writes (by decide)
    _ = W10 m ρ c (Proc.devRef .tc main_arg3) := W11_keep m ρ c main_arg3 (by decide)
    _ = W9 m ρ c (Proc.devRef .tc main_arg3) := StableHlo.after_of_writes_sub hostOps4 _ hostOps4_writes (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := StableHlo.after_of_writes_sub hostOps2 _ hostOps2_writes (by decide)
    _ = W5 m ρ c (Proc.devRef .tc main_arg3) := W6_keep m ρ c main_arg3 (by decide)
    _ = W4 m ρ c (Proc.devRef .tc main_arg3) := StableHlo.after_of_writes_sub hostOps1 _ hostOps1_writes (by decide)
    _ = W3 m ρ c (Proc.devRef .tc main_arg3) := W4_keep m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W26_main_arg4 (m : (ℓ : Loc nD τ sig) → Buf (Elt F) ℓ) (ρ : Dev nD → PrngReg) (c : Dev nD) : W26 m ρ c (Proc.devRef .tc main_arg4) = m ((c : Thread nD τ).loc main_arg4) :=
  calc W26 m ρ c (Proc.devRef .tc main_arg4)
    _ = W25 m ρ c (Proc.devRef .tc main_arg4) := W26_keep m ρ c main_arg4 (by decide)
    _ = W24 m ρ c (Proc.devRef .tc main_arg4) := StableHlo.after_of_writes_sub hostOps10 _ hostOps10_writes (by decide)
    _ = W23 m ρ c (Proc.devRef .tc main_arg4) := W24_keep m ρ c main_arg4 (by decide)
    _ = W22 m ρ c (Proc.devRef .tc main_arg4) := StableHlo.after_of_writes_sub hostOps9_4 _ hostOps9_4_writes (by decide)
    _ = W21 m ρ c (Proc.devRef .tc main_arg4) := StableHlo.after_of_writes_sub hostOps9_3 _ hostOps9_3_writes (by decide)
    _ = W20 m ρ c (Proc.devRef .tc main_arg4) := StableHlo.after_of_writes_sub hostOps9_2 _ hostOps9_2_writes (by decide)
    _ = W19 m ρ c (Proc.devRef .tc main_arg4) := StableHlo.after_of_writes_sub hostOps9_1 _ hostOps9_1_writes (by decide)
    _ = W18 m ρ c (Proc.devRef .tc main_arg4) := StableHlo.after_of_writes_sub hostOps9 _ hostOps9_writes (by decide)
    _ = W17 m ρ c (Proc.devRef .tc main_arg4) := W18_keep m ρ c main_arg4 (by decide)
    _ = W16 m ρ c (Proc.devRef .tc main_arg4) := StableHlo.after_of_writes_sub hostOps8 _ hostOps8_writes (by decide)
    _ = W15 m ρ c (Proc.devRef .tc main_arg4) := W16_keep m ρ c main_arg4 (by decide)
    _ = W14 m ρ c (Proc.devRef .tc main_arg4) := StableHlo.after_of_writes_sub hostOps7 _ hostOps7_writes (by decide)
    _ = W13 m ρ c (Proc.devRef .tc main_arg4) := W14_keep m ρ c main_arg4 (by decide)
    _ = W12 m ρ c (Proc.devRef .tc main_arg4) := W13_keep m ρ c main_arg4 (by decide)
    _ = W11 m ρ c (Proc.devRef .tc main_arg4) := StableHlo.after_of_writes_sub hostOps5 _ hostOps5_writes (by decide)
    _ = W10 m ρ c (Proc.devRef .tc main_arg4) := W11_keep m ρ c main_arg4 (by decide)
    _ = W9 m ρ c (Proc.devRef .tc main_arg4) := StableHlo.after_of_writes_sub hostOps4 _ hostOps4_writes (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := StableHlo.after_of_writes_sub hostOps2 _ hostOps2_writes (by decide)
    _ = W5 m ρ c (Proc.devRef .tc main_arg4) := W6_keep m ρ c main_arg4 (by decide)
    _ = W4 m ρ c (Proc.devRef .tc main_arg4) := StableHlo.after_of_writes_sub hostOps1 _ hostOps1_writes (by decide)
    _ = W3 m ρ c (Proc.devRef .tc main_arg4) := W4_keep m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W26_main_arg5 (m : (ℓ : Loc nD τ sig) → Buf (Elt F) ℓ) (ρ : Dev nD → PrngReg) (c : Dev nD) : W26 m ρ c (Proc.devRef .tc main_arg5) = m ((c : Thread nD τ).loc main_arg5) :=
  calc W26 m ρ c (Proc.devRef .tc main_arg5)
    _ = W25 m ρ c (Proc.devRef .tc main_arg5) := W26_keep m ρ c main_arg5 (by decide)
    _ = W24 m ρ c (Proc.devRef .tc main_arg5) := StableHlo.after_of_writes_sub hostOps10 _ hostOps10_writes (by decide)
    _ = W23 m ρ c (Proc.devRef .tc main_arg5) := W24_keep m ρ c main_arg5 (by decide)
    _ = W22 m ρ c (Proc.devRef .tc main_arg5) := StableHlo.after_of_writes_sub hostOps9_4 _ hostOps9_4_writes (by decide)
    _ = W21 m ρ c (Proc.devRef .tc main_arg5) := StableHlo.after_of_writes_sub hostOps9_3 _ hostOps9_3_writes (by decide)
    _ = W20 m ρ c (Proc.devRef .tc main_arg5) := StableHlo.after_of_writes_sub hostOps9_2 _ hostOps9_2_writes (by decide)
    _ = W19 m ρ c (Proc.devRef .tc main_arg5) := StableHlo.after_of_writes_sub hostOps9_1 _ hostOps9_1_writes (by decide)
    _ = W18 m ρ c (Proc.devRef .tc main_arg5) := StableHlo.after_of_writes_sub hostOps9 _ hostOps9_writes (by decide)
    _ = W17 m ρ c (Proc.devRef .tc main_arg5) := W18_keep m ρ c main_arg5 (by decide)
    _ = W16 m ρ c (Proc.devRef .tc main_arg5) := StableHlo.after_of_writes_sub hostOps8 _ hostOps8_writes (by decide)
    _ = W15 m ρ c (Proc.devRef .tc main_arg5) := W16_keep m ρ c main_arg5 (by decide)
    _ = W14 m ρ c (Proc.devRef .tc main_arg5) := StableHlo.after_of_writes_sub hostOps7 _ hostOps7_writes (by decide)
    _ = W13 m ρ c (Proc.devRef .tc main_arg5) := W14_keep m ρ c main_arg5 (by decide)
    _ = W12 m ρ c (Proc.devRef .tc main_arg5) := W13_keep m ρ c main_arg5 (by decide)
    _ = W11 m ρ c (Proc.devRef .tc main_arg5) := StableHlo.after_of_writes_sub hostOps5 _ hostOps5_writes (by decide)
    _ = W10 m ρ c (Proc.devRef .tc main_arg5) := W11_keep m ρ c main_arg5 (by decide)
    _ = W9 m ρ c (Proc.devRef .tc main_arg5) := StableHlo.after_of_writes_sub hostOps4 _ hostOps4_writes (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := StableHlo.after_of_writes_sub hostOps2 _ hostOps2_writes (by decide)
    _ = W5 m ρ c (Proc.devRef .tc main_arg5) := W6_keep m ρ c main_arg5 (by decide)
    _ = W4 m ρ c (Proc.devRef .tc main_arg5) := StableHlo.after_of_writes_sub hostOps1 _ hostOps1_writes (by decide)
    _ = W3 m ρ c (Proc.devRef .tc main_arg5) := W4_keep m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W26_main_arg6 (m : (ℓ : Loc nD τ sig) → Buf (Elt F) ℓ) (ρ : Dev nD → PrngReg) (c : Dev nD) : W26 m ρ c (Proc.devRef .tc main_arg6) = m ((c : Thread nD τ).loc main_arg6) :=
  calc W26 m ρ c (Proc.devRef .tc main_arg6)
    _ = W25 m ρ c (Proc.devRef .tc main_arg6) := W26_keep m ρ c main_arg6 (by decide)
    _ = W24 m ρ c (Proc.devRef .tc main_arg6) := StableHlo.after_of_writes_sub hostOps10 _ hostOps10_writes (by decide)
    _ = W23 m ρ c (Proc.devRef .tc main_arg6) := W24_keep m ρ c main_arg6 (by decide)
    _ = W22 m ρ c (Proc.devRef .tc main_arg6) := StableHlo.after_of_writes_sub hostOps9_4 _ hostOps9_4_writes (by decide)
    _ = W21 m ρ c (Proc.devRef .tc main_arg6) := StableHlo.after_of_writes_sub hostOps9_3 _ hostOps9_3_writes (by decide)
    _ = W20 m ρ c (Proc.devRef .tc main_arg6) := StableHlo.after_of_writes_sub hostOps9_2 _ hostOps9_2_writes (by decide)
    _ = W19 m ρ c (Proc.devRef .tc main_arg6) := StableHlo.after_of_writes_sub hostOps9_1 _ hostOps9_1_writes (by decide)
    _ = W18 m ρ c (Proc.devRef .tc main_arg6) := StableHlo.after_of_writes_sub hostOps9 _ hostOps9_writes (by decide)
    _ = W17 m ρ c (Proc.devRef .tc main_arg6) := W18_keep m ρ c main_arg6 (by decide)
    _ = W16 m ρ c (Proc.devRef .tc main_arg6) := StableHlo.after_of_writes_sub hostOps8 _ hostOps8_writes (by decide)
    _ = W15 m ρ c (Proc.devRef .tc main_arg6) := W16_keep m ρ c main_arg6 (by decide)
    _ = W14 m ρ c (Proc.devRef .tc main_arg6) := StableHlo.after_of_writes_sub hostOps7 _ hostOps7_writes (by decide)
    _ = W13 m ρ c (Proc.devRef .tc main_arg6) := W14_keep m ρ c main_arg6 (by decide)
    _ = W12 m ρ c (Proc.devRef .tc main_arg6) := W13_keep m ρ c main_arg6 (by decide)
    _ = W11 m ρ c (Proc.devRef .tc main_arg6) := StableHlo.after_of_writes_sub hostOps5 _ hostOps5_writes (by decide)
    _ = W10 m ρ c (Proc.devRef .tc main_arg6) := W11_keep m ρ c main_arg6 (by decide)
    _ = W9 m ρ c (Proc.devRef .tc main_arg6) := StableHlo.after_of_writes_sub hostOps4 _ hostOps4_writes (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := StableHlo.after_of_writes_sub hostOps2 _ hostOps2_writes (by decide)
    _ = W5 m ρ c (Proc.devRef .tc main_arg6) := W6_keep m ρ c main_arg6 (by decide)
    _ = W4 m ρ c (Proc.devRef .tc main_arg6) := StableHlo.after_of_writes_sub hostOps1 _ hostOps1_writes (by decide)
    _ = W3 m ρ c (Proc.devRef .tc main_arg6) := W4_keep m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W26_main_arg7 (m : (ℓ : Loc nD τ sig) → Buf (Elt F) ℓ) (ρ : Dev nD → PrngReg) (c : Dev nD) : W26 m ρ c (Proc.devRef .tc main_arg7) = m ((c : Thread nD τ).loc main_arg7) :=
  calc W26 m ρ c (Proc.devRef .tc main_arg7)
    _ = W25 m ρ c (Proc.devRef .tc main_arg7) := W26_keep m ρ c main_arg7 (by decide)
    _ = W24 m ρ c (Proc.devRef .tc main_arg7) := StableHlo.after_of_writes_sub hostOps10 _ hostOps10_writes (by decide)
    _ = W23 m ρ c (Proc.devRef .tc main_arg7) := W24_keep m ρ c main_arg7 (by decide)
    _ = W22 m ρ c (Proc.devRef .tc main_arg7) := StableHlo.after_of_writes_sub hostOps9_4 _ hostOps9_4_writes (by decide)
    _ = W21 m ρ c (Proc.devRef .tc main_arg7) := StableHlo.after_of_writes_sub hostOps9_3 _ hostOps9_3_writes (by decide)
    _ = W20 m ρ c (Proc.devRef .tc main_arg7) := StableHlo.after_of_writes_sub hostOps9_2 _ hostOps9_2_writes (by decide)
    _ = W19 m ρ c (Proc.devRef .tc main_arg7) := StableHlo.after_of_writes_sub hostOps9_1 _ hostOps9_1_writes (by decide)
    _ = W18 m ρ c (Proc.devRef .tc main_arg7) := StableHlo.after_of_writes_sub hostOps9 _ hostOps9_writes (by decide)
    _ = W17 m ρ c (Proc.devRef .tc main_arg7) := W18_keep m ρ c main_arg7 (by decide)
    _ = W16 m ρ c (Proc.devRef .tc main_arg7) := StableHlo.after_of_writes_sub hostOps8 _ hostOps8_writes (by decide)
    _ = W15 m ρ c (Proc.devRef .tc main_arg7) := W16_keep m ρ c main_arg7 (by decide)
    _ = W14 m ρ c (Proc.devRef .tc main_arg7) := StableHlo.after_of_writes_sub hostOps7 _ hostOps7_writes (by decide)
    _ = W13 m ρ c (Proc.devRef .tc main_arg7) := W14_keep m ρ c main_arg7 (by decide)
    _ = W12 m ρ c (Proc.devRef .tc main_arg7) := W13_keep m ρ c main_arg7 (by decide)
    _ = W11 m ρ c (Proc.devRef .tc main_arg7) := StableHlo.after_of_writes_sub hostOps5 _ hostOps5_writes (by decide)
    _ = W10 m ρ c (Proc.devRef .tc main_arg7) := W11_keep m ρ c main_arg7 (by decide)
    _ = W9 m ρ c (Proc.devRef .tc main_arg7) := StableHlo.after_of_writes_sub hostOps4 _ hostOps4_writes (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := StableHlo.after_of_writes_sub hostOps2 _ hostOps2_writes (by decide)
    _ = W5 m ρ c (Proc.devRef .tc main_arg7) := W6_keep m ρ c main_arg7 (by decide)
    _ = W4 m ρ c (Proc.devRef .tc main_arg7) := StableHlo.after_of_writes_sub hostOps1 _ hostOps1_writes (by decide)
    _ = W3 m ρ c (Proc.devRef .tc main_arg7) := W4_keep m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W26_main_arg8 (m : (ℓ : Loc nD τ sig) → Buf (Elt F) ℓ) (ρ : Dev nD → PrngReg) (c : Dev nD) : W26 m ρ c (Proc.devRef .tc main_arg8) = m ((c : Thread nD τ).loc main_arg8) :=
  calc W26 m ρ c (Proc.devRef .tc main_arg8)
    _ = W25 m ρ c (Proc.devRef .tc main_arg8) := W26_keep m ρ c main_arg8 (by decide)
    _ = W24 m ρ c (Proc.devRef .tc main_arg8) := StableHlo.after_of_writes_sub hostOps10 _ hostOps10_writes (by decide)
    _ = W23 m ρ c (Proc.devRef .tc main_arg8) := W24_keep m ρ c main_arg8 (by decide)
    _ = W22 m ρ c (Proc.devRef .tc main_arg8) := StableHlo.after_of_writes_sub hostOps9_4 _ hostOps9_4_writes (by decide)
    _ = W21 m ρ c (Proc.devRef .tc main_arg8) := StableHlo.after_of_writes_sub hostOps9_3 _ hostOps9_3_writes (by decide)
    _ = W20 m ρ c (Proc.devRef .tc main_arg8) := StableHlo.after_of_writes_sub hostOps9_2 _ hostOps9_2_writes (by decide)
    _ = W19 m ρ c (Proc.devRef .tc main_arg8) := StableHlo.after_of_writes_sub hostOps9_1 _ hostOps9_1_writes (by decide)
    _ = W18 m ρ c (Proc.devRef .tc main_arg8) := StableHlo.after_of_writes_sub hostOps9 _ hostOps9_writes (by decide)
    _ = W17 m ρ c (Proc.devRef .tc main_arg8) := W18_keep m ρ c main_arg8 (by decide)
    _ = W16 m ρ c (Proc.devRef .tc main_arg8) := StableHlo.after_of_writes_sub hostOps8 _ hostOps8_writes (by decide)
    _ = W15 m ρ c (Proc.devRef .tc main_arg8) := W16_keep m ρ c main_arg8 (by decide)
    _ = W14 m ρ c (Proc.devRef .tc main_arg8) := StableHlo.after_of_writes_sub hostOps7 _ hostOps7_writes (by decide)
    _ = W13 m ρ c (Proc.devRef .tc main_arg8) := W14_keep m ρ c main_arg8 (by decide)
    _ = W12 m ρ c (Proc.devRef .tc main_arg8) := W13_keep m ρ c main_arg8 (by decide)
    _ = W11 m ρ c (Proc.devRef .tc main_arg8) := StableHlo.after_of_writes_sub hostOps5 _ hostOps5_writes (by decide)
    _ = W10 m ρ c (Proc.devRef .tc main_arg8) := W11_keep m ρ c main_arg8 (by decide)
    _ = W9 m ρ c (Proc.devRef .tc main_arg8) := StableHlo.after_of_writes_sub hostOps4 _ hostOps4_writes (by decide)
    _ = W8 m ρ c (Proc.devRef .tc main_arg8) := W9_keep m ρ c main_arg8 (by decide)
    _ = W7 m ρ c (Proc.devRef .tc main_arg8) := W8_keep m ρ c main_arg8 (by decide)
    _ = W6 m ρ c (Proc.devRef .tc main_arg8) := StableHlo.after_of_writes_sub hostOps2 _ hostOps2_writes (by decide)
    _ = W5 m ρ c (Proc.devRef .tc main_arg8) := W6_keep m ρ c main_arg8 (by decide)
    _ = W4 m ρ c (Proc.devRef .tc main_arg8) := StableHlo.after_of_writes_sub hostOps1 _ hostOps1_writes (by decide)
    _ = W3 m ρ c (Proc.devRef .tc main_arg8) := W4_keep m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W26_main_arg9 (m : (ℓ : Loc nD τ sig) → Buf (Elt F) ℓ) (ρ : Dev nD → PrngReg) (c : Dev nD) : W26 m ρ c (Proc.devRef .tc main_arg9) = m ((c : Thread nD τ).loc main_arg9) :=
  calc W26 m ρ c (Proc.devRef .tc main_arg9)
    _ = W25 m ρ c (Proc.devRef .tc main_arg9) := W26_keep m ρ c main_arg9 (by decide)
    _ = W24 m ρ c (Proc.devRef .tc main_arg9) := StableHlo.after_of_writes_sub hostOps10 _ hostOps10_writes (by decide)
    _ = W23 m ρ c (Proc.devRef .tc main_arg9) := W24_keep m ρ c main_arg9 (by decide)
    _ = W22 m ρ c (Proc.devRef .tc main_arg9) := StableHlo.after_of_writes_sub hostOps9_4 _ hostOps9_4_writes (by decide)
    _ = W21 m ρ c (Proc.devRef .tc main_arg9) := StableHlo.after_of_writes_sub hostOps9_3 _ hostOps9_3_writes (by decide)
    _ = W20 m ρ c (Proc.devRef .tc main_arg9) := StableHlo.after_of_writes_sub hostOps9_2 _ hostOps9_2_writes (by decide)
    _ = W19 m ρ c (Proc.devRef .tc main_arg9) := StableHlo.after_of_writes_sub hostOps9_1 _ hostOps9_1_writes (by decide)
    _ = W18 m ρ c (Proc.devRef .tc main_arg9) := StableHlo.after_of_writes_sub hostOps9 _ hostOps9_writes (by decide)
    _ = W17 m ρ c (Proc.devRef .tc main_arg9) := W18_keep m ρ c main_arg9 (by decide)
    _ = W16 m ρ c (Proc.devRef .tc main_arg9) := StableHlo.after_of_writes_sub hostOps8 _ hostOps8_writes (by decide)
    _ = W15 m ρ c (Proc.devRef .tc main_arg9) := W16_keep m ρ c main_arg9 (by decide)
    _ = W14 m ρ c (Proc.devRef .tc main_arg9) := StableHlo.after_of_writes_sub hostOps7 _ hostOps7_writes (by decide)
    _ = W13 m ρ c (Proc.devRef .tc main_arg9) := W14_keep m ρ c main_arg9 (by decide)
    _ = W12 m ρ c (Proc.devRef .tc main_arg9) := W13_keep m ρ c main_arg9 (by decide)
    _ = W11 m ρ c (Proc.devRef .tc main_arg9) := StableHlo.after_of_writes_sub hostOps5 _ hostOps5_writes (by decide)
    _ = W10 m ρ c (Proc.devRef .tc main_arg9) := W11_keep m ρ c main_arg9 (by decide)
    _ = W9 m ρ c (Proc.devRef .tc main_arg9) := StableHlo.after_of_writes_sub hostOps4 _ hostOps4_writes (by decide)
    _ = W8 m ρ c (Proc.devRef .tc main_arg9) := W9_keep m ρ c main_arg9 (by decide)
    _ = W7 m ρ c (Proc.devRef .tc main_arg9) := W8_keep m ρ c main_arg9 (by decide)
    _ = W6 m ρ c (Proc.devRef .tc main_arg9) := StableHlo.after_of_writes_sub hostOps2 _ hostOps2_writes (by decide)
    _ = W5 m ρ c (Proc.devRef .tc main_arg9) := W6_keep m ρ c main_arg9 (by decide)
    _ = W4 m ρ c (Proc.devRef .tc main_arg9) := StableHlo.after_of_writes_sub hostOps1 _ hostOps1_writes (by decide)
    _ = W3 m ρ c (Proc.devRef .tc main_arg9) := W4_keep m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W26_main_arg10 (m : (ℓ : Loc nD τ sig) → Buf (Elt F) ℓ) (ρ : Dev nD → PrngReg) (c : Dev nD) : W26 m ρ c (Proc.devRef .tc main_arg10) = m ((c : Thread nD τ).loc main_arg10) :=
  calc W26 m ρ c (Proc.devRef .tc main_arg10)
    _ = W25 m ρ c (Proc.devRef .tc main_arg10) := W26_keep m ρ c main_arg10 (by decide)
    _ = W24 m ρ c (Proc.devRef .tc main_arg10) := StableHlo.after_of_writes_sub hostOps10 _ hostOps10_writes (by decide)
    _ = W23 m ρ c (Proc.devRef .tc main_arg10) := W24_keep m ρ c main_arg10 (by decide)
    _ = W22 m ρ c (Proc.devRef .tc main_arg10) := StableHlo.after_of_writes_sub hostOps9_4 _ hostOps9_4_writes (by decide)
    _ = W21 m ρ c (Proc.devRef .tc main_arg10) := StableHlo.after_of_writes_sub hostOps9_3 _ hostOps9_3_writes (by decide)
    _ = W20 m ρ c (Proc.devRef .tc main_arg10) := StableHlo.after_of_writes_sub hostOps9_2 _ hostOps9_2_writes (by decide)
    _ = W19 m ρ c (Proc.devRef .tc main_arg10) := StableHlo.after_of_writes_sub hostOps9_1 _ hostOps9_1_writes (by decide)
    _ = W18 m ρ c (Proc.devRef .tc main_arg10) := StableHlo.after_of_writes_sub hostOps9 _ hostOps9_writes (by decide)
    _ = W17 m ρ c (Proc.devRef .tc main_arg10) := W18_keep m ρ c main_arg10 (by decide)
    _ = W16 m ρ c (Proc.devRef .tc main_arg10) := StableHlo.after_of_writes_sub hostOps8 _ hostOps8_writes (by decide)
    _ = W15 m ρ c (Proc.devRef .tc main_arg10) := W16_keep m ρ c main_arg10 (by decide)
    _ = W14 m ρ c (Proc.devRef .tc main_arg10) := StableHlo.after_of_writes_sub hostOps7 _ hostOps7_writes (by decide)
    _ = W13 m ρ c (Proc.devRef .tc main_arg10) := W14_keep m ρ c main_arg10 (by decide)
    _ = W12 m ρ c (Proc.devRef .tc main_arg10) := W13_keep m ρ c main_arg10 (by decide)
    _ = W11 m ρ c (Proc.devRef .tc main_arg10) := StableHlo.after_of_writes_sub hostOps5 _ hostOps5_writes (by decide)
    _ = W10 m ρ c (Proc.devRef .tc main_arg10) := W11_keep m ρ c main_arg10 (by decide)
    _ = W9 m ρ c (Proc.devRef .tc main_arg10) := StableHlo.after_of_writes_sub hostOps4 _ hostOps4_writes (by decide)
    _ = W8 m ρ c (Proc.devRef .tc main_arg10) := W9_keep m ρ c main_arg10 (by decide)
    _ = W7 m ρ c (Proc.devRef .tc main_arg10) := W8_keep m ρ c main_arg10 (by decide)
    _ = W6 m ρ c (Proc.devRef .tc main_arg10) := StableHlo.after_of_writes_sub hostOps2 _ hostOps2_writes (by decide)
    _ = W5 m ρ c (Proc.devRef .tc main_arg10) := W6_keep m ρ c main_arg10 (by decide)
    _ = W4 m ρ c (Proc.devRef .tc main_arg10) := StableHlo.after_of_writes_sub hostOps1 _ hostOps1_writes (by decide)
    _ = W3 m ρ c (Proc.devRef .tc main_arg10) := W4_keep m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

theorem W26_main_arg11 (m : (ℓ : Loc nD τ sig) → Buf (Elt F) ℓ) (ρ : Dev nD → PrngReg) (c : Dev nD) : W26 m ρ c (Proc.devRef .tc main_arg11) = m ((c : Thread nD τ).loc main_arg11) :=
  calc W26 m ρ c (Proc.devRef .tc main_arg11)
    _ = W25 m ρ c (Proc.devRef .tc main_arg11) := W26_keep m ρ c main_arg11 (by decide)
    _ = W24 m ρ c (Proc.devRef .tc main_arg11) := StableHlo.after_of_writes_sub hostOps10 _ hostOps10_writes (by decide)
    _ = W23 m ρ c (Proc.devRef .tc main_arg11) := W24_keep m ρ c main_arg11 (by decide)
    _ = W22 m ρ c (Proc.devRef .tc main_arg11) := StableHlo.after_of_writes_sub hostOps9_4 _ hostOps9_4_writes (by decide)
    _ = W21 m ρ c (Proc.devRef .tc main_arg11) := StableHlo.after_of_writes_sub hostOps9_3 _ hostOps9_3_writes (by decide)
    _ = W20 m ρ c (Proc.devRef .tc main_arg11) := StableHlo.after_of_writes_sub hostOps9_2 _ hostOps9_2_writes (by decide)
    _ = W19 m ρ c (Proc.devRef .tc main_arg11) := StableHlo.after_of_writes_sub hostOps9_1 _ hostOps9_1_writes (by decide)
    _ = W18 m ρ c (Proc.devRef .tc main_arg11) := StableHlo.after_of_writes_sub hostOps9 _ hostOps9_writes (by decide)
    _ = W17 m ρ c (Proc.devRef .tc main_arg11) := W18_keep m ρ c main_arg11 (by decide)
    _ = W16 m ρ c (Proc.devRef .tc main_arg11) := StableHlo.after_of_writes_sub hostOps8 _ hostOps8_writes (by decide)
    _ = W15 m ρ c (Proc.devRef .tc main_arg11) := W16_keep m ρ c main_arg11 (by decide)
    _ = W14 m ρ c (Proc.devRef .tc main_arg11) := StableHlo.after_of_writes_sub hostOps7 _ hostOps7_writes (by decide)
    _ = W13 m ρ c (Proc.devRef .tc main_arg11) := W14_keep m ρ c main_arg11 (by decide)
    _ = W12 m ρ c (Proc.devRef .tc main_arg11) := W13_keep m ρ c main_arg11 (by decide)
    _ = W11 m ρ c (Proc.devRef .tc main_arg11) := StableHlo.after_of_writes_sub hostOps5 _ hostOps5_writes (by decide)
    _ = W10 m ρ c (Proc.devRef .tc main_arg11) := W11_keep m ρ c main_arg11 (by decide)
    _ = W9 m ρ c (Proc.devRef .tc main_arg11) := StableHlo.after_of_writes_sub hostOps4 _ hostOps4_writes (by decide)
    _ = W8 m ρ c (Proc.devRef .tc main_arg11) := W9_keep m ρ c main_arg11 (by decide)
    _ = W7 m ρ c (Proc.devRef .tc main_arg11) := W8_keep m ρ c main_arg11 (by decide)
    _ = W6 m ρ c (Proc.devRef .tc main_arg11) := StableHlo.after_of_writes_sub hostOps2 _ hostOps2_writes (by decide)
    _ = W5 m ρ c (Proc.devRef .tc main_arg11) := W6_keep m ρ c main_arg11 (by decide)
    _ = W4 m ρ c (Proc.devRef .tc main_arg11) := StableHlo.after_of_writes_sub hostOps1 _ hostOps1_writes (by decide)
    _ = W3 m ρ c (Proc.devRef .tc main_arg11) := W4_keep m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl

/-- The frame: from any memory with zero counters, every weakly fair execution of the program on the TensorCores terminates,
    nothing faulting, and every final state has the twelve argument arrays as launched. -/
theorem frame (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_gen m ρ fun s h c =>
    ⟨(h c _ (mem_uc main_arg0 (by decide))).trans (W26_main_arg0 m ρ c),
     (h c _ (mem_uc main_arg1 (by decide))).trans (W26_main_arg1 m ρ c),
     (h c _ (mem_uc main_arg2 (by decide))).trans (W26_main_arg2 m ρ c),
     (h c _ (mem_uc main_arg3 (by decide))).trans (W26_main_arg3 m ρ c),
     (h c _ (mem_uc main_arg4 (by decide))).trans (W26_main_arg4 m ρ c),
     (h c _ (mem_uc main_arg5 (by decide))).trans (W26_main_arg5 m ρ c),
     (h c _ (mem_uc main_arg6 (by decide))).trans (W26_main_arg6 m ρ c),
     (h c _ (mem_uc main_arg7 (by decide))).trans (W26_main_arg7 m ρ c),
     (h c _ (mem_uc main_arg8 (by decide))).trans (W26_main_arg8 m ρ c),
     (h c _ (mem_uc main_arg9 (by decide))).trans (W26_main_arg9 m ρ c),
     (h c _ (mem_uc main_arg10 (by decide))).trans (W26_main_arg10 m ρ c),
     (h c _ (mem_uc main_arg11 (by decide))).trans (W26_main_arg11 m ρ c)⟩

end Cert.Kernel.Hand

end
-- ==== Proof.KI.RegA0.lean ====
/- Region 0, the half that does not depend on where the region sits in the run: at ANY contents `V` of the core's
   buffers when the region is entered, what one call of the body does to the three staging buffers, and the proof data
   of the pipeline built from it. The body computes the product of a block of rows with the whole weight matrix, both rounded to the narrow type first and accumulated from zero;
   window 0 walks the rows block by block, window 1 is the whole weight matrix (the same block at every point), window 2 the matching block of rows of the product. Stated for any float model `F`. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: where the window is not fetched its block index has
    not moved, so the block already there is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S2000x3 := Rect.unit (s := S2000x3) ![0, 0] S2000x3.size inb_S2000x3_S2000x3_0_0
abbrev r0_1 : Rect S3x16 := Rect.unit (s := S3x16) ![0, 0] S3x16.size inb_S3x16_S3x16_0_0
abbrev r0_2 : Rect S2000x16 := Rect.unit (s := S2000x16) ![0, 0] S2000x16.size inb_S2000x16_S2000x16_0_0

/-! ## What the body leaves in the output window's buffer -/

/-- Window 2's staging buffer after the body, from the two input blocks: its one store, of the whole block. -/
def out0_2 (x0 : Vec F S2000x3 .f32) (x1 : Vec F S3x16 .f32) : Vec F S2000x16 .f32 :=
  View.canon [⟨r0_2, k0_pay1 (View.ld x0 r0_0) (View.ld x1 r0_1)⟩]

/-- The one store covers the buffer. -/
theorem cover0_2 (p0 : Vec F S2000x16 .f32) (y : S2000x16.Idx) :
    ∃ pc ∈ ([⟨r0_2, p0⟩] : List (View.Piece (Elt F) S2000x16 .f32)), y ∈ pc.1.set :=
  View.cover_of_tiled [⟨r0_2, p0⟩] S2000x16.size (by rfl) y

/-! ## The body's triple -/

set_option maxHeartbeats 1000000 in
/-- The body on whole staging buffers, the inputs' holding `x0`, `x1` and the output's anything, runs to the
    continuation with the inputs' as they were and the output's at `out0_2 x0 x1`: it reads both inputs whole, reads
    the output buffer (a value it never uses) and stores the payload over the whole of it. -/
theorem sound_kernel0 (c : Dev nD) (E : Set ℕ) (i : grid0.Coords) (arg1 : Memref sig .tc .vmem S2000x3 .f32) (harg1 : arg1.IsWhole) (arg2 : Memref sig .tc .vmem S3x16 .f32) (harg2 : arg2.IsWhole) (arg3 : Memref sig .tc .vmem S2000x16 .f32) (harg3 : arg3.IsWhole)
    (x0 : Vec F S2000x3 .f32) (x1 : Vec F S3x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region's pipeline on core `c`: the arrays as the region finds them; after the body at point
    `t` each input's buffer still at its block and the output's at `out0_2` of the two input blocks; the invariant is
    the rest of the core's scoped memory and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.RegA1.lean ====
/- Region 1, the half that does not depend on where the region sits in the run: at ANY contents `V` of the core's
   buffers when the region is entered, what one call of the body does to the three staging buffers, and the proof data
   of the pipeline built from it. The body computes the block of rows scaled row by row: each row times the one weight of that row, the weight column spread across the lanes;
   windows 0 and 1 walk the rows of the values and of the weight column together, window 2 the matching block of the scaled rows. Stated for any float model `F`. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index has
    not moved, so the block already there is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_0 : Rect S4000x16 := Rect.unit (s := S4000x16) ![0, 0] S4000x16.size inb_S4000x16_S4000x16_0_0
abbrev r1_1 : Rect S4000x1 := Rect.unit (s := S4000x1) ![0, 0] S4000x1.size inb_S4000x1_S4000x1_0_0
abbrev r1_2 : Rect S4000x16 := Rect.unit (s := S4000x16) ![0, 0] S4000x16.size inb_S4000x16_S4000x16_0_0

/-! ## What the body leaves in the output window's buffer -/

/-- Window 2's staging buffer after the body, from the two input blocks: its one store, of the whole block. -/
def out1_2 (x0 : Vec F S4000x16 .f32) (x1 : Vec F S4000x1 .f32) : Vec F S4000x16 .f32 :=
  View.canon [⟨r1_2, k1_pay1 (View.ld x0 r1_0) (View.ld x1 r1_1)⟩]

/-- The one store covers the buffer. -/
theorem cover1_2 (p0 : Vec F S4000x16 .f32) (y : S4000x16.Idx) :
    ∃ pc ∈ ([⟨r1_2, p0⟩] : List (View.Piece (Elt F) S4000x16 .f32)), y ∈ pc.1.set :=
  View.cover_of_tiled [⟨r1_2, p0⟩] S4000x16.size (by rfl) y

/-! ## The body's triple -/

set_option maxHeartbeats 1000000 in
/-- The body on whole staging buffers, the inputs' holding `x0`, `x1` and the output's anything, runs to the
    continuation with the inputs' as they were and the output's at `out1_2 x0 x1`: it reads both inputs whole, reads
    the output buffer (a value it never uses) and stores the payload over the whole of it. -/
theorem sound_kernel1 (c : Dev nD) (E : Set ℕ) (i : grid1.Coords) (arg1 : Memref sig .tc .vmem S4000x16 .f32) (harg1 : arg1.IsWhole) (arg2 : Memref sig .tc .vmem S4000x1 .f32) (harg2 : arg2.IsWhole) (arg3 : Memref sig .tc .vmem S4000x16 .f32) (harg3 : arg3.IsWhole)
    (x0 : Vec F S4000x16 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__weight_mul_kernel i arg1 harg1 arg2 harg2 arg3 harg3) K := by
  simp only [cc1__weight_mul_kernel_eq_skeleton]; unfold cc1__weight_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the region's pipeline on core `c`: the arrays as the region finds them; after the body at point
    `t` each input's buffer still at its block and the output's at `out1_2` of the two input blocks; the invariant is
    the rest of the core's scoped memory and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.RegA2.lean ====
/- Region 2, the half that does not depend on where the region sits in the run: at ANY contents `V` of the core's
   buffers when the region is entered, what one call of the body does to the three staging buffers, and the proof data
   of the pipeline built from it. The body computes the block of rows plus the bias row spread down the rows, then the larger of that and zero;
   window 0 walks the rows block by block, window 1 is the whole bias row (the same block at every point), window 2 the matching block of rows of the result. Stated for any float model `F`. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: where the window is not fetched its block index has
    not moved, so the block already there is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S2000x16 := Rect.unit (s := S2000x16) ![0, 0] S2000x16.size inb_S2000x16_S2000x16_0_0
abbrev r2_1 : Rect S1x16 := Rect.unit (s := S1x16) ![0, 0] S1x16.size inb_S1x16_S1x16_0_0
abbrev r2_2 : Rect S2000x16 := Rect.unit (s := S2000x16) ![0, 0] S2000x16.size inb_S2000x16_S2000x16_0_0

/-! ## What the body leaves in the output window's buffer -/

/-- Window 2's staging buffer after the body, from the two input blocks: its one store, of the whole block. -/
def out2_2 (x0 : Vec F S2000x16 .f32) (x1 : Vec F S1x16 .f32) : Vec F S2000x16 .f32 :=
  View.canon [⟨r2_2, k2_pay1 (View.ld x0 r2_0) (View.ld x1 r2_1)⟩]

/-- The one store covers the buffer. -/
theorem cover2_2 (p0 : Vec F S2000x16 .f32) (y : S2000x16.Idx) :
    ∃ pc ∈ ([⟨r2_2, p0⟩] : List (View.Piece (Elt F) S2000x16 .f32)), y ∈ pc.1.set :=
  View.cover_of_tiled [⟨r2_2, p0⟩] S2000x16.size (by rfl) y

/-! ## The body's triple -/

set_option maxHeartbeats 1000000 in
/-- The body on whole staging buffers, the inputs' holding `x0`, `x1` and the output's anything, runs to the
    continuation with the inputs' as they were and the output's at `out2_2 x0 x1`: it reads both inputs whole, reads
    the output buffer (a value it never uses) and stores the payload over the whole of it. -/
theorem sound_kernel2 (c : Dev nD) (E : Set ℕ) (i : grid2.Coords) (arg1 : Memref sig .tc .vmem S2000x16 .f32) (harg1 : arg1.IsWhole) (arg2 : Memref sig .tc .vmem S1x16 .f32) (harg2 : arg2.IsWhole) (arg3 : Memref sig .tc .vmem S2000x16 .f32) (harg3 : arg3.IsWhole)
    (x0 : Vec F S2000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_act_kernel i arg1 harg1 arg2 harg2 arg3 harg3) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of the region's pipeline on core `c`: the arrays as the region finds them; after the body at point
    `t` each input's buffer still at its block and the output's at `out2_2` of the two input blocks; the invariant is
    the rest of the core's scoped memory and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's owed count pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.RegA3.lean ====
/- Region 3, the half that does not depend on where the region sits in the run: at ANY contents `V` of the core's
   buffers when the region is entered, what one call of the body does to the three staging buffers, and the proof data
   of the pipeline built from it. The body computes the product of a block of rows with the whole weight matrix, both rounded to the narrow type first and accumulated from zero;
   window 0 walks the rows block by block, window 1 is the whole weight matrix (the same block at every point), window 2 the matching block of rows of the product. Stated for any float model `F`. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place: where the window is not fetched its block index has
    not moved, so the block already there is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its buffer -/

abbrev r3_0 : Rect S2000x16 := Rect.unit (s := S2000x16) ![0, 0] S2000x16.size inb_S2000x16_S2000x16_0_0
abbrev r3_1 : Rect S16x16 := Rect.unit (s := S16x16) ![0, 0] S16x16.size inb_S16x16_S16x16_0_0
abbrev r3_2 : Rect S2000x16 := Rect.unit (s := S2000x16) ![0, 0] S2000x16.size inb_S2000x16_S2000x16_0_0

/-! ## What the body leaves in the output window's buffer -/

/-- Window 2's staging buffer after the body, from the two input blocks: its one store, of the whole block. -/
def out3_2 (x0 : Vec F S2000x16 .f32) (x1 : Vec F S16x16 .f32) : Vec F S2000x16 .f32 :=
  View.canon [⟨r3_2, k3_pay1 (View.ld x0 r3_0) (View.ld x1 r3_1)⟩]

/-- The one store covers the buffer. -/
theorem cover3_2 (p0 : Vec F S2000x16 .f32) (y : S2000x16.Idx) :
    ∃ pc ∈ ([⟨r3_2, p0⟩] : List (View.Piece (Elt F) S2000x16 .f32)), y ∈ pc.1.set :=
  View.cover_of_tiled [⟨r3_2, p0⟩] S2000x16.size (by rfl) y

/-! ## The body's triple -/

set_option maxHeartbeats 1000000 in
/-- The body on whole staging buffers, the inputs' holding `x0`, `x1` and the output's anything, runs to the
    continuation with the inputs' as they were and the output's at `out3_2 x0 x1`: it reads both inputs whole, reads
    the output buffer (a value it never uses) and stores the payload over the whole of it. -/
theorem sound_kernel3 (c : Dev nD) (E : Set ℕ) (i : grid3.Coords) (arg1 : Memref sig .tc .vmem S2000x16 .f32) (harg1 : arg1.IsWhole) (arg2 : Memref sig .tc .vmem S16x16 .f32) (harg2 : arg2.IsWhole) (arg3 : Memref sig .tc .vmem S2000x16 .f32) (harg3 : arg3.IsWhole)
    (x0 : Vec F S2000x16 .f32) (x1 : Vec F S16x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of the region's pipeline on core `c`: the arrays as the region finds them; after the body at point
    `t` each input's buffer still at its block and the output's at `out3_2` of the two input blocks; the invariant is
    the rest of the core's scoped memory and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's owed count pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.RegA4.lean ====
/- Region 4, the half that does not depend on where the region sits in the run: at ANY contents `V` of the core's
   buffers when the region is entered, what one call of the body does to the three staging buffers, and the proof data
   of the pipeline built from it. The body computes the block of rows scaled row by row: each row times the one weight of that row, the weight column spread across the lanes;
   windows 0 and 1 walk the rows of the values and of the weight column together, window 2 the matching block of the scaled rows. Stated for any float model `F`. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place: where the window is not fetched its block index has
    not moved, so the block already there is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S4000x16 := Rect.unit (s := S4000x16) ![0, 0] S4000x16.size inb_S4000x16_S4000x16_0_0
abbrev r4_1 : Rect S4000x1 := Rect.unit (s := S4000x1) ![0, 0] S4000x1.size inb_S4000x1_S4000x1_0_0
abbrev r4_2 : Rect S4000x16 := Rect.unit (s := S4000x16) ![0, 0] S4000x16.size inb_S4000x16_S4000x16_0_0

/-! ## What the body leaves in the output window's buffer -/

/-- Window 2's staging buffer after the body, from the two input blocks: its one store, of the whole block. -/
def out4_2 (x0 : Vec F S4000x16 .f32) (x1 : Vec F S4000x1 .f32) : Vec F S4000x16 .f32 :=
  View.canon [⟨r4_2, k4_pay1 (View.ld x0 r4_0) (View.ld x1 r4_1)⟩]

/-- The one store covers the buffer. -/
theorem cover4_2 (p0 : Vec F S4000x16 .f32) (y : S4000x16.Idx) :
    ∃ pc ∈ ([⟨r4_2, p0⟩] : List (View.Piece (Elt F) S4000x16 .f32)), y ∈ pc.1.set :=
  View.cover_of_tiled [⟨r4_2, p0⟩] S4000x16.size (by rfl) y

/-! ## The body's triple -/

set_option maxHeartbeats 1000000 in
/-- The body on whole staging buffers, the inputs' holding `x0`, `x1` and the output's anything, runs to the
    continuation with the inputs' as they were and the output's at `out4_2 x0 x1`: it reads both inputs whole, reads
    the output buffer (a value it never uses) and stores the payload over the whole of it. -/
theorem sound_kernel4 (c : Dev nD) (E : Set ℕ) (i : grid4.Coords) (arg1 : Memref sig .tc .vmem S4000x16 .f32) (harg1 : arg1.IsWhole) (arg2 : Memref sig .tc .vmem S4000x1 .f32) (harg2 : arg2.IsWhole) (arg3 : Memref sig .tc .vmem S4000x16 .f32) (harg3 : arg3.IsWhole)
    (x0 : Vec F S4000x16 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__weight_mul_kernel i arg1 harg1 arg2 harg2 arg3 harg3) K := by
  simp only [cc4__weight_mul_kernel_eq_skeleton]; unfold cc4__weight_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region's pipeline on core `c`: the arrays as the region finds them; after the body at point
    `t` each input's buffer still at its block and the output's at `out4_2` of the two input blocks; the invariant is
    the rest of the core's scoped memory and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' buffers hold their blocks, so the body's triple applies; the invariant and the
    core's owed count pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.RegA5.lean ====
/- Region 5, the half that does not depend on where the region sits in the run: at ANY contents `V` of the core's
   buffers when the region is entered, what one call of the body does to the three staging buffers, and the proof data
   of the pipeline built from it. The body computes the block of rows plus the bias row spread down the rows, then the larger of that and zero;
   window 0 walks the rows block by block, window 1 is the whole bias row (the same block at every point), window 2 the matching block of rows of the result. Stated for any float model `F`. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place: where the window is not fetched its block index has
    not moved, so the block already there is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The same for input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is the whole of its buffer -/

abbrev r5_0 : Rect S2000x16 := Rect.unit (s := S2000x16) ![0, 0] S2000x16.size inb_S2000x16_S2000x16_0_0
abbrev r5_1 : Rect S1x16 := Rect.unit (s := S1x16) ![0, 0] S1x16.size inb_S1x16_S1x16_0_0
abbrev r5_2 : Rect S2000x16 := Rect.unit (s := S2000x16) ![0, 0] S2000x16.size inb_S2000x16_S2000x16_0_0

/-! ## What the body leaves in the output window's buffer -/

/-- Window 2's staging buffer after the body, from the two input blocks: its one store, of the whole block. -/
def out5_2 (x0 : Vec F S2000x16 .f32) (x1 : Vec F S1x16 .f32) : Vec F S2000x16 .f32 :=
  View.canon [⟨r5_2, k5_pay1 (View.ld x0 r5_0) (View.ld x1 r5_1)⟩]

/-- The one store covers the buffer. -/
theorem cover5_2 (p0 : Vec F S2000x16 .f32) (y : S2000x16.Idx) :
    ∃ pc ∈ ([⟨r5_2, p0⟩] : List (View.Piece (Elt F) S2000x16 .f32)), y ∈ pc.1.set :=
  View.cover_of_tiled [⟨r5_2, p0⟩] S2000x16.size (by rfl) y

/-! ## The body's triple -/

set_option maxHeartbeats 1000000 in
/-- The body on whole staging buffers, the inputs' holding `x0`, `x1` and the output's anything, runs to the
    continuation with the inputs' as they were and the output's at `out5_2 x0 x1`: it reads both inputs whole, reads
    the output buffer (a value it never uses) and stores the payload over the whole of it. -/
theorem sound_kernel5 (c : Dev nD) (E : Set ℕ) (i : grid5.Coords) (arg1 : Memref sig .tc .vmem S2000x16 .f32) (harg1 : arg1.IsWhole) (arg2 : Memref sig .tc .vmem S1x16 .f32) (harg2 : arg2.IsWhole) (arg3 : Memref sig .tc .vmem S2000x16 .f32) (harg3 : arg3.IsWhole)
    (x0 : Vec F S2000x16 .f32) (x1 : Vec F S1x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-! ## The pipeline's proof data -/

/-- The proof data of the region's pipeline on core `c`: the arrays as the region finds them; after the body at point
    `t` each input's buffer still at its block and the output's at `out5_2` of the two input blocks; the invariant is
    the rest of the core's scoped memory and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and the
    core's owed count pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.RegA6.lean ====
/- Region 6, the half that does not depend on where the region sits in the run: at ANY contents `V` of the core's
   buffers when the region is entered, what one call of the body does to the three staging buffers, and the proof data
   of the pipeline built from it. The body computes the product of a block of rows with the whole weight matrix, both rounded to the narrow type first and accumulated from zero;
   window 0 walks the rows block by block, window 1 is the whole weight matrix (the same block at every point), window 2 the matching block of rows of the product. Stated for any float model `F`. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is `V`'s and whose body leaves the block in place: where the window is not fetched its block index has
    not moved, so the block already there is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The same for input window 1. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole of its buffer -/

abbrev r6_0 : Rect S2000x16 := Rect.unit (s := S2000x16) ![0, 0] S2000x16.size inb_S2000x16_S2000x16_0_0
abbrev r6_1 : Rect S16x1 := Rect.unit (s := S16x1) ![0, 0] S16x1.size inb_S16x1_S16x1_0_0
abbrev r6_2 : Rect S2000x1 := Rect.unit (s := S2000x1) ![0, 0] S2000x1.size inb_S2000x1_S2000x1_0_0

/-! ## What the body leaves in the output window's buffer -/

/-- Window 2's staging buffer after the body, from the two input blocks: its one store, of the whole block. -/
def out6_2 (x0 : Vec F S2000x16 .f32) (x1 : Vec F S16x1 .f32) : Vec F S2000x1 .f32 :=
  View.canon [⟨r6_2, k6_pay1 (View.ld x0 r6_0) (View.ld x1 r6_1)⟩]

/-- The one store covers the buffer. -/
theorem cover6_2 (p0 : Vec F S2000x1 .f32) (y : S2000x1.Idx) :
    ∃ pc ∈ ([⟨r6_2, p0⟩] : List (View.Piece (Elt F) S2000x1 .f32)), y ∈ pc.1.set :=
  View.cover_of_tiled [⟨r6_2, p0⟩] S2000x1.size (by rfl) y

/-! ## The body's triple -/

set_option maxHeartbeats 1000000 in
/-- The body on whole staging buffers, the inputs' holding `x0`, `x1` and the output's anything, runs to the
    continuation with the inputs' as they were and the output's at `out6_2 x0 x1`: it reads both inputs whole, reads
    the output buffer (a value it never uses) and stores the payload over the whole of it. -/
theorem sound_kernel6 (c : Dev nD) (E : Set ℕ) (i : grid6.Coords) (arg1 : Memref sig .tc .vmem S2000x16 .f32) (harg1 : arg1.IsWhole) (arg2 : Memref sig .tc .vmem S16x1 .f32) (harg2 : arg2.IsWhole) (arg3 : Memref sig .tc .vmem S2000x1 .f32) (harg3 : arg3.IsWhole)
    (x0 : Vec F S2000x16 .f32) (x1 : Vec F S16x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of the region's pipeline on core `c`: the arrays as the region finds them; after the body at point
    `t` each input's buffer still at its block and the output's at `out6_2` of the two input blocks; the invariant is
    the rest of the core's scoped memory and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' buffers hold their blocks, so the body's triple applies; the invariant and the
    core's owed count pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.RegA7.lean ====
/- Region 7, the half that does not depend on where the region sits in the run: at ANY contents `V` of the core's
   buffers when the region is entered, what one call of the body does to the three staging buffers, and the proof data
   of the pipeline built from it. The body computes the block of rows scaled row by row: each row times the one weight of that row, the weight column spread across the lanes;
   windows 0 and 1 walk the rows of the values and of the weight column together, window 2 the matching block of the scaled rows. Stated for any float model `F`. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is `V`'s and whose body leaves the block in place: where the window is not fetched its block index has
    not moved, so the block already there is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The same for input window 1. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each is the whole of its buffer -/

abbrev r7_0 : Rect S4000x1 := Rect.unit (s := S4000x1) ![0, 0] S4000x1.size inb_S4000x1_S4000x1_0_0
abbrev r7_1 : Rect S4000x1 := Rect.unit (s := S4000x1) ![0, 0] S4000x1.size inb_S4000x1_S4000x1_0_0
abbrev r7_2 : Rect S4000x1 := Rect.unit (s := S4000x1) ![0, 0] S4000x1.size inb_S4000x1_S4000x1_0_0

/-! ## What the body leaves in the output window's buffer -/

/-- Window 2's staging buffer after the body, from the two input blocks: its one store, of the whole block. -/
def out7_2 (x0 : Vec F S4000x1 .f32) (x1 : Vec F S4000x1 .f32) : Vec F S4000x1 .f32 :=
  View.canon [⟨r7_2, k7_pay1 (View.ld x0 r7_0) (View.ld x1 r7_1)⟩]

/-- The one store covers the buffer. -/
theorem cover7_2 (p0 : Vec F S4000x1 .f32) (y : S4000x1.Idx) :
    ∃ pc ∈ ([⟨r7_2, p0⟩] : List (View.Piece (Elt F) S4000x1 .f32)), y ∈ pc.1.set :=
  View.cover_of_tiled [⟨r7_2, p0⟩] S4000x1.size (by rfl) y

/-! ## The body's triple -/

set_option maxHeartbeats 1000000 in
/-- The body on whole staging buffers, the inputs' holding `x0`, `x1` and the output's anything, runs to the
    continuation with the inputs' as they were and the output's at `out7_2 x0 x1`: it reads both inputs whole, reads
    the output buffer (a value it never uses) and stores the payload over the whole of it. -/
theorem sound_kernel7 (c : Dev nD) (E : Set ℕ) (i : grid7.Coords) (arg1 : Memref sig .tc .vmem S4000x1 .f32) (harg1 : arg1.IsWhole) (arg2 : Memref sig .tc .vmem S4000x1 .f32) (harg2 : arg2.IsWhole) (arg3 : Memref sig .tc .vmem S4000x1 .f32) (harg3 : arg3.IsWhole)
    (x0 : Vec F S4000x1 .f32) (x1 : Vec F S4000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__weight_mul_kernel i arg1 harg1 arg2 harg2 arg3 harg3) K := by
  simp only [cc7__weight_mul_kernel_eq_skeleton]; unfold cc7__weight_mul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of the region's pipeline on core `c`: the arrays as the region finds them; after the body at point
    `t` each input's buffer still at its block and the output's at `out7_2` of the two input blocks; the invariant is
    the rest of the core's scoped memory and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' buffers hold their blocks, so the body's triple applies; the invariant and the
    core's owed count pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.RegA8.lean ====
/- Region 8, the half that does not depend on where the region sits in the run: at ANY contents `V` of the core's
   buffers when the region is entered, what one call of the body does to the three staging buffers, and the proof data
   of the pipeline built from it. The body computes the block of rows plus the bias row spread down the rows;
   window 0 walks the rows block by block, window 1 is the whole bias row (the same block at every point), window 2 the matching block of rows of the result. Stated for any float model `F`. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`: the part of its array, as the region finds it, that the point's block index selects. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is `V`'s and whose body leaves the block in place: where the window is not fetched its block index has
    not moved, so the block already there is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The same for input window 1. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is the whole of its buffer -/

abbrev r8_0 : Rect S2000x1 := Rect.unit (s := S2000x1) ![0, 0] S2000x1.size inb_S2000x1_S2000x1_0_0
abbrev r8_1 : Rect S1x1 := Rect.unit (s := S1x1) ![0, 0] S1x1.size inb_S1x1_S1x1_0_0
abbrev r8_2 : Rect S2000x1 := Rect.unit (s := S2000x1) ![0, 0] S2000x1.size inb_S2000x1_S2000x1_0_0

/-! ## What the body leaves in the output window's buffer -/

/-- Window 2's staging buffer after the body, from the two input blocks: its one store, of the whole block. -/
def out8_2 (x0 : Vec F S2000x1 .f32) (x1 : Vec F S1x1 .f32) : Vec F S2000x1 .f32 :=
  View.canon [⟨r8_2, k8_pay1 (View.ld x0 r8_0) (View.ld x1 r8_1)⟩]

/-- The one store covers the buffer. -/
theorem cover8_2 (p0 : Vec F S2000x1 .f32) (y : S2000x1.Idx) :
    ∃ pc ∈ ([⟨r8_2, p0⟩] : List (View.Piece (Elt F) S2000x1 .f32)), y ∈ pc.1.set :=
  View.cover_of_tiled [⟨r8_2, p0⟩] S2000x1.size (by rfl) y

/-! ## The body's triple -/

set_option maxHeartbeats 1000000 in
/-- The body on whole staging buffers, the inputs' holding `x0`, `x1` and the output's anything, runs to the
    continuation with the inputs' as they were and the output's at `out8_2 x0 x1`: it reads both inputs whole, reads
    the output buffer (a value it never uses) and stores the payload over the whole of it. -/
theorem sound_kernel8 (c : Dev nD) (E : Set ℕ) (i : grid8.Coords) (arg1 : Memref sig .tc .vmem S2000x1 .f32) (harg1 : arg1.IsWhole) (arg2 : Memref sig .tc .vmem S1x1 .f32) (harg2 : arg2.IsWhole) (arg3 : Memref sig .tc .vmem S2000x1 .f32) (harg3 : arg3.IsWhole)
    (x0 : Vec F S2000x1 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__bias_act_kernel i arg1 harg1 arg2 harg2 arg3 harg3) K := by
  simp only [cc8__bias_act_kernel_eq_skeleton]; unfold cc8__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of the region's pipeline on core `c`: the arrays as the region finds them; after the body at point
    `t` each input's buffer still at its block and the output's at `out8_2` of the two input blocks; the invariant is
    the rest of the core's scoped memory and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' buffers hold their blocks, so the body's triple applies; the invariant and the
    core's owed count pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.RegA9.lean ====
/- Region 9 of @main (the masked softmax over one 782x128 block, a grid of one point), at the buffer
   contents `V` the region is entered with: each window's block, what the body leaves in the output
   window's buffer (one whole-block store of the payload of the two blocks read), the body's triple,
   the proof data, and the body obligation. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, for any proof data whose
    array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The same for input window 1. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole 782x128 block as a rectangle. -/
abbrev r9_0 : Rect S782x128 := Rect.unit (s := S782x128) ![0, 0] S782x128.size inb_S782x128_S782x128_0_0

/-! ## What the body leaves in the output window's buffer -/

/-- Window 2's staging buffer after the body, from the two input blocks: its one store, of the whole block. -/
def out9_2 (x0 : Vec F S782x128 .f32) (x1 : Vec F S782x128 .f32) : Vec F S782x128 .f32 :=
  View.canon [⟨r9_0, k9_pay1 (View.ld x0 r9_0) (View.ld x1 r9_0)⟩]

/-- The store covers the buffer. -/
theorem cover9_2 (p0 : Vec F S782x128 .f32) (y : S782x128.Idx) :
    ∃ pc ∈ ([⟨r9_0, p0⟩] : List (View.Piece (Elt F) S782x128 .f32)), y ∈ pc.1.set :=
  View.cover_of_tiled [⟨r9_0, p0⟩] S782x128.size (by rfl) y

/-! ## The body's triple -/

set_option maxHeartbeats 1000000 in
/-- The kernel body on whole staging memrefs, the inputs' at read contents and the output's at anything,
    runs to the continuation holding the inputs' as they were and the output's at `out9_2` of the inputs'. -/
theorem sound_kernel9 (c : Dev nD) (E : Set ℕ) (i : grid9.Coords) (arg1 : Memref sig .tc .vmem S782x128 .f32) (harg1 : arg1.IsWhole) (arg2 : Memref sig .tc .vmem S782x128 .f32) (harg2 : arg2.IsWhole) (arg3 : Memref sig .tc .vmem S782x128 .f32) (harg3 : arg3.IsWhole)
    (x0 : Vec F S782x128 .f32) (x1 : Vec F S782x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__softmax_kernel i arg1 harg1 arg2 harg2 arg3 harg3) K := by
  simp only [cc9__softmax_kernel_eq_skeleton]; unfold cc9__softmax_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-! ## The pipeline's proof data -/

/-- The proof data of pipeline 9 on core `c`: the arrays as the region finds them; after the body each
    input's buffer at its block and the output's at `out9_2` of the input blocks; the invariant the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.RegR10Core.lean ====
/- Region 10 (the pooled value), first half: the kernel body's triple case by case, the scratch point by point,
   the invariant between points and the pipeline's proof data. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffers when the region is entered
variable (V : (c : Dev nD) → (b : Ref sig .tc) → Buf (Elt F) ((c : Thread nD τ).loc b))

/-! # Region 10: the pooled value. A grid of 50 points; a (1,16) scratch carried from point to point
    (zeroed at the first point, the block's column sums added at every point); the (1,1) output stored at
    the last point only. -/

/-! ## The two conditions on the grid point -/

/-- The condition of the first conditional (the scratch is zeroed), from the grid coordinates. -/
abbrev cond10_1 (i : grid10.Coords) : Prop := (Scalar.cmpi .ne (Scalar.extui (Scalar.cmpi .eq (BitVec.ofNat 32 (i 0).val) 0#32)) 0#32) = 1#1
/-- It holds at the first point only. -/
theorem hcond10_1 : ∀ t : Fin cfg10.N, cond10_1 (grid10.coords t) ↔ t.val % 50 = 0 :=
  (by decide +kernel : ∀ t : Fin grid10.N, cond10_1 (grid10.coords t) ↔ t.val % 50 = 0)
/-- The second condition (the output is stored) holds at the last point only. -/
theorem hcond10_2 : ∀ t : Fin cfg10.N, k10_cond2 (grid10.coords t) = 1#1 ↔ t.val % 50 = 49 :=
  (by decide +kernel : ∀ t : Fin grid10.N, k10_cond2 (grid10.coords t) = 1#1 ↔ t.val % 50 = 49)
/-- The output window is idle exactly where the second condition fails. -/
theorem idle10_3 : ∀ t : Fin cfg10.N, cfg10.idle 3 (cfg10.grid.coords t) = true ↔ t.val % 50 ≠ 49 :=
  (by decide +kernel : ∀ t : Fin grid10.N, idle10 3 (grid10.coords t) = true ↔ t.val % 50 ≠ 49)

theorem N10 : cfg10.N = 50 := N_10

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not (unfetched, the
    block index has not moved), for any proof data whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: every load and store is of a whole buffer -/

abbrev r10_0 : Rect S2000x16 := Rect.unit (s := S2000x16) ![0, 0] S2000x16.size inb_S2000x16_S2000x16_0_0
abbrev r10_1 : Rect S16x1 := Rect.unit (s := S16x1) ![0, 0] S16x1.size inb_S16x1_S16x1_0_0
abbrev r10_2 : Rect S1x1 := Rect.unit (s := S1x1) ![0, 0] S1x1.size inb_S1x1_S1x1_0_0
abbrev r10_3 : Rect S1x1 := Rect.unit (s := S1x1) ![0, 0] S1x1.size inb_S1x1_S1x1_0_0
abbrev r10_s : Rect S1x16 := Rect.unit (s := S1x16) ![0, 0] S1x16.size inb_S1x16_S1x16_0_0

/-- One store of the whole scratch covers it. -/
theorem cover10_s (p0 : Vec F S1x16 .f32) (y : S1x16.Idx) :
    ∃ pc ∈ ([⟨r10_s, p0⟩] : List (View.Piece (Elt F) S1x16 .f32)), y ∈ pc.1.set :=
  View.cover_of_tiled [⟨r10_s, p0⟩] S1x16.size (by rfl) y
/-- One store of the whole output block covers it. -/
theorem cover10_3 (p0 : Vec F S1x1 .f32) (y : S1x1.Idx) :
    ∃ pc ∈ ([⟨r10_3, p0⟩] : List (View.Piece (Elt F) S1x1 .f32)), y ∈ pc.1.set :=
  View.cover_of_tiled [⟨r10_3, p0⟩] S1x1.size (by rfl) y

theorem mem_r10_s (p0 : Vec F S1x16 .f32) (y : S1x16.Idx) : y ∈ r10_s.set := by
  obtain ⟨pc, hm, hy⟩ := cover10_s p0 y
  rw [List.mem_singleton] at hm; subst hm; exact hy

/-- A last write whose rectangle holds every index hides every earlier write. -/
theorem canon_cons_of_full10 {s : Shape} {e : EltTy} (r : Rect s) (w : r.shape.Idx → Elt F e) (L : List (View.Piece (Elt F) s e))
    (h : ∀ y, y ∈ r.set) : View.canon (⟨r, w⟩ :: L) = View.canon [⟨r, w⟩] := by
  funext y
  obtain ⟨x, rfl⟩ : ∃ x, r.emb x = y := r.exists_idx_of_mem (h y)
  rw [View.canon_cons_emb, View.canon_cons_emb]

/-! ## What the body leaves in the scratch and in the output's buffer -/

/-- The scratch after the zeroing store. -/
def zero10 : Vec F S1x16 .f32 := View.canon [⟨r10_s, k10_pay1 (F := F)⟩]
/-- The scratch after the accumulating store, from what it held (`a`) and the point's block (`x0`): the block's
    column sums added to `a`. -/
def step10 (a : Vec F S1x16 .f32) (x0 : Vec F S2000x16 .f32) : Vec F S1x16 .f32 :=
  View.canon [⟨r10_s, k10_pay2 (View.ld a r10_s) (View.ld x0 r10_0)⟩]
/-- The output's buffer after the last point's store, from the scratch (`a`), the weight column (`x1`) and the bias (`x2`). -/
def out10_3 (a : Vec F S1x16 .f32) (x1 : Vec F S16x1 .f32) (x2 : Vec F S1x1 .f32) : Vec F S1x1 .f32 :=
  View.canon [⟨r10_3, k10_pay3 (View.ld a r10_s) (View.ld x1 r10_1) (View.ld x2 r10_2)⟩]

/-! ## The body's triple, case by case

The kernel body on whole memrefs — the three inputs' staging buffers at read contents `x0 x1 x2`, the output's at `x3`,
the scratch at `a` — runs to the continuation holding the inputs' as they were, and:
 * at the FIRST point (the first condition holds, the second fails) the scratch at `step10 zero10 x0`, whatever it held,
   the output's buffer as it was;
 * at a MIDDLE point (both fail) the scratch at `step10 a x0`, the output's buffer as it was;
 * at the LAST point (the first fails, the second holds) the scratch at `step10 a x0` and the output's buffer at
   `out10_3` of that scratch, whatever it held. -/

set_option maxHeartbeats 1000000 in
theorem run10_A (c : Dev nD) (E : Set ℕ) (i : grid10.Coords)
    (arg1 : Memref sig .tc .vmem S2000x16 .f32) (harg1 : arg1.IsWhole) (arg2 : Memref sig .tc .vmem S16x1 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x16 .f32) (harg5 : arg5.IsWhole)
    (hc1 : cond10_1 i) (hc2 : ¬k10_cond2 i = 1#1)
    (x0 : Vec F S2000x16 .f32) (x1 : Vec F S16x1 .f32) (x2 : Vec F S1x1 .f32) (x3 : Vec F S1x1 .f32) (a : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (x3) ∗ owns (c : Thread nD τ) arg5 fullShare (step10 zero10 x0)) -∗ K ⟨⟩))
      ⊢ wp frame (wpE (defs₀ (F := F)) Variants.none c none) E (cc10__pool_value_kernel i arg1 harg1 arg2 harg2 arg3 harg3 arg4 harg4 arg5 harg5) K := by
  simp only [cc10__pool_value_kernel_eq_skeleton]; unfold cc10__pool_value_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_run_names
  rw [View.read_writes_eq_canon _ _ _ (fun y => ⟨_, List.mem_cons_self, mem_r10_s (k10_pay1 (F := F)) y⟩),
    canon_cons_of_full10 _ _ _ (mem_r10_s (k10_pay1 (F := F))), View.readCov_eq_canon_ld _ _ _ (cover10_s _)]
  rfl

set_option maxHeartbeats 1000000 in
theorem run10_B (c : Dev nD) (E : Set ℕ) (i : grid10.Coords)
    (arg1 : Memref sig .tc .vmem S2000x16 .f32) (harg1 : arg1.IsWhole) (arg2 : Memref sig .tc .vmem S16x1 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x16 .f32) (harg5 : arg5.IsWhole)
    (hc1 : ¬cond10_1 i) (hc2 : ¬k10_cond2 i = 1#1)
    (x0 : Vec F S2000x16 .f32) (x1 : Vec F S16x1 .f32) (x2 : Vec F S1x1 .f32) (x3 : Vec F S1x1 .f32) (a : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (x3) ∗ owns (c : Thread nD τ) arg5 fullShare (step10 a x0)) -∗ K ⟨⟩))
      ⊢ wp frame (wpE (defs₀ (F := F)) Variants.none c none) E (cc10__pool_value_kernel i arg1 harg1 arg2 harg2 arg3 harg3 arg4 harg4 arg5 harg5) K := by
  simp only [cc10__pool_value_kernel_eq_skeleton]; unfold cc10__pool_value_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  exact View.read_writes_eq_canon _ _ _ (cover10_s _)

set_option maxHeartbeats 1000000 in
theorem run10_C (c : Dev nD) (E : Set ℕ) (i : grid10.Coords)
    (arg1 : Memref sig .tc .vmem S2000x16 .f32) (harg1 : arg1.IsWhole) (arg2 : Memref sig .tc .vmem S16x1 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x16 .f32) (harg5 : arg5.IsWhole)
    (hc1 : ¬cond10_1 i) (hc2 : k10_cond2 i = 1#1)
    (x0 : Vec F S2000x16 .f32) (x1 : Vec F S16x1 .f32) (x2 : Vec F S1x1 .f32) (x3 : Vec F S1x1 .f32) (a : Vec F S1x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare a
        ∗ (iprop(owns (c : Thread nD τ) arg1 fullShare x0 ∗ owns (c : Thread nD τ) arg2 fullShare x1 ∗ owns (c : Thread nD τ) arg3 fullShare x2
            ∗ owns (c : Thread nD τ) arg4 fullShare (out10_3 (step10 a x0) x1 x2) ∗ owns (c : Thread nD τ) arg5 fullShare (step10 a x0)) -∗ K ⟨⟩))
      ⊢ wp frame (wpE (defs₀ (F := F)) Variants.none c none) E (cc10__pool_value_kernel i arg1 harg1 arg2 harg2 arg3 harg3 arg4 harg4 arg5 harg5) K := by
  simp only [cc10__pool_value_kernel_eq_skeleton]; unfold cc10__pool_value_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (cover10_3 _), View.readCov_eq_canon_ld _ _ _ (cover10_s _)]
    rfl
  iexists _; isplitr
  swap; · iexact H5
  ipureintro
  exact View.read_writes_eq_canon _ _ _ (cover10_s _)

/-! ## The scratch point by point -/

/-- THE ACCUMULATION. The scratch after `n` points: zeroed, then the column sums of blocks `0 … n-1` added in order. -/
def acc10 (c : Dev nD) : ℕ → Vec F S1x16 .f32
  | 0 => zero10
  | n + 1 => if h : n < cfg10.N then step10 (acc10 c n) (iblk10 V c 0 ⟨n, h⟩) else acc10 c n

theorem acc10_zero (c : Dev nD) : acc10 V c 0 = zero10 := rfl
theorem acc10_succ (c : Dev nD) (t : Fin cfg10.N) : acc10 V c (t.val + 1) = step10 (acc10 V c t.val) (iblk10 V c 0 t) := by
  rw [acc10, dif_pos t.isLt]

/-! ## The invariant between points -/

/-- Between points: the generator register at some state; the scratch — before the first point at anything, after
    `t ≥ 1` points at `acc10 t`; every other scoped buffer at some contents. -/
def Φ10 (c : Dev nD) (t : Fin (cfg10.N + 1)) : sProp 𝕄 :=
  iprop((∃ r, prngReg c r)
    ∗ (∃ a : Vec F S1x16 .f32, ⌜t.val ≠ 0 → a = acc10 V c t.val⌝ ∗ owns (c : Thread nD τ) (Memref.whole cc10_scratch0) fullShare a)
    ∗ Pipeline.scopedRestBut spec10 c [cc10_scratch0])

/-! ## The pipeline's proof data -/

/-- The proof data of pipeline 10 on core `c`: the arrays as the region finds them (`V`); after the body at point `t`
    each input's buffer at its block, the output's at `out10_3` of the scratch after `t + 1` points (read at the last
    point only: elsewhere the window is idle and its buffer is handed back as found); the invariant `Φ10`; nothing owed;
    full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (acc10 V c (t.val + 1)) (iblk10 V c 1 t) (iblk10 V c 2 t)
  Φ t := Φ10 V c t
  q _ := fullShare
  owed _ := 0

theorem A_eq10 (c : Dev nD) (w : Fin cfg10.W) : (dat10 V c).A w = V c (Pipeline.arrRef spec10 w) := by
  dsimp only [dat10]
theorem Φ_eq10 (c : Dev nD) (t : Fin (cfg10.N + 1)) : (dat10 V c).Φ t = Φ10 V c t := by dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (acc10 V c (t.val + 1)) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- At a live point the exact post for a window's buffer is its `after`. -/
theorem leavesExact_live10 (c : Dev nD) (t : Fin cfg10.N) (hi : cfg10.idle 3 (cfg10.grid.coords t) = false) :
    (dat10 V c).leavesExact 3 t = owns (c : Thread nD τ) (st10_3 t) fullShare ((dat10 V c).after 3 t) := by
  unfold Dat.leavesExact; rw [hi]

/-! ## The body obligation, at a generic point -/

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ (dat10 V c).leavesExact 3 t)

end Cert.KernelIdeal.Hand

end
-- ==== Proof.KI.RegR10.lean ====
/- Region 10 (the pooled value), second half: the body obligation at every point, and the invariant entered before the
   first point and left after the last. -/
import proofs.«125778_j7670811590827_2_alg».proof.Proof.KI.RegR10Core
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body at any point -/

set_option maxHeartbeats 1600000 in
/-- The body at any point. The inputs' buffers hold their blocks. At the first point the scratch holds anything and is
    left at `acc10 1`; at a later point it holds `acc10 t` and is left at `acc10 (t + 1)`. The output's buffer is handed
    back as found at every point but the last, where it is left at `out10_3` of the scratch. The rest of the invariant and
    what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl,
    after10_0, after10_1, after10_2, Φ_eq10, Φ_eq10]
  have hN : t.val < 50 := lt_of_lt_of_eq t.isLt N10
  unfold Φ10
  by_cases h0 : t.val % 50 = 0
  · -- the first point: the scratch is zeroed, then the block's column sums are added
    have ht0 : t.val = 0 := by omega
    have hc1 : cond10_1 (grid10.coords t) := (hcond10_1 t).mpr h0
    have hc2 : ¬k10_cond2 (grid10.coords t) = 1#1 := fun h => by have := (hcond10_2 t).mp h; omega
    have hi : cfg10.idle 3 (cfg10.grid.coords t) = true := (idle10_3 t).mpr (by omega)
    have hf : (cfg10.win 3).flush t = false := Bool.eq_false_iff.mpr fun h => by have := (flush10_3 t).mp h; omega
    rw [Dat.leavesExact_idle _ 3 t hi hf]
    iintro ⟨⟨Hr, ⟨%a, %ha, Hs⟩, Hrest⟩, Ho, ⟨%d0, H0⟩, ⟨%d1, H1⟩, ⟨%d2, H2⟩, ⟨%d3, H3⟩⟩
    iapply (run10_A c Set.univ (grid10.coords t) _ _ _ _ _ _ _ _ _ _ hc1 hc2 (iblk10 V c 0 t) (iblk10 V c 1 t) (iblk10 V c 2 t) _ a _)
    isplitl [H0]; · iexact H0
    isplitl [H1]; · iexact H1
    isplitl [H2]; · iexact H2
    isplitl [H3]; · iexact H3
    isplitl [Hs]; · iexact Hs
    iintro ⟨H0, H1, H2, H3, Hs⟩
    isplitl [Hr Hs Hrest]
    · isplitl [Hr]; · iexact Hr
      isplitl [Hs]
      · iexists _; isplitr
        swap; · iexact Hs
        ipureintro; intro _
        rw [show t.succ.val = t.val + 1 from rfl, acc10_succ, ht0, acc10_zero]
      iexact Hrest
    isplitl [Ho]; · iexact Ho
    isplitl [H0]; · iexact H0
    isplitl [H1]; · iexact H1
    isplitl [H2]; · iexact H2
    iexists d3; iexact H3
  · have ha0 : t.castSucc.val ≠ 0 := by show t.val ≠ 0; omega
    have hc1 : ¬cond10_1 (grid10.coords t) := fun h => h0 ((hcond10_1 t).mp h)
    by_cases h49 : t.val % 50 = 49
    · -- the last point: the column sums are added, then the output is stored from the scratch
      have hc2 : k10_cond2 (grid10.coords t) = 1#1 := (hcond10_2 t).mpr h49
      have hi : cfg10.idle 3 (cfg10.grid.coords t) = false := Bool.eq_false_iff.mpr fun h => (idle10_3 t).mp h h49
      rw [leavesExact_live10 V c t hi, after10_3]
      iintro ⟨⟨Hr, ⟨%a, %ha, Hs⟩, Hrest⟩, Ho, ⟨%d0, H0⟩, ⟨%d1, H1⟩, ⟨%d2, H2⟩, ⟨%d3, H3⟩⟩
      obtain rfl := ha ha0
      iapply (run10_C c Set.univ (grid10.coords t) _ _ _ _ _ _ _ _ _ _ hc1 hc2 (iblk10 V c 0 t) (iblk10 V c 1 t) (iblk10 V c 2 t) _ _ _)
      isplitl [H0]; · iexact H0
      isplitl [H1]; · iexact H1
      isplitl [H2]; · iexact H2
      isplitl [H3]; · iexact H3
      isplitl [Hs]; · iexact Hs
      iintro ⟨H0, H1, H2, H3, Hs⟩
      rw [show t.castSucc.val = t.val from rfl, ← acc10_succ]
      isplitl [Hr Hs Hrest]
      · isplitl [Hr]; · iexact Hr
        isplitl [Hs]
        · iexists _; isplitr
          swap; · iexact Hs
          ipureintro; intro _; rfl
        iexact Hrest
      isplitl [Ho]; · iexact Ho
      isplitl [H0]; · iexact H0
      isplitl [H1]; · iexact H1
      isplitl [H2]; · iexact H2
      iexact H3
    · -- a middle point: the column sums are added, the output's buffer is untouched
      have hc2 : ¬k10_cond2 (grid10.coords t) = 1#1 := fun h => h49 ((hcond10_2 t).mp h)
      have hi : cfg10.idle 3 (cfg10.grid.coords t) = true := (idle10_3 t).mpr h49
      have hf : (cfg10.win 3).flush t = false := Bool.eq_false_iff.mpr fun h => h49 ((flush10_3 t).mp h)
      rw [Dat.leavesExact_idle _ 3 t hi hf]
      iintro ⟨⟨Hr, ⟨%a, %ha, Hs⟩, Hrest⟩, Ho, ⟨%d0, H0⟩, ⟨%d1, H1⟩, ⟨%d2, H2⟩, ⟨%d3, H3⟩⟩
      obtain rfl := ha ha0
      iapply (run10_B c Set.univ (grid10.coords t) _ _ _ _ _ _ _ _ _ _ hc1 hc2 (iblk10 V c 0 t) (iblk10 V c 1 t) (iblk10 V c 2 t) _ _ _)
      isplitl [H0]; · iexact H0
      isplitl [H1]; · iexact H1
      isplitl [H2]; · iexact H2
      isplitl [H3]; · iexact H3
      isplitl [Hs]; · iexact Hs
      iintro ⟨H0, H1, H2, H3, Hs⟩
      rw [show t.castSucc.val = t.val from rfl, ← acc10_succ]
      isplitl [Hr Hs Hrest]
      · isplitl [Hr]; · iexact Hr
        isplitl [Hs]
        · iexists _; isplitr
          swap; · iexact Hs
          ipureintro; intro _; rfl
        iexact Hrest
      isplitl [Ho]; · iexact Ho
      isplitl [H0]; · iexact H0
      isplitl [H1]; · iexact H1
      isplitl [H2]; · iexact H2
      iexists d3; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## Into the invariant before the first point, and out of it after the last -/

/-- Before the first point the scratch, one of the scoped buffers, holds anything. -/
theorem Φ10_in (c : Dev nD) :
    (iprop((∃ r, prngReg c r) ∗ Pipeline.scopedRest spec10 c) : sProp 𝕄) ⊢ (dat10 V c).Φ 0 := by
  rw [scopedRest10_split, Φ_eq10]; unfold Φ10
  iintro ⟨Hr, ⟨%f, Hs⟩, Hrest⟩
  isplitl [Hr]; · iexact Hr
  isplitl [Hs]
  · iexists f; isplitr
    · ipureintro; exact fun h => absurd rfl h
    rw [owns_whole]; iexact Hs
  iexact Hrest

/-- After the last point the scratch's contents are forgotten. -/
theorem Φ10_out (c : Dev nD) :
    (dat10 V c).Φ (Fin.last cfg10.N) ⊢ (iprop((∃ r, prngReg c r) ∗ Pipeline.scopedRest spec10 c) : sProp 𝕄) := by
  rw [scopedRest10_split, Φ_eq10]; unfold Φ10
  simp only [owns_whole]
  iintro ⟨Hr, ⟨%a, -, Hs⟩, Hrest⟩
  isplitl [Hr]; · iexact Hr
  isplitl [Hs]
  · iexists a; iexact Hs
  iexact Hrest

end Cert.KernelIdeal.Hand

end
-- ==== Proof.KI.Run.lean ====
/- The run of the whole program: the buffers' contents at every boundary between its items, each region as a segment over
   the thread state, the launch to the return, and the arguments read back to their launch contents. -/
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import proofs.«125778_j7670811590827_2_alg».proof.Proof.Gen.KernelIdeal.Regions
import proofs.«125778_j7670811590827_2_alg».proof.Proof.KI.RegA0
import proofs.«125778_j7670811590827_2_alg».proof.Proof.KI.RegA1
import proofs.«125778_j7670811590827_2_alg».proof.Proof.KI.RegA2
import proofs.«125778_j7670811590827_2_alg».proof.Proof.KI.RegA3
import proofs.«125778_j7670811590827_2_alg».proof.Proof.KI.RegA4
import proofs.«125778_j7670811590827_2_alg».proof.Proof.KI.RegA5
import proofs.«125778_j7670811590827_2_alg».proof.Proof.KI.RegA6
import proofs.«125778_j7670811590827_2_alg».proof.Proof.KI.RegA7
import proofs.«125778_j7670811590827_2_alg».proof.Proof.KI.RegA8
import proofs.«125778_j7670811590827_2_alg».proof.Proof.KI.RegA9
import proofs.«125778_j7670811590827_2_alg».proof.Proof.KI.RegR10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run: the program's items from the launch to the return

## The buffers' contents at each boundary between items: a fold through the program -/

/-- Core `c`'s buffers at launch. -/
abbrev W0 (m : (ℓ : Loc nD τ sig) → Buf (Elt F) ℓ) (ρ : Dev nD → PrngReg) : Dev nD → Valuation τ sig (Elt F) := fun c b => m (c, b)
/-- After the host stretch `hostOps0`. -/
abbrev W1 (m : (ℓ : Loc nD τ sig) → Buf (Elt F) ℓ) (ρ : Dev nD → PrngReg) : Dev nD → Valuation τ sig (Elt F) := fun c => StableHlo.after hostOps0 (W0 m ρ c)
/-- After the host stretch `hostOps0_1`. -/
abbrev W2 (m : (ℓ : Loc nD τ sig) → Buf (Elt F) ℓ) (ρ : Dev nD → PrngReg) : Dev nD → Valuation τ sig (Elt F) := fun c => StableHlo.after hostOps0_1 (W1 m ρ c)
/-- After the host stretch `hostOps0_2`. -/
abbrev W3 (m : (ℓ : Loc nD τ sig) → Buf (Elt F) ℓ) (ρ : Dev nD → PrngReg) : Dev nD → Valuation τ sig (Elt F) := fun c => StableHlo.after hostOps0_2 (W2 m ρ c)
/-- The contents region 0 is entered from, read at the TensorCore's references. -/
abbrev Vin0 (m : (ℓ : Loc nD τ sig) → Buf (Elt F) ℓ) (ρ : Dev nD → PrngReg) : (c : Dev nD) → (b : Ref sig .tc) → Buf (Elt F) ((c : Thread nD τ).loc b) := fun c b => W3 m ρ c b
/-- At region 0's exit: its arrays at what the pipeline leaves (the inputs as entered, the output's write-backs folded),
    every other buffer as entered. -/
def W4 (m : (ℓ : Loc nD τ sig) → Buf (Elt F) ℓ) (ρ : Dev nD → PrngReg) (c : Dev nD) : Valuation τ sig (Elt F) :=
  Pipeline.withArrays spec0 c (W3 m ρ c) fun w => (dat0 (Vin0 m ρ) c).arrAt w cfg0.N
theorem W4_arr (m : (ℓ : Loc nD τ sig) → Buf (Elt F) ℓ) (ρ : Dev nD → PrngReg) (c : Dev nD) (w : Fin cfg0.W) :
    W4 m ρ c (Proc.devRef .tc (Pipeline.arrRef spec0 w)) = (dat0 (Vin0 m ρ) c).arrAt w cfg0.N := by
  unfold W4; exact Pipeline.withArrays_arr spec0 launch0.win.arr_inj c _ _ w
theorem W4_of_ne (m : (ℓ : Loc nD τ sig) → Buf (Elt F) ℓ) (ρ : Dev nD → PrngReg) (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev Vout0 (m : (ℓ : Loc nD τ sig) → Buf (Elt F) ℓ) (ρ : Dev nD → PrngReg) : (c : Dev nD) → (b : Ref sig .tc) → Buf (Elt F) ((c : Thread nD τ).loc b) := fun c b => W4 m ρ c b
/-- At region 0's exit each of its arrays holds what the pipeline leaves, and every other buffer what it held at entry. -/
theorem hF0 (m : (ℓ : Loc nD τ sig) → Buf (Elt F) ℓ) (ρ : Dev nD → PrngReg) (c : Dev nD) (w : Fin cfg0.W) : (dat0 (Vin0 m ρ) c).arrAt w cfg0.N = Vout0 m ρ c (Pipeline.arrRef spec0 w) :=
  (W4_arr m ρ c w).symm
theorem hrest0 (m : (ℓ : Loc nD τ sig) → Buf (Elt F) ℓ) (ρ : Dev nD → PrngReg) (c : Dev nD) : ∀ b, b ∉ Finset.univ.image (Pipeline.arrRef spec0) → Vout0 m ρ c b = Vin0 m ρ c b :=
  fun b hb => W4_of_ne m ρ c b fun w e => hb (Finset.mem_image.mpr ⟨w, Finset.mem_univ _, e⟩)
/-- Region 0 changes only its output array `main_v32`: an input array is read, never written back, and no other
    buffer is touched. -/
theorem W4_keep (m : (ℓ : Loc nD τ sig) → Buf (Elt F) ℓ) (ρ : Dev nD → PrngReg) (c : Dev nD) (b : Ref sig .tc) (hb : b ≠ main_v32) :
    W4 m ρ c (Proc.devRef .tc b) = W3 m ρ c (Proc.devRef .tc b) := by
  by_cases h : ∃ w, Pipeline.arrRef spec0 w = b
  · obtain ⟨w, rfl⟩ := h
    have hin : (cfg0.win w).isOut = false := by
      revert hb; revert w; decide
    rw [W4_arr, (dat0 (Vin0 m ρ) c).arrAt_in w hin, A_eq0]
  · exact W4_of_ne m ρ c b fun w e => h ⟨w, e⟩
/-- After the host stretch `hostOps1`. -/
abbrev W5 (m : (ℓ : Loc nD τ sig) → Buf (Elt F) ℓ) (ρ : Dev nD → PrngReg) : Dev nD → Valuation τ sig (Elt F) := fun c => StableHlo.after hostOps1 (W4 m ρ c)
/-- The contents region 1 is entered from, read at the TensorCore's references. -/
abbrev Vin1 (m : (ℓ : Loc nD τ sig) → Buf (Elt F) ℓ) (ρ : Dev nD → PrngReg) : (c : Dev nD) → (b : Ref sig .tc) → Buf (Elt F) ((c : Thread nD τ).loc b) := fun c b => W5 m ρ c b
/-- At region 1's exit: its arrays at what the pipeline leaves (the inputs as entered, the output's write-backs folded),
    every other buffer as entered. -/
def W6 (m : (ℓ : Loc nD τ sig) → Buf (Elt F) ℓ) (ρ : Dev nD → PrngReg) (c : Dev nD) : Valuation τ sig (Elt F) :=
  Pipeline.withArrays spec1 c (W5 m ρ c) fun w => (dat1 (Vin1 m ρ) c).arrAt w cfg1.N
theorem W6_arr (m : (ℓ : Loc nD τ sig) → Buf (Elt F) ℓ) (ρ : Dev nD → PrngReg) (c : Dev nD) (w : Fin cfg1.W) :
    W6 m ρ c (Proc.devRef .tc (Pipeline.arrRef spec1 w)) = (dat1 (Vin1 m ρ) c).arrAt w cfg1.N := by
  unfold W6; exact Pipeline.withArrays_arr spec1 launch1.win.arr_inj c _ _ w
theorem W6_of_ne (m : (ℓ : Loc nD τ sig) → Buf (Elt F) ℓ) (ρ : Dev nD → PrngReg) (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev Vout1 (m : (ℓ : Loc nD τ sig) → Buf (Elt F) ℓ) (ρ : Dev nD → PrngReg) : (c : Dev nD) → (b : Ref sig .tc) → Buf (Elt F) ((c : Thread nD τ).loc b) := fun c b => W6 m ρ c b
/-- At region 1's exit each of its arrays holds what the pipeline leaves, and every other buffer what it held at entry. -/
theorem hF1 (m : (ℓ : Loc nD τ sig) → Buf (Elt F) ℓ) (ρ : Dev nD → PrngReg) (c : Dev nD) (w : Fin cfg1.W) : (dat1 (Vin1 m ρ) c).arrAt w cfg1.N = Vout1 m ρ c (Pipeline.arrRef spec1 w) :=
  (W6_arr m ρ c w).symm
theorem hrest1 (m : (ℓ : Loc nD τ sig) → Buf (Elt F) ℓ) (ρ : Dev nD → PrngReg) (c : Dev nD) : ∀ b, b ∉ Finset.univ.image (Pipeline.arrRef spec1) → Vout1 m ρ c b = Vin1 m ρ c b :=
  fun b hb => W6_of_ne m ρ c b fun w e => hb (Finset.mem_image.mpr ⟨w, Finset.mem_univ _, e⟩)
/-- Region 1 changes only its output array `main_v41`: an input array is read, never written back, and no other
    buffer is touched. -/
theorem W6_keep (m : (ℓ : Loc nD τ sig) → Buf (Elt F) ℓ) (ρ : Dev nD → PrngReg) (c : Dev nD) (b : Ref sig .tc) (hb : b ≠ main_v41) :
    W6 m ρ c (Proc.devRef .tc b) = W5 m ρ c (Proc.devRef .tc b) := by
  by_cases h : ∃ w, Pipeline.arrRef spec1 w = b
  · obtain ⟨w, rfl⟩ := h
    have hin : (cfg1.win w).isOut = false := by
      revert hb; revert w; decide
    rw [W6_arr, (dat1 (Vin1 m ρ) c).arrAt_in w hin, A_eq1]
  · exact W6_of_ne m ρ c b fun w e => h ⟨w, e⟩
/-- After the host stretch `hostOps2`. -/
abbrev W7 (m : (ℓ : Loc nD τ sig) → Buf (Elt F) ℓ) (ρ : Dev nD → PrngReg) : Dev nD → Valuation τ sig (Elt F) := fun c => StableHlo.after hostOps2 (W6 m ρ c)
/-- The contents region 2 is entered from, read at the TensorCore's references. -/
abbrev Vin2 (m : (ℓ : Loc nD τ sig) → Buf (Elt F) ℓ) (ρ : Dev nD → PrngReg) : (c : Dev nD) → (b : Ref sig .tc) → Buf (Elt F) ((c : Thread nD τ).loc b) := fun c b => W7 m ρ c b
/-- At region 2's exit: its arrays at what the pipeline leaves (the inputs as entered, the output's write-backs folded),
    every other buffer as entered. -/
def W8 (m : (ℓ : Loc nD τ sig) → Buf (Elt F) ℓ) (ρ : Dev nD → PrngReg) (c : Dev nD) : Valuation τ sig (Elt F) :=
  Pipeline.withArrays spec2 c (W7 m ρ c) fun w => (dat2 (Vin2 m ρ) c).arrAt w cfg2.N
theorem W8_arr (m : (ℓ : Loc nD τ sig) → Buf (Elt F) ℓ) (ρ : Dev nD → PrngReg) (c : Dev nD) (w : Fin cfg2.W) :
    W8 m ρ c (Proc.devRef .tc (Pipeline.arrRef spec2 w)) = (dat2 (Vin2 m ρ) c).arrAt w cfg2.N := by
  unfold W8; exact Pipeline.withArrays_arr spec2 launch2.win.arr_inj c _ _ w
theorem W8_of_ne (m : (ℓ : Loc nD τ sig) → Buf (Elt F) ℓ) (ρ : Dev nD → PrngReg) (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev Vout2 (m : (ℓ : Loc nD τ sig) → Buf (Elt F) ℓ) (ρ : Dev nD → PrngReg) : (c : Dev nD) → (b : Ref sig .tc) → Buf (Elt F) ((c : Thread nD τ).loc b) := fun c b => W8 m ρ c b
/-- At region 2's exit each of its arrays holds what the pipeline leaves, and every other buffer what it held at entry. -/
theorem hF2 (m : (ℓ : Loc nD τ sig) → Buf (Elt F) ℓ) (ρ : Dev nD → PrngReg) (c : Dev nD) (w : Fin cfg2.W) : (dat2 (Vin2 m ρ) c).arrAt w cfg2.N = Vout2 m ρ c (Pipeline.arrRef spec2 w) :=
  (W8_arr m ρ c w).symm
theorem hrest2 (m : (ℓ : Loc nD τ sig) → Buf (Elt F) ℓ) (ρ : Dev nD → PrngReg) (c : Dev nD) : ∀ b, b ∉ Finset.univ.image (Pipeline.arrRef spec2) → Vout2 m ρ c b = Vin2 m ρ c b :=
  fun b hb => W8_of_ne m ρ c b fun w e => hb (Finset.mem_image.mpr ⟨w, Finset.mem_univ _, e⟩)
/-- Region 2 changes only its output array `main_v46`: an input array is read, never written back, and no other
    buffer is touched. -/
theorem W8_keep (m : (ℓ : Loc nD τ sig) → Buf (Elt F) ℓ) (ρ : Dev nD → PrngReg) (c : Dev nD) (b : Ref sig .tc) (hb : b ≠ main_v46) :
    W8 m ρ c (Proc.devRef .tc b) = W7 m ρ c (Proc.devRef .tc b) := by
  by_cases h : ∃ w, Pipeline.arrRef spec2 w = b
  · obtain ⟨w, rfl⟩ := h
    have hin : (cfg2.win w).isOut = false := by
      revert hb; revert w; decide
    rw [W8_arr, (dat2 (Vin2 m ρ) c).arrAt_in w hin, A_eq2]
  · exact W8_of_ne m ρ c b fun w e => h ⟨w, e⟩
/-- The contents region 3 is entered from, read at the TensorCore's references. -/
abbrev Vin3 (m : (ℓ : Loc nD τ sig) → Buf (Elt F) ℓ) (ρ : Dev nD → PrngReg) : (c : Dev nD) → (b : Ref sig .tc) → Buf (Elt F) ((c : Thread nD τ).loc b) := fun c b => W8 m ρ c b
/-- At region 3's exit: its arrays at what the pipeline leaves (the inputs as entered, the output's write-backs folded),
    every other buffer as entered. -/
def W9 (m : (ℓ : Loc nD τ sig) → Buf (Elt F) ℓ) (ρ : Dev nD → PrngReg) (c : Dev nD) : Valuation τ sig (Elt F) :=
  Pipeline.withArrays spec3 c (W8 m ρ c) fun w => (dat3 (Vin3 m ρ) c).arrAt w cfg3.N
theorem W9_arr (m : (ℓ : Loc nD τ sig) → Buf (Elt F) ℓ) (ρ : Dev nD → PrngReg) (c : Dev nD) (w : Fin cfg3.W) :
    W9 m ρ c (Proc.devRef .tc (Pipeline.arrRef spec3 w)) = (dat3 (Vin3 m ρ) c).arrAt w cfg3.N := by
  unfold W9; exact Pipeline.withArrays_arr spec3 launch3.win.arr_inj c _ _ w
theorem W9_of_ne (m : (ℓ : Loc nD τ sig) → Buf (Elt F) ℓ) (ρ : Dev nD → PrngReg) (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same read at the TensorCore's references (region 3's exit contents). -/
abbrev Vout3 (m : (ℓ : Loc nD τ sig) → Buf (Elt F) ℓ) (ρ : Dev nD → PrngReg) : (c : Dev nD) → (b : Ref sig .tc) → Buf (Elt F) ((c : Thread nD τ).loc b) := fun c b => W9 m ρ c b
/-- At region 3's exit each of its arrays holds what the pipeline leaves, and every other buffer what it held at entry. -/
theorem hF3 (m : (ℓ : Loc nD τ sig) → Buf (Elt F) ℓ) (ρ : Dev nD → PrngReg) (c : Dev nD) (w : Fin cfg3.W) : (dat3 (Vin3 m ρ) c).arrAt w cfg3.N = Vout3 m ρ c (Pipeline.arrRef spec3 w) :=
  (W9_arr m ρ c w).symm
theorem hrest3 (m : (ℓ : Loc nD τ sig) → Buf (Elt F) ℓ) (ρ : Dev nD → PrngReg) (c : Dev nD) : ∀ b, b ∉ Finset.univ.image (Pipeline.arrRef spec3) → Vout3 m ρ c b = Vin3 m ρ c b :=
  fun b hb => W9_of_ne m ρ c b fun w e => hb (Finset.mem_image.mpr ⟨w, Finset.mem_univ _, e⟩)
/-- Region 3 changes only its output array `main_v47`: an input array is read, never written back, and no other
    buffer is touched. -/
theorem W9_keep (m : (ℓ : Loc nD τ sig) → Buf (Elt F) ℓ) (ρ : Dev nD → PrngReg) (c : Dev nD) (b : Ref sig .tc) (hb : b ≠ main_v47) :
    W9 m ρ c (Proc.devRef .tc b) = W8 m ρ c (Proc.devRef .tc b) := by
  by_cases h : ∃ w, Pipeline.arrRef spec3 w = b
  · obtain ⟨w, rfl⟩ := h
    have hin : (cfg3.win w).isOut = false := by
      revert hb; revert w; decide
    rw [W9_arr, (dat3 (Vin3 m ρ) c).arrAt_in w hin, A_eq3]
  · exact W9_of_ne m ρ c b fun w e => h ⟨w, e⟩
/-- After the host stretch `hostOps4`. -/
abbrev W10 (m : (ℓ : Loc nD τ sig) → Buf (Elt F) ℓ) (ρ : Dev nD → PrngReg) : Dev nD → Valuation τ sig (Elt F) := fun c => StableHlo.after hostOps4 (W9 m ρ c)
/-- The contents region 4 is entered from, read at the TensorCore's references. -/
abbrev Vin4 (m : (ℓ : Loc nD τ sig) → Buf (Elt F) ℓ) (ρ : Dev nD → PrngReg) : (c : Dev nD) → (b : Ref sig .tc) → Buf (Elt F) ((c : Thread nD τ).loc b) := fun c b => W10 m ρ c b
/-- At region 4's exit: its arrays at what the pipeline leaves (the inputs as entered, the output's write-backs folded),
    every other buffer as entered. -/
def W11 (m : (ℓ : Loc nD τ sig) → Buf (Elt F) ℓ) (ρ : Dev nD → PrngReg) (c : Dev nD) : Valuation τ sig (Elt F) :=
  Pipeline.withArrays spec4 c (W10 m ρ c) fun w => (dat4 (Vin4 m ρ) c).arrAt w cfg4.N
theorem W11_arr (m : (ℓ : Loc nD τ sig) → Buf (Elt F) ℓ) (ρ : Dev nD → PrngReg) (c : Dev nD) (w : Fin cfg4.W) :
    W11 m ρ c (Proc.devRef .tc (Pipeline.arrRef spec4 w)) = (dat4 (Vin4 m ρ) c).arrAt w cfg4.N := by
  unfold W11; exact Pipeline.withArrays_arr spec4 launch4.win.arr_inj c _ _ w
theorem W11_of_ne (m : (ℓ : Loc nD τ sig) → Buf (Elt F) ℓ) (ρ : Dev nD → PrngReg) (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
/-- The same read at the TensorCore's references (region 4's exit contents). -/
abbrev Vout4 (m : (ℓ : Loc nD τ sig) → Buf (Elt F) ℓ) (ρ : Dev nD → PrngReg) : (c : Dev nD) → (b : Ref sig .tc) → Buf (Elt F) ((c : Thread nD τ).loc b) := fun c b => W11 m ρ c b
/-- At region 4's exit each of its arrays holds what the pipeline leaves, and every other buffer what it held at entry. -/
theorem hF4 (m : (ℓ : Loc nD τ sig) → Buf (Elt F) ℓ) (ρ : Dev nD → PrngReg) (c : Dev nD) (w : Fin cfg4.W) : (dat4 (Vin4 m ρ) c).arrAt w cfg4.N = Vout4 m ρ c (Pipeline.arrRef spec4 w) :=
  (W11_arr m ρ c w).symm
theorem hrest4 (m : (ℓ : Loc nD τ sig) → Buf (Elt F) ℓ) (ρ : Dev nD → PrngReg) (c : Dev nD) : ∀ b, b ∉ Finset.univ.image (Pipeline.arrRef spec4) → Vout4 m ρ c b = Vin4 m ρ c b :=
  fun b hb => W11_of_ne m ρ c b fun w e => hb (Finset.mem_image.mpr ⟨w, Finset.mem_univ _, e⟩)
/-- Region 4 changes only its output array `main_v56`: an input array is read, never written back, and no other
    buffer is touched. -/
theorem W11_keep (m : (ℓ : Loc nD τ sig) → Buf (Elt F) ℓ) (ρ : Dev nD → PrngReg) (c : Dev nD) (b : Ref sig .tc) (hb : b ≠ main_v56) :
    W11 m ρ c (Proc.devRef .tc b) = W10 m ρ c (Proc.devRef .tc b) := by
  by_cases h : ∃ w, Pipeline.arrRef spec4 w = b
  · obtain ⟨w, rfl⟩ := h
    have hin : (cfg4.win w).isOut = false := by
      revert hb; revert w; decide
    rw [W11_arr, (dat4 (Vin4 m ρ) c).arrAt_in w hin, A_eq4]
  · exact W11_of_ne m ρ c b fun w e => h ⟨w, e⟩
/-- After the host stretch `hostOps5`. -/
abbrev W12 (m : (ℓ : Loc nD τ sig) → Buf (Elt F) ℓ) (ρ : Dev nD → PrngReg) : Dev nD → Valuation τ sig (Elt F) := fun c => StableHlo.after hostOps5 (W11 m ρ c)
/-- The contents region 5 is entered from, read at the TensorCore's references. -/
abbrev Vin5 (m : (ℓ : Loc nD τ sig) → Buf (Elt F) ℓ) (ρ : Dev nD → PrngReg) : (c : Dev nD) → (b : Ref sig .tc) → Buf (Elt F) ((c : Thread nD τ).loc b) := fun c b => W12 m ρ c b
/-- At region 5's exit: its arrays at what the pipeline leaves (the inputs as entered, the output's write-backs folded),
    every other buffer as entered. -/
def W13 (m : (ℓ : Loc nD τ sig) → Buf (Elt F) ℓ) (ρ : Dev nD → PrngReg) (c : Dev nD) : Valuation τ sig (Elt F) :=
  Pipeline.withArrays spec5 c (W12 m ρ c) fun w => (dat5 (Vin5 m ρ) c).arrAt w cfg5.N
theorem W13_arr (m : (ℓ : Loc nD τ sig) → Buf (Elt F) ℓ) (ρ : Dev nD → PrngReg) (c : Dev nD) (w : Fin cfg5.W) :
    W13 m ρ c (Proc.devRef .tc (Pipeline.arrRef spec5 w)) = (dat5 (Vin5 m ρ) c).arrAt w cfg5.N := by
  unfold W13; exact Pipeline.withArrays_arr spec5 launch5.win.arr_inj c _ _ w
theorem W13_of_ne (m : (ℓ : Loc nD τ sig) → Buf (Elt F) ℓ) (ρ : Dev nD → PrngReg) (c : Dev nD) (b : Ref sig .tc) (hb : ∀ w, Pipeline.arrRef spec5 w ≠ b) :
    W13 m ρ c (Proc.devRef .tc b) = W12 m ρ c (Proc.devRef .tc b) := by
  unfold W13; exact Pipeline.withArrays_of_ne spec5 c _ _ b hb
/-- The same read at the TensorCore's references (region 5's exit contents). -/
abbrev Vout5 (m : (ℓ : Loc nD τ sig) → Buf (Elt F) ℓ) (ρ : Dev nD → PrngReg) : (c : Dev nD) → (b : Ref sig .tc) → Buf (Elt F) ((c : Thread nD τ).loc b) := fun c b => W13 m ρ c b
/-- At region 5's exit each of its arrays holds what the pipeline leaves, and every other buffer what it held at entry. -/
theorem hF5 (m : (ℓ : Loc nD τ sig) → Buf (Elt F) ℓ) (ρ : Dev nD → PrngReg) (c : Dev nD) (w : Fin cfg5.W) : (dat5 (Vin5 m ρ) c).arrAt w cfg5.N = Vout5 m ρ c (Pipeline.arrRef spec5 w) :=
  (W13_arr m ρ c w).symm
theorem hrest5 (m : (ℓ : Loc nD τ sig) → Buf (Elt F) ℓ) (ρ : Dev nD → PrngReg) (c : Dev nD) : ∀ b, b ∉ Finset.univ.image (Pipeline.arrRef spec5) → Vout5 m ρ c b = Vin5 m ρ c b :=
  fun b hb => W13_of_ne m ρ c b fun w e => hb (Finset.mem_image.mpr ⟨w, Finset.mem_univ _, e⟩)
/-- Region 5 changes only its output array `main_v61`: an input array is read, never written back, and no other
    buffer is touched. -/
theorem W13_keep (m : (ℓ : Loc nD τ sig) → Buf (Elt F) ℓ) (ρ : Dev nD → PrngReg) (c : Dev nD) (b : Ref sig .tc) (hb : b ≠ main_v61) :
    W13 m ρ c (Proc.devRef .tc b) = W12 m ρ c (Proc.devRef .tc b) := by
  by_cases h : ∃ w, Pipeline.arrRef spec5 w = b
  · obtain ⟨w, rfl⟩ := h
    have hin : (cfg5.win w).isOut = false := by
      revert hb; revert w; decide
    rw [W13_arr, (dat5 (Vin5 m ρ) c).arrAt_in w hin, A_eq5]
  · exact W13_of_ne m ρ c b fun w e => h ⟨w, e⟩
/-- The contents region 6 is entered from, read at the TensorCore's references. -/
abbrev Vin6 (m : (ℓ : Loc nD τ sig) → Buf (Elt F) ℓ) (ρ : Dev nD → PrngReg) : (c : Dev nD) → (b : Ref sig .tc) → Buf (Elt F) ((c : Thread nD τ).loc b) := fun c b => W13 m ρ c b
/-- At region 6's exit: its arrays at what the pipeline leaves (the inputs as entered, the output's write-backs folded),
    every other buffer as entered. -/
def W14 (m : (ℓ : Loc nD τ sig) → Buf (Elt F) ℓ) (ρ : Dev nD → PrngReg) (c : Dev nD) : Valuation τ sig (Elt F) :=
  Pipeline.withArrays spec6 c (W13 m ρ c) fun w => (dat6 (Vin6 m ρ) c).arrAt w cfg6.N
theorem W14_arr (m : (ℓ : Loc nD τ sig) → Buf (Elt F) ℓ) (ρ : Dev nD → PrngReg) (c : Dev nD) (w : Fin cfg6.W) :
    W14 m ρ c (Proc.devRef .tc (Pipeline.arrRef spec6 w)) = (dat6 (Vin6 m ρ) c).arrAt w cfg6.N := by
  unfold W14; exact Pipeline.withArrays_arr spec6 launch6.win.arr_inj c _ _ w
theorem W14_of_ne (m : (ℓ : Loc nD τ sig) → Buf (Elt F) ℓ) (ρ : Dev nD → PrngReg) (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev Vout6 (m : (ℓ : Loc nD τ sig) → Buf (Elt F) ℓ) (ρ : Dev nD → PrngReg) : (c : Dev nD) → (b : Ref sig .tc) → Buf (Elt F) ((c : Thread nD τ).loc b) := fun c b => W14 m ρ c b
/-- At region 6's exit each of its arrays holds what the pipeline leaves, and every other buffer what it held at entry. -/
theorem hF6 (m : (ℓ : Loc nD τ sig) → Buf (Elt F) ℓ) (ρ : Dev nD → PrngReg) (c : Dev nD) (w : Fin cfg6.W) : (dat6 (Vin6 m ρ) c).arrAt w cfg6.N = Vout6 m ρ c (Pipeline.arrRef spec6 w) :=
  (W14_arr m ρ c w).symm
theorem hrest6 (m : (ℓ : Loc nD τ sig) → Buf (Elt F) ℓ) (ρ : Dev nD → PrngReg) (c : Dev nD) : ∀ b, b ∉ Finset.univ.image (Pipeline.arrRef spec6) → Vout6 m ρ c b = Vin6 m ρ c b :=
  fun b hb => W14_of_ne m ρ c b fun w e => hb (Finset.mem_image.mpr ⟨w, Finset.mem_univ _, e⟩)
/-- Region 6 changes only its output array `main_v62`: an input array is read, never written back, and no other
    buffer is touched. -/
theorem W14_keep (m : (ℓ : Loc nD τ sig) → Buf (Elt F) ℓ) (ρ : Dev nD → PrngReg) (c : Dev nD) (b : Ref sig .tc) (hb : b ≠ main_v62) :
    W14 m ρ c (Proc.devRef .tc b) = W13 m ρ c (Proc.devRef .tc b) := by
  by_cases h : ∃ w, Pipeline.arrRef spec6 w = b
  · obtain ⟨w, rfl⟩ := h
    have hin : (cfg6.win w).isOut = false := by
      revert hb; revert w; decide
    rw [W14_arr, (dat6 (Vin6 m ρ) c).arrAt_in w hin, A_eq6]
  · exact W14_of_ne m ρ c b fun w e => h ⟨w, e⟩
/-- After the host stretch `hostOps7`. -/
abbrev W15 (m : (ℓ : Loc nD τ sig) → Buf (Elt F) ℓ) (ρ : Dev nD → PrngReg) : Dev nD → Valuation τ sig (Elt F) := fun c => StableHlo.after hostOps7 (W14 m ρ c)
/-- The contents region 7 is entered from, read at the TensorCore's references. -/
abbrev Vin7 (m : (ℓ : Loc nD τ sig) → Buf (Elt F) ℓ) (ρ : Dev nD → PrngReg) : (c : Dev nD) → (b : Ref sig .tc) → Buf (Elt F) ((c : Thread nD τ).loc b) := fun c b => W15 m ρ c b
/-- At region 7's exit: its arrays at what the pipeline leaves (the inputs as entered, the output's write-backs folded),
    every other buffer as entered. -/
def W16 (m : (ℓ : Loc nD τ sig) → Buf (Elt F) ℓ) (ρ : Dev nD → PrngReg) (c : Dev nD) : Valuation τ sig (Elt F) :=
  Pipeline.withArrays spec7 c (W15 m ρ c) fun w => (dat7 (Vin7 m ρ) c).arrAt w cfg7.N
theorem W16_arr (m : (ℓ : Loc nD τ sig) → Buf (Elt F) ℓ) (ρ : Dev nD → PrngReg) (c : Dev nD) (w : Fin cfg7.W) :
    W16 m ρ c (Proc.devRef .tc (Pipeline.arrRef spec7 w)) = (dat7 (Vin7 m ρ) c).arrAt w cfg7.N := by
  unfold W16; exact Pipeline.withArrays_arr spec7 launch7.win.arr_inj c _ _ w
theorem W16_of_ne (m : (ℓ : Loc nD τ sig) → Buf (Elt F) ℓ) (ρ : Dev nD → PrngReg) (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev Vout7 (m : (ℓ : Loc nD τ sig) → Buf (Elt F) ℓ) (ρ : Dev nD → PrngReg) : (c : Dev nD) → (b : Ref sig .tc) → Buf (Elt F) ((c : Thread nD τ).loc b) := fun c b => W16 m ρ c b
/-- At region 7's exit each of its arrays holds what the pipeline leaves, and every other buffer what it held at entry. -/
theorem hF7 (m : (ℓ : Loc nD τ sig) → Buf (Elt F) ℓ) (ρ : Dev nD → PrngReg) (c : Dev nD) (w : Fin cfg7.W) : (dat7 (Vin7 m ρ) c).arrAt w cfg7.N = Vout7 m ρ c (Pipeline.arrRef spec7 w) :=
  (W16_arr m ρ c w).symm
theorem hrest7 (m : (ℓ : Loc nD τ sig) → Buf (Elt F) ℓ) (ρ : Dev nD → PrngReg) (c : Dev nD) : ∀ b, b ∉ Finset.univ.image (Pipeline.arrRef spec7) → Vout7 m ρ c b = Vin7 m ρ c b :=
  fun b hb => W16_of_ne m ρ c b fun w e => hb (Finset.mem_image.mpr ⟨w, Finset.mem_univ _, e⟩)
/-- Region 7 changes only its output array `main_v71`: an input array is read, never written back, and no other
    buffer is touched. -/
theorem W16_keep (m : (ℓ : Loc nD τ sig) → Buf (Elt F) ℓ) (ρ : Dev nD → PrngReg) (c : Dev nD) (b : Ref sig .tc) (hb : b ≠ main_v71) :
    W16 m ρ c (Proc.devRef .tc b) = W15 m ρ c (Proc.devRef .tc b) := by
  by_cases h : ∃ w, Pipeline.arrRef spec7 w = b
  · obtain ⟨w, rfl⟩ := h
    have hin : (cfg7.win w).isOut = false := by
      revert hb; revert w; decide
    rw [W16_arr, (dat7 (Vin7 m ρ) c).arrAt_in w hin, A_eq7]
  · exact W16_of_ne m ρ c b fun w e => h ⟨w, e⟩
/-- After the host stretch `hostOps8`. -/
abbrev W17 (m : (ℓ : Loc nD τ sig) → Buf (Elt F) ℓ) (ρ : Dev nD → PrngReg) : Dev nD → Valuation τ sig (Elt F) := fun c => StableHlo.after hostOps8 (W16 m ρ c)
/-- The contents region 8 is entered from, read at the TensorCore's references. -/
abbrev Vin8 (m : (ℓ : Loc nD τ sig) → Buf (Elt F) ℓ) (ρ : Dev nD → PrngReg) : (c : Dev nD) → (b : Ref sig .tc) → Buf (Elt F) ((c : Thread nD τ).loc b) := fun c b => W17 m ρ c b
/-- At region 8's exit: its arrays at what the pipeline leaves (the inputs as entered, the output's write-backs folded),
    every other buffer as entered. -/
def W18 (m : (ℓ : Loc nD τ sig) → Buf (Elt F) ℓ) (ρ : Dev nD → PrngReg) (c : Dev nD) : Valuation τ sig (Elt F) :=
  Pipeline.withArrays spec8 c (W17 m ρ c) fun w => (dat8 (Vin8 m ρ) c).arrAt w cfg8.N
theorem W18_arr (m : (ℓ : Loc nD τ sig) → Buf (Elt F) ℓ) (ρ : Dev nD → PrngReg) (c : Dev nD) (w : Fin cfg8.W) :
    W18 m ρ c (Proc.devRef .tc (Pipeline.arrRef spec8 w)) = (dat8 (Vin8 m ρ) c).arrAt w cfg8.N := by
  unfold W18; exact Pipeline.withArrays_arr spec8 launch8.win.arr_inj c _ _ w
theorem W18_of_ne (m : (ℓ : Loc nD τ sig) → Buf (Elt F) ℓ) (ρ : Dev nD → PrngReg) (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev Vout8 (m : (ℓ : Loc nD τ sig) → Buf (Elt F) ℓ) (ρ : Dev nD → PrngReg) : (c : Dev nD) → (b : Ref sig .tc) → Buf (Elt F) ((c : Thread nD τ).loc b) := fun c b => W18 m ρ c b
/-- At region 8's exit each of its arrays holds what the pipeline leaves, and every other buffer what it held at entry. -/
theorem hF8 (m : (ℓ : Loc nD τ sig) → Buf (Elt F) ℓ) (ρ : Dev nD → PrngReg) (c : Dev nD) (w : Fin cfg8.W) : (dat8 (Vin8 m ρ) c).arrAt w cfg8.N = Vout8 m ρ c (Pipeline.arrRef spec8 w) :=
  (W18_arr m ρ c w).symm
theorem hrest8 (m : (ℓ : Loc nD τ sig) → Buf (Elt F) ℓ) (ρ : Dev nD → PrngReg) (c : Dev nD) : ∀ b, b ∉ Finset.univ.image (Pipeline.arrRef spec8) → Vout8 m ρ c b = Vin8 m ρ c b :=
  fun b hb => W18_of_ne m ρ c b fun w e => hb (Finset.mem_image.mpr ⟨w, Finset.mem_univ _, e⟩)
/-- Region 8 changes only its output array `main_v76`: an input array is read, never written back, and no other
    buffer is touched. -/
theorem W18_keep (m : (ℓ : Loc nD τ sig) → Buf (Elt F) ℓ) (ρ : Dev nD → PrngReg) (c : Dev nD) (b : Ref sig .tc) (hb : b ≠ main_v76) :
    W18 m ρ c (Proc.devRef .tc b) = W17 m ρ c (Proc.devRef .tc b) := by
  by_cases h : ∃ w, Pipeline.arrRef spec8 w = b
  · obtain ⟨w, rfl⟩ := h
    have hin : (cfg8.win w).isOut = false := by
      revert hb; revert w; decide
    rw [W18_arr, (dat8 (Vin8 m ρ) c).arrAt_in w hin, A_eq8]
  · exact W18_of_ne m ρ c b fun w e => h ⟨w, e⟩
/-- After the host stretch `hostOps9`. -/
abbrev W19 (m : (ℓ : Loc nD τ sig) → Buf (Elt F) ℓ) (ρ : Dev nD → PrngReg) : Dev nD → Valuation τ sig (Elt F) := fun c => StableHlo.after hostOps9 (W18 m ρ c)
/-- After the host stretch `hostOps9_1`. -/
abbrev W20 (m : (ℓ : Loc nD τ sig) → Buf (Elt F) ℓ) (ρ : Dev nD → PrngReg) : Dev nD → Valuation τ sig (Elt F) := fun c => StableHlo.after hostOps9_1 (W19 m ρ c)
/-- After the host stretch `hostOps9_2`. -/
abbrev W21 (m : (ℓ : Loc nD τ sig) → Buf (Elt F) ℓ) (ρ : Dev nD → PrngReg) : Dev nD → Valuation τ sig (Elt F) := fun c => StableHlo.after hostOps9_2 (W20 m ρ c)
/-- After the host stretch `hostOps9_3`. -/
abbrev W22 (m : (ℓ : Loc nD τ sig) → Buf (Elt F) ℓ) (ρ : Dev nD → PrngReg) : Dev nD → Valuation τ sig (Elt F) := fun c => StableHlo.after hostOps9_3 (W21 m ρ c)
/-- After the host stretch `hostOps9_4`. -/
abbrev W23 (m : (ℓ : Loc nD τ sig) → Buf (Elt F) ℓ) (ρ : Dev nD → PrngReg) : Dev nD → Valuation τ sig (Elt F) := fun c => StableHlo.after hostOps9_4 (W22 m ρ c)
/-- The contents region 9 is entered from, read at the TensorCore's references. -/
abbrev Vin9 (m : (ℓ : Loc nD τ sig) → Buf (Elt F) ℓ) (ρ : Dev nD → PrngReg) : (c : Dev nD) → (b : Ref sig .tc) → Buf (Elt F) ((c : Thread nD τ).loc b) := fun c b => W23 m ρ c b
/-- At region 9's exit: its arrays at what the pipeline leaves (the inputs as entered, the output's write-backs folded),
    every other buffer as entered. -/
def W24 (m : (ℓ : Loc nD τ sig) → Buf (Elt F) ℓ) (ρ : Dev nD → PrngReg) (c : Dev nD) : Valuation τ sig (Elt F) :=
  Pipeline.withArrays spec9 c (W23 m ρ c) fun w => (dat9 (Vin9 m ρ) c).arrAt w cfg9.N
theorem W24_arr (m : (ℓ : Loc nD τ sig) → Buf (Elt F) ℓ) (ρ : Dev nD → PrngReg) (c : Dev nD) (w : Fin cfg9.W) :
    W24 m ρ c (Proc.devRef .tc (Pipeline.arrRef spec9 w)) = (dat9 (Vin9 m ρ) c).arrAt w cfg9.N := by
  unfold W24; exact Pipeline.withArrays_arr spec9 launch9.win.arr_inj c _ _ w
theorem W24_of_ne (m : (ℓ : Loc nD τ sig) → Buf (Elt F) ℓ) (ρ : Dev nD → PrngReg) (c : Dev nD) (b : Ref sig .tc) (hb : ∀ w, Pipeline.arrRef spec9 w ≠ b) :
    W24 m ρ c (Proc.devRef .tc b) = W23 m ρ c (Proc.devRef .tc b) := by
  unfold W24; exact Pipeline.withArrays_of_ne spec9 c _ _ b hb
/-- The same read at the TensorCore's references (region 9's exit contents). -/
abbrev Vout9 (m : (ℓ : Loc nD τ sig) → Buf (Elt F) ℓ) (ρ : Dev nD → PrngReg) : (c : Dev nD) → (b : Ref sig .tc) → Buf (Elt F) ((c : Thread nD τ).loc b) := fun c b => W24 m ρ c b
/-- At region 9's exit each of its arrays holds what the pipeline leaves, and every other buffer what it held at entry. -/
theorem hF9 (m : (ℓ : Loc nD τ sig) → Buf (Elt F) ℓ) (ρ : Dev nD → PrngReg) (c : Dev nD) (w : Fin cfg9.W) : (dat9 (Vin9 m ρ) c).arrAt w cfg9.N = Vout9 m ρ c (Pipeline.arrRef spec9 w) :=
  (W24_arr m ρ c w).symm
theorem hrest9 (m : (ℓ : Loc nD τ sig) → Buf (Elt F) ℓ) (ρ : Dev nD → PrngReg) (c : Dev nD) : ∀ b, b ∉ Finset.univ.image (Pipeline.arrRef spec9) → Vout9 m ρ c b = Vin9 m ρ c b :=
  fun b hb => W24_of_ne m ρ c b fun w e => hb (Finset.mem_image.mpr ⟨w, Finset.mem_univ _, e⟩)
/-- Region 9 changes only its output array `main_v83`: an input array is read, never written back, and no other
    buffer is touched. -/
theorem W24_keep (m : (ℓ : Loc nD τ sig) → Buf (Elt F) ℓ) (ρ : Dev nD → PrngReg) (c : Dev nD) (b : Ref sig .tc) (hb : b ≠ main_v83) :
    W24 m ρ c (Proc.devRef .tc b) = W23 m ρ c (Proc.devRef .tc b) := by
  by_cases h : ∃ w, Pipeline.arrRef spec9 w = b
  · obtain ⟨w, rfl⟩ := h
    have hin : (cfg9.win w).isOut = false := by
      revert hb; revert w; decide
    rw [W24_arr, (dat9 (Vin9 m ρ) c).arrAt_in w hin, A_eq9]
  · exact W24_of_ne m ρ c b fun w e => h ⟨w, e⟩
/-- After the host stretch `hostOps10`. -/
abbrev W25 (m : (ℓ : Loc nD τ sig) → Buf (Elt F) ℓ) (ρ : Dev nD → PrngReg) : Dev nD → Valuation τ sig (Elt F) := fun c => StableHlo.after hostOps10 (W24 m ρ c)
/-- The contents region 10 is entered from, read at the TensorCore's references. -/
abbrev Vin10 (m : (ℓ : Loc nD τ sig) → Buf (Elt F) ℓ) (ρ : Dev nD → PrngReg) : (c : Dev nD) → (b : Ref sig .tc) → Buf (Elt F) ((c : Thread nD τ).loc b) := fun c b => W25 m ρ c b
/-- At region 10's exit: its arrays at what the pipeline leaves (the inputs as entered, the output's write-backs folded),
    every other buffer as entered. -/
def W26 (m : (ℓ : Loc nD τ sig) → Buf (Elt F) ℓ) (ρ : Dev nD → PrngReg) (c : Dev nD) : Valuation τ sig (Elt F) :=
  Pipeline.withArrays spec10 c (W25 m ρ c) fun w => (dat10 (Vin10 m ρ) c).arrAt w cfg10.N
theorem W26_arr (m : (ℓ : Loc nD τ sig) → Buf (Elt F) ℓ) (ρ : Dev nD → PrngReg) (c : Dev nD) (w : Fin cfg10.W) :
    W26 m ρ c (Proc.devRef .tc (Pipeline.arrRef spec10 w)) = (dat10 (Vin10 m ρ) c).arrAt w cfg10.N := by
  unfold W26; exact Pipeline.withArrays_arr spec10 launch10.win.arr_inj c _ _ w
theorem W26_of_ne (m : (ℓ : Loc nD τ sig) → Buf (Elt F) ℓ) (ρ : Dev nD → PrngReg) (c : Dev nD) (b : Ref sig .tc) (hb : ∀ w, Pipeline.arrRef spec10 w ≠ b) :
    W26 m ρ c (Proc.devRef .tc b) = W25 m ρ c (Proc.devRef .tc b) := by
  unfold W26; exact Pipeline.withArrays_of_ne spec10 c _ _ b hb
/-- The same read at the TensorCore's references (region 10's exit contents). -/
abbrev Vout10 (m : (ℓ : Loc nD τ sig) → Buf (Elt F) ℓ) (ρ : Dev nD → PrngReg) : (c : Dev nD) → (b : Ref sig .tc) → Buf (Elt F) ((c : Thread nD τ).loc b) := fun c b => W26 m ρ c b
/-- At region 10's exit each of its arrays holds what the pipeline leaves, and every other buffer what it held at entry. -/
theorem hF10 (m : (ℓ : Loc nD τ sig) → Buf (Elt F) ℓ) (ρ : Dev nD → PrngReg) (c : Dev nD) (w : Fin cfg10.W) : (dat10 (Vin10 m ρ) c).arrAt w cfg10.N = Vout10 m ρ c (Pipeline.arrRef spec10 w) :=
  (W26_arr m ρ c w).symm
theorem hrest10 (m : (ℓ : Loc nD τ sig) → Buf (Elt F) ℓ) (ρ : Dev nD → PrngReg) (c : Dev nD) : ∀ b, b ∉ Finset.univ.image (Pipeline.arrRef spec10) → Vout10 m ρ c b = Vin10 m ρ c b :=
  fun b hb => W26_of_ne m ρ c b fun w e => hb (Finset.mem_image.mpr ⟨w, Finset.mem_univ _, e⟩)
/-- Region 10 changes only its output array `main_v87`: an input array is read, never written back, and no other
    buffer is touched. -/
theorem W26_keep (m : (ℓ : Loc nD τ sig) → Buf (Elt F) ℓ) (ρ : Dev nD → PrngReg) (c : Dev nD) (b : Ref sig .tc) (hb : b ≠ main_v87) :
    W26 m ρ c (Proc.devRef .tc b) = W25 m ρ c (Proc.devRef .tc b) := by
  by_cases h : ∃ w, Pipeline.arrRef spec10 w = b
  · obtain ⟨w, rfl⟩ := h
    have hin : (cfg10.win w).isOut = false := by
      revert hb; revert w; decide
    rw [W26_arr, (dat10 (Vin10 m ρ) c).arrAt_in w hin, A_eq10]
  · exact W26_of_ne m ρ c b fun w e => h ⟨w, e⟩

/-! ## The proof data of every pipeline and the thread state -/

/-- Every pipeline's proof data, each at its region's entry contents — a literal `match`, so that the configuration
    pinned at a numeral reduces to the printed one. -/
def pdats (m : (ℓ : Loc nD τ sig) → Buf (Elt F) ℓ) (ρ : Dev nD → PrngReg) : (p : Fin 11) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
  | ⟨2, _⟩ => fun c => dat2 (Vin2 m ρ) c
  | ⟨3, _⟩ => fun c => dat3 (Vin3 m ρ) c
  | ⟨4, _⟩ => fun c => dat4 (Vin4 m ρ) c
  | ⟨5, _⟩ => fun c => dat5 (Vin5 m ρ) c
  | ⟨6, _⟩ => fun c => dat6 (Vin6 m ρ) c
  | ⟨7, _⟩ => fun c => dat7 (Vin7 m ρ) c
  | ⟨8, _⟩ => fun c => dat8 (Vin8 m ρ) c
  | ⟨9, _⟩ => fun c => dat9 (Vin9 m ρ) c
  | ⟨10, _⟩ => fun c => dat10 (Vin10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (m : (ℓ : Loc nD τ sig) → Buf (Elt F) ℓ) (ρ : Dev nD → PrngReg) (c : Dev nD) : sProp 𝕄 := iprop(StableHlo.held (c : Thread nD τ) (Pipeline.ucRefs τ sig) (W26 m ρ c) ∗ ∃ r, prngReg c r)

/-! ## The regions as segments -/

set_option backward.isDefEq.respectTransparency.types false in
/-- Region 0 (custom call 0) over the thread state: entered from every unscoped buffer at the contents of boundary 3,
    left at those of boundary 4. Its arrays are split out of the unscoped buffers and put back at the exit contents; the
    generator register goes into the region invariant and comes back; nothing is owed; the kernel has no semaphore of its own. -/
def reg0 (m : (ℓ : Loc nD τ sig) → Buf (Elt F) ℓ) (ρ : Dev nD → PrngReg) : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom call 1) over the thread state: entered from every unscoped buffer at the contents of boundary 5,
    left at those of boundary 6. Its arrays are split out of the unscoped buffers and put back at the exit contents; the
    generator register goes into the region invariant and comes back; nothing is owed; the kernel has no semaphore of its own. -/
def reg1 (m : (ℓ : Loc nD τ sig) → Buf (Elt F) ℓ) (ρ : Dev nD → PrngReg) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 (custom call 2) over the thread state: entered from every unscoped buffer at the contents of boundary 7,
    left at those of boundary 8. Its arrays are split out of the unscoped buffers and put back at the exit contents; the
    generator register goes into the region invariant and comes back; nothing is owed; the kernel has no semaphore of its own. -/
def reg2 (m : (ℓ : Loc nD τ sig) → Buf (Elt F) ℓ) (ρ : Dev nD → PrngReg) : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vin2 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vin2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vin2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vin2 m ρ c) (Vout2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 (custom call 3) over the thread state: entered from every unscoped buffer at the contents of boundary 8,
    left at those of boundary 9. Its arrays are split out of the unscoped buffers and put back at the exit contents; the
    generator register goes into the region invariant and comes back; nothing is owed; the kernel has no semaphore of its own. -/
def reg3 (m : (ℓ : Loc nD τ sig) → Buf (Elt F) ℓ) (ρ : Dev nD → PrngReg) : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vin3 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (Vin3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vin3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vin3 m ρ c) (Vout3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 (custom call 4) over the thread state: entered from every unscoped buffer at the contents of boundary 10,
    left at those of boundary 11. Its arrays are split out of the unscoped buffers and put back at the exit contents; the
    generator register goes into the region invariant and comes back; nothing is owed; the kernel has no semaphore of its own. -/
def reg4 (m : (ℓ : Loc nD τ sig) → Buf (Elt F) ℓ) (ρ : Dev nD → PrngReg) : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vin4 m ρ) c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (Vin4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vin4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vin4 m ρ c) (Vout4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 (custom call 5) over the thread state: entered from every unscoped buffer at the contents of boundary 12,
    left at those of boundary 13. Its arrays are split out of the unscoped buffers and put back at the exit contents; the
    generator register goes into the region invariant and comes back; nothing is owed; the kernel has no semaphore of its own. -/
def reg5 (m : (ℓ : Loc nD τ sig) → Buf (Elt F) ℓ) (ρ : Dev nD → PrngReg) : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vin5 m ρ) c).loose
  hwaits := Pipeline.hwaits_of_owed_zero _ _ _ _ L lv 5 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec5 c (Vin5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vin5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vin5 m ρ c) (Vout5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 (custom call 6) over the thread state: entered from every unscoped buffer at the contents of boundary 13,
    left at those of boundary 14. Its arrays are split out of the unscoped buffers and put back at the exit contents; the
    generator register goes into the region invariant and comes back; nothing is owed; the kernel has no semaphore of its own. -/
def reg6 (m : (ℓ : Loc nD τ sig) → Buf (Elt F) ℓ) (ρ : Dev nD → PrngReg) : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vin6 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (Vin6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vin6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vin6 m ρ c) (Vout6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 (custom call 7) over the thread state: entered from every unscoped buffer at the contents of boundary 15,
    left at those of boundary 16. Its arrays are split out of the unscoped buffers and put back at the exit contents; the
    generator register goes into the region invariant and comes back; nothing is owed; the kernel has no semaphore of its own. -/
def reg7 (m : (ℓ : Loc nD τ sig) → Buf (Elt F) ℓ) (ρ : Dev nD → PrngReg) : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vin7 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (Vin7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vin7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vin7 m ρ c) (Vout7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 (custom call 8) over the thread state: entered from every unscoped buffer at the contents of boundary 17,
    left at those of boundary 18. Its arrays are split out of the unscoped buffers and put back at the exit contents; the
    generator register goes into the region invariant and comes back; nothing is owed; the kernel has no semaphore of its own. -/
def reg8 (m : (ℓ : Loc nD τ sig) → Buf (Elt F) ℓ) (ρ : Dev nD → PrngReg) : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vin8 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (Vin8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vin8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vin8 m ρ c) (Vout8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 (custom call 9) over the thread state: entered from every unscoped buffer at the contents of boundary 23,
    left at those of boundary 24. Its arrays are split out of the unscoped buffers and put back at the exit contents; the
    generator register goes into the region invariant and comes back; nothing is owed; the kernel has no semaphore of its own. -/
def reg9 (m : (ℓ : Loc nD τ sig) → Buf (Elt F) ℓ) (ρ : Dev nD → PrngReg) : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vin9 m ρ) c).loose
  hwaits := Pipeline.hwaits_of_owed_zero _ _ _ _ L lv 9 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec9 c (Vin9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vin9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vin9 m ρ c) (Vout9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 (custom call 10) over the thread state: entered from every unscoped buffer at the contents of boundary 25,
    left at those of boundary 26. Its arrays are split out of the unscoped buffers and put back at the exit contents; the
    generator register goes into the region invariant and comes back; nothing is owed; the kernel has no semaphore of its own. -/
def reg10 (m : (ℓ : Loc nD τ sig) → Buf (Elt F) ℓ) (ρ : Dev nD → PrngReg) : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vin10 m ρ) c).loose
  hwaits := Pipeline.hwaits_of_owed_zero _ _ _ _ L lv 10 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec10 c (Vin10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vin10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (Vin10 m ρ) c).Φ 0 from rfl]
    iintro ⟨Hp, -, Hr⟩
    iapply (Φ10_in (Vin10 m ρ) c)
    isplitl [Hp]; · iexact Hp
    iexact Hr
  hout c := by
    rw [Pipeline.ownSems0_none, show (pdats m ρ 10 c).Φ (Fin.last _) = (dat10 (Vin10 m ρ) c).Φ (Fin.last cfg10.N) from rfl]
    refine (Φ10_out (Vin10 m ρ) c).trans ?_
    iintro ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vin10 m ρ c) (Vout10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 26 items in order: a host segment per stretch from its boundary's contents, a region per kernel call. -/
abbrev runSegs (m : (ℓ : Loc nD τ sig) → Buf (Elt F) ℓ) (ρ : Dev nD → PrngReg) : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .region (reg3 m ρ),
    .host (hseg hostOps4 hostOps4_sub hostOps4_fresh (W9 m ρ)),
    .region (reg4 m ρ),
    .host (hseg hostOps5 hostOps5_sub hostOps5_fresh (W11 m ρ)),
    .region (reg5 m ρ),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .host (hseg hostOps9_1 hostOps9_1_sub hostOps9_1_fresh (W19 m ρ)),
    .host (hseg hostOps9_2 hostOps9_2_sub hostOps9_2_fresh (W20 m ρ)),
    .host (hseg hostOps9_3 hostOps9_3_sub hostOps9_3_fresh (W21 m ρ)),
    .host (hseg hostOps9_4 hostOps9_4_sub hostOps9_4_fresh (W22 m ρ)),
    .region (reg9 m ρ),
    .host (hseg hostOps10 hostOps10_sub hostOps10_fresh (W24 m ρ)),
    .region (reg10 m ρ) ]

set_option backward.isDefEq.respectTransparency.types false in
/-- The run, for any property `Q` of the final state that follows from every unscoped buffer holding the last boundary's
    contents: from any memory with zero counters, every weakly fair execution of the program on the TensorCores terminates,
    nothing faulting, and every final state satisfies `Q`. The launch theorem over the segments; the last thread state is read
    against the final state. -/
theorem run_gen (m : (ℓ : Loc nD τ sig) → Buf (Elt F) ℓ) (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W26 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (runSegs m ρ)
    (fun c Q => by
      rewrite [main_chain c, Pipeline.Seg.run_eq_chain,
        show (runSegs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          Prog.lift (.customCall (Pipeline.entry 9) ()),
          StableHlo.seq hostOps10,
          Prog.lift (.customCall (Pipeline.entry 10) ()) ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show (iprop(StableHlo.held (c : Thread nD τ) (Pipeline.ucRefs τ sig) (W26 m ρ c)
            ∗ (∃ r, prngReg c r) ∗ ∃ W, owes (c : Thread nD τ) (0 : CellTallies nD τ sig Unit) W) : sProp 𝕄)
          ⊢ iprop((StableHlo.held (c : Thread nD τ) (Pipeline.ucRefs τ sig) (W26 m ρ c) ∗ ∃ r, prngReg c r)
            ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := hQ)

/-- The run with the whole reading kept: every final state holds every unscoped buffer at the last boundary's contents. -/
theorem run_all (m : (ℓ : Loc nD τ sig) → Buf (Elt F) ℓ) (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W26 m ρ c b) :=
  run_gen m ρ fun _ h => h

/-! ## The arguments end as launched: no host stretch writes one and a region changes only its output array, so the fold at
    an argument's buffer walks back to the launch memory -/

theorem W26_main_arg0 (m : (ℓ : Loc nD τ sig) → Buf (Elt F) ℓ) (ρ : Dev nD → PrngReg) (c : Dev nD) : W26 m ρ c (Proc.devRef .tc main_arg0) = m ((c : Thread nD τ).loc main_arg0) :=
  calc W26 m ρ c (Proc.devRef .tc main_arg0)
    _ = W25 m ρ c (Proc.devRef .tc main_arg0) := W26_keep m ρ c main_arg0 (by decide)
    _ = W24 m ρ c (Proc.devRef .tc main_arg0) := StableHlo.after_of_writes_sub hostOps10 _ hostOps10_writes (by decide)
    _ = W23 m ρ c (Proc.devRef .tc main_arg0) := W24_keep m ρ c main_arg0 (by decide)
    _ = W22 m ρ c (Proc.devRef .tc main_arg0) := StableHlo.after_of_writes_sub hostOps9_4 _ hostOps9_4_writes (by decide)
    _ = W21 m ρ c (Proc.devRef .tc main_arg0) := StableHlo.after_of_writes_sub hostOps9_3 _ hostOps9_3_writes (by decide)
    _ = W20 m ρ c (Proc.devRef .tc main_arg0) := StableHlo.after_of_writes_sub hostOps9_2 _ hostOps9_2_writes (by decide)
    _ = W19 m ρ c (Proc.devRef .tc main_arg0) := StableHlo.after_of_writes_sub hostOps9_1 _ hostOps9_1_writes (by decide)
    _ = W18 m ρ c (Proc.devRef .tc main_arg0) := StableHlo.after_of_writes_sub hostOps9 _ hostOps9_writes (by decide)
    _ = W17 m ρ c (Proc.devRef .tc main_arg0) := W18_keep m ρ c main_arg0 (by decide)
    _ = W16 m ρ c (Proc.devRef .tc main_arg0) := StableHlo.after_of_writes_sub hostOps8 _ hostOps8_writes (by decide)
    _ = W15 m ρ c (Proc.devRef .tc main_arg0) := W16_keep m ρ c main_arg0 (by decide)
    _ = W14 m ρ c (Proc.devRef .tc main_arg0) := StableHlo.after_of_writes_sub hostOps7 _ hostOps7_writes (by decide)
    _ = W13 m ρ c (Proc.devRef .tc main_arg0) := W14_keep m ρ c main_arg0 (by decide)
    _ = W12 m ρ c (Proc.devRef .tc main_arg0) := W13_keep m ρ c main_arg0 (by decide)
    _ = W11 m ρ c (Proc.devRef .tc main_arg0) := StableHlo.after_of_writes_sub hostOps5 _ hostOps5_writes (by decide)
    _ = W10 m ρ c (Proc.devRef .tc main_arg0) := W11_keep m ρ c main_arg0 (by decide)
    _ = W9 m ρ c (Proc.devRef .tc main_arg0) := StableHlo.after_of_writes_sub hostOps4 _ hostOps4_writes (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := StableHlo.after_of_writes_sub hostOps2 _ hostOps2_writes (by decide)
    _ = W5 m ρ c (Proc.devRef .tc main_arg0) := W6_keep m ρ c main_arg0 (by decide)
    _ = W4 m ρ c (Proc.devRef .tc main_arg0) := StableHlo.after_of_writes_sub hostOps1 _ hostOps1_writes (by decide)
    _ = W3 m ρ c (Proc.devRef .tc main_arg0) := W4_keep m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W26_main_arg1 (m : (ℓ : Loc nD τ sig) → Buf (Elt F) ℓ) (ρ : Dev nD → PrngReg) (c : Dev nD) : W26 m ρ c (Proc.devRef .tc main_arg1) = m ((c : Thread nD τ).loc main_arg1) :=
  calc W26 m ρ c (Proc.devRef .tc main_arg1)
    _ = W25 m ρ c (Proc.devRef .tc main_arg1) := W26_keep m ρ c main_arg1 (by decide)
    _ = W24 m ρ c (Proc.devRef .tc main_arg1) := StableHlo.after_of_writes_sub hostOps10 _ hostOps10_writes (by decide)
    _ = W23 m ρ c (Proc.devRef .tc main_arg1) := W24_keep m ρ c main_arg1 (by decide)
    _ = W22 m ρ c (Proc.devRef .tc main_arg1) := StableHlo.after_of_writes_sub hostOps9_4 _ hostOps9_4_writes (by decide)
    _ = W21 m ρ c (Proc.devRef .tc main_arg1) := StableHlo.after_of_writes_sub hostOps9_3 _ hostOps9_3_writes (by decide)
    _ = W20 m ρ c (Proc.devRef .tc main_arg1) := StableHlo.after_of_writes_sub hostOps9_2 _ hostOps9_2_writes (by decide)
    _ = W19 m ρ c (Proc.devRef .tc main_arg1) := StableHlo.after_of_writes_sub hostOps9_1 _ hostOps9_1_writes (by decide)
    _ = W18 m ρ c (Proc.devRef .tc main_arg1) := StableHlo.after_of_writes_sub hostOps9 _ hostOps9_writes (by decide)
    _ = W17 m ρ c (Proc.devRef .tc main_arg1) := W18_keep m ρ c main_arg1 (by decide)
    _ = W16 m ρ c (Proc.devRef .tc main_arg1) := StableHlo.after_of_writes_sub hostOps8 _ hostOps8_writes (by decide)
    _ = W15 m ρ c (Proc.devRef .tc main_arg1) := W16_keep m ρ c main_arg1 (by decide)
    _ = W14 m ρ c (Proc.devRef .tc main_arg1) := StableHlo.after_of_writes_sub hostOps7 _ hostOps7_writes (by decide)
    _ = W13 m ρ c (Proc.devRef .tc main_arg1) := W14_keep m ρ c main_arg1 (by decide)
    _ = W12 m ρ c (Proc.devRef .tc main_arg1) := W13_keep m ρ c main_arg1 (by decide)
    _ = W11 m ρ c (Proc.devRef .tc main_arg1) := StableHlo.after_of_writes_sub hostOps5 _ hostOps5_writes (by decide)
    _ = W10 m ρ c (Proc.devRef .tc main_arg1) := W11_keep m ρ c main_arg1 (by decide)
    _ = W9 m ρ c (Proc.devRef .tc main_arg1) := StableHlo.after_of_writes_sub hostOps4 _ hostOps4_writes (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := StableHlo.after_of_writes_sub hostOps2 _ hostOps2_writes (by decide)
    _ = W5 m ρ c (Proc.devRef .tc main_arg1) := W6_keep m ρ c main_arg1 (by decide)
    _ = W4 m ρ c (Proc.devRef .tc main_arg1) := StableHlo.after_of_writes_sub hostOps1 _ hostOps1_writes (by decide)
    _ = W3 m ρ c (Proc.devRef .tc main_arg1) := W4_keep m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W26_main_arg2 (m : (ℓ : Loc nD τ sig) → Buf (Elt F) ℓ) (ρ : Dev nD → PrngReg) (c : Dev nD) : W26 m ρ c (Proc.devRef .tc main_arg2) = m ((c : Thread nD τ).loc main_arg2) :=
  calc W26 m ρ c (Proc.devRef .tc main_arg2)
    _ = W25 m ρ c (Proc.devRef .tc main_arg2) := W26_keep m ρ c main_arg2 (by decide)
    _ = W24 m ρ c (Proc.devRef .tc main_arg2) := StableHlo.after_of_writes_sub hostOps10 _ hostOps10_writes (by decide)
    _ = W23 m ρ c (Proc.devRef .tc main_arg2) := W24_keep m ρ c main_arg2 (by decide)
    _ = W22 m ρ c (Proc.devRef .tc main_arg2) := StableHlo.after_of_writes_sub hostOps9_4 _ hostOps9_4_writes (by decide)
    _ = W21 m ρ c (Proc.devRef .tc main_arg2) := StableHlo.after_of_writes_sub hostOps9_3 _ hostOps9_3_writes (by decide)
    _ = W20 m ρ c (Proc.devRef .tc main_arg2) := StableHlo.after_of_writes_sub hostOps9_2 _ hostOps9_2_writes (by decide)
    _ = W19 m ρ c (Proc.devRef .tc main_arg2) := StableHlo.after_of_writes_sub hostOps9_1 _ hostOps9_1_writes (by decide)
    _ = W18 m ρ c (Proc.devRef .tc main_arg2) := StableHlo.after_of_writes_sub hostOps9 _ hostOps9_writes (by decide)
    _ = W17 m ρ c (Proc.devRef .tc main_arg2) := W18_keep m ρ c main_arg2 (by decide)
    _ = W16 m ρ c (Proc.devRef .tc main_arg2) := StableHlo.after_of_writes_sub hostOps8 _ hostOps8_writes (by decide)
    _ = W15 m ρ c (Proc.devRef .tc main_arg2) := W16_keep m ρ c main_arg2 (by decide)
    _ = W14 m ρ c (Proc.devRef .tc main_arg2) := StableHlo.after_of_writes_sub hostOps7 _ hostOps7_writes (by decide)
    _ = W13 m ρ c (Proc.devRef .tc main_arg2) := W14_keep m ρ c main_arg2 (by decide)
    _ = W12 m ρ c (Proc.devRef .tc main_arg2) := W13_keep m ρ c main_arg2 (by decide)
    _ = W11 m ρ c (Proc.devRef .tc main_arg2) := StableHlo.after_of_writes_sub hostOps5 _ hostOps5_writes (by decide)
    _ = W10 m ρ c (Proc.devRef .tc main_arg2) := W11_keep m ρ c main_arg2 (by decide)
    _ = W9 m ρ c (Proc.devRef .tc main_arg2) := StableHlo.after_of_writes_sub hostOps4 _ hostOps4_writes (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := StableHlo.after_of_writes_sub hostOps2 _ hostOps2_writes (by decide)
    _ = W5 m ρ c (Proc.devRef .tc main_arg2) := W6_keep m ρ c main_arg2 (by decide)
    _ = W4 m ρ c (Proc.devRef .tc main_arg2) := StableHlo.after_of_writes_sub hostOps1 _ hostOps1_writes (by decide)
    _ = W3 m ρ c (Proc.devRef .tc main_arg2) := W4_keep m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W26_main_arg3 (m : (ℓ : Loc nD τ sig) → Buf (Elt F) ℓ) (ρ : Dev nD → PrngReg) (c : Dev nD) : W26 m ρ c (Proc.devRef .tc main_arg3) = m ((c : Thread nD τ).loc main_arg3) :=
  calc W26 m ρ c (Proc.devRef .tc main_arg3)
    _ = W25 m ρ c (Proc.devRef .tc main_arg3) := W26_keep m ρ c main_arg3 (by decide)
    _ = W24 m ρ c (Proc.devRef .tc main_arg3) := StableHlo.after_of_writes_sub hostOps10 _ hostOps10_writes (by decide)
    _ = W23 m ρ c (Proc.devRef .tc main_arg3) := W24_keep m ρ c main_arg3 (by decide)
    _ = W22 m ρ c (Proc.devRef .tc main_arg3) := StableHlo.after_of_writes_sub hostOps9_4 _ hostOps9_4_writes (by decide)
    _ = W21 m ρ c (Proc.devRef .tc main_arg3) := StableHlo.after_of_writes_sub hostOps9_3 _ hostOps9_3_writes (by decide)
    _ = W20 m ρ c (Proc.devRef .tc main_arg3) := StableHlo.after_of_writes_sub hostOps9_2 _ hostOps9_2_writes (by decide)
    _ = W19 m ρ c (Proc.devRef .tc main_arg3) := StableHlo.after_of_writes_sub hostOps9_1 _ hostOps9_1_writes (by decide)
    _ = W18 m ρ c (Proc.devRef .tc main_arg3) := StableHlo.after_of_writes_sub hostOps9 _ hostOps9_writes (by decide)
    _ = W17 m ρ c (Proc.devRef .tc main_arg3) := W18_keep m ρ c main_arg3 (by decide)
    _ = W16 m ρ c (Proc.devRef .tc main_arg3) := StableHlo.after_of_writes_sub hostOps8 _ hostOps8_writes (by decide)
    _ = W15 m ρ c (Proc.devRef .tc main_arg3) := W16_keep m ρ c main_arg3 (by decide)
    _ = W14 m ρ c (Proc.devRef .tc main_arg3) := StableHlo.after_of_writes_sub hostOps7 _ hostOps7_writes (by decide)
    _ = W13 m ρ c (Proc.devRef .tc main_arg3) := W14_keep m ρ c main_arg3 (by decide)
    _ = W12 m ρ c (Proc.devRef .tc main_arg3) := W13_keep m ρ c main_arg3 (by decide)
    _ = W11 m ρ c (Proc.devRef .tc main_arg3) := StableHlo.after_of_writes_sub hostOps5 _ hostOps5_writes (by decide)
    _ = W10 m ρ c (Proc.devRef .tc main_arg3) := W11_keep m ρ c main_arg3 (by decide)
    _ = W9 m ρ c (Proc.devRef .tc main_arg3) := StableHlo.after_of_writes_sub hostOps4 _ hostOps4_writes (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := StableHlo.after_of_writes_sub hostOps2 _ hostOps2_writes (by decide)
    _ = W5 m ρ c (Proc.devRef .tc main_arg3) := W6_keep m ρ c main_arg3 (by decide)
    _ = W4 m ρ c (Proc.devRef .tc main_arg3) := StableHlo.after_of_writes_sub hostOps1 _ hostOps1_writes (by decide)
    _ = W3 m ρ c (Proc.devRef .tc main_arg3) := W4_keep m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W26_main_arg4 (m : (ℓ : Loc nD τ sig) → Buf (Elt F) ℓ) (ρ : Dev nD → PrngReg) (c : Dev nD) : W26 m ρ c (Proc.devRef .tc main_arg4) = m ((c : Thread nD τ).loc main_arg4) :=
  calc W26 m ρ c (Proc.devRef .tc main_arg4)
    _ = W25 m ρ c (Proc.devRef .tc main_arg4) := W26_keep m ρ c main_arg4 (by decide)
    _ = W24 m ρ c (Proc.devRef .tc main_arg4) := StableHlo.after_of_writes_sub hostOps10 _ hostOps10_writes (by decide)
    _ = W23 m ρ c (Proc.devRef .tc main_arg4) := W24_keep m ρ c main_arg4 (by decide)
    _ = W22 m ρ c (Proc.devRef .tc main_arg4) := StableHlo.after_of_writes_sub hostOps9_4 _ hostOps9_4_writes (by decide)
    _ = W21 m ρ c (Proc.devRef .tc main_arg4) := StableHlo.after_of_writes_sub hostOps9_3 _ hostOps9_3_writes (by decide)
    _ = W20 m ρ c (Proc.devRef .tc main_arg4) := StableHlo.after_of_writes_sub hostOps9_2 _ hostOps9_2_writes (by decide)
    _ = W19 m ρ c (Proc.devRef .tc main_arg4) := StableHlo.after_of_writes_sub hostOps9_1 _ hostOps9_1_writes (by decide)
    _ = W18 m ρ c (Proc.devRef .tc main_arg4) := StableHlo.after_of_writes_sub hostOps9 _ hostOps9_writes (by decide)
    _ = W17 m ρ c (Proc.devRef .tc main_arg4) := W18_keep m ρ c main_arg4 (by decide)
    _ = W16 m ρ c (Proc.devRef .tc main_arg4) := StableHlo.after_of_writes_sub hostOps8 _ hostOps8_writes (by decide)
    _ = W15 m ρ c (Proc.devRef .tc main_arg4) := W16_keep m ρ c main_arg4 (by decide)
    _ = W14 m ρ c (Proc.devRef .tc main_arg4) := StableHlo.after_of_writes_sub hostOps7 _ hostOps7_writes (by decide)
    _ = W13 m ρ c (Proc.devRef .tc main_arg4) := W14_keep m ρ c main_arg4 (by decide)
    _ = W12 m ρ c (Proc.devRef .tc main_arg4) := W13_keep m ρ c main_arg4 (by decide)
    _ = W11 m ρ c (Proc.devRef .tc main_arg4) := StableHlo.after_of_writes_sub hostOps5 _ hostOps5_writes (by decide)
    _ = W10 m ρ c (Proc.devRef .tc main_arg4) := W11_keep m ρ c main_arg4 (by decide)
    _ = W9 m ρ c (Proc.devRef .tc main_arg4) := StableHlo.after_of_writes_sub hostOps4 _ hostOps4_writes (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := StableHlo.after_of_writes_sub hostOps2 _ hostOps2_writes (by decide)
    _ = W5 m ρ c (Proc.devRef .tc main_arg4) := W6_keep m ρ c main_arg4 (by decide)
    _ = W4 m ρ c (Proc.devRef .tc main_arg4) := StableHlo.after_of_writes_sub hostOps1 _ hostOps1_writes (by decide)
    _ = W3 m ρ c (Proc.devRef .tc main_arg4) := W4_keep m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W26_main_arg5 (m : (ℓ : Loc nD τ sig) → Buf (Elt F) ℓ) (ρ : Dev nD → PrngReg) (c : Dev nD) : W26 m ρ c (Proc.devRef .tc main_arg5) = m ((c : Thread nD τ).loc main_arg5) :=
  calc W26 m ρ c (Proc.devRef .tc main_arg5)
    _ = W25 m ρ c (Proc.devRef .tc main_arg5) := W26_keep m ρ c main_arg5 (by decide)
    _ = W24 m ρ c (Proc.devRef .tc main_arg5) := StableHlo.after_of_writes_sub hostOps10 _ hostOps10_writes (by decide)
    _ = W23 m ρ c (Proc.devRef .tc main_arg5) := W24_keep m ρ c main_arg5 (by decide)
    _ = W22 m ρ c (Proc.devRef .tc main_arg5) := StableHlo.after_of_writes_sub hostOps9_4 _ hostOps9_4_writes (by decide)
    _ = W21 m ρ c (Proc.devRef .tc main_arg5) := StableHlo.after_of_writes_sub hostOps9_3 _ hostOps9_3_writes (by decide)
    _ = W20 m ρ c (Proc.devRef .tc main_arg5) := StableHlo.after_of_writes_sub hostOps9_2 _ hostOps9_2_writes (by decide)
    _ = W19 m ρ c (Proc.devRef .tc main_arg5) := StableHlo.after_of_writes_sub hostOps9_1 _ hostOps9_1_writes (by decide)
    _ = W18 m ρ c (Proc.devRef .tc main_arg5) := StableHlo.after_of_writes_sub hostOps9 _ hostOps9_writes (by decide)
    _ = W17 m ρ c (Proc.devRef .tc main_arg5) := W18_keep m ρ c main_arg5 (by decide)
    _ = W16 m ρ c (Proc.devRef .tc main_arg5) := StableHlo.after_of_writes_sub hostOps8 _ hostOps8_writes (by decide)
    _ = W15 m ρ c (Proc.devRef .tc main_arg5) := W16_keep m ρ c main_arg5 (by decide)
    _ = W14 m ρ c (Proc.devRef .tc main_arg5) := StableHlo.after_of_writes_sub hostOps7 _ hostOps7_writes (by decide)
    _ = W13 m ρ c (Proc.devRef .tc main_arg5) := W14_keep m ρ c main_arg5 (by decide)
    _ = W12 m ρ c (Proc.devRef .tc main_arg5) := W13_keep m ρ c main_arg5 (by decide)
    _ = W11 m ρ c (Proc.devRef .tc main_arg5) := StableHlo.after_of_writes_sub hostOps5 _ hostOps5_writes (by decide)
    _ = W10 m ρ c (Proc.devRef .tc main_arg5) := W11_keep m ρ c main_arg5 (by decide)
    _ = W9 m ρ c (Proc.devRef .tc main_arg5) := StableHlo.after_of_writes_sub hostOps4 _ hostOps4_writes (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := StableHlo.after_of_writes_sub hostOps2 _ hostOps2_writes (by decide)
    _ = W5 m ρ c (Proc.devRef .tc main_arg5) := W6_keep m ρ c main_arg5 (by decide)
    _ = W4 m ρ c (Proc.devRef .tc main_arg5) := StableHlo.after_of_writes_sub hostOps1 _ hostOps1_writes (by decide)
    _ = W3 m ρ c (Proc.devRef .tc main_arg5) := W4_keep m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W26_main_arg6 (m : (ℓ : Loc nD τ sig) → Buf (Elt F) ℓ) (ρ : Dev nD → PrngReg) (c : Dev nD) : W26 m ρ c (Proc.devRef .tc main_arg6) = m ((c : Thread nD τ).loc main_arg6) :=
  calc W26 m ρ c (Proc.devRef .tc main_arg6)
    _ = W25 m ρ c (Proc.devRef .tc main_arg6) := W26_keep m ρ c main_arg6 (by decide)
    _ = W24 m ρ c (Proc.devRef .tc main_arg6) := StableHlo.after_of_writes_sub hostOps10 _ hostOps10_writes (by decide)
    _ = W23 m ρ c (Proc.devRef .tc main_arg6) := W24_keep m ρ c main_arg6 (by decide)
    _ = W22 m ρ c (Proc.devRef .tc main_arg6) := StableHlo.after_of_writes_sub hostOps9_4 _ hostOps9_4_writes (by decide)
    _ = W21 m ρ c (Proc.devRef .tc main_arg6) := StableHlo.after_of_writes_sub hostOps9_3 _ hostOps9_3_writes (by decide)
    _ = W20 m ρ c (Proc.devRef .tc main_arg6) := StableHlo.after_of_writes_sub hostOps9_2 _ hostOps9_2_writes (by decide)
    _ = W19 m ρ c (Proc.devRef .tc main_arg6) := StableHlo.after_of_writes_sub hostOps9_1 _ hostOps9_1_writes (by decide)
    _ = W18 m ρ c (Proc.devRef .tc main_arg6) := StableHlo.after_of_writes_sub hostOps9 _ hostOps9_writes (by decide)
    _ = W17 m ρ c (Proc.devRef .tc main_arg6) := W18_keep m ρ c main_arg6 (by decide)
    _ = W16 m ρ c (Proc.devRef .tc main_arg6) := StableHlo.after_of_writes_sub hostOps8 _ hostOps8_writes (by decide)
    _ = W15 m ρ c (Proc.devRef .tc main_arg6) := W16_keep m ρ c main_arg6 (by decide)
    _ = W14 m ρ c (Proc.devRef .tc main_arg6) := StableHlo.after_of_writes_sub hostOps7 _ hostOps7_writes (by decide)
    _ = W13 m ρ c (Proc.devRef .tc main_arg6) := W14_keep m ρ c main_arg6 (by decide)
    _ = W12 m ρ c (Proc.devRef .tc main_arg6) := W13_keep m ρ c main_arg6 (by decide)
    _ = W11 m ρ c (Proc.devRef .tc main_arg6) := StableHlo.after_of_writes_sub hostOps5 _ hostOps5_writes (by decide)
    _ = W10 m ρ c (Proc.devRef .tc main_arg6) := W11_keep m ρ c main_arg6 (by decide)
    _ = W9 m ρ c (Proc.devRef .tc main_arg6) := StableHlo.after_of_writes_sub hostOps4 _ hostOps4_writes (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := StableHlo.after_of_writes_sub hostOps2 _ hostOps2_writes (by decide)
    _ = W5 m ρ c (Proc.devRef .tc main_arg6) := W6_keep m ρ c main_arg6 (by decide)
    _ = W4 m ρ c (Proc.devRef .tc main_arg6) := StableHlo.after_of_writes_sub hostOps1 _ hostOps1_writes (by decide)
    _ = W3 m ρ c (Proc.devRef .tc main_arg6) := W4_keep m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W26_main_arg7 (m : (ℓ : Loc nD τ sig) → Buf (Elt F) ℓ) (ρ : Dev nD → PrngReg) (c : Dev nD) : W26 m ρ c (Proc.devRef .tc main_arg7) = m ((c : Thread nD τ).loc main_arg7) :=
  calc W26 m ρ c (Proc.devRef .tc main_arg7)
    _ = W25 m ρ c (Proc.devRef .tc main_arg7) := W26_keep m ρ c main_arg7 (by decide)
    _ = W24 m ρ c (Proc.devRef .tc main_arg7) := StableHlo.after_of_writes_sub hostOps10 _ hostOps10_writes (by decide)
    _ = W23 m ρ c (Proc.devRef .tc main_arg7) := W24_keep m ρ c main_arg7 (by decide)
    _ = W22 m ρ c (Proc.devRef .tc main_arg7) := StableHlo.after_of_writes_sub hostOps9_4 _ hostOps9_4_writes (by decide)
    _ = W21 m ρ c (Proc.devRef .tc main_arg7) := StableHlo.after_of_writes_sub hostOps9_3 _ hostOps9_3_writes (by decide)
    _ = W20 m ρ c (Proc.devRef .tc main_arg7) := StableHlo.after_of_writes_sub hostOps9_2 _ hostOps9_2_writes (by decide)
    _ = W19 m ρ c (Proc.devRef .tc main_arg7) := StableHlo.after_of_writes_sub hostOps9_1 _ hostOps9_1_writes (by decide)
    _ = W18 m ρ c (Proc.devRef .tc main_arg7) := StableHlo.after_of_writes_sub hostOps9 _ hostOps9_writes (by decide)
    _ = W17 m ρ c (Proc.devRef .tc main_arg7) := W18_keep m ρ c main_arg7 (by decide)
    _ = W16 m ρ c (Proc.devRef .tc main_arg7) := StableHlo.after_of_writes_sub hostOps8 _ hostOps8_writes (by decide)
    _ = W15 m ρ c (Proc.devRef .tc main_arg7) := W16_keep m ρ c main_arg7 (by decide)
    _ = W14 m ρ c (Proc.devRef .tc main_arg7) := StableHlo.after_of_writes_sub hostOps7 _ hostOps7_writes (by decide)
    _ = W13 m ρ c (Proc.devRef .tc main_arg7) := W14_keep m ρ c main_arg7 (by decide)
    _ = W12 m ρ c (Proc.devRef .tc main_arg7) := W13_keep m ρ c main_arg7 (by decide)
    _ = W11 m ρ c (Proc.devRef .tc main_arg7) := StableHlo.after_of_writes_sub hostOps5 _ hostOps5_writes (by decide)
    _ = W10 m ρ c (Proc.devRef .tc main_arg7) := W11_keep m ρ c main_arg7 (by decide)
    _ = W9 m ρ c (Proc.devRef .tc main_arg7) := StableHlo.after_of_writes_sub hostOps4 _ hostOps4_writes (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := StableHlo.after_of_writes_sub hostOps2 _ hostOps2_writes (by decide)
    _ = W5 m ρ c (Proc.devRef .tc main_arg7) := W6_keep m ρ c main_arg7 (by decide)
    _ = W4 m ρ c (Proc.devRef .tc main_arg7) := StableHlo.after_of_writes_sub hostOps1 _ hostOps1_writes (by decide)
    _ = W3 m ρ c (Proc.devRef .tc main_arg7) := W4_keep m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W26_main_arg8 (m : (ℓ : Loc nD τ sig) → Buf (Elt F) ℓ) (ρ : Dev nD → PrngReg) (c : Dev nD) : W26 m ρ c (Proc.devRef .tc main_arg8) = m ((c : Thread nD τ).loc main_arg8) :=
  calc W26 m ρ c (Proc.devRef .tc main_arg8)
    _ = W25 m ρ c (Proc.devRef .tc main_arg8) := W26_keep m ρ c main_arg8 (by decide)
    _ = W24 m ρ c (Proc.devRef .tc main_arg8) := StableHlo.after_of_writes_sub hostOps10 _ hostOps10_writes (by decide)
    _ = W23 m ρ c (Proc.devRef .tc main_arg8) := W24_keep m ρ c main_arg8 (by decide)
    _ = W22 m ρ c (Proc.devRef .tc main_arg8) := StableHlo.after_of_writes_sub hostOps9_4 _ hostOps9_4_writes (by decide)
    _ = W21 m ρ c (Proc.devRef .tc main_arg8) := StableHlo.after_of_writes_sub hostOps9_3 _ hostOps9_3_writes (by decide)
    _ = W20 m ρ c (Proc.devRef .tc main_arg8) := StableHlo.after_of_writes_sub hostOps9_2 _ hostOps9_2_writes (by decide)
    _ = W19 m ρ c (Proc.devRef .tc main_arg8) := StableHlo.after_of_writes_sub hostOps9_1 _ hostOps9_1_writes (by decide)
    _ = W18 m ρ c (Proc.devRef .tc main_arg8) := StableHlo.after_of_writes_sub hostOps9 _ hostOps9_writes (by decide)
    _ = W17 m ρ c (Proc.devRef .tc main_arg8) := W18_keep m ρ c main_arg8 (by decide)
    _ = W16 m ρ c (Proc.devRef .tc main_arg8) := StableHlo.after_of_writes_sub hostOps8 _ hostOps8_writes (by decide)
    _ = W15 m ρ c (Proc.devRef .tc main_arg8) := W16_keep m ρ c main_arg8 (by decide)
    _ = W14 m ρ c (Proc.devRef .tc main_arg8) := StableHlo.after_of_writes_sub hostOps7 _ hostOps7_writes (by decide)
    _ = W13 m ρ c (Proc.devRef .tc main_arg8) := W14_keep m ρ c main_arg8 (by decide)
    _ = W12 m ρ c (Proc.devRef .tc main_arg8) := W13_keep m ρ c main_arg8 (by decide)
    _ = W11 m ρ c (Proc.devRef .tc main_arg8) := StableHlo.after_of_writes_sub hostOps5 _ hostOps5_writes (by decide)
    _ = W10 m ρ c (Proc.devRef .tc main_arg8) := W11_keep m ρ c main_arg8 (by decide)
    _ = W9 m ρ c (Proc.devRef .tc main_arg8) := StableHlo.after_of_writes_sub hostOps4 _ hostOps4_writes (by decide)
    _ = W8 m ρ c (Proc.devRef .tc main_arg8) := W9_keep m ρ c main_arg8 (by decide)
    _ = W7 m ρ c (Proc.devRef .tc main_arg8) := W8_keep m ρ c main_arg8 (by decide)
    _ = W6 m ρ c (Proc.devRef .tc main_arg8) := StableHlo.after_of_writes_sub hostOps2 _ hostOps2_writes (by decide)
    _ = W5 m ρ c (Proc.devRef .tc main_arg8) := W6_keep m ρ c main_arg8 (by decide)
    _ = W4 m ρ c (Proc.devRef .tc main_arg8) := StableHlo.after_of_writes_sub hostOps1 _ hostOps1_writes (by decide)
    _ = W3 m ρ c (Proc.devRef .tc main_arg8) := W4_keep m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W26_main_arg9 (m : (ℓ : Loc nD τ sig) → Buf (Elt F) ℓ) (ρ : Dev nD → PrngReg) (c : Dev nD) : W26 m ρ c (Proc.devRef .tc main_arg9) = m ((c : Thread nD τ).loc main_arg9) :=
  calc W26 m ρ c (Proc.devRef .tc main_arg9)
    _ = W25 m ρ c (Proc.devRef .tc main_arg9) := W26_keep m ρ c main_arg9 (by decide)
    _ = W24 m ρ c (Proc.devRef .tc main_arg9) := StableHlo.after_of_writes_sub hostOps10 _ hostOps10_writes (by decide)
    _ = W23 m ρ c (Proc.devRef .tc main_arg9) := W24_keep m ρ c main_arg9 (by decide)
    _ = W22 m ρ c (Proc.devRef .tc main_arg9) := StableHlo.after_of_writes_sub hostOps9_4 _ hostOps9_4_writes (by decide)
    _ = W21 m ρ c (Proc.devRef .tc main_arg9) := StableHlo.after_of_writes_sub hostOps9_3 _ hostOps9_3_writes (by decide)
    _ = W20 m ρ c (Proc.devRef .tc main_arg9) := StableHlo.after_of_writes_sub hostOps9_2 _ hostOps9_2_writes (by decide)
    _ = W19 m ρ c (Proc.devRef .tc main_arg9) := StableHlo.after_of_writes_sub hostOps9_1 _ hostOps9_1_writes (by decide)
    _ = W18 m ρ c (Proc.devRef .tc main_arg9) := StableHlo.after_of_writes_sub hostOps9 _ hostOps9_writes (by decide)
    _ = W17 m ρ c (Proc.devRef .tc main_arg9) := W18_keep m ρ c main_arg9 (by decide)
    _ = W16 m ρ c (Proc.devRef .tc main_arg9) := StableHlo.after_of_writes_sub hostOps8 _ hostOps8_writes (by decide)
    _ = W15 m ρ c (Proc.devRef .tc main_arg9) := W16_keep m ρ c main_arg9 (by decide)
    _ = W14 m ρ c (Proc.devRef .tc main_arg9) := StableHlo.after_of_writes_sub hostOps7 _ hostOps7_writes (by decide)
    _ = W13 m ρ c (Proc.devRef .tc main_arg9) := W14_keep m ρ c main_arg9 (by decide)
    _ = W12 m ρ c (Proc.devRef .tc main_arg9) := W13_keep m ρ c main_arg9 (by decide)
    _ = W11 m ρ c (Proc.devRef .tc main_arg9) := StableHlo.after_of_writes_sub hostOps5 _ hostOps5_writes (by decide)
    _ = W10 m ρ c (Proc.devRef .tc main_arg9) := W11_keep m ρ c main_arg9 (by decide)
    _ = W9 m ρ c (Proc.devRef .tc main_arg9) := StableHlo.after_of_writes_sub hostOps4 _ hostOps4_writes (by decide)
    _ = W8 m ρ c (Proc.devRef .tc main_arg9) := W9_keep m ρ c main_arg9 (by decide)
    _ = W7 m ρ c (Proc.devRef .tc main_arg9) := W8_keep m ρ c main_arg9 (by decide)
    _ = W6 m ρ c (Proc.devRef .tc main_arg9) := StableHlo.after_of_writes_sub hostOps2 _ hostOps2_writes (by decide)
    _ = W5 m ρ c (Proc.devRef .tc main_arg9) := W6_keep m ρ c main_arg9 (by decide)
    _ = W4 m ρ c (Proc.devRef .tc main_arg9) := StableHlo.after_of_writes_sub hostOps1 _ hostOps1_writes (by decide)
    _ = W3 m ρ c (Proc.devRef .tc main_arg9) := W4_keep m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W26_main_arg10 (m : (ℓ : Loc nD τ sig) → Buf (Elt F) ℓ) (ρ : Dev nD → PrngReg) (c : Dev nD) : W26 m ρ c (Proc.devRef .tc main_arg10) = m ((c : Thread nD τ).loc main_arg10) :=
  calc W26 m ρ c (Proc.devRef .tc main_arg10)
    _ = W25 m ρ c (Proc.devRef .tc main_arg10) := W26_keep m ρ c main_arg10 (by decide)
    _ = W24 m ρ c (Proc.devRef .tc main_arg10) := StableHlo.after_of_writes_sub hostOps10 _ hostOps10_writes (by decide)
    _ = W23 m ρ c (Proc.devRef .tc main_arg10) := W24_keep m ρ c main_arg10 (by decide)
    _ = W22 m ρ c (Proc.devRef .tc main_arg10) := StableHlo.after_of_writes_sub hostOps9_4 _ hostOps9_4_writes (by decide)
    _ = W21 m ρ c (Proc.devRef .tc main_arg10) := StableHlo.after_of_writes_sub hostOps9_3 _ hostOps9_3_writes (by decide)
    _ = W20 m ρ c (Proc.devRef .tc main_arg10) := StableHlo.after_of_writes_sub hostOps9_2 _ hostOps9_2_writes (by decide)
    _ = W19 m ρ c (Proc.devRef .tc main_arg10) := StableHlo.after_of_writes_sub hostOps9_1 _ hostOps9_1_writes (by decide)
    _ = W18 m ρ c (Proc.devRef .tc main_arg10) := StableHlo.after_of_writes_sub hostOps9 _ hostOps9_writes (by decide)
    _ = W17 m ρ c (Proc.devRef .tc main_arg10) := W18_keep m ρ c main_arg10 (by decide)
    _ = W16 m ρ c (Proc.devRef .tc main_arg10) := StableHlo.after_of_writes_sub hostOps8 _ hostOps8_writes (by decide)
    _ = W15 m ρ c (Proc.devRef .tc main_arg10) := W16_keep m ρ c main_arg10 (by decide)
    _ = W14 m ρ c (Proc.devRef .tc main_arg10) := StableHlo.after_of_writes_sub hostOps7 _ hostOps7_writes (by decide)
    _ = W13 m ρ c (Proc.devRef .tc main_arg10) := W14_keep m ρ c main_arg10 (by decide)
    _ = W12 m ρ c (Proc.devRef .tc main_arg10) := W13_keep m ρ c main_arg10 (by decide)
    _ = W11 m ρ c (Proc.devRef .tc main_arg10) := StableHlo.after_of_writes_sub hostOps5 _ hostOps5_writes (by decide)
    _ = W10 m ρ c (Proc.devRef .tc main_arg10) := W11_keep m ρ c main_arg10 (by decide)
    _ = W9 m ρ c (Proc.devRef .tc main_arg10) := StableHlo.after_of_writes_sub hostOps4 _ hostOps4_writes (by decide)
    _ = W8 m ρ c (Proc.devRef .tc main_arg10) := W9_keep m ρ c main_arg10 (by decide)
    _ = W7 m ρ c (Proc.devRef .tc main_arg10) := W8_keep m ρ c main_arg10 (by decide)
    _ = W6 m ρ c (Proc.devRef .tc main_arg10) := StableHlo.after_of_writes_sub hostOps2 _ hostOps2_writes (by decide)
    _ = W5 m ρ c (Proc.devRef .tc main_arg10) := W6_keep m ρ c main_arg10 (by decide)
    _ = W4 m ρ c (Proc.devRef .tc main_arg10) := StableHlo.after_of_writes_sub hostOps1 _ hostOps1_writes (by decide)
    _ = W3 m ρ c (Proc.devRef .tc main_arg10) := W4_keep m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

theorem W26_main_arg11 (m : (ℓ : Loc nD τ sig) → Buf (Elt F) ℓ) (ρ : Dev nD → PrngReg) (c : Dev nD) : W26 m ρ c (Proc.devRef .tc main_arg11) = m ((c : Thread nD τ).loc main_arg11) :=
  calc W26 m ρ c (Proc.devRef .tc main_arg11)
    _ = W25 m ρ c (Proc.devRef .tc main_arg11) := W26_keep m ρ c main_arg11 (by decide)
    _ = W24 m ρ c (Proc.devRef .tc main_arg11) := StableHlo.after_of_writes_sub hostOps10 _ hostOps10_writes (by decide)
    _ = W23 m ρ c (Proc.devRef .tc main_arg11) := W24_keep m ρ c main_arg11 (by decide)
    _ = W22 m ρ c (Proc.devRef .tc main_arg11) := StableHlo.after_of_writes_sub hostOps9_4 _ hostOps9_4_writes (by decide)
    _ = W21 m ρ c (Proc.devRef .tc main_arg11) := StableHlo.after_of_writes_sub hostOps9_3 _ hostOps9_3_writes (by decide)
    _ = W20 m ρ c (Proc.devRef .tc main_arg11) := StableHlo.after_of_writes_sub hostOps9_2 _ hostOps9_2_writes (by decide)
    _ = W19 m ρ c (Proc.devRef .tc main_arg11) := StableHlo.after_of_writes_sub hostOps9_1 _ hostOps9_1_writes (by decide)
    _ = W18 m ρ c (Proc.devRef .tc main_arg11) := StableHlo.after_of_writes_sub hostOps9 _ hostOps9_writes (by decide)
    _ = W17 m ρ c (Proc.devRef .tc main_arg11) := W18_keep m ρ c main_arg11 (by decide)
    _ = W16 m ρ c (Proc.devRef .tc main_arg11) := StableHlo.after_of_writes_sub hostOps8 _ hostOps8_writes (by decide)
    _ = W15 m ρ c (Proc.devRef .tc main_arg11) := W16_keep m ρ c main_arg11 (by decide)
    _ = W14 m ρ c (Proc.devRef .tc main_arg11) := StableHlo.after_of_writes_sub hostOps7 _ hostOps7_writes (by decide)
    _ = W13 m ρ c (Proc.devRef .tc main_arg11) := W14_keep m ρ c main_arg11 (by decide)
    _ = W12 m ρ c (Proc.devRef .tc main_arg11) := W13_keep m ρ c main_arg11 (by decide)
    _ = W11 m ρ c (Proc.devRef .tc main_arg11) := StableHlo.after_of_writes_sub hostOps5 _ hostOps5_writes (by decide)
    _ = W10 m ρ c (Proc.devRef .tc main_arg11) := W11_keep m ρ c main_arg11 (by decide)
    _ = W9 m ρ c (Proc.devRef .tc main_arg11) := StableHlo.after_of_writes_sub hostOps4 _ hostOps4_writes (by decide)
    _ = W8 m ρ c (Proc.devRef .tc main_arg11) := W9_keep m ρ c main_arg11 (by decide)
    _ = W7 m ρ c (Proc.devRef .tc main_arg11) := W8_keep m ρ c main_arg11 (by decide)
    _ = W6 m ρ c (Proc.devRef .tc main_arg11) := StableHlo.after_of_writes_sub hostOps2 _ hostOps2_writes (by decide)
    _ = W5 m ρ c (Proc.devRef .tc main_arg11) := W6_keep m ρ c main_arg11 (by decide)
    _ = W4 m ρ c (Proc.devRef .tc main_arg11) := StableHlo.after_of_writes_sub hostOps1 _ hostOps1_writes (by decide)
    _ = W3 m ρ c (Proc.devRef .tc main_arg11) := W4_keep m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl

/-- The frame: from any memory with zero counters, every weakly fair execution of the program on the TensorCores terminates,
    nothing faulting, and every final state has the twelve argument arrays as launched. -/
theorem frame (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_gen m ρ fun s h c =>
    ⟨(h c _ (mem_uc main_arg0 (by decide))).trans (W26_main_arg0 m ρ c),
     (h c _ (mem_uc main_arg1 (by decide))).trans (W26_main_arg1 m ρ c),
     (h c _ (mem_uc main_arg2 (by decide))).trans (W26_main_arg2 m ρ c),
     (h c _ (mem_uc main_arg3 (by decide))).trans (W26_main_arg3 m ρ c),
     (h c _ (mem_uc main_arg4 (by decide))).trans (W26_main_arg4 m ρ c),
     (h c _ (mem_uc main_arg5 (by decide))).trans (W26_main_arg5 m ρ c),
     (h c _ (mem_uc main_arg6 (by decide))).trans (W26_main_arg6 m ρ c),
     (h c _ (mem_uc main_arg7 (by decide))).trans (W26_main_arg7 m ρ c),
     (h c _ (mem_uc main_arg8 (by decide))).trans (W26_main_arg8 m ρ c),
     (h c _ (mem_uc main_arg9 (by decide))).trans (W26_main_arg9 m ρ c),
     (h c _ (mem_uc main_arg10 (by decide))).trans (W26_main_arg10 m ρ c),
     (h c _ (mem_uc main_arg11 (by decide))).trans (W26_main_arg11 m ρ c)⟩

end Cert.KernelIdeal.Hand

end
-- ==== Proof.Val.HostRead.lean ====
/-
  The host stretches of the kernel's program between its regions, read against the reference's stages.
  Each stretch is a straight line of host operations; its result buffers are the operations' pure terms of the
  buffers it finds. The kernel's program and the reference apply the same index normalisation, gathers and
  accumulating scatters, so whenever the buffers a stretch reads hold reference stages, the buffer it writes
  holds the next reference stage: the two terms are the same operations applied to the same operands.
-/
import proofs.«125778_j7670811590827_2_alg».proof.Proof.Gen.KernelIdeal.Launch
import proofs.«125778_j7670811590827_2_alg».proof.Proof.Gen.KernelIdeal.Regions
import proofs.«125778_j7670811590827_2_alg».proof.Proof.Gen.ReferenceIdeal.Read
import Idealize.ShloMosaic.Lib.StableHlo.Run

noncomputable section

namespace Cert.Val

open Idealize.ShloMosaic Idealize.ShloMosaic.TcCoe Idealize.SL.Sem Idealize.ShloMosaic.StableHlo
open Cert.ReferenceIdeal.Read

/-- The contents of the kernel program's buffers on one core. -/
abbrev KVal := Valuation Cert.KernelIdeal.τ Cert.KernelIdeal.sig (Elt Ideal)
/-- A buffer of the kernel's program, as the valuation's index. -/
abbrev kb (r : Ref Cert.KernelIdeal.sig .tc) : DevRef Cert.KernelIdeal.τ Cert.KernelIdeal.sig := Proc.devRef .tc r

abbrev A0 := (⟨Cert.ReferenceIdeal.S100000x3, .f32⟩ : BufTy).Contents (Elt Ideal)
abbrev A1 := (⟨Cert.ReferenceIdeal.S2x3200000, .i32⟩ : BufTy).Contents (Elt Ideal)
abbrev A2 := (⟨Cert.ReferenceIdeal.S3200000, .f32⟩ : BufTy).Contents (Elt Ideal)
abbrev A3 := (⟨Cert.ReferenceIdeal.S100000, .i1⟩ : BufTy).Contents (Elt Ideal)
abbrev A4 := (⟨Cert.ReferenceIdeal.S3x16, .f32⟩ : BufTy).Contents (Elt Ideal)
abbrev A5 := (⟨Cert.ReferenceIdeal.S16, .f32⟩ : BufTy).Contents (Elt Ideal)
abbrev A6 := (⟨Cert.ReferenceIdeal.S16x16, .f32⟩ : BufTy).Contents (Elt Ideal)
abbrev A7 := (⟨Cert.ReferenceIdeal.S16, .f32⟩ : BufTy).Contents (Elt Ideal)
abbrev A8 := (⟨Cert.ReferenceIdeal.S16x1, .f32⟩ : BufTy).Contents (Elt Ideal)
abbrev A9 := (⟨Cert.ReferenceIdeal.S1, .f32⟩ : BufTy).Contents (Elt Ideal)

variable (X : KVal) (x0 : A0) (x1 : A1) (x2 : A2) (x4 : A4) (x5 : A5) (x6 : A6) (x7 : A7) (x8 : A8) (x9 : A9)

/-! ## The three stretches before the first region: the normalised edge lists and the edge weights -/

theorem pre_v3 (h1 : X (kb Cert.KernelIdeal.main_arg1) = x1) : (StableHlo.after Cert.KernelIdeal.Gen.hostOps0_2 (StableHlo.after Cert.KernelIdeal.Gen.hostOps0_1 (StableHlo.after Cert.KernelIdeal.Gen.hostOps0 X)) (kb Cert.KernelIdeal.main_v3)) = val_main_v3 (F := Ideal) x1 := by
  after_results <;> (try rw [h1]) <;> rfl

theorem pre_v6 (h1 : X (kb Cert.KernelIdeal.main_arg1) = x1) : (StableHlo.after Cert.KernelIdeal.Gen.hostOps0_2 (StableHlo.after Cert.KernelIdeal.Gen.hostOps0_1 (StableHlo.after Cert.KernelIdeal.Gen.hostOps0 X)) (kb Cert.KernelIdeal.main_v6)) = val_main_v6 (F := Ideal) x1 := by
  after_results <;> (try rw [h1]) <;> rfl

theorem pre0_v3 (h1 : X (kb Cert.KernelIdeal.main_arg1) = x1) : (StableHlo.after Cert.KernelIdeal.Gen.hostOps0 X) (kb Cert.KernelIdeal.main_v3) = val_main_v3 (F := Ideal) x1 := by
  after_results <;> (try rw [h1]) <;> rfl
theorem pre0_v6 (h1 : X (kb Cert.KernelIdeal.main_arg1) = x1) : (StableHlo.after Cert.KernelIdeal.Gen.hostOps0 X) (kb Cert.KernelIdeal.main_v6) = val_main_v6 (F := Ideal) x1 := by
  after_results <;> (try rw [h1]) <;> rfl
/-- The first stretch, buffer by buffer: the weights with the self-loops appended, the weighted degrees, their sign
    test and their inverse square roots. -/
theorem st0_v8 (h2 : X (kb Cert.KernelIdeal.main_arg2) = x2) : (StableHlo.after Cert.KernelIdeal.Gen.hostOps0 X) (kb Cert.KernelIdeal.main_v8) = val_main_v8 (F := Ideal) x2 := by
  after_results <;> (try rw [h2]) <;> rfl
set_option maxHeartbeats 2000000 in
set_option maxRecDepth 65536 in
theorem st0_v13 (h1 : X (kb Cert.KernelIdeal.main_arg1) = x1) (h2 : X (kb Cert.KernelIdeal.main_arg2) = x2) :
    (StableHlo.after Cert.KernelIdeal.Gen.hostOps0 X) (kb Cert.KernelIdeal.main_v13) = val_main_v13 (F := Ideal) x1 x2 := by
  after_results <;> (try rw [h1]) <;> (try rw [h2]) <;> rfl
set_option maxHeartbeats 2000000 in
set_option maxRecDepth 65536 in
theorem st0_v14 (h1 : X (kb Cert.KernelIdeal.main_arg1) = x1) (h2 : X (kb Cert.KernelIdeal.main_arg2) = x2) :
    (StableHlo.after Cert.KernelIdeal.Gen.hostOps0 X) (kb Cert.KernelIdeal.main_v14) = val_main_v14 (F := Ideal) x1 x2 := by
  after_results <;> (try rw [h1]) <;> (try rw [h2]) <;> rfl

/-- The zero the second stretch selects where the degree is not positive. -/
theorem st0_cst2 : (StableHlo.after Cert.KernelIdeal.Gen.hostOps0 X) (kb Cert.KernelIdeal.main_cst_2) = val_main_cst_2 (F := Ideal) := by
  after_results <;> rfl

/-- The second stretch as a plain term of the buffers it reads. -/
theorem st1_v15_read :
    ((StableHlo.after Cert.KernelIdeal.Gen.hostOps0_1 X) (kb Cert.KernelIdeal.main_v15) : Cert.KernelIdeal.S100000.Idx → EReal)
      = select (X (kb Cert.KernelIdeal.main_v13)) (X (kb Cert.KernelIdeal.main_v14))
          (broadcastInDim Cert.KernelIdeal.S100000 ![] Cert.KernelIdeal.Facts₀.bcast_S_S100000 (X (kb Cert.KernelIdeal.main_cst_2))) := by
  after_results <;> rfl

/-- The second stretch: the inverse square root where the degree is positive, zero elsewhere. -/
theorem st1_v15 (h13 : X (kb Cert.KernelIdeal.main_v13) = val_main_v13 (F := Ideal) x1 x2) (h14 : X (kb Cert.KernelIdeal.main_v14) = val_main_v14 (F := Ideal) x1 x2)
    (hc : X (kb Cert.KernelIdeal.main_cst_2) = val_main_cst_2 (F := Ideal)) :
    (StableHlo.after Cert.KernelIdeal.Gen.hostOps0_1 X) (kb Cert.KernelIdeal.main_v15) = val_main_v15 (F := Ideal) x1 x2 := by
  refine (st1_v15_read X).trans ?_
  rw [h13, h14, hc]; rfl

set_option maxHeartbeats 4000000 in
set_option maxRecDepth 65536 in
/-- The third stretch: each edge's weight scaled at both of its ends. -/
theorem st2_v31 (h3 : X (kb Cert.KernelIdeal.main_v3) = val_main_v3 (F := Ideal) x1) (h6 : X (kb Cert.KernelIdeal.main_v6) = val_main_v6 (F := Ideal) x1)
    (h8 : X (kb Cert.KernelIdeal.main_v8) = val_main_v8 (F := Ideal) x2) (h15 : X (kb Cert.KernelIdeal.main_v15) = val_main_v15 (F := Ideal) x1 x2) :
    (StableHlo.after Cert.KernelIdeal.Gen.hostOps0_2 X) (kb Cert.KernelIdeal.main_v31) = val_main_v31 (F := Ideal) x1 x2 := by
  after_results <;> (try rw [h3, h6, h8, h15]) <;> rfl

/-- The three stretches together. A buffer a later stretch does not write is read off the earlier one. -/
theorem pre_v31 (h1 : X (kb Cert.KernelIdeal.main_arg1) = x1) (h2 : X (kb Cert.KernelIdeal.main_arg2) = x2) :
    (StableHlo.after Cert.KernelIdeal.Gen.hostOps0_2 (StableHlo.after Cert.KernelIdeal.Gen.hostOps0_1 (StableHlo.after Cert.KernelIdeal.Gen.hostOps0 X)) (kb Cert.KernelIdeal.main_v31)) = val_main_v31 (F := Ideal) x1 x2 := by
  have k1 : ∀ r : Ref Cert.KernelIdeal.sig .tc, r ∉ Cert.KernelIdeal.Gen.hostOps0_1_W → (StableHlo.after Cert.KernelIdeal.Gen.hostOps0_1 (StableHlo.after Cert.KernelIdeal.Gen.hostOps0 X)) (kb r) = (StableHlo.after Cert.KernelIdeal.Gen.hostOps0 X) (kb r) :=
    fun r h => StableHlo.after_of_writes_sub Cert.KernelIdeal.Gen.hostOps0_1 _ Cert.KernelIdeal.Gen.hostOps0_1_writes h
  refine st2_v31 _ x1 x2 ?_ ?_ ?_ ?_
  · rw [k1 _ (by decide)]; exact pre0_v3 X x1 h1
  · rw [k1 _ (by decide)]; exact pre0_v6 X x1 h1
  · rw [k1 _ (by decide)]; exact st0_v8 X x2 h2
  · exact st1_v15 _ x1 x2 (st0_v13 X x1 x2 h1 h2) (st0_v14 X x1 x2 h1 h2) (st0_cst2 X)

/-! ## Layer 1: the stretch that gathers the source rows, and the one that accumulates the messages -/

/-- The gathered rows: the region's product read at the normalised source indices. -/
theorem hostOps1_gather (hin : X (kb Cert.KernelIdeal.main_v32) = val_main_v32 (F := Ideal) x0 x4) (h3 : X (kb Cert.KernelIdeal.main_v3) = val_main_v3 (F := Ideal) x1) :
    StableHlo.after Cert.KernelIdeal.Gen.hostOps1 X (kb Cert.KernelIdeal.main_v39) = val_main_v39 (F := Ideal) x0 x1 x4 := by
  after_results <;> (try rw [hin, h3]) <;> rfl

/-- The edge weights as a column: the vector recast to one lane. -/
theorem hostOps1_norm :
    (StableHlo.after Cert.KernelIdeal.Gen.hostOps1 X (kb Cert.KernelIdeal.main_v40) : Cert.KernelIdeal.S3300000x1.Idx → EReal)
      = shapeCast Cert.KernelIdeal.S3300000x1 (X (kb Cert.KernelIdeal.main_v31)) Cert.KernelIdeal.Facts₀.shapeCasts_S3300000_S3300000x1 := by
  after_results <;> rfl

/-- The accumulated messages: the scaled rows summed into their destination nodes. -/
theorem hostOps2_scatter (hin : X (kb Cert.KernelIdeal.main_v41) = val_main_v42 (F := Ideal) x0 x1 x2 x4) (h6 : X (kb Cert.KernelIdeal.main_v6) = val_main_v6 (F := Ideal) x1) :
    StableHlo.after Cert.KernelIdeal.Gen.hostOps2 X (kb Cert.KernelIdeal.main_v44) = val_main_v45 (F := Ideal) x0 x1 x2 x4 := by
  after_results <;> (try rw [hin, h6]) <;> rfl

/-- The bias as a row: the vector recast with a leading unit axis. -/
theorem hostOps2_bias :
    (StableHlo.after Cert.KernelIdeal.Gen.hostOps2 X (kb Cert.KernelIdeal.main_v45) : Cert.KernelIdeal.S1x16.Idx → EReal)
      = shapeCast Cert.KernelIdeal.S1x16 (X (kb Cert.KernelIdeal.main_arg5)) Cert.KernelIdeal.Facts₀.shapeCasts_S16_S1x16 := by
  after_results <;> rfl

/-! ## Layer 2: the stretch that gathers the source rows, and the one that accumulates the messages -/

/-- The gathered rows: the region's product read at the normalised source indices. -/
theorem hostOps4_gather (hin : X (kb Cert.KernelIdeal.main_v47) = val_main_v50 (F := Ideal) x0 x1 x2 x4 x5 x6) (h3 : X (kb Cert.KernelIdeal.main_v3) = val_main_v3 (F := Ideal) x1) :
    StableHlo.after Cert.KernelIdeal.Gen.hostOps4 X (kb Cert.KernelIdeal.main_v54) = val_main_v57 (F := Ideal) x0 x1 x2 x4 x5 x6 := by
  after_results <;> (try rw [hin, h3]) <;> rfl

/-- The edge weights as a column: the vector recast to one lane. -/
theorem hostOps4_norm :
    (StableHlo.after Cert.KernelIdeal.Gen.hostOps4 X (kb Cert.KernelIdeal.main_v55) : Cert.KernelIdeal.S3300000x1.Idx → EReal)
      = shapeCast Cert.KernelIdeal.S3300000x1 (X (kb Cert.KernelIdeal.main_v31)) Cert.KernelIdeal.Facts₀.shapeCasts_S3300000_S3300000x1 := by
  after_results <;> rfl

/-- The accumulated messages: the scaled rows summed into their destination nodes. -/
theorem hostOps5_scatter (hin : X (kb Cert.KernelIdeal.main_v56) = val_main_v60 (F := Ideal) x0 x1 x2 x4 x5 x6) (h6 : X (kb Cert.KernelIdeal.main_v6) = val_main_v6 (F := Ideal) x1) :
    StableHlo.after Cert.KernelIdeal.Gen.hostOps5 X (kb Cert.KernelIdeal.main_v59) = val_main_v63 (F := Ideal) x0 x1 x2 x4 x5 x6 := by
  after_results <;> (try rw [hin, h6]) <;> rfl

/-- The bias as a row: the vector recast with a leading unit axis. -/
theorem hostOps5_bias :
    (StableHlo.after Cert.KernelIdeal.Gen.hostOps5 X (kb Cert.KernelIdeal.main_v60) : Cert.KernelIdeal.S1x16.Idx → EReal)
      = shapeCast Cert.KernelIdeal.S1x16 (X (kb Cert.KernelIdeal.main_arg7)) Cert.KernelIdeal.Facts₀.shapeCasts_S16_S1x16 := by
  after_results <;> rfl

/-! ## Layer 3: the stretch that gathers the source rows, and the one that accumulates the messages -/

/-- The gathered rows: the region's product read at the normalised source indices. -/
theorem hostOps7_gather (hin : X (kb Cert.KernelIdeal.main_v62) = val_main_v68 (F := Ideal) x0 x1 x2 x4 x5 x6 x7 x8) (h3 : X (kb Cert.KernelIdeal.main_v3) = val_main_v3 (F := Ideal) x1) :
    StableHlo.after Cert.KernelIdeal.Gen.hostOps7 X (kb Cert.KernelIdeal.main_v69) = val_main_v75 (F := Ideal) x0 x1 x2 x4 x5 x6 x7 x8 := by
  after_results <;> (try rw [hin, h3]) <;> rfl

/-- The edge weights as a column: the vector recast to one lane. -/
theorem hostOps7_norm :
    (StableHlo.after Cert.KernelIdeal.Gen.hostOps7 X (kb Cert.KernelIdeal.main_v70) : Cert.KernelIdeal.S3300000x1.Idx → EReal)
      = shapeCast Cert.KernelIdeal.S3300000x1 (X (kb Cert.KernelIdeal.main_v31)) Cert.KernelIdeal.Facts₀.shapeCasts_S3300000_S3300000x1 := by
  after_results <;> rfl

/-- The accumulated messages: the scaled rows summed into their destination nodes. -/
theorem hostOps8_scatter (hin : X (kb Cert.KernelIdeal.main_v71) = val_main_v77 (F := Ideal) x0 x1 x2 x4 x5 x6 x7 x8) (h6 : X (kb Cert.KernelIdeal.main_v6) = val_main_v6 (F := Ideal) x1) :
    StableHlo.after Cert.KernelIdeal.Gen.hostOps8 X (kb Cert.KernelIdeal.main_v74) = val_main_v80 (F := Ideal) x0 x1 x2 x4 x5 x6 x7 x8 := by
  after_results <;> (try rw [hin, h6]) <;> rfl

/-- The bias as a row: the vector recast with a leading unit axis. -/
theorem hostOps8_bias :
    (StableHlo.after Cert.KernelIdeal.Gen.hostOps8 X (kb Cert.KernelIdeal.main_v75) : Cert.KernelIdeal.S1x1.Idx → EReal)
      = shapeCast Cert.KernelIdeal.S1x1 (X (kb Cert.KernelIdeal.main_arg9)) Cert.KernelIdeal.Facts₀.shapeCasts_S1_S1x1 := by
  after_results <;> rfl

/-! ## After the third layer: the scores as a vector -/

theorem hostOps9_scores (hin : X (kb Cert.KernelIdeal.main_v76) = val_main_v83 (F := Ideal) x0 x1 x2 x4 x5 x6 x7 x8 x9) :
    StableHlo.after Cert.KernelIdeal.Gen.hostOps9 X (kb Cert.KernelIdeal.main_v77) = val_main_v84 (F := Ideal) x0 x1 x2 x4 x5 x6 x7 x8 x9 := by
  after_results <;> (try rw [hin]) <;> rfl

/-! ## Around the softmax region: the scores and the mask padded to 782 rows of 128 lanes, and the result cut back -/

section
open Cert.KernelIdeal Cert.KernelIdeal.Facts₀

/-- A vector of 100000 entries padded with 96 zeros and laid out as 782 rows of 128 lanes. -/
def padIn (v : S100000.Idx → EReal) : S782x128.Idx → EReal :=
  shapeCast S782x128 (pad S100096 ![0] ![96] ![0] v (sitofp (F := Ideal) .f32 (constantI S_ 32 0#32)) pads_S100000_S100096_0960 h_S_) shapeCasts_S100096_S782x128

/-- 782 rows of 128 lanes read as one vector and cut back to its first 100000 entries. -/
def sliceOut (z : S782x128.Idx → EReal) : S100000.Idx → EReal :=
  extractStridedSlice S100000 ![0] (shapeCast S100096 z shapeCasts_S782x128_S100096) slices_S100096_S100000_0

/-- The five stretches between the third layer and the softmax region, from the layer's column of scores. -/
abbrev softPre (X : KVal) : KVal :=
  StableHlo.after Gen.hostOps9_4 (StableHlo.after Gen.hostOps9_3 (StableHlo.after Gen.hostOps9_2 (StableHlo.after Gen.hostOps9_1 (StableHlo.after Gen.hostOps9 X))))

theorem soft_in_scores : (softPre X (kb main_v81) : S782x128.Idx → EReal)
    = padIn (shapeCast S100000 (X (kb main_v76)) shapeCasts_S100000x1_S100000) := by
  after_results <;> rfl

theorem soft_in_mask : (softPre X (kb main_v82) : S782x128.Idx → EReal)
    = padIn (uitofp (F := Ideal) .f32 (X (kb main_arg3))) := by
  after_results <;> rfl

theorem soft_out : (StableHlo.after Gen.hostOps10 X (kb main_v85) : S100000.Idx → EReal) = sliceOut (X (kb main_v83)) := by
  after_results <;> rfl

theorem head_bias : (StableHlo.after Gen.hostOps10 X (kb main_v86) : S1x1.Idx → EReal)
    = shapeCast S1x1 (X (kb main_arg11)) shapeCasts_S1_S1x1 := by
  after_results <;> rfl

end

end Cert.Val

end
-- ==== Proof.Val.Keep.lean ====
/-
  What the boundaries of the kernel's program keep. The edge lists, the edge weights and the twelve arguments are
  written before the first region or never; no later host operation and no region writes them, so at every later
  boundary they hold what they held when the first region was entered. Likewise the second layer's activations,
  read again by the pooling region, from the boundary after the region that writes them.
-/
import proofs.«125778_j7670811590827_2_alg».proof.Proof.KI.Run
import proofs.«125778_j7670811590827_2_alg».proof.Proof.Val.HostRead

set_option maxRecDepth 16384

noncomputable section

namespace Cert.Val

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg) (c : Dev nD)

/-- The buffers no region and no later host operation writes. -/
abbrev longLived : List (Ref sig .tc) :=
  [main_v3, main_v6, main_v31, main_arg0, main_arg1, main_arg2, main_arg3, main_arg4, main_arg5, main_arg6, main_arg7,
   main_arg8, main_arg9, main_arg10, main_arg11]

theorem ne_main_v32 : ∀ r ∈ longLived, r ≠ main_v32 := by decide
theorem keep4 (r : Ref sig .tc) (hr : r ∈ longLived) : W4 m ρ c (kb r) = W3 m ρ c (kb r) :=
  (W4_keep m ρ c r (ne_main_v32 r hr)).trans rfl
theorem nw_hostOps1 : ∀ r ∈ longLived, r ∉ hostOps1_W := by decide
theorem keep5 (r : Ref sig .tc) (hr : r ∈ longLived) : W5 m ρ c (kb r) = W3 m ρ c (kb r) :=
  (StableHlo.after_of_writes_sub hostOps1 _ hostOps1_writes (nw_hostOps1 r hr)).trans (keep4 m ρ c r hr)
theorem ne_main_v41 : ∀ r ∈ longLived, r ≠ main_v41 := by decide
theorem keep6 (r : Ref sig .tc) (hr : r ∈ longLived) : W6 m ρ c (kb r) = W3 m ρ c (kb r) :=
  (W6_keep m ρ c r (ne_main_v41 r hr)).trans (keep5 m ρ c r hr)
theorem nw_hostOps2 : ∀ r ∈ longLived, r ∉ hostOps2_W := by decide
theorem keep7 (r : Ref sig .tc) (hr : r ∈ longLived) : W7 m ρ c (kb r) = W3 m ρ c (kb r) :=
  (StableHlo.after_of_writes_sub hostOps2 _ hostOps2_writes (nw_hostOps2 r hr)).trans (keep6 m ρ c r hr)
theorem ne_main_v46 : ∀ r ∈ longLived, r ≠ main_v46 := by decide
theorem keep8 (r : Ref sig .tc) (hr : r ∈ longLived) : W8 m ρ c (kb r) = W3 m ρ c (kb r) :=
  (W8_keep m ρ c r (ne_main_v46 r hr)).trans (keep7 m ρ c r hr)
theorem ne_main_v47 : ∀ r ∈ longLived, r ≠ main_v47 := by decide
theorem keep9 (r : Ref sig .tc) (hr : r ∈ longLived) : W9 m ρ c (kb r) = W3 m ρ c (kb r) :=
  (W9_keep m ρ c r (ne_main_v47 r hr)).trans (keep8 m ρ c r hr)
theorem nw_hostOps4 : ∀ r ∈ longLived, r ∉ hostOps4_W := by decide
theorem keep10 (r : Ref sig .tc) (hr : r ∈ longLived) : W10 m ρ c (kb r) = W3 m ρ c (kb r) :=
  (StableHlo.after_of_writes_sub hostOps4 _ hostOps4_writes (nw_hostOps4 r hr)).trans (keep9 m ρ c r hr)
theorem ne_main_v56 : ∀ r ∈ longLived, r ≠ main_v56 := by decide
theorem keep11 (r : Ref sig .tc) (hr : r ∈ longLived) : W11 m ρ c (kb r) = W3 m ρ c (kb r) :=
  (W11_keep m ρ c r (ne_main_v56 r hr)).trans (keep10 m ρ c r hr)
theorem nw_hostOps5 : ∀ r ∈ longLived, r ∉ hostOps5_W := by decide
theorem keep12 (r : Ref sig .tc) (hr : r ∈ longLived) : W12 m ρ c (kb r) = W3 m ρ c (kb r) :=
  (StableHlo.after_of_writes_sub hostOps5 _ hostOps5_writes (nw_hostOps5 r hr)).trans (keep11 m ρ c r hr)
theorem ne_main_v61 : ∀ r ∈ longLived, r ≠ main_v61 := by decide
theorem keep13 (r : Ref sig .tc) (hr : r ∈ longLived) : W13 m ρ c (kb r) = W3 m ρ c (kb r) :=
  (W13_keep m ρ c r (ne_main_v61 r hr)).trans (keep12 m ρ c r hr)
theorem ne_main_v62 : ∀ r ∈ longLived, r ≠ main_v62 := by decide
theorem keep14 (r : Ref sig .tc) (hr : r ∈ longLived) : W14 m ρ c (kb r) = W3 m ρ c (kb r) :=
  (W14_keep m ρ c r (ne_main_v62 r hr)).trans (keep13 m ρ c r hr)
theorem nw_hostOps7 : ∀ r ∈ longLived, r ∉ hostOps7_W := by decide
theorem keep15 (r : Ref sig .tc) (hr : r ∈ longLived) : W15 m ρ c (kb r) = W3 m ρ c (kb r) :=
  (StableHlo.after_of_writes_sub hostOps7 _ hostOps7_writes (nw_hostOps7 r hr)).trans (keep14 m ρ c r hr)
theorem ne_main_v71 : ∀ r ∈ longLived, r ≠ main_v71 := by decide
theorem keep16 (r : Ref sig .tc) (hr : r ∈ longLived) : W16 m ρ c (kb r) = W3 m ρ c (kb r) :=
  (W16_keep m ρ c r (ne_main_v71 r hr)).trans (keep15 m ρ c r hr)
theorem nw_hostOps8 : ∀ r ∈ longLived, r ∉ hostOps8_W := by decide
theorem keep17 (r : Ref sig .tc) (hr : r ∈ longLived) : W17 m ρ c (kb r) = W3 m ρ c (kb r) :=
  (StableHlo.after_of_writes_sub hostOps8 _ hostOps8_writes (nw_hostOps8 r hr)).trans (keep16 m ρ c r hr)
theorem ne_main_v76 : ∀ r ∈ longLived, r ≠ main_v76 := by decide
theorem keep18 (r : Ref sig .tc) (hr : r ∈ longLived) : W18 m ρ c (kb r) = W3 m ρ c (kb r) :=
  (W18_keep m ρ c r (ne_main_v76 r hr)).trans (keep17 m ρ c r hr)
theorem nw_hostOps9 : ∀ r ∈ longLived, r ∉ hostOps9_W := by decide
theorem keep19 (r : Ref sig .tc) (hr : r ∈ longLived) : W19 m ρ c (kb r) = W3 m ρ c (kb r) :=
  (StableHlo.after_of_writes_sub hostOps9 _ hostOps9_writes (nw_hostOps9 r hr)).trans (keep18 m ρ c r hr)
theorem nw_hostOps9_1 : ∀ r ∈ longLived, r ∉ hostOps9_1_W := by decide
theorem keep20 (r : Ref sig .tc) (hr : r ∈ longLived) : W20 m ρ c (kb r) = W3 m ρ c (kb r) :=
  (StableHlo.after_of_writes_sub hostOps9_1 _ hostOps9_1_writes (nw_hostOps9_1 r hr)).trans (keep19 m ρ c r hr)
theorem nw_hostOps9_2 : ∀ r ∈ longLived, r ∉ hostOps9_2_W := by decide
theorem keep21 (r : Ref sig .tc) (hr : r ∈ longLived) : W21 m ρ c (kb r) = W3 m ρ c (kb r) :=
  (StableHlo.after_of_writes_sub hostOps9_2 _ hostOps9_2_writes (nw_hostOps9_2 r hr)).trans (keep20 m ρ c r hr)
theorem nw_hostOps9_3 : ∀ r ∈ longLived, r ∉ hostOps9_3_W := by decide
theorem keep22 (r : Ref sig .tc) (hr : r ∈ longLived) : W22 m ρ c (kb r) = W3 m ρ c (kb r) :=
  (StableHlo.after_of_writes_sub hostOps9_3 _ hostOps9_3_writes (nw_hostOps9_3 r hr)).trans (keep21 m ρ c r hr)
theorem nw_hostOps9_4 : ∀ r ∈ longLived, r ∉ hostOps9_4_W := by decide
theorem keep23 (r : Ref sig .tc) (hr : r ∈ longLived) : W23 m ρ c (kb r) = W3 m ρ c (kb r) :=
  (StableHlo.after_of_writes_sub hostOps9_4 _ hostOps9_4_writes (nw_hostOps9_4 r hr)).trans (keep22 m ρ c r hr)
theorem ne_main_v83 : ∀ r ∈ longLived, r ≠ main_v83 := by decide
theorem keep24 (r : Ref sig .tc) (hr : r ∈ longLived) : W24 m ρ c (kb r) = W3 m ρ c (kb r) :=
  (W24_keep m ρ c r (ne_main_v83 r hr)).trans (keep23 m ρ c r hr)
theorem nw_hostOps10 : ∀ r ∈ longLived, r ∉ hostOps10_W := by decide
theorem keep25 (r : Ref sig .tc) (hr : r ∈ longLived) : W25 m ρ c (kb r) = W3 m ρ c (kb r) :=
  (StableHlo.after_of_writes_sub hostOps10 _ hostOps10_writes (nw_hostOps10 r hr)).trans (keep24 m ρ c r hr)

/-- The arguments when the first region is entered: the three stretches before it write none of them. -/
abbrev argRefs : List (Ref sig .tc) :=
  [main_arg0, main_arg1, main_arg2, main_arg3, main_arg4, main_arg5, main_arg6, main_arg7, main_arg8, main_arg9, main_arg10, main_arg11]
theorem nw0 : ∀ r ∈ argRefs, r ∉ hostOps0_W := by decide
theorem nw0_1 : ∀ r ∈ argRefs, r ∉ hostOps0_1_W := by decide
theorem nw0_2 : ∀ r ∈ argRefs, r ∉ hostOps0_2_W := by decide
theorem arg3 (r : Ref sig .tc) (hr : r ∈ argRefs) : W3 m ρ c (kb r) = W0 m ρ c (kb r) :=
  (StableHlo.after_of_writes_sub hostOps0_2 _ hostOps0_2_writes (nw0_2 r hr)).trans
    ((StableHlo.after_of_writes_sub hostOps0_1 _ hostOps0_1_writes (nw0_1 r hr)).trans
      (StableHlo.after_of_writes_sub hostOps0 _ hostOps0_writes (nw0 r hr)))

/-- The second layer's activations from the boundary after their region to the pooling region's entry. -/
theorem h2keep14 : W14 m ρ c (kb main_v61) = W13 m ρ c (kb main_v61) :=
  (W14_keep m ρ c main_v61 (by decide)).trans rfl
theorem h2keep15 : W15 m ρ c (kb main_v61) = W13 m ρ c (kb main_v61) :=
  (StableHlo.after_of_writes_sub hostOps7 _ hostOps7_writes (by decide : main_v61 ∉ hostOps7_W)).trans (h2keep14 m ρ c)
theorem h2keep16 : W16 m ρ c (kb main_v61) = W13 m ρ c (kb main_v61) :=
  (W16_keep m ρ c main_v61 (by decide)).trans (h2keep15 m ρ c)
theorem h2keep17 : W17 m ρ c (kb main_v61) = W13 m ρ c (kb main_v61) :=
  (StableHlo.after_of_writes_sub hostOps8 _ hostOps8_writes (by decide : main_v61 ∉ hostOps8_W)).trans (h2keep16 m ρ c)
theorem h2keep18 : W18 m ρ c (kb main_v61) = W13 m ρ c (kb main_v61) :=
  (W18_keep m ρ c main_v61 (by decide)).trans (h2keep17 m ρ c)
theorem h2keep19 : W19 m ρ c (kb main_v61) = W13 m ρ c (kb main_v61) :=
  (StableHlo.after_of_writes_sub hostOps9 _ hostOps9_writes (by decide : main_v61 ∉ hostOps9_W)).trans (h2keep18 m ρ c)
theorem h2keep20 : W20 m ρ c (kb main_v61) = W13 m ρ c (kb main_v61) :=
  (StableHlo.after_of_writes_sub hostOps9_1 _ hostOps9_1_writes (by decide : main_v61 ∉ hostOps9_1_W)).trans (h2keep19 m ρ c)
theorem h2keep21 : W21 m ρ c (kb main_v61) = W13 m ρ c (kb main_v61) :=
  (StableHlo.after_of_writes_sub hostOps9_2 _ hostOps9_2_writes (by decide : main_v61 ∉ hostOps9_2_W)).trans (h2keep20 m ρ c)
theorem h2keep22 : W22 m ρ c (kb main_v61) = W13 m ρ c (kb main_v61) :=
  (StableHlo.after_of_writes_sub hostOps9_3 _ hostOps9_3_writes (by decide : main_v61 ∉ hostOps9_3_W)).trans (h2keep21 m ρ c)
theorem h2keep23 : W23 m ρ c (kb main_v61) = W13 m ρ c (kb main_v61) :=
  (StableHlo.after_of_writes_sub hostOps9_4 _ hostOps9_4_writes (by decide : main_v61 ∉ hostOps9_4_W)).trans (h2keep22 m ρ c)
theorem h2keep24 : W24 m ρ c (kb main_v61) = W13 m ρ c (kb main_v61) :=
  (W24_keep m ρ c main_v61 (by decide)).trans (h2keep23 m ρ c)
theorem h2keep25 : W25 m ρ c (kb main_v61) = W13 m ρ c (kb main_v61) :=
  (StableHlo.after_of_writes_sub hostOps10 _ hostOps10_writes (by decide : main_v61 ∉ hostOps10_W)).trans (h2keep24 m ρ c)

end Cert.Val

end
-- ==== Proof.LibProductEntry.lean ====
/-
  A matrix product read at an entry.

  Both programs contract the second axis of a left matrix `[M, K]` with the first axis of a right matrix `[K, N]`.
  At the ideal values the product's entry `(p, q)` is `∑ k : Fin K, x (p, k) * w (k, q)`, whether it is the host's
  product or the kernel's matrix multiplication onto a zero accumulator. The statement is proved once for any
  dimension record whose four coordinate maps are the expected ones; each record of the two programs then supplies
  those four facts.
-/
import Idealize.ShloMosaic.PureOps.Ideal
import Idealize.ShloMosaic.PureOps.Ideal.Laws
import Idealize.ShloMosaic.Lib.ValueIdx

noncomputable section

open scoped BigOperators

namespace Cert.ProductEntry

open Idealize.ShloMosaic Idealize.ShloMosaic.ValueIdx

/-- The sum over a one-axis contraction shape, re-indexed by the axis' coordinate: for a record whose left index is
    `(p, k)` and right index `(k, q)` at output `(p, q)` and contraction position `k`. -/
theorem sum_apply {M K N : ℕ} (D : DotDims ⟨2, ![M, K]⟩ ⟨2, ![K, N]⟩ ⟨2, ![M, N]⟩)
    (hr : D.contr.rank = 1) (hs : D.contr.size ⟨0, by omega⟩ = K)
    (hl0 : ∀ i k, (D.lhsIdx i k 0).val = (i 0).val)
    (hl1 : ∀ i k, (D.lhsIdx i k 1).val = (k ⟨0, by omega⟩).val)
    (hr0 : ∀ i k, (D.rhsIdx i k 0).val = (k ⟨0, by omega⟩).val)
    (hr1 : ∀ i k, (D.rhsIdx i k 1).val = (i 1).val)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.ProductEntry

end
-- ==== Proof.LibMatProd.lean ====
/-
  The product of a left matrix `[M, K]` and a right matrix `[K, N]` over the extended reals, as one function.

  Entry `(p, q)` of the product is `∑ k : Fin K, a (p, k) * b (k, q)`. The file states the product for any sizes,
  the congruence that reads a block of rows of a product off a block of rows of the left matrix, and the two facts
  that identify it with the operations of a program at the ideal values: a matrix multiplication onto a zero
  accumulator and the host's product are this function, for ANY dimension record that contracts the left matrix'
  second axis with the right matrix' first axis (the record supplies its four coordinate facts).
-/
import proofs.«125778_j7670811590827_2_alg».proof.Proof.LibProductEntry

noncomputable section

open scoped BigOperators

namespace Cert.Val

open Idealize.ShloMosaic Idealize.ShloMosaic.ValueIdx

/-- The matrix product as one function of the two matrices: entry `i = (p, q)` is the sum over `k` of
    `a (p, k) * b (k, q)`. -/
def matProd {M K N : ℕ} (a : (⟨2, ![M, K]⟩ : Shape).Idx → EReal) (b : (⟨2, ![K, N]⟩ : Shape).Idx → EReal) :
    (⟨2, ![M, N]⟩ : Shape).Idx → EReal :=
  fun i => ∑ k : Fin K, a (ix2 (⟨(i 0).val, idx2_lt0 i⟩ : Fin M) k) * b (ix2 k (⟨(i 1).val, idx2_lt1 i⟩ : Fin N))

/-- The product at the entry with coordinates `p` and `q`. -/
theorem matProd_ix2 {M K N : ℕ} (a : (⟨2, ![M, K]⟩ : Shape).Idx → EReal) (b : (⟨2, ![K, N]⟩ : Shape).Idx → EReal)
    (p : Fin M) (q : Fin N) : matProd a b (ix2 p q) = ∑ k : Fin K, a (ix2 p k) * b (ix2 k q) := rfl

/-- Two products agree at entries `j` and `i` when row `j 0` of the first left matrix is row `i 0` of the second and
    column `j 1` of the first right matrix is column `i 1` of the second: what a block of rows of a product is. -/
theorem matProd_congr {M M' K N N' : ℕ} (x : (⟨2, ![M', K]⟩ : Shape).Idx → EReal) (w : (⟨2, ![K, N']⟩ : Shape).Idx → EReal)
    (a : (⟨2, ![M, K]⟩ : Shape).Idx → EReal) (b : (⟨2, ![K, N]⟩ : Shape).Idx → EReal)
    (j : (⟨2, ![M', N']⟩ : Shape).Idx) (i : (⟨2, ![M, N]⟩ : Shape).Idx)
    (hx : ∀ k : Fin K, x (ix2 (⟨(j 0).val, idx2_lt0 j⟩ : Fin M') k) = a (ix2 (⟨(i 0).val, idx2_lt0 i⟩ : Fin M) k))
    (hw : ∀ k : Fin K, w (ix2 k (⟨(j 1).val, idx2_lt1 j⟩ : Fin N')) = b (ix2 k (⟨(i 1).val, idx2_lt1 i⟩ : Fin N))) :
    matProd x w j = matProd a b i :=
  Finset.sum_congr rfl fun k _ => by rw [hx k, hw k]

section Records
variable {M K N : ℕ} (D : DotDims ⟨2, ![M, K]⟩ ⟨2, ![K, N]⟩ ⟨2, ![M, N]⟩)
  (hr : D.contr.rank = 1) (hs : D.contr.size ⟨0, by omega⟩ = K)
  (hl0 : ∀ i k, (D.lhsIdx i k 0).val = (i 0).val)
  (hl1 : ∀ i k, (D.lhsIdx i k 1).val = (k ⟨0, by omega⟩).val)
  (hr0 : ∀ i k, (D.rhsIdx i k 0).val = (k ⟨0, by omega⟩).val)
  (hr1 : ∀ i k, (D.rhsIdx i k 1).val = (i 1).val)
include hr hs hl0 hl1 hr0 hr1

/-- A matrix multiplication onto the zero accumulator, for a record that contracts the left matrix' second axis with
    the right matrix' first axis, is the matrix product. -/
theorem matmul_zero_eq_matProd {φ₁ φ₂ : FTy} (prec : Option ContractPrecision)
    (x : FVec Ideal ⟨2, ![M, K]⟩ φ₁) (w : FVec Ideal ⟨2, ![K, N]⟩ φ₂) :
    FloatOps.matmul D prec x w (constant (F := Ideal) ⟨2, ![M, N]⟩ .f32 0x00000000#32) = matProd x w := by
  funext j
  obtain ⟨p, q, rfl⟩ : ∃ (p : Fin M) (q : Fin N), j = ix2 p q := ⟨j 0, j 1, eq_ix2 j⟩
  exact (Ideal.matmul_constant_zero_apply D prec x w (ix2 p q)).trans
    (Cert.ProductEntry.sum_apply D hr hs hl0 hl1 hr0 hr1 x w p q)

/-- The host's product, for such a record, is the matrix product. -/
theorem dotGeneral_eq_matProd {φ₁ φ₂ : FTy} (prec : Option ContractPrecision) (sched : HostSchedule)
    (x : FVec Ideal ⟨2, ![M, K]⟩ φ₁) (w : FVec Ideal ⟨2, ![K, N]⟩ φ₂) :
    FloatOps.dotGeneral D prec sched x w = matProd x w := by
  funext j
  obtain ⟨p, q, rfl⟩ : ∃ (p : Fin M) (q : Fin N), j = ix2 p q := ⟨j 0, j 1, eq_ix2 j⟩
  exact (Ideal.dotGeneral_apply D prec sched x w (ix2 p q)).trans
    (Cert.ProductEntry.sum_apply D hr hs hl0 hl1 hr0 hr1 x w p q)

end Records

end Cert.Val

end
-- ==== Proof.Val.MatSpec.lean ====
/-
  The three matrix-product stages of the network, at their literal sizes.

  Each is the matrix product `matProd` (entry `(p, q)` is `∑ k, a (p, k) * b (k, q)`) of node features with a weight
  matrix: `[100000, 3] x [3, 16]`, `[100000, 16] x [16, 16]` and `[100000, 16] x [16, 1]`.
-/
import proofs.«125778_j7670811590827_2_alg».proof.Proof.LibMatProd

noncomputable section

namespace Cert.Val

open Idealize.ShloMosaic Idealize.ShloMosaic.ValueIdx

/-- The first layer's product: node features `[100000, 3]` times weights `[3, 16]`. -/
abbrev G0 (a : (⟨2, ![100000, 3]⟩ : Shape).Idx → EReal) (b : (⟨2, ![3, 16]⟩ : Shape).Idx → EReal) :
    (⟨2, ![100000, 16]⟩ : Shape).Idx → EReal := matProd a b

/-- The second layer's product: hidden features `[100000, 16]` times weights `[16, 16]`. -/
abbrev G3 (a : (⟨2, ![100000, 16]⟩ : Shape).Idx → EReal) (b : (⟨2, ![16, 16]⟩ : Shape).Idx → EReal) :
    (⟨2, ![100000, 16]⟩ : Shape).Idx → EReal := matProd a b

/-- The third layer's product: hidden features `[100000, 16]` times weights `[16, 1]`. -/
abbrev G6 (a : (⟨2, ![100000, 16]⟩ : Shape).Idx → EReal) (b : (⟨2, ![16, 1]⟩ : Shape).Idx → EReal) :
    (⟨2, ![100000, 1]⟩ : Shape).Idx → EReal := matProd a b

end Cert.Val

end
-- ==== Proof.Val.PayMat.lean ====
/-
  The matrix-multiplication stages of the kernel, read as matrix products.

  Each of the three stages loads a block of rows `x : [2000, K]` and the whole weight matrix `w : [K, N]`, narrows both
  to a shorter float format (the identity on extended reals) and multiplies them onto a zero accumulator. Its
  dimension record contracts the second axis of `x` with the first axis of `w`, so the stored block is the matrix
  product `matProd x w`: entry `(p, q)` is `∑ k, x (p, k) * w (k, q)`.
-/
import proofs.«125778_j7670811590827_2_alg».proof.Proof.Gen.KernelIdeal.Skeleton
import proofs.«125778_j7670811590827_2_alg».proof.Proof.Val.MatSpec
import Idealize.ShloMosaic.Lib.Pipeline.Value

noncomputable section

namespace Cert.Val

open Cert.KernelIdeal Cert.KernelIdeal.Gen Idealize.ShloMosaic Idealize.ShloMosaic.ValueIdx

/-! ## The first layer's product: `[2000, 3] x [3, 16]` -/

theorem k0_lhs0 (i : S2000x16.Idx) (q : dot_S2000x3_S3x16_S2000x16_1_0_0_1_n_n.contr.Idx) :
    (dot_S2000x3_S3x16_S2000x16_1_0_0_1_n_n.lhsIdx i q 0).val = (i 0).val := by
  unfold DotDims.lhsIdx
  rw [dif_neg (show ¬(0 : Fin S2000x3.rank) ∈ dot_S2000x3_S3x16_S2000x16_1_0_0_1_n_n.lhsBatch by decide), dif_pos (show (0 : Fin S2000x3.rank) ∈ dot_S2000x3_S3x16_S2000x16_1_0_0_1_n_n.lhsNonContracting by decide)]
  rfl
theorem k0_lhs1 (i : S2000x16.Idx) (q : dot_S2000x3_S3x16_S2000x16_1_0_0_1_n_n.contr.Idx) :
    (dot_S2000x3_S3x16_S2000x16_1_0_0_1_n_n.lhsIdx i q 1).val = (q ⟨0, by decide⟩).val :=
  dot_S2000x3_S3x16_S2000x16_1_0_0_1_n_n.lhsIdx_val_of_single rfl i q
theorem k0_rhs0 (i : S2000x16.Idx) (q : dot_S2000x3_S3x16_S2000x16_1_0_0_1_n_n.contr.Idx) :
    (dot_S2000x3_S3x16_S2000x16_1_0_0_1_n_n.rhsIdx i q 0).val = (q ⟨0, by decide⟩).val :=
  dot_S2000x3_S3x16_S2000x16_1_0_0_1_n_n.rhsIdx_val_of_single rfl i q
theorem k0_rhs1 (i : S2000x16.Idx) (q : dot_S2000x3_S3x16_S2000x16_1_0_0_1_n_n.contr.Idx) :
    (dot_S2000x3_S3x16_S2000x16_1_0_0_1_n_n.rhsIdx i q 1).val = (i 1).val := by
  unfold DotDims.rhsIdx
  rw [dif_neg (show ¬(1 : Fin S3x16.rank) ∈ dot_S2000x3_S3x16_S2000x16_1_0_0_1_n_n.rhsBatch by decide), dif_pos (show (1 : Fin S3x16.rank) ∈ dot_S2000x3_S3x16_S2000x16_1_0_0_1_n_n.rhsNonContracting by decide)]
  rfl

/-- The stored block is the matrix product of the loaded rows and the weights. -/
theorem k0_pay1_eq (x0 : Vec Ideal S2000x3 .f32) (x1 : Vec Ideal S3x16 .f32) :
    k0_pay1 x0 x1 = matProd x0 x1 := by
  unfold k0_pay1
  exact matmul_zero_eq_matProd dot_S2000x3_S3x16_S2000x16_1_0_0_1_n_n rfl rfl k0_lhs0 k0_lhs1 k0_rhs0 k0_rhs1 none x0 x1

/-! ## The second layer's product: `[2000, 16] x [16, 16]` -/

theorem k3_lhs0 (i : S2000x16.Idx) (q : dot_S2000x16_S16x16_S2000x16_1_0_0_1_n_n.contr.Idx) :
    (dot_S2000x16_S16x16_S2000x16_1_0_0_1_n_n.lhsIdx i q 0).val = (i 0).val := by
  unfold DotDims.lhsIdx
  rw [dif_neg (show ¬(0 : Fin S2000x16.rank) ∈ dot_S2000x16_S16x16_S2000x16_1_0_0_1_n_n.lhsBatch by decide), dif_pos (show (0 : Fin S2000x16.rank) ∈ dot_S2000x16_S16x16_S2000x16_1_0_0_1_n_n.lhsNonContracting by decide)]
  rfl
theorem k3_lhs1 (i : S2000x16.Idx) (q : dot_S2000x16_S16x16_S2000x16_1_0_0_1_n_n.contr.Idx) :
    (dot_S2000x16_S16x16_S2000x16_1_0_0_1_n_n.lhsIdx i q 1).val = (q ⟨0, by decide⟩).val :=
  dot_S2000x16_S16x16_S2000x16_1_0_0_1_n_n.lhsIdx_val_of_single rfl i q
theorem k3_rhs0 (i : S2000x16.Idx) (q : dot_S2000x16_S16x16_S2000x16_1_0_0_1_n_n.contr.Idx) :
    (dot_S2000x16_S16x16_S2000x16_1_0_0_1_n_n.rhsIdx i q 0).val = (q ⟨0, by decide⟩).val :=
  dot_S2000x16_S16x16_S2000x16_1_0_0_1_n_n.rhsIdx_val_of_single rfl i q
theorem k3_rhs1 (i : S2000x16.Idx) (q : dot_S2000x16_S16x16_S2000x16_1_0_0_1_n_n.contr.Idx) :
    (dot_S2000x16_S16x16_S2000x16_1_0_0_1_n_n.rhsIdx i q 1).val = (i 1).val := by
  unfold DotDims.rhsIdx
  rw [dif_neg (show ¬(1 : Fin S16x16.rank) ∈ dot_S2000x16_S16x16_S2000x16_1_0_0_1_n_n.rhsBatch by decide), dif_pos (show (1 : Fin S16x16.rank) ∈ dot_S2000x16_S16x16_S2000x16_1_0_0_1_n_n.rhsNonContracting by decide)]
  rfl

/-- The stored block is the matrix product of the loaded rows and the weights (the cast of the rows to their own shape is the identity). -/
theorem k3_pay1_eq (x0 : Vec Ideal S2000x16 .f32) (x1 : Vec Ideal S16x16 .f32) :
    k3_pay1 x0 x1 = matProd x0 x1 := by
  unfold k3_pay1
  simp only [shapeCast_self]
  exact matmul_zero_eq_matProd dot_S2000x16_S16x16_S2000x16_1_0_0_1_n_n rfl rfl k3_lhs0 k3_lhs1 k3_rhs0 k3_rhs1 none x0 x1

/-! ## The third layer's product: `[2000, 16] x [16, 1]` -/

theorem k6_lhs0 (i : S2000x1.Idx) (q : dot_S2000x16_S16x1_S2000x1_1_0_0_1_n_n.contr.Idx) :
    (dot_S2000x16_S16x1_S2000x1_1_0_0_1_n_n.lhsIdx i q 0).val = (i 0).val := by
  unfold DotDims.lhsIdx
  rw [dif_neg (show ¬(0 : Fin S2000x16.rank) ∈ dot_S2000x16_S16x1_S2000x1_1_0_0_1_n_n.lhsBatch by decide), dif_pos (show (0 : Fin S2000x16.rank) ∈ dot_S2000x16_S16x1_S2000x1_1_0_0_1_n_n.lhsNonContracting by decide)]
  rfl
theorem k6_lhs1 (i : S2000x1.Idx) (q : dot_S2000x16_S16x1_S2000x1_1_0_0_1_n_n.contr.Idx) :
    (dot_S2000x16_S16x1_S2000x1_1_0_0_1_n_n.lhsIdx i q 1).val = (q ⟨0, by decide⟩).val :=
  dot_S2000x16_S16x1_S2000x1_1_0_0_1_n_n.lhsIdx_val_of_single rfl i q
theorem k6_rhs0 (i : S2000x1.Idx) (q : dot_S2000x16_S16x1_S2000x1_1_0_0_1_n_n.contr.Idx) :
    (dot_S2000x16_S16x1_S2000x1_1_0_0_1_n_n.rhsIdx i q 0).val = (q ⟨0, by decide⟩).val :=
  dot_S2000x16_S16x1_S2000x1_1_0_0_1_n_n.rhsIdx_val_of_single rfl i q
theorem k6_rhs1 (i : S2000x1.Idx) (q : dot_S2000x16_S16x1_S2000x1_1_0_0_1_n_n.contr.Idx) :
    (dot_S2000x16_S16x1_S2000x1_1_0_0_1_n_n.rhsIdx i q 1).val = (i 1).val := by
  unfold DotDims.rhsIdx
  rw [dif_neg (show ¬(1 : Fin S16x1.rank) ∈ dot_S2000x16_S16x1_S2000x1_1_0_0_1_n_n.rhsBatch by decide), dif_pos (show (1 : Fin S16x1.rank) ∈ dot_S2000x16_S16x1_S2000x1_1_0_0_1_n_n.rhsNonContracting by decide)]
  rfl

/-- The stored block is the matrix product of the loaded rows and the weights (the cast of the rows to their own shape is the identity). -/
theorem k6_pay1_eq (x0 : Vec Ideal S2000x16 .f32) (x1 : Vec Ideal S16x1 .f32) :
    k6_pay1 x0 x1 = matProd x0 x1 := by
  unfold k6_pay1
  simp only [shapeCast_self]
  exact matmul_zero_eq_matProd dot_S2000x16_S16x1_S2000x1_1_0_0_1_n_n rfl rfl k6_lhs0 k6_lhs1 k6_rhs0 k6_rhs1 none x0 x1

end Cert.Val

end
-- ==== Proof.Val.RefMat.lean ====
/-
  The reference's three matrix products are the function `matProd`.

  The reference multiplies on the host, with a dimension record that contracts the left matrix' second axis with the
  right matrix' first axis; at the ideal values that product is `∑ k, l (p, k) * r (k, q)` at entry `(p, q)`.
  The four coordinate facts of each record are the generated ones of the reference's reading.
-/
import proofs.«125778_j7670811590827_2_alg».proof.Proof.Gen.ReferenceIdeal.Read
import proofs.«125778_j7670811590827_2_alg».proof.Proof.Val.MatSpec

noncomputable section

namespace Cert.Val

open Cert.ReferenceIdeal Cert.ReferenceIdeal.Gen Idealize.ShloMosaic Idealize.ShloMosaic.ValueIdx

/-- The first layer's product on the host is `G0`. -/
theorem G0_eq_host (l : FVec Ideal S100000x3 .f32) (r : FVec Ideal S3x16 .f32) :
    G0 l r = Host.dotGeneral (F := Ideal) dot_S100000x3_S3x16_S100000x16_1_0_0_1_n_n none l r :=
  (dotGeneral_eq_matProd dot_S100000x3_S3x16_S100000x16_1_0_0_1_n_n rfl rfl
    Read.lhs_main_v32_0 Read.lhs_main_v32_1 Read.rhs_main_v32_0 Read.rhs_main_v32_1 none .single l r).symm

/-- The second layer's product on the host is `G3`. -/
theorem G3_eq_host (l : FVec Ideal S100000x16 .f32) (r : FVec Ideal S16x16 .f32) :
    G3 l r = Host.dotGeneral (F := Ideal) dot_S100000x16_S16x16_S100000x16_1_0_0_1_n_n none l r :=
  (dotGeneral_eq_matProd dot_S100000x16_S16x16_S100000x16_1_0_0_1_n_n rfl rfl
    Read.lhs_main_v50_0 Read.lhs_main_v50_1 Read.rhs_main_v50_0 Read.rhs_main_v50_1 none .single l r).symm

/-- The third layer's product on the host is `G6`. -/
theorem G6_eq_host (l : FVec Ideal S100000x16 .f32) (r : FVec Ideal S16x1 .f32) :
    G6 l r = Host.dotGeneral (F := Ideal) dot_S100000x16_S16x1_S100000x1_1_0_0_1_n_n none l r :=
  (dotGeneral_eq_matProd dot_S100000x16_S16x1_S100000x1_1_0_0_1_n_n rfl rfl
    Read.lhs_main_v68_0 Read.lhs_main_v68_1 Read.rhs_main_v68_0 Read.rhs_main_v68_1 none .single l r).symm

end Cert.Val

end
-- ==== Proof.Val.Arr0.lean ====
/-
  The first layer's product, from blocks to the whole array.

  At grid point `t` the stage reads rows `2000 t … 2000 t + 1999` of the left matrix and the whole right matrix, and
  writes the same rows of the result: rows of a matrix product depend only on the same rows of the left matrix. The
  fifty blocks tile the `100000` rows (row `r` lies in block `r / 2000`), so after the stage the result array is
  the product of the two operand arrays as the stage found them, which is the host's product of the reference.
-/
import proofs.«125778_j7670811590827_2_alg».proof.Proof.KI.RegA0
import proofs.«125778_j7670811590827_2_alg».proof.Proof.Val.PayMat
import proofs.«125778_j7670811590827_2_alg».proof.Proof.Val.RefMat
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The origin of a whole-block access. -/
theorem origin0 : (![0, 0] : Fin 2 → Nat) = fun _ => 0 := funext fun a => by fin_cases a <;> rfl

/-- The block indices at point `t`, decided over the grid: the left matrix and the result move down one block of
    rows per point; the right matrix is always its one block. -/
theorem blockIdx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What the stage leaves in the result's staging buffer at point `t`: the product of the two blocks it loaded. -/
theorem after0_matProd (c : Dev nD) (t : Fin cfg0.N) :
    (cfg0.win 2).cut (grid0.coords t) ((dat0 V c).after 2 t) = matProd (iblk0 V c 0 t) (iblk0 V c 1 t) := by
  rw [after0_2]
  unfold out0_2
  rw [View.canon_unit_zero origin0]
  simp only [View.ld_unit_zero (S := S2000x3) origin0, View.ld_unit_zero (S := S3x16) origin0]
  rw [k0_pay1_eq]
  rfl

/-- What point `t` writes back is block `t` of the product of the two operand arrays. -/
theorem flushed0_eq (c : Dev nD) (t : Fin cfg0.N) :
    (dat0 V c).flushed 2 t = ((cfg0.win 2).blk t).view.read (Elt Ideal)
      (G0 (V c (Pipeline.arrRef spec0 0)) (V c (Pipeline.arrRef spec0 1))) := by
  show (cfg0.win 2).cut (grid0.coords t) ((dat0 V c).after 2 t) = _
  rw [after0_matProd]
  obtain ⟨e0, e1, e2, e3, e4, e5⟩ := blockIdx0 t
  funext j
  refine matProd_congr (iblk0 V c 0 t) (iblk0 V c 1 t) (V c (Pipeline.arrRef spec0 0)) (V c (Pipeline.arrRef spec0 1)) j
    (((cfg0.win 2).blk t).view.emb j) (fun k => ?_) (fun k => ?_)
  · show V c (Pipeline.arrRef spec0 0) (((cfg0.win 0).blk t).view.emb (ix2 (⟨(j 0).val, idx2_lt0 j⟩ : Fin 2000) k)) = _
    refine congrArg _ (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 3 + 1 * k.val = k.val; omega
  · show V c (Pipeline.arrRef spec0 1) (((cfg0.win 1).blk t).view.emb (ix2 k (⟨(j 1).val, idx2_lt1 j⟩ : Fin 16))) = _
    refine congrArg _ (funext fun a => Fin.ext ?_)
    match a with
    | ⟨0, _⟩ => show win0_1.index t (0 : Fin 2) * 3 + 1 * k.val = k.val; omega
    | ⟨1, _⟩ => show win0_1.index t (1 : Fin 2) * 16 + 1 * (j 1).val = win0_2.index t (1 : Fin 2) * 16 + 1 * (j 1).val; omega

/-- An index of the result array is in point `t`'s block iff each coordinate is in the block's range on its axis. -/
theorem mem_block0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v32).slice (win0_2.rect t)).set ↔ _
  rw [View.set_slice_whole, Rect.mem_set_unit]
  exact Iff.rfl

/-- Every index of the result array is in some point's block: row `r` is in block `r / 2000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨e0, e1, e2, e3, e4, e5⟩ := blockIdx0 t
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- After the stage the result array is the product of the two operand arrays as the stage found them. -/
theorem arr0_eq_G (c : Dev nD) :
    (dat0 V c).arrAt 2 cfg0.N = G0 (V c (Pipeline.arrRef spec0 0)) (V c (Pipeline.arrRef spec0 1)) :=
  (dat0 V c).arrAt_eq_of_cover 2 (G0 (V c (Pipeline.arrRef spec0 0)) (V c (Pipeline.arrRef spec0 1)))
    (fun t _ => flushed0_eq V c t) cover0

/-- The same array as the host's product of the reference, with the reference's dimension record. -/
theorem arr0_eq_host (c : Dev nD) :
    (dat0 V c).arrAt 2 cfg0.N = Host.dotGeneral (F := Ideal) (φ₁ := .f32) (φ₂ := .f32) Cert.ReferenceIdeal.dot_S100000x3_S3x16_S100000x16_1_0_0_1_n_n none
      (V c (Pipeline.arrRef spec0 0)) (V c (Pipeline.arrRef spec0 1)) :=
  (arr0_eq_G V c).trans (G0_eq_host _ _)

end Cert.Val

end
-- ==== Proof.Val.PwSpec.lean ====
/-
  The two pointwise stages of a graph-convolution layer, entry by entry over the extended reals.

  `rowScale a w`: every row of `a : [M, N]` multiplied by that row's entry of the column `w : [M, 1]`
  (an edge's message scaled by the edge's normalised weight).
  `biasRelu a b`: the row `b : [1, N]` added to every row of `a : [M, N]`, then the maximum with zero;
  `biasAdd a b` is the same without the maximum (the last layer).
-/
import Idealize.ShloMosaic.PureOps.Ideal
import Idealize.ShloMosaic.Lib.ValueIdx

noncomputable section

namespace Cert.Val

open Idealize.ShloMosaic Idealize.ShloMosaic.ValueIdx

/-- Entry `(p, q)` is `a (p, q) * w (p, 0)`. -/
def rowScale {M N : ℕ} (a : (⟨2, ![M, N]⟩ : Shape).Idx → EReal) (w : (⟨2, ![M, 1]⟩ : Shape).Idx → EReal) :
    (⟨2, ![M, N]⟩ : Shape).Idx → EReal :=
  fun i => a i * w (ix2 (⟨(i 0).val, idx2_lt0 i⟩ : Fin M) (0 : Fin 1))

/-- `rowScale` at the entry with coordinates `p` and `q`. -/
theorem rowScale_ix2 {M N : ℕ} (a : (⟨2, ![M, N]⟩ : Shape).Idx → EReal) (w : (⟨2, ![M, 1]⟩ : Shape).Idx → EReal)
    (p : Fin M) (q : Fin N) : rowScale a w (ix2 p q) = a (ix2 p q) * w (ix2 p (0 : Fin 1)) := rfl

/-- Entry `(p, q)` is `max (a (p, q) + b (0, q)) 0`. -/
def biasRelu {M N : ℕ} (a : (⟨2, ![M, N]⟩ : Shape).Idx → EReal) (b : (⟨2, ![1, N]⟩ : Shape).Idx → EReal) :
    (⟨2, ![M, N]⟩ : Shape).Idx → EReal :=
  fun i => max (a i + b (ix2 (0 : Fin 1) (⟨(i 1).val, idx2_lt1 i⟩ : Fin N))) 0

/-- `biasRelu` at the entry with coordinates `p` and `q`. -/
theorem biasRelu_ix2 {M N : ℕ} (a : (⟨2, ![M, N]⟩ : Shape).Idx → EReal) (b : (⟨2, ![1, N]⟩ : Shape).Idx → EReal)
    (p : Fin M) (q : Fin N) : biasRelu a b (ix2 p q) = max (a (ix2 p q) + b (ix2 (0 : Fin 1) q)) 0 := rfl

/-- Entry `(p, q)` is `a (p, q) + b (0, q)`. -/
def biasAdd {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- `biasAdd` at the entry with coordinates `p` and `q`. -/
theorem biasAdd_ix2 {M N : ℕ} (a : (⟨2, ![M, N]⟩ : Shape).Idx → EReal) (b : (⟨2, ![1, N]⟩ : Shape).Idx → EReal)
    (p : Fin M) (q : Fin N) : biasAdd a b (ix2 p q) = a (ix2 p q) + b (ix2 (0 : Fin 1) q) := rfl

/-- The first layer's messages: `[3300000, 16]` rows scaled by the column `[3300000, 1]`. -/
abbrev G1 (a : (⟨2, ![3300000, 16]⟩ : Shape).Idx → EReal) (w : (⟨2, ![3300000, 1]⟩ : Shape).Idx → EReal) :
    (⟨2, ![3300000, 16]⟩ : Shape).Idx → EReal := rowScale a w
/-- The second layer's messages, the same sizes. -/
abbrev G4 (a : (⟨2, ![3300000, 16]⟩ : Shape).Idx → EReal) (w : (⟨2, ![3300000, 1]⟩ : Shape).Idx → EReal) :
    (⟨2, ![3300000, 16]⟩ : Shape).Idx → EReal := rowScale a w
/-- The third layer's messages: one lane. -/
abbrev G7 (a : (⟨2, ![3300000, 1]⟩ : Shape).Idx → EReal) (w : (⟨2, ![3300000, 1]⟩ : Shape).Idx → EReal) :
    (⟨2, ![3300000, 1]⟩ : Shape).Idx → EReal := rowScale a w

/-- The first layer's bias and rectifier on `[100000, 16]`. -/
abbrev G2 (a : (⟨2, ![100000, 16]⟩ : Shape).Idx → EReal) (b : (⟨2, ![1, 16]⟩ : Shape).Idx → EReal) :
    (⟨2, ![100000, 16]⟩ : Shape).Idx → EReal := biasRelu a b
/-- The second layer's bias and rectifier, the same sizes. -/
abbrev G5 (a : (⟨2, ![100000, 16]⟩ : Shape).Idx → EReal) (b : (⟨2, ![1, 16]⟩ : Shape).Idx → EReal) :
    (⟨2, ![100000, 16]⟩ : Shape).Idx → EReal := biasRelu a b
/-- The third layer's bias on `[100000, 1]`, no rectifier. -/
abbrev G8 (a : (⟨2, ![100000, 1]⟩ : Shape).Idx → EReal) (b : (⟨2, ![1, 1]⟩ : Shape).Idx → EReal) :
    (⟨2, ![100000, 1]⟩ : Shape).Idx → EReal := biasAdd a b

end Cert.Val

end
-- ==== Proof.LibColumnBroadcast.lean ====
/-
  A column broadcast over lanes, read at an entry.

  A vector of shape `[a, 1]` broadcast to `[a, b]` holds, at entry `(p, c)`, the column's entry of row `p`: the
  broadcast repeats the unit axis and keeps the row coordinate. This is the column counterpart of the row form
  `[1, b] → [a, b]` (which reads `v (0, c)`), for any element type and any extents.
-/
import Idealize.ShloMosaic.Lib.ValueLayout

noncomputable section

namespace Cert.Val

open Idealize.ShloMosaic Idealize.ShloMosaic.ValueIdx

/-- A column `[a, 1]` broadcast over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Val

end
-- ==== Proof.Val.PayPw.lean ====
/-
  The pointwise stages of the kernel, read entry by entry over the extended reals.

  The edge-weighting stage multiplies a block of rows `x : [4000, N]` by the column `w : [4000, 1]` broadcast over the
  lanes: entry `(p, q)` is `x (p, q) * w (p, 0)`, the function `rowScale`. The bias stage adds the row `b : [1, N]`
  broadcast over the rows of `x : [2000, N]` and takes the maximum with zero (`biasRelu`); the last layer's
  bias stage has no maximum (`biasAdd`). The casts of a block to its own shape are the identity.
-/
import proofs.«125778_j7670811590827_2_alg».proof.Proof.Gen.KernelIdeal.Skeleton
import proofs.«125778_j7670811590827_2_alg».proof.Proof.Val.PwSpec
import proofs.«125778_j7670811590827_2_alg».proof.Proof.LibColumnBroadcast
import Idealize.ShloMosaic.PureOps.Ideal.Laws
import Idealize.ShloMosaic.Lib.ValueLayout

noncomputable section

namespace Cert.Val

open Cert.KernelIdeal Cert.KernelIdeal.Gen Idealize.ShloMosaic Idealize.ShloMosaic.ValueIdx

/-! ## Rows scaled by a column -/

/-- The first layer's edge weighting: the stored block is `rowScale` of the loaded rows and the loaded column. -/
theorem k1_pay1_eq (x0 : Vec Ideal S4000x16 .f32) (x1 : Vec Ideal S4000x1 .f32) :
    k1_pay1 x0 x1 = rowScale x0 x1 := by
  unfold k1_pay1
  simp only [shapeCast_self]
  funext j
  obtain ⟨p, q, rfl⟩ : ∃ (p : Fin 4000) (q : Fin 16), j = ix2 p q := ⟨j 0, j 1, eq_ix2 j⟩
  show x0 (ix2 p q) * broadcastTo S4000x16 x1 broadcasts_S4000x1_S4000x16 (ix2 p q) = x0 (ix2 p q) * x1 (ix2 p (0 : Fin 1))
  rw [broadcastTo_a1_ab_apply]

/-- The second layer's edge weighting, the same sizes. -/
theorem k4_pay1_eq (x0 : Vec Ideal S4000x16 .f32) (x1 : Vec Ideal S4000x1 .f32) :
    k4_pay1 x0 x1 = rowScale x0 x1 := by
  unfold k4_pay1
  simp only [shapeCast_self]
  funext j
  obtain ⟨p, q, rfl⟩ : ∃ (p : Fin 4000) (q : Fin 16), j = ix2 p q := ⟨j 0, j 1, eq_ix2 j⟩
  show x0 (ix2 p q) * broadcastTo S4000x16 x1 broadcasts_S4000x1_S4000x16 (ix2 p q) = x0 (ix2 p q) * x1 (ix2 p (0 : Fin 1))
  rw [broadcastTo_a1_ab_apply]

/-- The third layer's edge weighting: one lane, so the column is multiplied entry by entry. -/
theorem k7_pay1_eq (x0 : Vec Ideal S4000x1 .f32) (x1 : Vec Ideal S4000x1 .f32) :
    k7_pay1 x0 x1 = rowScale x0 x1 := by
  unfold k7_pay1
  simp only [shapeCast_self]
  funext j
  obtain ⟨p, q, rfl⟩ : ∃ (p : Fin 4000) (q : Fin 1), j = ix2 p q := ⟨j 0, j 1, eq_ix2 j⟩
  obtain rfl : q = 0 := Subsingleton.elim _ _
  rfl

/-! ## A bias row added, and the rectifier -/

/-- The first layer's bias and rectifier. -/
theorem k2_pay1_eq (x0 : Vec Ideal S2000x16 .f32) (x1 : Vec Ideal S1x16 .f32) :
    k2_pay1 x0 x1 = biasRelu x0 x1 := by
  unfold k2_pay1
  simp only [shapeCast_self]
  funext j
  obtain ⟨p, q, rfl⟩ : ∃ (p : Fin 2000) (q : Fin 16), j = ix2 p q := ⟨j 0, j 1, eq_ix2 j⟩
  show max (x0 (ix2 p q) + broadcastTo S2000x16 x1 broadcasts_S1x16_S2000x16 (ix2 p q)) (Ideal.ofBits .f32 0x00000000#32)
    = max (x0 (ix2 p q) + x1 (ix2 (0 : Fin 1) q)) 0
  rw [broadcastTo_1b_ab_apply, Ideal.ofBits_zero_f32]

/-- The second layer's bias and rectifier, the same sizes. -/
theorem k5_pay1_eq (x0 : Vec Ideal S2000x16 .f32) (x1 : Vec Ideal S1x16 .f32) :
    k5_pay1 x0 x1 = biasRelu x0 x1 := by
  unfold k5_pay1
  simp only [shapeCast_self]
  funext j
  obtain ⟨p, q, rfl⟩ : ∃ (p : Fin 2000) (q : Fin 16), j = ix2 p q := ⟨j 0, j 1, eq_ix2 j⟩
  show max (x0 (ix2 p q) + broadcastTo S2000x16 x1 broadcasts_S1x16_S2000x16 (ix2 p q)) (Ideal.ofBits .f32 0x00000000#32)
    = max (x0 (ix2 p q) + x1 (ix2 (0 : Fin 1) q)) 0
  rw [broadcastTo_1b_ab_apply, Ideal.ofBits_zero_f32]

/-- The third layer's bias: one lane, no rectifier. -/
theorem k8_pay1_eq (x0 : Vec Ideal S2000x1 .f32) (x1 : Vec Ideal S1x1 .f32) :
    k8_pay1 x0 x1 = biasAdd x0 x1 := by
  unfold k8_pay1
  simp only [shapeCast_self]
  funext j
  obtain ⟨p, q, rfl⟩ : ∃ (p : Fin 2000) (q : Fin 1), j = ix2 p q := ⟨j 0, j 1, eq_ix2 j⟩
  show x0 (ix2 p q) + broadcastTo S2000x1 x1 broadcasts_S1x1_S2000x1 (ix2 p q) = x0 (ix2 p q) + x1 (ix2 (0 : Fin 1) q)
  rw [broadcastTo_1b_ab_apply]

end Cert.Val

end
-- ==== Proof.Val.PwCommon.lean ====
/-
  Reading a pointwise stage block by block.

  A stage that scales rows by a column, or adds a bias row (with or without the maximum with zero), gives at an entry of
  a block the same value as the stage on the whole arrays at the entry's place in the array, as soon as the block's rows
  (and the column's entries, or the bias row's entries) are the array's at that place. These are the congruences that
  carry a block's value to the array's.
-/
import proofs.«125778_j7670811590827_2_alg».proof.Proof.Val.PwSpec

noncomputable section

namespace Cert.Val

open Idealize.ShloMosaic Idealize.ShloMosaic.ValueIdx

/-- Both coordinates of an offset written as the list `[0, 0]` are zero. -/
theorem zero_offsets : (![0, 0] : Fin 2 → Nat) = fun _ => 0 := funext fun a => by fin_cases a <;> rfl

/-- Rows scaled by a column, at entry `j` of a block and entry `i` of the arrays: equal when the block's entry is the
    array's and the block column's entry of row `j 0` is the array column's entry of row `i 0`. -/
theorem rowScale_congr {M M' N N' : ℕ}
    (x : (⟨2, ![M', N']⟩ : Shape).Idx → EReal) (w : (⟨2, ![M', 1]⟩ : Shape).Idx → EReal)
    (a : (⟨2, ![M, N]⟩ : Shape).Idx → EReal) (b : (⟨2, ![M, 1]⟩ : Shape).Idx → EReal)
    (j : (⟨2, ![M', N']⟩ : Shape).Idx) (i : (⟨2, ![M, N]⟩ : Shape).Idx)
    (hx : x j = a i)
    (hw : w (ix2 (⟨(j 0).val, idx2_lt0 j⟩ : Fin M') (0 : Fin 1)) = b (ix2 (⟨(i 0).val, idx2_lt0 i⟩ : Fin M) (0 : Fin 1))) :
    rowScale x w j = rowScale a b i := by
  show x j * w _ = a i * b _
  rw [hx, hw]

/-- A bias row added and the maximum with zero taken, at entry `j` of a block and entry `i` of the array: equal when the
    block's entry is the array's and the two bias rows agree at the lanes `j 1` and `i 1`. -/
theorem biasRelu_congr {M M' N N' : ℕ}
    (x : (⟨2, ![M', N']⟩ : Shape).Idx → EReal) (r : (⟨2, ![1, N']⟩ : Shape).Idx → EReal)
    (a : (⟨2, ![M, N]⟩ : Shape).Idx → EReal) (b : (⟨2, ![1, N]⟩ : Shape).Idx → EReal)
    (j : (⟨2, ![M', N']⟩ : Shape).Idx) (i : (⟨2, ![M, N]⟩ : Shape).Idx)
    (hx : x j = a i)
    (hr : r (ix2 (0 : Fin 1) (⟨(j 1).val, idx2_lt1 j⟩ : Fin N')) = b (ix2 (0 : Fin 1) (⟨(i 1).val, idx2_lt1 i⟩ : Fin N))) :
    biasRelu x r j = biasRelu a b i := by
  show max (x j + r _) 0 = max (a i + b _) 0
  rw [hx, hr]

/-- The same without the maximum. -/
theorem biasAdd_congr {M M' N N' : ℕ}
    (x : (⟨2, ![M', N']⟩ : Shape).Idx → EReal) (r : (⟨2, ![1, N']⟩ : Shape).Idx → EReal)
    (a : (⟨2, ![M, N]⟩ : Shape).Idx → EReal) (b : (⟨2, ![1, N]⟩ : Shape).Idx → EReal)
    (j : (⟨2, ![M', N']⟩ : Shape).Idx) (i : (⟨2, ![M, N]⟩ : Shape).Idx)
    (hx : x j = a i)
    (hr : r (ix2 (0 : Fin 1) (⟨(j 1).val, idx2_lt1 j⟩ : Fin N')) = b (ix2 (0 : Fin 1) (⟨(i 1).val, idx2_lt1 i⟩ : Fin N))) :
    biasAdd x r j = biasAdd a b i := by
  show x j + r _ = a i + b _
  rw [hx, hr]

end Cert.Val

end
-- ==== Proof.Val.Pw1.lean ====
/-
  Region 1 as one function of the arrays it reads: after its last point the output array is every row scaled by that row's entry of the weight column,
  over the whole [3300000, 16] array. Each point of the grid writes one block of 4000 rows, which is that function
  read on those rows; the 825 blocks cover the array, row r lying in block r / 4000.
-/
import proofs.«125778_j7670811590827_2_alg».proof.Proof.KI.RegA1
import proofs.«125778_j7670811590827_2_alg».proof.Proof.Val.PayPw
import proofs.«125778_j7670811590827_2_alg».proof.Proof.Val.PwCommon
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- Where each window's block sits at grid point `t`: all three windows are on block row `t`, lane block 0. -/
theorem blockIdx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the whole-array function of the arrays the region finds. -/
theorem flushed1_eq (c : Dev nD) (t : Fin cfg1.N) :
    (dat1 V c).flushed 2 t = ((cfg1.win 2).blk t).view.read (Elt Ideal) (G1 (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S4000x16) zero_offsets, View.ld_unit_zero (S := S4000x1) zero_offsets]
  rw [k1_pay1_eq]
  obtain ⟨e0, e1, e2, e3, e4, e5⟩ := blockIdx1 t
  funext j
  refine rowScale_congr (M := 3300000) (M' := 4000) (N := 16) (N' := 16) (iblk1 V c 0 t) (iblk1 V c 1 t) (V c (Pipeline.arrRef spec1 0)) (V c (Pipeline.arrRef spec1 1)) j
    (((cfg1.win 2).blk t).view.emb j) ?_ ?_
  · show V c (Pipeline.arrRef spec1 0) (((cfg1.win 0).blk t).view.emb j) = _
    refine congrArg _ (funext fun a => Fin.ext ?_)
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 16 + 1 * (j 1).val = win1_2.index t (1 : Fin 2) * 16 + 1 * (j 1).val; omega
  · show V c (Pipeline.arrRef spec1 1) (((cfg1.win 1).blk t).view.emb (ix2 (⟨(j 0).val, idx2_lt0 j⟩ : Fin 4000) (0 : Fin 1))) = _
    refine congrArg _ (funext fun a => Fin.ext ?_)
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 1 + 1 * 0 = 0; omega

/-- An index of the output array is in point `t`'s block iff each coordinate is in the block's range on its axis. -/
theorem mem_blk1 (t : Fin cfg1.N) (i : S3300000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v41).slice (win1_2.rect t)).set ↔ _
  rw [View.set_slice_whole, Rect.mem_set_unit]
  exact Iff.rfl

/-- Every index of the output array is in some point's block: row `r` is in block `r / 4000`. -/
theorem cover1 (i : S3300000x16.Idx) : ∃ t : Fin cfg1.N, (cfg1.win 2).flush t = true ∧ i ∈ ((cfg1.win 2).blk t).view.set := by
  have hi0 : (i 0).val < 3300000 := (i 0).isLt
  have hi1 : (i 1).val < 16 := (i 1).isLt
  have hN : (i 0).val / 4000 < grid1.N := by rw [N_1]; omega
  obtain ⟨e0, e1, e2, e3, e4, e5⟩ := blockIdx1 ⟨(i 0).val / 4000, hN⟩
  have e4' : win1_2.index ⟨(i 0).val / 4000, hN⟩ (0 : Fin 2) = (i 0).val / 4000 := e4
  refine ⟨⟨(i 0).val / 4000, hN⟩, flush1_2 _, ?_⟩
  rw [mem_blk1]
  intro a
  match a with
  | ⟨0, _⟩ =>
    show win1_2.index ⟨(i 0).val / 4000, hN⟩ (0 : Fin 2) * 4000 ≤ (i 0).val ∧ (i 0).val < win1_2.index ⟨(i 0).val / 4000, hN⟩ (0 : Fin 2) * 4000 + 4000
    omega
  | ⟨1, _⟩ =>
    show win1_2.index ⟨(i 0).val / 4000, hN⟩ (1 : Fin 2) * 16 ≤ (i 1).val ∧ (i 1).val < win1_2.index ⟨(i 0).val / 4000, hN⟩ (1 : Fin 2) * 16 + 16
    omega

/-- The output array after the region's last point: every row scaled by that row's entry of the weight column. -/
theorem arr1_G (c : Dev nD) :
    (dat1 V c).arrAt 2 cfg1.N = G1 (V c (Pipeline.arrRef spec1 0)) (V c (Pipeline.arrRef spec1 1)) :=
  (dat1 V c).arrAt_eq_of_cover 2 _ (fun t _ => flushed1_eq V c t) (cover1)

end Cert.Val

end
-- ==== Proof.Val.Pw2.lean ====
/-
  Region 2 as one function of the arrays it reads: after its last point the output array is the bias row added to every row, then the maximum with zero,
  over the whole [100000, 16] array. Each point of the grid writes one block of 2000 rows, which is that function
  read on those rows; the 50 blocks cover the array, row r lying in block r / 2000.
-/
import proofs.«125778_j7670811590827_2_alg».proof.Proof.KI.RegA2
import proofs.«125778_j7670811590827_2_alg».proof.Proof.Val.PayPw
import proofs.«125778_j7670811590827_2_alg».proof.Proof.Val.PwCommon
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- Where each window's block sits at grid point `t`: the rows' and the output's windows are on block row `t`, the bias row's stays at the origin, lane block 0. -/
theorem blockIdx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of the whole-array function of the arrays the region finds. -/
theorem flushed2_eq (c : Dev nD) (t : Fin cfg2.N) :
    (dat2 V c).flushed 2 t = ((cfg2.win 2).blk t).view.read (Elt Ideal) (G2 (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S2000x16) zero_offsets, View.ld_unit_zero (S := S1x16) zero_offsets]
  rw [k2_pay1_eq]
  obtain ⟨e0, e1, e2, e3, e4, e5⟩ := blockIdx2 t
  funext j
  refine biasRelu_congr (M := 100000) (M' := 2000) (N := 16) (N' := 16) (iblk2 V c 0 t) (iblk2 V c 1 t) (V c (Pipeline.arrRef spec2 0)) (V c (Pipeline.arrRef spec2 1)) j
    (((cfg2.win 2).blk t).view.emb j) ?_ ?_
  · show V c (Pipeline.arrRef spec2 0) (((cfg2.win 0).blk t).view.emb j) = _
    refine congrArg _ (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 16 + 1 * (j 1).val = win2_2.index t (1 : Fin 2) * 16 + 1 * (j 1).val; omega
  · show V c (Pipeline.arrRef spec2 1) (((cfg2.win 1).blk t).view.emb (ix2 (0 : Fin 1) (⟨(j 1).val, idx2_lt1 j⟩ : Fin 16))) = _
    refine congrArg _ (funext fun a => Fin.ext ?_)
    match a with
    | ⟨0, _⟩ => show win2_1.index t (0 : Fin 2) * 1 + 1 * 0 = 0; omega
    | ⟨1, _⟩ => show win2_1.index t (1 : Fin 2) * 16 + 1 * (j 1).val = win2_2.index t (1 : Fin 2) * 16 + 1 * (j 1).val; omega

/-- An index of the output array is in point `t`'s block iff each coordinate is in the block's range on its axis. -/
theorem mem_blk2 (t : Fin cfg2.N) (i : S100000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v46).slice (win2_2.rect t)).set ↔ _
  rw [View.set_slice_whole, Rect.mem_set_unit]
  exact Iff.rfl

/-- Every index of the output array is in some point's block: row `r` is in block `r / 2000`. -/
theorem cover2 (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : (i 0).val / 2000 < grid2.N := by rw [N_2]; omega
  obtain ⟨e0, e1, e2, e3, e4, e5⟩ := blockIdx2 ⟨(i 0).val / 2000, hN⟩
  have e4' : win2_2.index ⟨(i 0).val / 2000, hN⟩ (0 : Fin 2) = (i 0).val / 2000 := e4
  refine ⟨⟨(i 0).val / 2000, hN⟩, flush2_2 _, ?_⟩
  rw [mem_blk2]
  intro a
  match a with
  | ⟨0, _⟩ =>
    show win2_2.index ⟨(i 0).val / 2000, hN⟩ (0 : Fin 2) * 2000 ≤ (i 0).val ∧ (i 0).val < win2_2.index ⟨(i 0).val / 2000, hN⟩ (0 : Fin 2) * 2000 + 2000
    omega
  | ⟨1, _⟩ =>
    show win2_2.index ⟨(i 0).val / 2000, hN⟩ (1 : Fin 2) * 16 ≤ (i 1).val ∧ (i 1).val < win2_2.index ⟨(i 0).val / 2000, hN⟩ (1 : Fin 2) * 16 + 16
    omega

/-- The output array after the region's last point: the bias row added to every row, then the maximum with zero. -/
theorem arr2_G (c : Dev nD) :
    (dat2 V c).arrAt 2 cfg2.N = G2 (V c (Pipeline.arrRef spec2 0)) (V c (Pipeline.arrRef spec2 1)) :=
  (dat2 V c).arrAt_eq_of_cover 2 _ (fun t _ => flushed2_eq V c t) (cover2)

end Cert.Val

end
-- ==== Proof.Val.Pw4.lean ====
/-
  Region 4 as one function of the arrays it reads: after its last point the output array is every row scaled by that row's entry of the weight column,
  over the whole [3300000, 16] array. Each point of the grid writes one block of 4000 rows, which is that function
  read on those rows; the 825 blocks cover the array, row r lying in block r / 4000.
-/
import proofs.«125778_j7670811590827_2_alg».proof.Proof.KI.RegA4
import proofs.«125778_j7670811590827_2_alg».proof.Proof.Val.PayPw
import proofs.«125778_j7670811590827_2_alg».proof.Proof.Val.PwCommon
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- Where each window's block sits at grid point `t`: all three windows are on block row `t`, lane block 0. -/
theorem blockIdx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of the whole-array function of the arrays the region finds. -/
theorem flushed4_eq (c : Dev nD) (t : Fin cfg4.N) :
    (dat4 V c).flushed 2 t = ((cfg4.win 2).blk t).view.read (Elt Ideal) (G4 (V c (Pipeline.arrRef spec4 0)) (V c (Pipeline.arrRef spec4 1))) := by
  show (cfg4.win 2).cut (grid4.coords t) ((dat4 V c).after 2 t) = _
  rw [after4_2]
  unfold out4_2
  rw [View.canon_unit_zero zero_offsets]
  simp only [View.ld_unit_zero (S := S4000x16) zero_offsets, View.ld_unit_zero (S := S4000x1) zero_offsets]
  rw [k4_pay1_eq]
  obtain ⟨e0, e1, e2, e3, e4, e5⟩ := blockIdx4 t
  funext j
  refine rowScale_congr (M := 3300000) (M' := 4000) (N := 16) (N' := 16) (iblk4 V c 0 t) (iblk4 V c 1 t) (V c (Pipeline.arrRef spec4 0)) (V c (Pipeline.arrRef spec4 1)) j
    (((cfg4.win 2).blk t).view.emb j) ?_ ?_
  · show V c (Pipeline.arrRef spec4 0) (((cfg4.win 0).blk t).view.emb j) = _
    refine congrArg _ (funext fun a => Fin.ext ?_)
    match a with
    | ⟨0, _⟩ => show win4_0.index t (0 : Fin 2) * 4000 + 1 * (j 0).val = win4_2.index t (0 : Fin 2) * 4000 + 1 * (j 0).val; omega
    | ⟨1, _⟩ => show win4_0.index t (1 : Fin 2) * 16 + 1 * (j 1).val = win4_2.index t (1 : Fin 2) * 16 + 1 * (j 1).val; omega
  · show V c (Pipeline.arrRef spec4 1) (((cfg4.win 1).blk t).view.emb (ix2 (⟨(j 0).val, idx2_lt0 j⟩ : Fin 4000) (0 : Fin 1))) = _
    refine congrArg _ (funext fun a => Fin.ext ?_)
    match a with
    | ⟨0, _⟩ => show win4_1.index t (0 : Fin 2) * 4000 + 1 * (j 0).val = win4_2.index t (0 : Fin 2) * 4000 + 1 * (j 0).val; omega
    | ⟨1, _⟩ => show win4_1.index t (1 : Fin 2) * 1 + 1 * 0 = 0; omega

/-- An index of the output array is in point `t`'s block iff each coordinate is in the block's range on its axis. -/
theorem mem_blk4 (t : Fin cfg4.N) (i : S3300000x16.Idx) :
    i ∈ ((cfg4.win 2).blk t).view.set ↔ ∀ a : Fin 2, win4_2.index t a * S4000x16.size a ≤ (i a).val ∧ (i a).val < win4_2.index t a * S4000x16.size a + S4000x16.size a := by
  show i ∈ ((View.whole main_v56).slice (win4_2.rect t)).set ↔ _
  rw [View.set_slice_whole, Rect.mem_set_unit]
  exact Iff.rfl

/-- Every index of the output array is in some point's block: row `r` is in block `r / 4000`. -/
theorem cover4 (i : S3300000x16.Idx) : ∃ t : Fin cfg4.N, (cfg4.win 2).flush t = true ∧ i ∈ ((cfg4.win 2).blk t).view.set := by
  have hi0 : (i 0).val < 3300000 := (i 0).isLt
  have hi1 : (i 1).val < 16 := (i 1).isLt
  have hN : (i 0).val / 4000 < grid4.N := by rw [N_4]; omega
  obtain ⟨e0, e1, e2, e3, e4, e5⟩ := blockIdx4 ⟨(i 0).val / 4000, hN⟩
  have e4' : win4_2.index ⟨(i 0).val / 4000, hN⟩ (0 : Fin 2) = (i 0).val / 4000 := e4
  refine ⟨⟨(i 0).val / 4000, hN⟩, flush4_2 _, ?_⟩
  rw [mem_blk4]
  intro a
  match a with
  | ⟨0, _⟩ =>
    show win4_2.index ⟨(i 0).val / 4000, hN⟩ (0 : Fin 2) * 4000 ≤ (i 0).val ∧ (i 0).val < win4_2.index ⟨(i 0).val / 4000, hN⟩ (0 : Fin 2) * 4000 + 4000
    omega
  | ⟨1, _⟩ =>
    show win4_2.index ⟨(i 0).val / 4000, hN⟩ (1 : Fin 2) * 16 ≤ (i 1).val ∧ (i 1).val < win4_2.index ⟨(i 0).val / 4000, hN⟩ (1 : Fin 2) * 16 + 16
    omega

/-- The output array after the region's last point: every row scaled by that row's entry of the weight column. -/
theorem arr4_G (c : Dev nD) :
    (dat4 V c).arrAt 2 cfg4.N = G4 (V c (Pipeline.arrRef spec4 0)) (V c (Pipeline.arrRef spec4 1)) :=
  (dat4 V c).arrAt_eq_of_cover 2 _ (fun t _ => flushed4_eq V c t) (cover4)

end Cert.Val

end
-- ==== Proof.Val.Pw5.lean ====
/-
  Region 5 as one function of the arrays it reads: after its last point the output array is the bias row added to every row, then the maximum with zero,
  over the whole [100000, 16] array. Each point of the grid writes one block of 2000 rows, which is that function
  read on those rows; the 50 blocks cover the array, row r lying in block r / 2000.
-/
import proofs.«125778_j7670811590827_2_alg».proof.Proof.KI.RegA5
import proofs.«125778_j7670811590827_2_alg».proof.Proof.Val.PayPw
import proofs.«125778_j7670811590827_2_alg».proof.Proof.Val.PwCommon
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- Where each window's block sits at grid point `t`: the rows' and the output's windows are on block row `t`, the bias row's stays at the origin, lane block 0. -/
theorem blockIdx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point `t` writes back is block `t` of the whole-array function of the arrays the region finds. -/
theorem flushed5_eq (c : Dev nD) (t : Fin cfg5.N) :
    (dat5 V c).flushed 2 t = ((cfg5.win 2).blk t).view.read (Elt Ideal) (G5 (V c (Pipeline.arrRef spec5 0)) (V c (Pipeline.arrRef spec5 1))) := by
  show (cfg5.win 2).cut (grid5.coords t) ((dat5 V c).after 2 t) = _
  rw [after5_2]
  unfold out5_2
  rw [View.canon_unit_zero zero_offsets]
  simp only [View.ld_unit_zero (S := S2000x16) zero_offsets, View.ld_unit_zero (S := S1x16) zero_offsets]
  rw [k5_pay1_eq]
  obtain ⟨e0, e1, e2, e3, e4, e5⟩ := blockIdx5 t
  funext j
  refine biasRelu_congr (M := 100000) (M' := 2000) (N := 16) (N' := 16) (iblk5 V c 0 t) (iblk5 V c 1 t) (V c (Pipeline.arrRef spec5 0)) (V c (Pipeline.arrRef spec5 1)) j
    (((cfg5.win 2).blk t).view.emb j) ?_ ?_
  · show V c (Pipeline.arrRef spec5 0) (((cfg5.win 0).blk t).view.emb j) = _
    refine congrArg _ (funext fun a => Fin.ext ?_)
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 16 + 1 * (j 1).val = win5_2.index t (1 : Fin 2) * 16 + 1 * (j 1).val; omega
  · show V c (Pipeline.arrRef spec5 1) (((cfg5.win 1).blk t).view.emb (ix2 (0 : Fin 1) (⟨(j 1).val, idx2_lt1 j⟩ : Fin 16))) = _
    refine congrArg _ (funext fun a => Fin.ext ?_)
    match a with
    | ⟨0, _⟩ => show win5_1.index t (0 : Fin 2) * 1 + 1 * 0 = 0; omega
    | ⟨1, _⟩ => show win5_1.index t (1 : Fin 2) * 16 + 1 * (j 1).val = win5_2.index t (1 : Fin 2) * 16 + 1 * (j 1).val; omega

/-- An index of the output array is in point `t`'s block iff each coordinate is in the block's range on its axis. -/
theorem mem_blk5 (t : Fin cfg5.N) (i : S100000x16.Idx) :
    i ∈ ((cfg5.win 2).blk t).view.set ↔ ∀ a : Fin 2, win5_2.index t a * S2000x16.size a ≤ (i a).val ∧ (i a).val < win5_2.index t a * S2000x16.size a + S2000x16.size a := by
  show i ∈ ((View.whole main_v61).slice (win5_2.rect t)).set ↔ _
  rw [View.set_slice_whole, Rect.mem_set_unit]
  exact Iff.rfl

/-- Every index of the output array is in some point's block: row `r` is in block `r / 2000`. -/
theorem cover5 (i : S100000x16.Idx) : ∃ t : Fin cfg5.N, (cfg5.win 2).flush t = true ∧ i ∈ ((cfg5.win 2).blk t).view.set := by
  have hi0 : (i 0).val < 100000 := (i 0).isLt
  have hi1 : (i 1).val < 16 := (i 1).isLt
  have hN : (i 0).val / 2000 < grid5.N := by rw [N_5]; omega
  obtain ⟨e0, e1, e2, e3, e4, e5⟩ := blockIdx5 ⟨(i 0).val / 2000, hN⟩
  have e4' : win5_2.index ⟨(i 0).val / 2000, hN⟩ (0 : Fin 2) = (i 0).val / 2000 := e4
  refine ⟨⟨(i 0).val / 2000, hN⟩, flush5_2 _, ?_⟩
  rw [mem_blk5]
  intro a
  match a with
  | ⟨0, _⟩ =>
    show win5_2.index ⟨(i 0).val / 2000, hN⟩ (0 : Fin 2) * 2000 ≤ (i 0).val ∧ (i 0).val < win5_2.index ⟨(i 0).val / 2000, hN⟩ (0 : Fin 2) * 2000 + 2000
    omega
  | ⟨1, _⟩ =>
    show win5_2.index ⟨(i 0).val / 2000, hN⟩ (1 : Fin 2) * 16 ≤ (i 1).val ∧ (i 1).val < win5_2.index ⟨(i 0).val / 2000, hN⟩ (1 : Fin 2) * 16 + 16
    omega

/-- The output array after the region's last point: the bias row added to every row, then the maximum with zero. -/
theorem arr5_G (c : Dev nD) :
    (dat5 V c).arrAt 2 cfg5.N = G5 (V c (Pipeline.arrRef spec5 0)) (V c (Pipeline.arrRef spec5 1)) :=
  (dat5 V c).arrAt_eq_of_cover 2 _ (fun t _ => flushed5_eq V c t) (cover5)

end Cert.Val

end
-- ==== Proof.Val.Pw7.lean ====
/-
  Region 7 as one function of the arrays it reads: after its last point the output array is every row scaled by that row's entry of the weight column,
  over the whole [3300000, 1] array. Each point of the grid writes one block of 4000 rows, which is that function
  read on those rows; the 825 blocks cover the array, row r lying in block r / 4000.
-/
import proofs.«125778_j7670811590827_2_alg».proof.Proof.KI.RegA7
import proofs.«125778_j7670811590827_2_alg».proof.Proof.Val.PayPw
import proofs.«125778_j7670811590827_2_alg».proof.Proof.Val.PwCommon
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- Where each window's block sits at grid point `t`: all three windows are on block row `t`, lane block 0. -/
theorem blockIdx7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0 :=
  (by decide +kernel : ∀ t : Fin grid7.N, _)

/-- What point `t` writes back is block `t` of the whole-array function of the arrays the region finds. -/
theorem flushed7_eq (c : Dev nD) (t : Fin cfg7.N) :
    (dat7 V c).flushed 2 t = ((cfg7.win 2).blk t).view.read (Elt Ideal) (G7 (V c (Pipeline.arrRef spec7 0)) (V c (Pipeline.arrRef spec7 1))) := by
  show (cfg7.win 2).cut (grid7.coords t) ((dat7 V c).after 2 t) = _
  rw [after7_2]
  unfold out7_2
  rw [View.canon_unit_zero zero_offsets]
  simp only [View.ld_unit_zero (S := S4000x1) zero_offsets, View.ld_unit_zero (S := S4000x1) zero_offsets]
  rw [k7_pay1_eq]
  obtain ⟨e0, e1, e2, e3, e4, e5⟩ := blockIdx7 t
  funext j
  refine rowScale_congr (M := 3300000) (M' := 4000) (N := 1) (N' := 1) (iblk7 V c 0 t) (iblk7 V c 1 t) (V c (Pipeline.arrRef spec7 0)) (V c (Pipeline.arrRef spec7 1)) j
    (((cfg7.win 2).blk t).view.emb j) ?_ ?_
  · show V c (Pipeline.arrRef spec7 0) (((cfg7.win 0).blk t).view.emb j) = _
    refine congrArg _ (funext fun a => Fin.ext ?_)
    match a with
    | ⟨0, _⟩ => show win7_0.index t (0 : Fin 2) * 4000 + 1 * (j 0).val = win7_2.index t (0 : Fin 2) * 4000 + 1 * (j 0).val; omega
    | ⟨1, _⟩ => show win7_0.index t (1 : Fin 2) * 1 + 1 * (j 1).val = win7_2.index t (1 : Fin 2) * 1 + 1 * (j 1).val; omega
  · show V c (Pipeline.arrRef spec7 1) (((cfg7.win 1).blk t).view.emb (ix2 (⟨(j 0).val, idx2_lt0 j⟩ : Fin 4000) (0 : Fin 1))) = _
    refine congrArg _ (funext fun a => Fin.ext ?_)
    match a with
    | ⟨0, _⟩ => show win7_1.index t (0 : Fin 2) * 4000 + 1 * (j 0).val = win7_2.index t (0 : Fin 2) * 4000 + 1 * (j 0).val; omega
    | ⟨1, _⟩ => show win7_1.index t (1 : Fin 2) * 1 + 1 * 0 = 0; omega

/-- An index of the output array is in point `t`'s block iff each coordinate is in the block's range on its axis. -/
theorem mem_blk7 (t : Fin cfg7.N) (i : S3300000x1.Idx) :
    i ∈ ((cfg7.win 2).blk t).view.set ↔ ∀ a : Fin 2, win7_2.index t a * S4000x1.size a ≤ (i a).val ∧ (i a).val < win7_2.index t a * S4000x1.size a + S4000x1.size a := by
  show i ∈ ((View.whole main_v71).slice (win7_2.rect t)).set ↔ _
  rw [View.set_slice_whole, Rect.mem_set_unit]
  exact Iff.rfl

/-- Every index of the output array is in some point's block: row `r` is in block `r / 4000`. -/
theorem cover7 (i : S3300000x1.Idx) : ∃ t : Fin cfg7.N, (cfg7.win 2).flush t = true ∧ i ∈ ((cfg7.win 2).blk t).view.set := by
  have hi0 : (i 0).val < 3300000 := (i 0).isLt
  have hi1 : (i 1).val < 1 := (i 1).isLt
  have hN : (i 0).val / 4000 < grid7.N := by rw [N_7]; omega
  obtain ⟨e0, e1, e2, e3, e4, e5⟩ := blockIdx7 ⟨(i 0).val / 4000, hN⟩
  have e4' : win7_2.index ⟨(i 0).val / 4000, hN⟩ (0 : Fin 2) = (i 0).val / 4000 := e4
  refine ⟨⟨(i 0).val / 4000, hN⟩, flush7_2 _, ?_⟩
  rw [mem_blk7]
  intro a
  match a with
  | ⟨0, _⟩ =>
    show win7_2.index ⟨(i 0).val / 4000, hN⟩ (0 : Fin 2) * 4000 ≤ (i 0).val ∧ (i 0).val < win7_2.index ⟨(i 0).val / 4000, hN⟩ (0 : Fin 2) * 4000 + 4000
    omega
  | ⟨1, _⟩ =>
    show win7_2.index ⟨(i 0).val / 4000, hN⟩ (1 : Fin 2) * 1 ≤ (i 1).val ∧ (i 1).val < win7_2.index ⟨(i 0).val / 4000, hN⟩ (1 : Fin 2) * 1 + 1
    omega

/-- The output array after the region's last point: every row scaled by that row's entry of the weight column. -/
theorem arr7_G (c : Dev nD) :
    (dat7 V c).arrAt 2 cfg7.N = G7 (V c (Pipeline.arrRef spec7 0)) (V c (Pipeline.arrRef spec7 1)) :=
  (dat7 V c).arrAt_eq_of_cover 2 _ (fun t _ => flushed7_eq V c t) (cover7)

end Cert.Val

end
-- ==== Proof.Val.Pw8.lean ====
/-
  Region 8 as one function of the arrays it reads: after its last point the output array is the bias row added to every row,
  over the whole [100000, 1] array. Each point of the grid writes one block of 2000 rows, which is that function
  read on those rows; the 50 blocks cover the array, row r lying in block r / 2000.
-/
import proofs.«125778_j7670811590827_2_alg».proof.Proof.KI.RegA8
import proofs.«125778_j7670811590827_2_alg».proof.Proof.Val.PayPw
import proofs.«125778_j7670811590827_2_alg».proof.Proof.Val.PwCommon
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the region is entered
variable (V : (c : Dev nD) → (b : Ref sig .tc) → Buf (Elt Ideal) ((c : Thread nD τ).loc b))

/-- Where each window's block sits at grid point `t`: the rows' and the output's windows are on block row `t`, the bias row's stays at the origin, lane block 0. -/
theorem blockIdx8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

/-- What point `t` writes back is block `t` of the whole-array function of the arrays the region finds. -/
theorem flushed8_eq (c : Dev nD) (t : Fin cfg8.N) :
    (dat8 V c).flushed 2 t = ((cfg8.win 2).blk t).view.read (Elt Ideal) (G8 (V c (Pipeline.arrRef spec8 0)) (V c (Pipeline.arrRef spec8 1))) := by
  show (cfg8.win 2).cut (grid8.coords t) ((dat8 V c).after 2 t) = _
  rw [after8_2]
  unfold out8_2
  rw [View.canon_unit_zero zero_offsets]
  simp only [View.ld_unit_zero (S := S2000x1) zero_offsets, View.ld_unit_zero (S := S1x1) zero_offsets]
  rw [k8_pay1_eq]
  obtain ⟨e0, e1, e2, e3, e4, e5⟩ := blockIdx8 t
  funext j
  refine biasAdd_congr (M := 100000) (M' := 2000) (N := 1) (N' := 1) (iblk8 V c 0 t) (iblk8 V c 1 t) (V c (Pipeline.arrRef spec8 0)) (V c (Pipeline.arrRef spec8 1)) j
    (((cfg8.win 2).blk t).view.emb j) ?_ ?_
  · show V c (Pipeline.arrRef spec8 0) (((cfg8.win 0).blk t).view.emb j) = _
    refine congrArg _ (funext fun a => Fin.ext ?_)
    match a with
    | ⟨0, _⟩ => show win8_0.index t (0 : Fin 2) * 2000 + 1 * (j 0).val = win8_2.index t (0 : Fin 2) * 2000 + 1 * (j 0).val; omega
    | ⟨1, _⟩ => show win8_0.index t (1 : Fin 2) * 1 + 1 * (j 1).val = win8_2.index t (1 : Fin 2) * 1 + 1 * (j 1).val; omega
  · show V c (Pipeline.arrRef spec8 1) (((cfg8.win 1).blk t).view.emb (ix2 (0 : Fin 1) (⟨(j 1).val, idx2_lt1 j⟩ : Fin 1))) = _
    refine congrArg _ (funext fun a => Fin.ext ?_)
    match a with
    | ⟨0, _⟩ => show win8_1.index t (0 : Fin 2) * 1 + 1 * 0 = 0; omega
    | ⟨1, _⟩ => show win8_1.index t (1 : Fin 2) * 1 + 1 * (j 1).val = win8_2.index t (1 : Fin 2) * 1 + 1 * (j 1).val; omega

/-- An index of the output array is in point `t`'s block iff each coordinate is in the block's range on its axis. -/
theorem mem_blk8 (t : Fin cfg8.N) (i : S100000x1.Idx) :
    i ∈ ((cfg8.win 2).blk t).view.set ↔ ∀ a : Fin 2, win8_2.index t a * S2000x1.size a ≤ (i a).val ∧ (i a).val < win8_2.index t a * S2000x1.size a + S2000x1.size a := by
  show i ∈ ((View.whole main_v76).slice (win8_2.rect t)).set ↔ _
  rw [View.set_slice_whole, Rect.mem_set_unit]
  exact Iff.rfl

/-- Every index of the output array is in some point's block: row `r` is in block `r / 2000`. -/
theorem cover8 (i : S100000x1.Idx) : ∃ t : Fin cfg8.N, (cfg8.win 2).flush t = true ∧ i ∈ ((cfg8.win 2).blk t).view.set := by
  have hi0 : (i 0).val < 100000 := (i 0).isLt
  have hi1 : (i 1).val < 1 := (i 1).isLt
  have hN : (i 0).val / 2000 < grid8.N := by rw [N_8]; omega
  obtain ⟨e0, e1, e2, e3, e4, e5⟩ := blockIdx8 ⟨(i 0).val / 2000, hN⟩
  have e4' : win8_2.index ⟨(i 0).val / 2000, hN⟩ (0 : Fin 2) = (i 0).val / 2000 := e4
  refine ⟨⟨(i 0).val / 2000, hN⟩, flush8_2 _, ?_⟩
  rw [mem_blk8]
  intro a
  match a with
  | ⟨0, _⟩ =>
    show win8_2.index ⟨(i 0).val / 2000, hN⟩ (0 : Fin 2) * 2000 ≤ (i 0).val ∧ (i 0).val < win8_2.index ⟨(i 0).val / 2000, hN⟩ (0 : Fin 2) * 2000 + 2000
    omega
  | ⟨1, _⟩ =>
    show win8_2.index ⟨(i 0).val / 2000, hN⟩ (1 : Fin 2) * 1 ≤ (i 1).val ∧ (i 1).val < win8_2.index ⟨(i 0).val / 2000, hN⟩ (1 : Fin 2) * 1 + 1
    omega

/-- The output array after the region's last point: the bias row added to every row. -/
theorem arr8_G (c : Dev nD) :
    (dat8 V c).arrAt 2 cfg8.N = G8 (V c (Pipeline.arrRef spec8 0)) (V c (Pipeline.arrRef spec8 1)) :=
  (dat8 V c).arrAt_eq_of_cover 2 _ (fun t _ => flushed8_eq V c t) (cover8)

end Cert.Val

end
-- ==== Proof.Val.PwHost.lean ====
/-
  The reference's pointwise stages, entry by entry.

  The reference scales the rows of a `[3300000, N]` array by a column broadcast over the lanes, and adds a bias row
  broadcast over the rows of a `[100000, N]` array (then takes the maximum with a zero broadcast from a scalar, in
  the first two layers). Read at an entry these are `rowScale`, `biasRelu` and `biasAdd`.
-/
import proofs.«125778_j7670811590827_2_alg».proof.Proof.Gen.ReferenceIdeal
import proofs.«125778_j7670811590827_2_alg».proof.Proof.Val.PwSpec
import Idealize.ShloMosaic.PureOps.Ideal.Laws
import Idealize.ShloMosaic.Lib.Pipeline.Value

noncomputable section

namespace Cert.Val

open Idealize.ShloMosaic Idealize.ShloMosaic.ValueIdx

/-- A column `[a, 1]` broadcast in place over `b` lanes reads, at `(p, q)`, the column's entry of row `p` (for `a` other than one). -/
theorem bcastCol_apply {a b : ℕ} (ha : a ≠ 1) (n : (⟨2, ![a, 1]⟩ : Shape).Idx → EReal)
    (h : (⟨2, ![a, 1]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h n (ix2 p q) = n (ix2 p (0 : Fin 1)) :=
  broadcastInDim_apply _ h n (ix2 p q) (ix2 p (0 : Fin 1)) (fun ax => match ax with
    | ⟨0, _⟩ => by show p.val = if a = 1 then 0 else p.val; rw [if_neg ha]
    | ⟨1, _⟩ => by show 0 = if (1 : Nat) = 1 then 0 else q.val; rw [if_pos rfl])

/-- A row `[1, b]` broadcast in place over `a` rows reads, at `(p, q)`, the row's entry of lane `q`. -/
theorem bcastRow_apply {a b : ℕ} (r : (⟨2, ![1, b]⟩ : Shape).Idx → EReal)
    (h : (⟨2, ![1, b]⟩ : Shape).BroadcastsInDim ⟨2, ![a, b]⟩ (![0, 1] : Fin 2 → Fin 2)) (p : Fin a) (q : Fin b) :
    broadcastInDim (⟨2, ![a, b]⟩ : Shape) (![0, 1] : Fin 2 → Fin 2) h r (ix2 p q) = r (ix2 (0 : Fin 1) q) :=
  broadcastInDim_apply _ h r (ix2 p q) (ix2 (0 : Fin 1) q) (fun ax => match ax with
    | ⟨0, _⟩ => by show 0 = if (1 : Nat) = 1 then 0 else p.val; rw [if_pos rfl]
    | ⟨1, _⟩ => by
      show q.val = if b = 1 then 0 else q.val
      split
      · have := q.isLt; omega
      · rfl)

/-- Sixteen lanes: the reference's multiplication by the broadcast weight column is `rowScale`. -/
theorem refScale16_eq (h : Cert.ReferenceIdeal.S3300000x16.Idx → EReal) (n : Cert.ReferenceIdeal.S3300000x1.Idx → EReal) :
    mulf (F := Ideal) (φ := .f32) h (broadcastInDim Cert.ReferenceIdeal.S3300000x16 ![0, 1] Cert.ReferenceIdeal.Gen.bcast_S3300000x1_S3300000x16_0_1 n)
      = rowScale h n := by
  funext i
  obtain ⟨p, q, rfl⟩ : ∃ (p : Fin 3300000) (q : Fin 16), i = ix2 p q := ⟨i 0, i 1, eq_ix2 i⟩
  show h (ix2 p q) * broadcastInDim (⟨2, ![3300000, 16]⟩ : Shape) (![0, 1] : Fin 2 → Fin 2) Cert.ReferenceIdeal.Gen.bcast_S3300000x1_S3300000x16_0_1 n (ix2 p q) = h (ix2 p q) * n (ix2 p (0 : Fin 1))
  rw [bcastCol_apply (by decide)]

/-- One lane: the reference multiplies the two columns entry by entry, which is `rowScale`. -/
theorem refScale1_eq (h : Cert.ReferenceIdeal.S3300000x1.Idx → EReal) (n : Cert.ReferenceIdeal.S3300000x1.Idx → EReal) :
    mulf (F := Ideal) (φ := .f32) h n = rowScale h n := by
  funext i
  obtain ⟨p, q, rfl⟩ : ∃ (p : Fin 3300000) (q : Fin 1), i = ix2 p q := ⟨i 0, i 1, eq_ix2 i⟩
  obtain rfl : q = 0 := Subsingleton.elim _ _
  rfl

/-- Sixteen lanes: the reference's bias addition and maximum with the broadcast zero is `biasRelu`. -/
theorem refBiasRelu_eq (raw : Cert.ReferenceIdeal.S100000x16.Idx → EReal) (b : Cert.ReferenceIdeal.S1x16.Idx → EReal) :
    maximumf (F := Ideal) (φ := .f32)
        (addf (F := Ideal) (φ := .f32) raw (broadcastInDim Cert.ReferenceIdeal.S100000x16 ![0, 1] Cert.ReferenceIdeal.Gen.bcast_S1x16_S100000x16_0_1 b))
        (broadcastInDim Cert.ReferenceIdeal.S100000x16 ![] Cert.ReferenceIdeal.Gen.bcast_S_S100000x16 (constant (F := Ideal) Cert.ReferenceIdeal.S_ .f32 0x00000000#32))
      = biasRelu raw b := by
  funext i
  obtain ⟨p, q, rfl⟩ : ∃ (p : Fin 100000) (q : Fin 16), i = ix2 p q := ⟨i 0, i 1, eq_ix2 i⟩
  show max (raw (ix2 p q) + broadcastInDim (⟨2, ![100000, 16]⟩ : Shape) (![0, 1] : Fin 2 → Fin 2) Cert.ReferenceIdeal.Gen.bcast_S1x16_S100000x16_0_1 b (ix2 p q))
      (broadcastInDim Cert.ReferenceIdeal.S100000x16 ![] Cert.ReferenceIdeal.Gen.bcast_S_S100000x16 (constant (F := Ideal) Cert.ReferenceIdeal.S_ .f32 0x00000000#32) (ix2 p q))
    = max (raw (ix2 p q) + b (ix2 (0 : Fin 1) q)) 0
  rw [bcastRow_apply, broadcastInDim_apply _ Cert.ReferenceIdeal.Gen.bcast_S_S100000x16 _ (ix2 p q) (fun a => a.elim0) (fun a => a.elim0)]
  show max _ (Ideal.ofBits .f32 0x00000000#32) = _
  rw [Ideal.ofBits_zero_f32]

/-- One lane, no maximum: the reference's bias addition is `biasAdd`. -/
theorem refBiasAdd_eq (raw : Cert.ReferenceIdeal.S100000x1.Idx → EReal) (b : Cert.ReferenceIdeal.S1x1.Idx → EReal) :
    addf (F := Ideal) (φ := .f32) raw (broadcastInDim Cert.ReferenceIdeal.S100000x1 ![0, 1] Cert.ReferenceIdeal.Gen.bcast_S1x1_S100000x1_0_1 b)
      = biasAdd raw b := by
  funext i
  obtain ⟨p, q, rfl⟩ : ∃ (p : Fin 100000) (q : Fin 1), i = ix2 p q := ⟨i 0, i 1, eq_ix2 i⟩
  show raw (ix2 p q) + broadcastInDim (⟨2, ![100000, 1]⟩ : Shape) (![0, 1] : Fin 2 → Fin 2) Cert.ReferenceIdeal.Gen.bcast_S1x1_S100000x1_0_1 b (ix2 p q) = raw (ix2 p q) + b (ix2 (0 : Fin 1) q)
  rw [bcastRow_apply]

end Cert.Val

end
-- ==== Proof.Val.PwArr.lean ====
/-
  The six pointwise regions, each as the reference's own operation applied to the arrays the region reads.

  Regions 1, 4, 7 leave the rows of their first array scaled by the weight column; regions 2, 5 leave their first array
  plus the bias row, rectified; region 8 leaves its first array plus the bias. Each is stated here with the operation
  written as the reference writes it (a multiplication by the column broadcast over the lanes; an addition of the row
  broadcast over the rows, then the maximum with a broadcast zero), so that it can be set beside the reference's stage.
-/
import proofs.«125778_j7670811590827_2_alg».proof.Proof.Val.Pw1
import proofs.«125778_j7670811590827_2_alg».proof.Proof.Val.Pw2
import proofs.«125778_j7670811590827_2_alg».proof.Proof.Val.Pw4
import proofs.«125778_j7670811590827_2_alg».proof.Proof.Val.Pw5
import proofs.«125778_j7670811590827_2_alg».proof.Proof.Val.Pw7
import proofs.«125778_j7670811590827_2_alg».proof.Proof.Val.Pw8
import proofs.«125778_j7670811590827_2_alg».proof.Proof.Val.PwHost

noncomputable section

namespace Cert.Val

open Cert.KernelIdeal Cert.KernelIdeal.Gen Cert.KernelIdeal.Hand
open Idealize.ShloMosaic Idealize.ShloMosaic.TcCoe Idealize.SL.Sem Idealize.ShloMosaic.ValueIdx

-- the core's buffer contents when the region is entered
variable (V : (c : Dev nD) → (b : Ref sig .tc) → Buf (Elt Ideal) ((c : Thread nD τ).loc b))

/-- Region 1 (first layer): the rows it reads, each scaled by its entry of the column it reads. -/
theorem arr1_eq (c : Dev nD) :
    ((dat1 V c).arrAt 2 cfg1.N : Cert.ReferenceIdeal.S3300000x16.Idx → EReal)
      = mulf (F := Ideal) (φ := .f32) (V c (Pipeline.arrRef spec1 0) : Cert.ReferenceIdeal.S3300000x16.Idx → EReal)
        (broadcastInDim Cert.ReferenceIdeal.S3300000x16 ![0, 1] Cert.ReferenceIdeal.Gen.bcast_S3300000x1_S3300000x16_0_1 (V c (Pipeline.arrRef spec1 1) : Cert.ReferenceIdeal.S3300000x1.Idx → EReal)) :=
  (arr1_G V c).trans (refScale16_eq _ _).symm

/-- Region 2 (first layer): the array it reads plus the bias row, then the maximum with zero. -/
theorem arr2_eq (c : Dev nD) :
    ((dat2 V c).arrAt 2 cfg2.N : Cert.ReferenceIdeal.S100000x16.Idx → EReal)
      = maximumf (F := Ideal) (φ := .f32)
        (addf (F := Ideal) (φ := .f32) (V c (Pipeline.arrRef spec2 0) : Cert.ReferenceIdeal.S100000x16.Idx → EReal)
          (broadcastInDim Cert.ReferenceIdeal.S100000x16 ![0, 1] Cert.ReferenceIdeal.Gen.bcast_S1x16_S100000x16_0_1 (V c (Pipeline.arrRef spec2 1) : Cert.ReferenceIdeal.S1x16.Idx → EReal)))
        (broadcastInDim Cert.ReferenceIdeal.S100000x16 ![] Cert.ReferenceIdeal.Gen.bcast_S_S100000x16 (constant (F := Ideal) Cert.ReferenceIdeal.S_ .f32 0x00000000#32)) :=
  (arr2_G V c).trans (refBiasRelu_eq _ _).symm

/-- Region 4 (second layer): the rows it reads, each scaled by its entry of the column it reads. -/
theorem arr4_eq (c : Dev nD) :
    ((dat4 V c).arrAt 2 cfg4.N : Cert.ReferenceIdeal.S3300000x16.Idx → EReal)
      = mulf (F := Ideal) (φ := .f32) (V c (Pipeline.arrRef spec4 0) : Cert.ReferenceIdeal.S3300000x16.Idx → EReal)
        (broadcastInDim Cert.ReferenceIdeal.S3300000x16 ![0, 1] Cert.ReferenceIdeal.Gen.bcast_S3300000x1_S3300000x16_0_1 (V c (Pipeline.arrRef spec4 1) : Cert.ReferenceIdeal.S3300000x1.Idx → EReal)) :=
  (arr4_G V c).trans (refScale16_eq _ _).symm

/-- Region 5 (second layer): the array it reads plus the bias row, then the maximum with zero. -/
theorem arr5_eq (c : Dev nD) :
    ((dat5 V c).arrAt 2 cfg5.N : Cert.ReferenceIdeal.S100000x16.Idx → EReal)
      = maximumf (F := Ideal) (φ := .f32)
        (addf (F := Ideal) (φ := .f32) (V c (Pipeline.arrRef spec5 0) : Cert.ReferenceIdeal.S100000x16.Idx → EReal)
          (broadcastInDim Cert.ReferenceIdeal.S100000x16 ![0, 1] Cert.ReferenceIdeal.Gen.bcast_S1x16_S100000x16_0_1 (V c (Pipeline.arrRef spec5 1) : Cert.ReferenceIdeal.S1x16.Idx → EReal)))
        (broadcastInDim Cert.ReferenceIdeal.S100000x16 ![] Cert.ReferenceIdeal.Gen.bcast_S_S100000x16 (constant (F := Ideal) Cert.ReferenceIdeal.S_ .f32 0x00000000#32)) :=
  (arr5_G V c).trans (refBiasRelu_eq _ _).symm

/-- Region 7 (third layer, one lane): the column it reads times the weight column, entry by entry. -/
theorem arr7_eq (c : Dev nD) :
    ((dat7 V c).arrAt 2 cfg7.N : Cert.ReferenceIdeal.S3300000x1.Idx → EReal)
      = mulf (F := Ideal) (φ := .f32) (V c (Pipeline.arrRef spec7 0) : Cert.ReferenceIdeal.S3300000x1.Idx → EReal)
        (V c (Pipeline.arrRef spec7 1) : Cert.ReferenceIdeal.S3300000x1.Idx → EReal) :=
  (arr7_G V c).trans (refScale1_eq _ _).symm

/-- Region 8 (third layer, one lane): the array it reads plus the bias. -/
theorem arr8_eq (c : Dev nD) :
    ((dat8 V c).arrAt 2 cfg8.N : Cert.ReferenceIdeal.S100000x1.Idx → EReal)
      = addf (F := Ideal) (φ := .f32) (V c (Pipeline.arrRef spec8 0) : Cert.ReferenceIdeal.S100000x1.Idx → EReal)
        (broadcastInDim Cert.ReferenceIdeal.S100000x1 ![0, 1] Cert.ReferenceIdeal.Gen.bcast_S1x1_S100000x1_0_1 (V c (Pipeline.arrRef spec8 1) : Cert.ReferenceIdeal.S1x1.Idx → EReal)) :=
  (arr8_G V c).trans (refBiasAdd_eq _ _).symm

end Cert.Val

end
-- ==== Proof.LibRowCol.lean ====
/-
  Vectors as one-row and one-column matrices.

  A vector of length `a` becomes a `1 × a` row or an `a × 1` column either by a reshape (the row-major order is
  unchanged) or by a `broadcast_in_dim` that maps the vector's axis to the matrix's long axis; the two arrays are
  equal, entry by entry. Also: a pointwise function commutes with such a placement.
-/
import Idealize.ShloMosaic.Lib.ValueIdx
import Idealize.ShloMosaic.Lib.ValueLayout
import Idealize.ShloMosaic.Lib.Pipeline.Value

namespace Idealize.ShloMosaic.RowCol

open Idealize.ShloMosaic ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The vector's axis sent to axis 0 of `[a, 1]`: the entry at `(i, u)` is the operand's at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun d => by
    match d with
    | ⟨0, _⟩ =>
      show i.val = if a = 1 then 0 else i.val
      split
      · omega
      · rfl)

/-- The vector's axis sent to axis 1 of `[1, a]`: the entry at `(u, i)` is the operand's at `i`. -/
theorem broadcastInDim_a_1a_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun d => by
    match d with
    | ⟨0, _⟩ =>
      show i.val = if a = 1 then 0 else i.val
      split
      · omega
      · rfl)

/-- A reshape of a vector to a column is the placement of its axis on axis 0. -/
theorem reshape_col {a : ℕ} (x : (⟨1, ![a]⟩ : Shape).Idx → α) (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨i, u, rfl⟩ : ∃ (i : Fin a) (u : Fin 1), j = ix2 i u := ⟨j 0, j 1, eq_ix2 j⟩
  rw [shapeCast_a_a1_apply, broadcastInDim_a_a1_apply]

/-- A reshape of a vector to a row is the placement of its axis on axis 1. -/
theorem reshape_row {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, i, rfl⟩ : ∃ (u : Fin 1) (i : Fin a), j = ix2 u i := ⟨j 0, j 1, eq_ix2 j⟩
  rw [shapeCast_a_1a_apply, broadcastInDim_a_1a_apply]

end Idealize.ShloMosaic.RowCol
-- ==== Proof.Val.Bridge1.lean ====
/-
  The first layer of the kernel's program, boundary by boundary, against the reference's stages.
  Before the first region both programs compute the normalised edge lists and the edge weights by the same host
  operations. The first region's product is the reference's contraction; the gathered rows are scaled by the edge
  weight — the kernel reads the weights as a column recast from the vector, the reference places the vector on
  axis 0, the same array —; the scaled rows are summed into their destination nodes by the same accumulating
  scatter; and the third region adds the bias row — a recast on one side, a placement on axis 1 on the other — and
  takes the positive part.
-/
import proofs.«125778_j7670811590827_2_alg».proof.Proof.Val.Keep
import proofs.«125778_j7670811590827_2_alg».proof.Proof.Val.Arr0
import proofs.«125778_j7670811590827_2_alg».proof.Proof.Val.PwArr
import proofs.«125778_j7670811590827_2_alg».proof.Proof.LibRowCol

set_option maxRecDepth 16384

noncomputable section

namespace Cert.Val

open Idealize.ShloMosaic Idealize.ShloMosaic.TcCoe Idealize.SL.Sem Idealize.ShloMosaic.StableHlo
open Cert.KernelIdeal Cert.KernelIdeal.Gen Cert.KernelIdeal.Hand
open Cert.ReferenceIdeal.Read

variable (m : (ℓ : Loc nD τ sig) → Buf (Elt Ideal) ℓ) (ρ : Dev nD → PrngReg) (c : Dev nD)

/-- The twelve arguments as the first region finds them: the launch contents. -/
abbrev a0 : A0 := W0 m ρ c (kb main_arg0)
abbrev a1 : A1 := W0 m ρ c (kb main_arg1)
abbrev a2 : A2 := W0 m ρ c (kb main_arg2)
abbrev a4 : A4 := W0 m ρ c (kb main_arg4)
abbrev a5 : A5 := W0 m ρ c (kb main_arg5)

theorem s3_v3 : W3 m ρ c (kb main_v3) = val_main_v3 (F := Ideal) (a1 m ρ c) := pre_v3 (W0 m ρ c) _ rfl
theorem s3_v6 : W3 m ρ c (kb main_v6) = val_main_v6 (F := Ideal) (a1 m ρ c) := pre_v6 (W0 m ρ c) _ rfl
theorem s3_v31 : W3 m ρ c (kb main_v31) = val_main_v31 (F := Ideal) (a1 m ρ c) (a2 m ρ c) := pre_v31 (W0 m ρ c) _ _ rfl rfl

/-- The first region leaves the product of the node features with the first weight matrix. -/
theorem s4 : W4 m ρ c (kb main_v32) = val_main_v32 (F := Ideal) (a0 m ρ c) (a4 m ρ c) := by
  refine (W4_arr m ρ c 2).trans ((arr0_eq_host (Vin0 m ρ) c).trans ?_)
  have e0 : Vin0 m ρ c (Pipeline.arrRef spec0 0) = a0 m ρ c := arg3 m ρ c main_arg0 (by decide)
  have e1 : Vin0 m ρ c (Pipeline.arrRef spec0 1) = a4 m ρ c := arg3 m ρ c main_arg4 (by decide)
  rw [e0, e1]; rfl

theorem s5_v39 : W5 m ρ c (kb main_v39) = val_main_v39 (F := Ideal) (a0 m ρ c) (a1 m ρ c) (a4 m ρ c) :=
  hostOps1_gather (W4 m ρ c) _ _ _ (s4 m ρ c) ((keep4 m ρ c main_v3 (by decide)).trans (s3_v3 m ρ c))

theorem s5_v40 : (W5 m ρ c (kb main_v40) : S3300000x1.Idx → EReal)
    = val_main_v40 (F := Ideal) (a1 m ρ c) (a2 m ρ c) := by
  refine (hostOps1_norm (W4 m ρ c)).trans ?_
  rw [(keep4 m ρ c main_v31 (by decide)).trans (s3_v31 m ρ c)]
  exact RowCol.reshape_col _ _ _

/-- The second region scales each gathered row by its edge's weight. -/
theorem s6 : W6 m ρ c (kb main_v41) = val_main_v42 (F := Ideal) (a0 m ρ c) (a1 m ρ c) (a2 m ρ c) (a4 m ρ c) := by
  refine (W6_arr m ρ c 2).trans ((arr1_eq (Vin1 m ρ) c).trans ?_)
  have e0 : Vin1 m ρ c (Pipeline.arrRef spec1 0) = val_main_v39 (F := Ideal) (a0 m ρ c) (a1 m ρ c) (a4 m ρ c) := s5_v39 m ρ c
  have e1 : Vin1 m ρ c (Pipeline.arrRef spec1 1) = val_main_v40 (F := Ideal) (a1 m ρ c) (a2 m ρ c) := s5_v40 m ρ c
  rw [e0, e1]; rfl

theorem s7_v44 : W7 m ρ c (kb main_v44) = val_main_v45 (F := Ideal) (a0 m ρ c) (a1 m ρ c) (a2 m ρ c) (a4 m ρ c) :=
  hostOps2_scatter (W6 m ρ c) _ _ _ _ (s6 m ρ c) ((keep6 m ρ c main_v6 (by decide)).trans (s3_v6 m ρ c))

theorem s7_v45 : (W7 m ρ c (kb main_v45) : S1x16.Idx → EReal) = val_main_v46 (F := Ideal) (a5 m ρ c) := by
  refine (hostOps2_bias (W6 m ρ c)).trans ?_
  rw [(keep6 m ρ c main_arg5 (by decide)).trans (arg3 m ρ c main_arg5 (by decide))]
  exact RowCol.reshape_row _ _ _

/-- The third region adds the bias and takes the positive part: the first layer's activations. -/
theorem s8 : W8 m ρ c (kb main_v46) = val_main_v49 (F := Ideal) (a0 m ρ c) (a1 m ρ c) (a2 m ρ c) (a4 m ρ c) (a5 m ρ c) := by
  refine (W8_arr m ρ c 2).trans ((arr2_eq (Vin2 m ρ) c).trans ?_)
  have e0 : Vin2 m ρ c (Pipeline.arrRef spec2 0) = val_main_v45 (F := Ideal) (a0 m ρ c) (a1 m ρ c) (a2 m ρ c) (a4 m ρ c) := s7_v44 m ρ c
  have e1 : Vin2 m ρ c (Pipeline.arrRef spec2 1) = val_main_v46 (F := Ideal) (a5 m ρ c) := s7_v45 m ρ c
  rw [e0, e1]; rfl

end Cert.Val

end
-- ==== Proof.Val.Arr3.lean ====
/-
  The second layer's product, from blocks to the whole array.

  At grid point `t` the stage reads rows `2000 t … 2000 t + 1999` of the left matrix and the whole right matrix, and
  writes the same rows of the result: rows of a matrix product depend only on the same rows of the left matrix. The
  fifty blocks tile the `100000` rows (row `r` lies in block `r / 2000`), so after the stage the result array is
  the product of the two operand arrays as the stage found them, which is the host's product of the reference.
-/
import proofs.«125778_j7670811590827_2_alg».proof.Proof.KI.RegA3
import proofs.«125778_j7670811590827_2_alg».proof.Proof.Val.PayMat
import proofs.«125778_j7670811590827_2_alg».proof.Proof.Val.RefMat
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The origin of a whole-block access. -/
theorem origin3 : (![0, 0] : Fin 2 → Nat) = fun _ => 0 := funext fun a => by fin_cases a <;> rfl

/-- The block indices at point `t`, decided over the grid: the left matrix and the result move down one block of
    rows per point; the right matrix is always its one block. -/
theorem blockIdx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What the stage leaves in the result's staging buffer at point `t`: the product of the two blocks it loaded. -/
theorem after3_matProd (c : Dev nD) (t : Fin cfg3.N) :
    (cfg3.win 2).cut (grid3.coords t) ((dat3 V c).after 2 t) = matProd (iblk3 V c 0 t) (iblk3 V c 1 t) := by
  rw [after3_2]
  unfold out3_2
  rw [View.canon_unit_zero origin3]
  simp only [View.ld_unit_zero (S := S2000x16) origin3, View.ld_unit_zero (S := S16x16) origin3]
  rw [k3_pay1_eq]
  rfl

/-- What point `t` writes back is block `t` of the product of the two operand arrays. -/
theorem flushed3_eq (c : Dev nD) (t : Fin cfg3.N) :
    (dat3 V c).flushed 2 t = ((cfg3.win 2).blk t).view.read (Elt Ideal)
      (G3 (V c (Pipeline.arrRef spec3 0)) (V c (Pipeline.arrRef spec3 1))) := by
  show (cfg3.win 2).cut (grid3.coords t) ((dat3 V c).after 2 t) = _
  rw [after3_matProd]
  obtain ⟨e0, e1, e2, e3, e4, e5⟩ := blockIdx3 t
  funext j
  refine matProd_congr (iblk3 V c 0 t) (iblk3 V c 1 t) (V c (Pipeline.arrRef spec3 0)) (V c (Pipeline.arrRef spec3 1)) j
    (((cfg3.win 2).blk t).view.emb j) (fun k => ?_) (fun k => ?_)
  · show V c (Pipeline.arrRef spec3 0) (((cfg3.win 0).blk t).view.emb (ix2 (⟨(j 0).val, idx2_lt0 j⟩ : Fin 2000) k)) = _
    refine congrArg _ (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 16 + 1 * k.val = k.val; omega
  · show V c (Pipeline.arrRef spec3 1) (((cfg3.win 1).blk t).view.emb (ix2 k (⟨(j 1).val, idx2_lt1 j⟩ : Fin 16))) = _
    refine congrArg _ (funext fun a => Fin.ext ?_)
    match a with
    | ⟨0, _⟩ => show win3_1.index t (0 : Fin 2) * 16 + 1 * k.val = k.val; omega
    | ⟨1, _⟩ => show win3_1.index t (1 : Fin 2) * 16 + 1 * (j 1).val = win3_2.index t (1 : Fin 2) * 16 + 1 * (j 1).val; omega

/-- An index of the result array is in point `t`'s block iff each coordinate is in the block's range on its axis. -/
theorem mem_block3 (t : Fin cfg3.N) (i : S100000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v47).slice (win3_2.rect t)).set ↔ _
  rw [View.set_slice_whole, Rect.mem_set_unit]
  exact Iff.rfl

/-- Every index of the result array is in some point's block: row `r` is in block `r / 2000`. -/
theorem cover3 (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ : ∃ t : Fin cfg3.N, t.val = (i 0).val / 2000 :=
    ⟨⟨(i 0).val / 2000, by show (i 0).val / 2000 < grid3.N; rw [N_3]; omega⟩, rfl⟩
  obtain ⟨e0, e1, e2, e3, e4, e5⟩ := blockIdx3 t
  refine ⟨t, flush3_2 t, ?_⟩
  rw [mem_block3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 16 ≤ (i 1).val ∧ (i 1).val < win3_2.index t (1 : Fin 2) * 16 + 16; omega

/-- After the stage the result array is the product of the two operand arrays as the stage found them. -/
theorem arr3_eq_G (c : Dev nD) :
    (dat3 V c).arrAt 2 cfg3.N = G3 (V c (Pipeline.arrRef spec3 0)) (V c (Pipeline.arrRef spec3 1)) :=
  (dat3 V c).arrAt_eq_of_cover 2 (G3 (V c (Pipeline.arrRef spec3 0)) (V c (Pipeline.arrRef spec3 1)))
    (fun t _ => flushed3_eq V c t) cover3

/-- The same array as the host's product of the reference, with the reference's dimension record. -/
theorem arr3_eq_host (c : Dev nD) :
    (dat3 V c).arrAt 2 cfg3.N = Host.dotGeneral (F := Ideal) (φ₁ := .f32) (φ₂ := .f32) Cert.ReferenceIdeal.dot_S100000x16_S16x16_S100000x16_1_0_0_1_n_n none
      (V c (Pipeline.arrRef spec3 0)) (V c (Pipeline.arrRef spec3 1)) :=
  (arr3_eq_G V c).trans (G3_eq_host _ _)

end Cert.Val

end
-- ==== Proof.Val.Arr6.lean ====
/-
  The third layer's product, from blocks to the whole array.

  At grid point `t` the stage reads rows `2000 t … 2000 t + 1999` of the left matrix and the whole right matrix, and
  writes the same rows of the result: rows of a matrix product depend only on the same rows of the left matrix. The
  fifty blocks tile the `100000` rows (row `r` lies in block `r / 2000`), so after the stage the result array is
  the product of the two operand arrays as the stage found them, which is the host's product of the reference.
-/
import proofs.«125778_j7670811590827_2_alg».proof.Proof.KI.RegA6
import proofs.«125778_j7670811590827_2_alg».proof.Proof.Val.PayMat
import proofs.«125778_j7670811590827_2_alg».proof.Proof.Val.RefMat
import Idealize.ShloMosaic.Lib.Pipeline.Value

set_option maxRecDepth 16384

noncomputable section

namespace Cert.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The origin of a whole-block access. -/
theorem origin6 : (![0, 0] : Fin 2 → Nat) = fun _ => 0 := funext fun a => by fin_cases a <;> rfl

/-- The block indices at point `t`, decided over the grid: the left matrix and the result move down one block of
    rows per point; the right matrix is always its one block. -/
theorem blockIdx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What the stage leaves in the result's staging buffer at point `t`: the product of the two blocks it loaded. -/
theorem after6_matProd (c : Dev nD) (t : Fin cfg6.N) :
    (cfg6.win 2).cut (grid6.coords t) ((dat6 V c).after 2 t) = matProd (iblk6 V c 0 t) (iblk6 V c 1 t) := by
  rw [after6_2]
  unfold out6_2
  rw [View.canon_unit_zero origin6]
  simp only [View.ld_unit_zero (S := S2000x16) origin6, View.ld_unit_zero (S := S16x1) origin6]
  rw [k6_pay1_eq]
  rfl

/-- What point `t` writes back is block `t` of the product of the two operand arrays. -/
theorem flushed6_eq (c : Dev nD) (t : Fin cfg6.N) :
    (dat6 V c).flushed 2 t = ((cfg6.win 2).blk t).view.read (Elt Ideal)
      (G6 (V c (Pipeline.arrRef spec6 0)) (V c (Pipeline.arrRef spec6 1))) := by
  show (cfg6.win 2).cut (grid6.coords t) ((dat6 V c).after 2 t) = _
  rw [after6_matProd]
  obtain ⟨e0, e1, e2, e3, e4, e5⟩ := blockIdx6 t
  funext j
  refine matProd_congr (iblk6 V c 0 t) (iblk6 V c 1 t) (V c (Pipeline.arrRef spec6 0)) (V c (Pipeline.arrRef spec6 1)) j
    (((cfg6.win 2).blk t).view.emb j) (fun k => ?_) (fun k => ?_)
  · show V c (Pipeline.arrRef spec6 0) (((cfg6.win 0).blk t).view.emb (ix2 (⟨(j 0).val, idx2_lt0 j⟩ : Fin 2000) k)) = _
    refine congrArg _ (funext fun a => Fin.ext ?_)
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 16 + 1 * k.val = k.val; omega
  · show V c (Pipeline.arrRef spec6 1) (((cfg6.win 1).blk t).view.emb (ix2 k (⟨(j 1).val, idx2_lt1 j⟩ : Fin 1))) = _
    refine congrArg _ (funext fun a => Fin.ext ?_)
    match a with
    | ⟨0, _⟩ => show win6_1.index t (0 : Fin 2) * 16 + 1 * k.val = k.val; omega
    | ⟨1, _⟩ => show win6_1.index t (1 : Fin 2) * 1 + 1 * (j 1).val = win6_2.index t (1 : Fin 2) * 1 + 1 * (j 1).val; omega

/-- An index of the result array is in point `t`'s block iff each coordinate is in the block's range on its axis. -/
theorem mem_block6 (t : Fin cfg6.N) (i : S100000x1.Idx) :
    i ∈ ((cfg6.win 2).blk t).view.set ↔ ∀ a : Fin 2, win6_2.index t a * S2000x1.size a ≤ (i a).val ∧ (i a).val < win6_2.index t a * S2000x1.size a + S2000x1.size a := by
  show i ∈ ((View.whole main_v62).slice (win6_2.rect t)).set ↔ _
  rw [View.set_slice_whole, Rect.mem_set_unit]
  exact Iff.rfl

/-- Every index of the result array is in some point's block: row `r` is in block `r / 2000`. -/
theorem cover6 (i : S100000x1.Idx) :
    ∃ t : Fin cfg6.N, (cfg6.win 2).flush t = true ∧ i ∈ ((cfg6.win 2).blk t).view.set := by
  have hi0 : (i 0).val < 100000 := (i 0).isLt
  have hi1 : (i 1).val < 1 := (i 1).isLt
  obtain ⟨t, ht⟩ : ∃ t : Fin cfg6.N, t.val = (i 0).val / 2000 :=
    ⟨⟨(i 0).val / 2000, by show (i 0).val / 2000 < grid6.N; rw [N_6]; omega⟩, rfl⟩
  obtain ⟨e0, e1, e2, e3, e4, e5⟩ := blockIdx6 t
  refine ⟨t, flush6_2 t, ?_⟩
  rw [mem_block6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 1 ≤ (i 1).val ∧ (i 1).val < win6_2.index t (1 : Fin 2) * 1 + 1; omega

/-- After the stage the result array is the product of the two operand arrays as the stage found them. -/
theorem arr6_eq_G (c : Dev nD) :
    (dat6 V c).arrAt 2 cfg6.N = G6 (V c (Pipeline.arrRef spec6 0)) (V c (Pipeline.arrRef spec6 1)) :=
  (dat6 V c).arrAt_eq_of_cover 2 (G6 (V c (Pipeline.arrRef spec6 0)) (V c (Pipeline.arrRef spec6 1)))
    (fun t _ => flushed6_eq V c t) cover6

/-- The same array as the host's product of the reference, with the reference's dimension record. -/
theorem arr6_eq_host (c : Dev nD) :
    (dat6 V c).arrAt 2 cfg6.N = Host.dotGeneral (F := Ideal) (φ₁ := .f32) (φ₂ := .f32) Cert.ReferenceIdeal.dot_S100000x16_S16x1_S100000x1_1_0_0_1_n_n none
      (V c (Pipeline.arrRef spec6 0)) (V c (Pipeline.arrRef spec6 1)) :=
  (arr6_eq_G V c).trans (G6_eq_host _ _)

end Cert.Val

end
-- ==== Proof.Val.Bridge2.lean ====
/-
  The second and third layers of the kernel's program, boundary by boundary, against the reference's stages:
  the same four steps as the first layer — a contraction with the layer's weight matrix, the gathered rows scaled
  by the edge weights, the accumulating scatter, the bias — on the previous layer's activations. The third layer
  has one output channel and no positive part.
-/
import proofs.«125778_j7670811590827_2_alg».proof.Proof.Val.Bridge1
import proofs.«125778_j7670811590827_2_alg».proof.Proof.Val.Arr3
import proofs.«125778_j7670811590827_2_alg».proof.Proof.Val.Arr6

set_option maxRecDepth 16384

noncomputable section

namespace Cert.Val

open Idealize.ShloMosaic Idealize.ShloMosaic.TcCoe Idealize.SL.Sem Idealize.ShloMosaic.StableHlo
open Cert.KernelIdeal Cert.KernelIdeal.Gen Cert.KernelIdeal.Hand
open Cert.ReferenceIdeal.Read

variable (m : (ℓ : Loc nD τ sig) → Buf (Elt Ideal) ℓ) (ρ : Dev nD → PrngReg) (c : Dev nD)

abbrev a6 : A6 := W0 m ρ c (kb main_arg6)
abbrev a7 : A7 := W0 m ρ c (kb main_arg7)
abbrev a8 : A8 := W0 m ρ c (kb main_arg8)
abbrev a9 : A9 := W0 m ρ c (kb main_arg9)

/-! ## The second layer -/

theorem s9 : W9 m ρ c (kb main_v47) = val_main_v50 (F := Ideal) (a0 m ρ c) (a1 m ρ c) (a2 m ρ c) (a4 m ρ c) (a5 m ρ c) (a6 m ρ c) := by
  refine (W9_arr m ρ c 2).trans ((arr3_eq_host (Vin3 m ρ) c).trans ?_)
  have e0 : Vin3 m ρ c (Pipeline.arrRef spec3 0) = _ := s8 m ρ c
  have e1 : Vin3 m ρ c (Pipeline.arrRef spec3 1) = _ := (keep8 m ρ c main_arg6 (by decide)).trans (arg3 m ρ c main_arg6 (by decide))
  rw [e0, e1]; rfl

theorem s10_v54 : W10 m ρ c (kb main_v54) = val_main_v57 (F := Ideal) (a0 m ρ c) (a1 m ρ c) (a2 m ρ c) (a4 m ρ c) (a5 m ρ c) (a6 m ρ c) :=
  hostOps4_gather (W9 m ρ c) _ _ _ _ _ _ (s9 m ρ c) ((keep9 m ρ c main_v3 (by decide)).trans (s3_v3 m ρ c))

theorem s10_v55 : (W10 m ρ c (kb main_v55) : S3300000x1.Idx → EReal) = val_main_v58 (F := Ideal) (a1 m ρ c) (a2 m ρ c) := by
  refine (hostOps4_norm (W9 m ρ c)).trans ?_
  rw [(keep9 m ρ c main_v31 (by decide)).trans (s3_v31 m ρ c)]
  exact RowCol.reshape_col _ _ _

theorem s11 : W11 m ρ c (kb main_v56) = val_main_v60 (F := Ideal) (a0 m ρ c) (a1 m ρ c) (a2 m ρ c) (a4 m ρ c) (a5 m ρ c) (a6 m ρ c) := by
  refine (W11_arr m ρ c 2).trans ((arr4_eq (Vin4 m ρ) c).trans ?_)
  have e0 : Vin4 m ρ c (Pipeline.arrRef spec4 0) = _ := s10_v54 m ρ c
  have e1 : Vin4 m ρ c (Pipeline.arrRef spec4 1) = _ := s10_v55 m ρ c
  rw [e0, e1]; rfl

theorem s12_v59 : W12 m ρ c (kb main_v59) = val_main_v63 (F := Ideal) (a0 m ρ c) (a1 m ρ c) (a2 m ρ c) (a4 m ρ c) (a5 m ρ c) (a6 m ρ c) :=
  hostOps5_scatter (W11 m ρ c) _ _ _ _ _ _ (s11 m ρ c) ((keep11 m ρ c main_v6 (by decide)).trans (s3_v6 m ρ c))

theorem s12_v60 : (W12 m ρ c (kb main_v60) : S1x16.Idx → EReal) = val_main_v64 (F := Ideal) (a7 m ρ c) := by
  refine (hostOps5_bias (W11 m ρ c)).trans ?_
  rw [(keep11 m ρ c main_arg7 (by decide)).trans (arg3 m ρ c main_arg7 (by decide))]
  exact RowCol.reshape_row _ _ _

/-- The second layer's activations. -/
theorem s13 : W13 m ρ c (kb main_v61) = val_main_v67 (F := Ideal) (a0 m ρ c) (a1 m ρ c) (a2 m ρ c) (a4 m ρ c) (a5 m ρ c) (a6 m ρ c) (a7 m ρ c) := by
  refine (W13_arr m ρ c 2).trans ((arr5_eq (Vin5 m ρ) c).trans ?_)
  have e0 : Vin5 m ρ c (Pipeline.arrRef spec5 0) = _ := s12_v59 m ρ c
  have e1 : Vin5 m ρ c (Pipeline.arrRef spec5 1) = _ := s12_v60 m ρ c
  rw [e0, e1]; rfl

/-! ## The third layer -/

theorem s14 : W14 m ρ c (kb main_v62) = val_main_v68 (F := Ideal) (a0 m ρ c) (a1 m ρ c) (a2 m ρ c) (a4 m ρ c) (a5 m ρ c) (a6 m ρ c) (a7 m ρ c) (a8 m ρ c) := by
  refine (W14_arr m ρ c 2).trans ((arr6_eq_host (Vin6 m ρ) c).trans ?_)
  have e0 : Vin6 m ρ c (Pipeline.arrRef spec6 0) = _ := s13 m ρ c
  have e1 : Vin6 m ρ c (Pipeline.arrRef spec6 1) = _ := (keep13 m ρ c main_arg8 (by decide)).trans (arg3 m ρ c main_arg8 (by decide))
  rw [e0, e1]; rfl

theorem s15_v69 : W15 m ρ c (kb main_v69) = val_main_v75 (F := Ideal) (a0 m ρ c) (a1 m ρ c) (a2 m ρ c) (a4 m ρ c) (a5 m ρ c) (a6 m ρ c) (a7 m ρ c) (a8 m ρ c) :=
  hostOps7_gather (W14 m ρ c) _ _ _ _ _ _ _ _ (s14 m ρ c) ((keep14 m ρ c main_v3 (by decide)).trans (s3_v3 m ρ c))

theorem s15_v70 : (W15 m ρ c (kb main_v70) : S3300000x1.Idx → EReal) = val_main_v76 (F := Ideal) (a1 m ρ c) (a2 m ρ c) := by
  refine (hostOps7_norm (W14 m ρ c)).trans ?_
  rw [(keep14 m ρ c main_v31 (by decide)).trans (s3_v31 m ρ c)]
  exact RowCol.reshape_col _ _ _

theorem s16 : W16 m ρ c (kb main_v71) = val_main_v77 (F := Ideal) (a0 m ρ c) (a1 m ρ c) (a2 m ρ c) (a4 m ρ c) (a5 m ρ c) (a6 m ρ c) (a7 m ρ c) (a8 m ρ c) := by
  refine (W16_arr m ρ c 2).trans ((arr7_eq (Vin7 m ρ) c).trans ?_)
  have e0 : Vin7 m ρ c (Pipeline.arrRef spec7 0) = _ := s15_v69 m ρ c
  have e1 : Vin7 m ρ c (Pipeline.arrRef spec7 1) = _ := s15_v70 m ρ c
  rw [e0, e1]; rfl

theorem s17_v74 : W17 m ρ c (kb main_v74) = val_main_v80 (F := Ideal) (a0 m ρ c) (a1 m ρ c) (a2 m ρ c) (a4 m ρ c) (a5 m ρ c) (a6 m ρ c) (a7 m ρ c) (a8 m ρ c) :=
  hostOps8_scatter (W16 m ρ c) _ _ _ _ _ _ _ _ (s16 m ρ c) ((keep16 m ρ c main_v6 (by decide)).trans (s3_v6 m ρ c))

theorem s17_v75 : (W17 m ρ c (kb main_v75) : S1x1.Idx → EReal) = val_main_v81 (F := Ideal) (a9 m ρ c) := by
  refine (hostOps8_bias (W16 m ρ c)).trans ?_
  rw [(keep16 m ρ c main_arg9 (by decide)).trans (arg3 m ρ c main_arg9 (by decide))]
  exact RowCol.reshape_row _ _ _

/-- The third layer's column of scores. -/
theorem s18 : W18 m ρ c (kb main_v76) = val_main_v83 (F := Ideal) (a0 m ρ c) (a1 m ρ c) (a2 m ρ c) (a4 m ρ c) (a5 m ρ c) (a6 m ρ c) (a7 m ρ c) (a8 m ρ c) (a9 m ρ c) := by
  refine (W18_arr m ρ c 2).trans ((arr8_eq (Vin8 m ρ) c).trans ?_)
  have e0 : Vin8 m ρ c (Pipeline.arrRef spec8 0) = _ := s17_v74 m ρ c
  have e1 : Vin8 m ρ c (Pipeline.arrRef spec8 1) = _ := s17_v75 m ρ c
  rw [e0, e1]; rfl

end Cert.Val

end
-- ==== Proof.LibMaskedSoftmax.lean ====
/- The masked softmax over any finite index set, on the extended reals — the kept entries' maximum
   (⊥ filled in elsewhere), the exponentials of the differences where kept and 0 elsewhere, each
   over their sum — and two regroupings of it:
   (1) an index set that embeds into a larger one whose extra entries are masked out
   gives the same values (a maximum with ⊥ joined, a sum with 0 added); (2) a maximum taken row by
   row and then over the rows is the maximum over all pairs, and likewise a sum. Only commutativity,
   associativity and the neutral elements are used: no entry needs to be finite. -/
import Idealize.ShloMosaic.PureOps.Ideal
import Mathlib.Algebra.BigOperators.Group.Finset.Basic
import Mathlib.Data.Finset.Fold

noncomputable section

open scoped BigOperators

namespace Cert.Val.SoftMath

open Idealize.ShloMosaic

variable {α β : Type} [Fintype α] [Fintype β]

/-- The entries kept by the mask `p`, the others filled with ⊥. -/
def fill (p : α → Prop) [DecidablePred p] (x : α → EReal) : α → EReal := fun j => if p j then x j else ⊥

/-- The maximum of the kept entries (⊥ if none is kept). -/
def top (p : α → Prop) [DecidablePred p] (x : α → EReal) : EReal := Finset.univ.fold max ⊥ (fill p x)

/-- The weight of entry `j`: exp(x j − maximum) where kept, 0 elsewhere. -/
def wt (p : α → Prop) [DecidablePred p] (x : α → EReal) : α → EReal :=
  fun j => if p j then Ideal.exp (fill p x j - top p x) else 0

/-- The masked softmax: each weight over the sum of all weights. -/
def msoft (p : α → Prop) [DecidablePred p] (x : α → EReal) : α → EReal :=
  fun i => Ideal.div (wt p x i) (∑ j, wt p x j)

/-- A maximum from ⊥ over a larger index set whose entries outside the image of an injection are ⊥ is the maximum over the smaller one. -/
theorem fold_max_comp (φ : β → α) (f : α → EReal) (hf : ∀ a, a ∉ Set.range φ → f a = ⊥) :
    Finset.univ.fold max ⊥ (fun b => f (φ b)) = Finset.univ.fold max ⊥ f := by
  apply le_antisymm
  · rw [Finset.fold_max_le]
    refine ⟨bot_le, fun b _ => ?_⟩
    rw [Finset.le_fold_max]
    exact Or.inr ⟨φ b, Finset.mem_univ _, le_rfl⟩
  · rw [Finset.fold_max_le]
    refine ⟨bot_le, fun a _ => ?_⟩
    by_cases ha : a ∈ Set.range φ
    · obtain ⟨b, rfl⟩ := ha
      rw [Finset.le_fold_max]
      exact Or.inr ⟨b, Finset.mem_univ _, le_rfl⟩
    · rw [hf a ha]; exact bot_le

/-- The masked softmax over an index set embedded in a larger one, all of whose extra entries are masked
    out, is the masked softmax over the larger one read at the embedded index. -/
theorem msoft_comp (φ : β → α) (hφ : Function.Injective φ) (p : α → Prop) [DecidablePred p] (q : β → Prop) [DecidablePred q]
    (x : α → EReal) (y : β → EReal) (hq : ∀ b, q b ↔ p (φ b)) (hy : ∀ b, y b = x (φ b)) (hp : ∀ a, a ∉ Set.range φ → ¬ p a) (b : β) :
    msoft q y b = msoft p x (φ b) := by
  have hfill : ∀ b, fill q y b = fill p x (φ b) := fun b => by
    unfold fill
    by_cases h : q b
    · rw [if_pos h, if_pos ((hq b).1 h), hy]
    · rw [if_neg h, if_neg (fun h' => h ((hq b).2 h'))]
  have htop : top q y = top p x := by
    unfold top
    have e : fill q y = fun b => fill p x (φ b) := funext hfill
    rw [e]
    exact fold_max_comp φ (fill p x) (fun a ha => by unfold fill; rw [if_neg (hp a ha)])
  have hwt : ∀ b, wt q y b = wt p x (φ b) := fun b => by
    unfold wt
    by_cases h : q b
    · rw [if_pos h, if_pos ((hq b).1 h), hfill, htop]
    · rw [if_neg h, if_neg (fun h' => h ((hq b).2 h'))]
  unfold msoft
  rw [hwt b, Fintype.sum_of_injective φ hφ (wt q y) (wt p x) (fun a ha => by unfold wt; rw [if_neg (hp a ha)]) hwt]

variable {A B : Type} [Fintype A] [Fintype B]

/-- A maximum from ⊥ taken along each row and then over the rows is the maximum over all pairs. -/
theorem fold_max_rows (f : A × B → EReal) :
    Finset.univ.fold max ⊥ (fun r : A => Finset.univ.fold max ⊥ (fun l : B => f (r, l))) = Finset.univ.fold max ⊥ f := by
  apply le_antisymm
  · rw [Finset.fold_max_le]
    refine ⟨bot_le, fun r _ => ?_⟩
    rw [Finset.fold_max_le]
    refine ⟨bot_le, fun l _ => ?_⟩
    rw [Finset.le_fold_max]
    exact Or.inr ⟨(r, l), Finset.mem_univ _, le_rfl⟩
  · rw [Finset.fold_max_le]
    refine ⟨bot_le, fun q _ => ?_⟩
    rw [Finset.le_fold_max]
    refine Or.inr ⟨q.1, Finset.mem_univ _, ?_⟩
    rw [Finset.le_fold_max]
    exact Or.inr ⟨q.2, Finset.mem_univ _, le_rfl⟩

end Cert.Val.SoftMath

end
-- ==== Proof.LibKeepDims.lean ====
/-
  Column forms of a kept reduced axis, read at an index given by coordinates.

  A row statistic of an `[a, b]` block (a mean, a variance) is computed as a lane sum `[a, b] → [a]`, viewed as a
  column `[a] → [a, 1]`, and spread back over the lanes `[a, 1] → [a, b]`. Here each of the three steps is read at an
  index written by its coordinates: the column view at `(i, u)` is the vector at `i`; the spread column at `(p, c)` is
  the column at `(p, 0)`; and, at the ideal values, the lane sum at `p` is `∑ k : Fin b` of row `p`. Also one column
  of a matrix (a unit-width slice along axis 1) read at `(p, u)`.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Idealize.ShloMosaic.KeepDims

open Idealize.ShloMosaic Idealize.ShloMosaic.ValueIdx

variable {α : Type}

/-! ## The column view of a vector, and a column spread over the lanes -/

/-- An `[a]` vector viewed as a column `[a, 1]` reads, at `(i, u)`, the vector at `i`, whatever the unit coordinate
    `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Column `o` of an `[a, n]` matrix, cut out as an `[a, 1]` slice, reads at `(p, u)` the matrix at `(p, o)`. -/
theorem column_apply {a n : ℕ} (o : ℕ) (X : (⟨2, ![a, n]⟩ : Shape).Idx → α)
    (h : (⟨2, ![a, n]⟩ : Shape).Slices ![0, o] ⟨2, ![a, 1]⟩) (p : Fin a) (u : Fin 1) (k : Fin n) (hk : k.val = o) :
    extractStridedSlice ⟨2, ![a, 1]⟩ ![0, o] X h (ix2 p u) = X (ix2 p k) :=
  slice2_axis1_apply o X h p u k (by have : u.val = 0 := by omega
                                     omega)

/-! ## The lane sum of a block, at the ideal values -/

/-- The sum over the lanes (axis 1) of an `[a, b]` block, read at row `p`, is `∑ k : Fin b` of the block's row `p`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext ax
  match ax with
  | ⟨0, _⟩ => exact Fin.ext rfl
  | ⟨1, _⟩ => exact Fin.ext rfl

end Idealize.ShloMosaic.KeepDims

end
-- ==== Proof.LibKeepDimsFolds.lean ====
/- Keep-dims forms of a reduction over a whole [a, b] block, for any extents a and b, read at indices
   given by coordinates, at the ideal values: the maximum (or sum) along each row, the column [a, 1] of
   those reduced again down its one column to a single entry [1], that entry viewed [1, 1] and spread
   over the whole block [a, b]. Each step is read as a fold of `max` (or a sum) over the coordinates of
   the reduced axis, and the whole chain as the fold over the rows of the folds over each row. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«125778_j7670811590827_2_alg».proof.Proof.LibKeepDims

noncomputable section

open scoped BigOperators

namespace Cert.Val.SoftLayout

open Idealize.ShloMosaic Idealize.ShloMosaic.ValueIdx Idealize.ShloMosaic.KeepDims

variable {α : Type}

/-- A one-entry block [1, 1] spread over [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else c.val
    rw [if_pos rfl]

/-- The maximum along the lanes (axis 1) of an [a, b] block, read at row `p`: the fold of `max` from the
    accumulator's value over the row. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (fun k => src (h.lift (ix1 p) k)) = _
  refine congrArg (fun f => (Finset.univ : Finset (Fin b)).fold max (Ideal.ofBits φ acc) f) (funext fun k => congrArg src ?_)
  funext ax
  match ax with
  | ⟨0, _⟩ => exact Fin.ext rfl
  | ⟨1, _⟩ => exact Fin.ext rfl

/-- The maximum down the one column (axis 0) of an [a, 1] column, read at its one entry: the fold of `max`
    from the accumulator's value over the rows. -/
theorem colMax_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.maximumf.neutral φ hφ)
    (u : Fin 1) :
    multiReduction .maximumf [0] ⟨1, ![1]⟩ src acc h hφ hacc (ix1 u)
      = (Finset.univ : Finset (Fin a)).fold max (Ideal.ofBits φ acc) (fun r => src (ix2 r (0 : Fin 1))) := by
  refine (Ideal.multiReduction_maximumf_single src acc h hφ hacc (ix1 u)).trans ?_
  show (Finset.univ : Finset (Fin a)).fold max (Ideal.ofBits φ acc) (fun r => src (h.lift (ix1 u) r)) = _
  refine congrArg (fun f => (Finset.univ : Finset (Fin a)).fold max (Ideal.ofBits φ acc) f) (funext fun r => congrArg src ?_)
  funext ax
  match ax with
  | ⟨0, _⟩ => exact Fin.ext rfl
  | ⟨1, _⟩ => exact Fin.ext (by show u.val = 0; omega)

/-- The sum down the one column (axis 0) of an [a, 1] column, read at its one entry: the sum over the rows. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  show ∑ r : Fin a, src (h.lift (ix1 u) r) = _
  refine Finset.sum_congr rfl fun r _ => congrArg src ?_
  funext ax
  match ax with
  | ⟨0, _⟩ => exact Fin.ext rfl
  | ⟨1, _⟩ => exact Fin.ext (by show u.val = 0; omega)

/-- Rows reduced to a column [a, 1], the column reduced to one entry, viewed [1, 1] and spread over [a, b]:
    with maxima, every entry reads the fold of `max` over the rows of the folds of `max` over each row. -/
theorem spreadMax_apply {a b : ℕ} {φ : FTy} (src : FVec Ideal ⟨2, ![a, b]⟩ φ) (acc : BitVec φ.bits)
    (h1 : (⟨2, ![a, b]⟩ : Shape).Reduces [1] ⟨1, ![a]⟩) (hc : (⟨1, ![a]⟩ : Shape).ShapeCasts ⟨2, ![a, 1]⟩)
    (h0 : (⟨2, ![a, 1]⟩ : Shape).Reduces [0] ⟨1, ![1]⟩) (hc1 : (⟨1, ![1]⟩ : Shape).ShapeCasts ⟨2, ![1, 1]⟩)
    (hb : (⟨2, ![1, 1]⟩ : Shape).Broadcasts ⟨2, ![a, b]⟩)
    (hφ : FKind.Formats φ) (hacc : acc = FKind.maximumf.neutral φ hφ) (p : Fin a) (c : Fin b) :
    broadcastTo ⟨2, ![a, b]⟩ (shapeCast ⟨2, ![1, 1]⟩ (multiReduction .maximumf [0] ⟨1, ![1]⟩
        (shapeCast ⟨2, ![a, 1]⟩ (multiReduction .maximumf [1] ⟨1, ![a]⟩ src acc h1 hφ hacc) hc) acc h0 hφ hacc) hc1) hb (ix2 p c)
      = (Finset.univ : Finset (Fin a)).fold max (Ideal.ofBits φ acc)
          (fun r => (Finset.univ : Finset (Fin b)).fold max (Ideal.ofBits φ acc) (fun k => src (ix2 r k))) := by
  rw [broadcastTo_11_ab_apply, shapeCast_a_a1_apply, colMax_apply]
  refine congrArg (fun f => (Finset.univ : Finset (Fin a)).fold max (Ideal.ofBits φ acc) f) (funext fun r => ?_)
  rw [shapeCast_a_a1_apply, laneMax_apply]

/-- The same with sums: every entry reads the sum over the rows of the sums over each row. -/
theorem spreadSum_apply {a b : ℕ} {φ : FTy} (src : FVec Ideal ⟨2, ![a, b]⟩ φ) (acc : BitVec φ.bits)
    (h1 : (⟨2, ![a, b]⟩ : Shape).Reduces [1] ⟨1, ![a]⟩) (hc : (⟨1, ![a]⟩ : Shape).ShapeCasts ⟨2, ![a, 1]⟩)
    (h0 : (⟨2, ![a, 1]⟩ : Shape).Reduces [0] ⟨1, ![1]⟩) (hc1 : (⟨1, ![1]⟩ : Shape).ShapeCasts ⟨2, ![1, 1]⟩)
    (hb : (⟨2, ![1, 1]⟩ : Shape).Broadcasts ⟨2, ![a, b]⟩)
    (hφ : FKind.Formats φ) (hacc : acc = FKind.add.neutral φ hφ) (p : Fin a) (c : Fin b) :
    broadcastTo ⟨2, ![a, b]⟩ (shapeCast ⟨2, ![1, 1]⟩ (multiReduction .add [0] ⟨1, ![1]⟩
        (shapeCast ⟨2, ![a, 1]⟩ (multiReduction .add [1] ⟨1, ![a]⟩ src acc h1 hφ hacc) hc) acc h0 hφ hacc) hc1) hb (ix2 p c)
      = ∑ r : Fin a, ∑ k : Fin b, src (ix2 r k) := by
  rw [broadcastTo_11_ab_apply, shapeCast_a_a1_apply, colSum_apply]
  refine Finset.sum_congr rfl fun r _ => ?_
  rw [shapeCast_a_a1_apply, laneSum_apply]

/-! ## The same at f32, from the accumulator words of −∞ and of zero written out -/

/-- The f32 pattern of −∞ is ⊥. -/
theorem ofBits_neg_inf_f32 : Ideal.ofBits .f32 0xFF800000#32 = (⊥ : EReal) := by
  simp [Ideal.ofBits, Ideal.ieee]

/-- The maximum over a whole f32 block from −∞, spread back over the block: every entry reads the maximum from ⊥
    over the rows of the maxima from ⊥ over each row. -/
theorem spreadMax_f32 {a b : ℕ} (src : FVec Ideal ⟨2, ![a, b]⟩ .f32)
    (h1 : (⟨2, ![a, b]⟩ : Shape).Reduces [1] ⟨1, ![a]⟩) (hc : (⟨1, ![a]⟩ : Shape).ShapeCasts ⟨2, ![a, 1]⟩)
    (h0 : (⟨2, ![a, 1]⟩ : Shape).Reduces [0] ⟨1, ![1]⟩) (hc1 : (⟨1, ![1]⟩ : Shape).ShapeCasts ⟨2, ![1, 1]⟩)
    (hb : (⟨2, ![1, 1]⟩ : Shape).Broadcasts ⟨2, ![a, b]⟩)
    (hφ : FTy.f32 = FTy.f32 ∨ FTy.f32 = FTy.bf16) (hacc : (0xFF800000#32 : BitVec 32) = 0xFF800000#32) (p : Fin a) (c : Fin b) :
    broadcastTo ⟨2, ![a, b]⟩ (shapeCast ⟨2, ![1, 1]⟩ (multiReduction .maximumf [0] ⟨1, ![1]⟩
        (shapeCast ⟨2, ![a, 1]⟩ (multiReduction .maximumf [1] ⟨1, ![a]⟩ src 0xFF800000#32 h1 hφ hacc) hc) 0xFF800000#32 h0 hφ hacc) hc1) hb (ix2 p c)
      = (Finset.univ : Finset (Fin a)).fold max (⊥ : EReal)
          (fun r => (Finset.univ : Finset (Fin b)).fold max (⊥ : EReal) (fun k => src (ix2 r k))) :=
  (spreadMax_apply src 0xFF800000#32 h1 hc h0 hc1 hb hφ hacc p c).trans (by rw [ofBits_neg_inf_f32])

/-- The sum over a whole f32 block, spread back over the block: every entry reads the sum over the rows of the
    sums over each row. -/
theorem spreadSum_f32 {a b : ℕ} (src : FVec Ideal ⟨2, ![a, b]⟩ .f32)
    (h1 : (⟨2, ![a, b]⟩ : Shape).Reduces [1] ⟨1, ![a]⟩) (hc : (⟨1, ![a]⟩ : Shape).ShapeCasts ⟨2, ![a, 1]⟩)
    (h0 : (⟨2, ![a, 1]⟩ : Shape).Reduces [0] ⟨1, ![1]⟩) (hc1 : (⟨1, ![1]⟩ : Shape).ShapeCasts ⟨2, ![1, 1]⟩)
    (hb : (⟨2, ![1, 1]⟩ : Shape).Broadcasts ⟨2, ![a, b]⟩)
    (hφ : FTy.f32 = FTy.f32 ∨ FTy.f32 = FTy.bf16) (hacc : (0x00000000#32 : BitVec 32) = 0x00000000#32) (p : Fin a) (c : Fin b) :
    broadcastTo ⟨2, ![a, b]⟩ (shapeCast ⟨2, ![1, 1]⟩ (multiReduction .add [0] ⟨1, ![1]⟩
        (shapeCast ⟨2, ![a, 1]⟩ (multiReduction .add [1] ⟨1, ![a]⟩ src 0x00000000#32 h1 hφ hacc) hc) 0x00000000#32 h0 hφ hacc) hc1) hb (ix2 p c)
      = ∑ r : Fin a, ∑ k : Fin b, src (ix2 r k) :=
  spreadSum_apply src 0x00000000#32 h1 hc h0 hc1 hb hφ hacc p c

end Cert.Val.SoftLayout

end
-- ==== Proof.Val.SoftKernel.lean ====
/- The masked-softmax payload of region 9 at the ideal values, read at an index given by its row and
   lane: it is the masked softmax (SoftMath) over all (row, lane) pairs of the block, the mask being
   "the mask entry exceeds the constant 1/2" and the fill ⊥. -/
import proofs.«125778_j7670811590827_2_alg».proof.Proof.Gen.KernelIdeal.Skeleton
import proofs.«125778_j7670811590827_2_alg».proof.Proof.LibMaskedSoftmax
import proofs.«125778_j7670811590827_2_alg».proof.Proof.LibKeepDimsFolds
import Idealize.ShloMosaic.PureOps.IdealRules

noncomputable section

open scoped BigOperators

namespace Cert.Val

open Cert.KernelIdeal Cert.KernelIdeal.Gen Idealize.ShloMosaic Idealize.ShloMosaic.ValueIdx
open Cert.Val.SoftMath Cert.Val.SoftLayout

/-- The kernel's mask on a (row, lane) pair: the mask block's entry exceeds the constant 1/2. -/
abbrev kp (a1 : S782x128.Idx → EReal) (q : Fin 782 × Fin 128) : Prop := Ideal.ofBits .f32 0x3F000000#32 < a1 (ix2 q.1 q.2)

/-- The score block read at a (row, lane) pair. -/
abbrev kx (a0 : S782x128.Idx → EReal) (q : Fin 782 × Fin 128) : EReal := a0 (ix2 q.1 q.2)

/-- The kernel's fill constant is ⊥ at the ideal values. -/
theorem neg_big : Named.named (F := Ideal) Cert.KernelIdeal.κ "neg_big" (φ := .f32) 0xF149F2CA#32 = (⊥ : EReal) :=
  IdealRules.named_const.ideal_named_scalar _ _ _ _ rfl

/-- A select on the bit of a decided proposition is the `if`. -/
theorem select_ofBool {α : Type} (P : Prop) [Decidable P] (a b : α) :
    Scalar.select (BitVec.ofBool (decide P)) a b = if P then a else b := by
  unfold Scalar.select
  by_cases h : P
  · simp [h]
  · simp [h]

/-! ## The payload's stages, as vectors -/

/-- The mask bits: mask entry > 1/2. -/
def predV (a1 : FVec Ideal S782x128 .f32) : IVec S782x128 1 :=
  cmpf .ogt a1 (broadcast S782x128 (FloatOps.ofBits .f32 0x3F000000#32))

/-- The scores where kept, the fill elsewhere. -/
def cmV (a0 a1 : FVec Ideal S782x128 .f32) : FVec Ideal S782x128 .f32 :=
  select (predV a1) a0 (broadcast S782x128 (Named.named κ "neg_big" 0xF149F2CA#32))

/-- The maximum over the whole block (along the lanes, then down the rows), spread back over the block. -/
def maxV (a0 a1 : FVec Ideal S782x128 .f32) : FVec Ideal S782x128 .f32 :=
  broadcastTo S782x128 (shapeCast S1x1 (multiReduction .maximumf [0] S1 (shapeCast S782x1
    (multiReduction .maximumf [1] S782 (cmV a0 a1) 0xFF800000#32 reduces_S782x128_S782 (.inl rfl) rfl) shapeCasts_S782_S782x1)
    0xFF800000#32 reduces_S782x1_S1 (.inl rfl) rfl) shapeCasts_S1_S1x1) broadcasts_S1x1_S782x128

/-- The weights: exp(score − maximum) where kept, 0 elsewhere. -/
def eV (a0 a1 : FVec Ideal S782x128 .f32) : FVec Ideal S782x128 .f32 :=
  select (predV a1) (exp (subf (cmV a0 a1) (maxV a0 a1))) (broadcast S782x128 (FloatOps.ofBits .f32 0x00000000#32))

/-- The sum of all weights (along the lanes, then down the rows), spread back over the block. -/
def sumV (a0 a1 : FVec Ideal S782x128 .f32) : FVec Ideal S782x128 .f32 :=
  broadcastTo S782x128 (shapeCast S1x1 (multiReduction .add [0] S1 (shapeCast S782x1
    (multiReduction .add [1] S782 (eV a0 a1) 0x00000000#32 reduces_S782x128_S782 (.inl rfl) rfl) shapeCasts_S782_S782x1)
    0x00000000#32 reduces_S782x1_S1 (.inl rfl) rfl) shapeCasts_S1_S1x1) broadcasts_S1x1_S782x128

/-- The payload is the weights over their spread sum (its two identity shape casts dropped). -/
theorem pay9_stages (a0 a1 : Vec Ideal S782x128 .f32) : k9_pay1 (F := Ideal) a0 a1 = divf (eV a0 a1) (sumV a0 a1) := by
  unfold k9_pay1
  rw [shapeCast_self, shapeCast_self]
  rfl

/-! ## The stages at an index -/

theorem predV_apply (a1 : FVec Ideal S782x128 .f32) (r : Fin 782) (l : Fin 128) :
    predV a1 (ix2 r l) = BitVec.ofBool (decide (kp a1 (r, l))) := rfl

theorem cmV_apply (a0 a1 : FVec Ideal S782x128 .f32) (r : Fin 782) (l : Fin 128) :
    cmV a0 a1 (ix2 r l) = fill (kp a1) (kx a0) (r, l) := by
  show Scalar.select (predV a1 (ix2 r l)) (a0 (ix2 r l)) (Named.named κ "neg_big" 0xF149F2CA#32) = _
  rw [predV_apply, select_ofBool, neg_big]
  rfl

theorem maxV_apply (a0 a1 : FVec Ideal S782x128 .f32) (r : Fin 782) (l : Fin 128) :
    maxV a0 a1 (ix2 r l) = top (kp a1) (kx a0) := by
  unfold maxV
  refine (spreadMax_f32 (cmV a0 a1) reduces_S782x128_S782 shapeCasts_S782_S782x1 reduces_S782x1_S1 shapeCasts_S1_S1x1
    broadcasts_S1x1_S782x128 (.inl rfl) rfl r l).trans ?_
  unfold top
  rw [← fold_max_rows (fill (kp a1) (kx a0))]
  refine congrArg (fun f => (Finset.univ : Finset (Fin 782)).fold max (⊥ : EReal) f) (funext fun r' => ?_)
  exact congrArg (fun f => (Finset.univ : Finset (Fin 128)).fold max (⊥ : EReal) f) (funext fun k => cmV_apply a0 a1 r' k)

theorem eV_apply (a0 a1 : FVec Ideal S782x128 .f32) (r : Fin 782) (l : Fin 128) :
    eV a0 a1 (ix2 r l) = wt (kp a1) (kx a0) (r, l) := by
  show Scalar.select (predV a1 (ix2 r l)) (Ideal.exp (cmV a0 a1 (ix2 r l) - maxV a0 a1 (ix2 r l))) (Ideal.ofBits .f32 0x00000000#32) = _
  rw [predV_apply, select_ofBool, cmV_apply, maxV_apply, Ideal.ofBits_zero_f32]
  rfl

theorem sumV_apply (a0 a1 : FVec Ideal S782x128 .f32) (r : Fin 782) (l : Fin 128) :
    sumV a0 a1 (ix2 r l) = ∑ q, wt (kp a1) (kx a0) q := by
  unfold sumV
  refine (spreadSum_f32 (eV a0 a1) reduces_S782x128_S782 shapeCasts_S782_S782x1 reduces_S782x1_S1 shapeCasts_S1_S1x1
    broadcasts_S1x1_S782x128 (.inl rfl) rfl r l).trans ?_
  rw [Fintype.sum_prod_type]
  exact Finset.sum_congr rfl fun r' _ => Finset.sum_congr rfl fun k _ => eV_apply a0 a1 r' k

/-- THE PAYLOAD AT (row, lane): the masked softmax over all (row, lane) pairs of the block. -/
theorem pay9_apply (a0 a1 : Vec Ideal S782x128 .f32) (r : Fin 782) (l : Fin 128) :
    k9_pay1 (F := Ideal) a0 a1 (ix2 r l) = msoft (kp a1) (kx a0) (r, l) := by
  rw [pay9_stages]
  show Ideal.div (eV a0 a1 (ix2 r l)) (sumV a0 a1 (ix2 r l)) = _
  rw [eV_apply, sumV_apply]
  rfl

end Cert.Val

end
-- ==== Proof.Val.SoftRef.lean ====
/- The reference's masked softmax — a select of the scores against −∞ under the mask, the maximum, the
   exponentials of the differences, a select against 0, their sum and the quotient — read at an index:
   it is the masked softmax (SoftMath) over the 100000 entries, the mask being the mask bit itself. -/
import proofs.«125778_j7670811590827_2_alg».proof.Proof.Gen.ReferenceIdeal.Read
import proofs.«125778_j7670811590827_2_alg».proof.Proof.LibMaskedSoftmax
import proofs.«125778_j7670811590827_2_alg».proof.Proof.LibKeepDimsFolds
import Idealize.ShloMosaic.Lib.IdealHost

noncomputable section

open scoped BigOperators

namespace Cert.Val

open Cert.ReferenceIdeal Cert.ReferenceIdeal.Gen Idealize.ShloMosaic Idealize.ShloMosaic.ValueIdx
open Cert.Val.SoftMath

/-- The reference's mask on an entry: its mask bit is set. -/
abbrev rp (mk : S100000.Idx → BitVec 1) (i : S100000.Idx) : Prop := mk i = 1#1

/-! ## The reference's stages, as vectors of the score vector and the mask bits -/

/-- The scores where the mask bit is set, −∞ elsewhere. -/
def rcm (cvec : FVec Ideal S100000 .f32) (mk : IVec S100000 1) : FVec Ideal S100000 .f32 :=
  select mk cvec (broadcastInDim S100000 ![] bcast_S_S100000 (constant S_ .f32 0xFF800000#32))

/-- Their maximum from −∞, as a scalar array. -/
def rmax (cvec : FVec Ideal S100000 .f32) (mk : IVec S100000 1) : FVec Ideal S_ .f32 :=
  Host.reduce FloatOps.maximumf (rcm cvec mk) (constant S_ .f32 0xFF800000#32) reducesTo_S100000_S_d0 h_S_

/-- The weights: exp(score − maximum) where the mask bit is set, 0 elsewhere. -/
def re (cvec : FVec Ideal S100000 .f32) (mk : IVec S100000 1) : FVec Ideal S100000 .f32 :=
  select mk (Host.exp (subf (rcm cvec mk) (broadcastInDim S100000 ![] bcast_S_S100000 (rmax cvec mk))))
    (broadcastInDim S100000 ![] bcast_S_S100000 (constant S_ .f32 0x00000000#32))

/-- The reference's masked softmax of a score vector under mask bits. -/
def refSoft (cvec : FVec Ideal S100000 .f32) (mk : IVec S100000 1) : FVec Ideal S100000 .f32 :=
  Host.divf (re cvec mk) (broadcastInDim S100000 ![] bcast_S_S100000
    (Host.reduceAdd (re cvec mk) (constant S_ .f32 0x00000000#32) reducesTo_S100000_S_d0 h_S_))

/-! ## The stages at an index -/

theorem bcast_scalar_apply (y : FVec Ideal S_ .f32) (i : S100000.Idx) :
    broadcastInDim S100000 ![] bcast_S_S100000 y i = y ix0 :=
  broadcastInDim_apply _ bcast_S_S100000 y i ix0 (fun a => a.elim0)

/-- The host's exponential at an index is the ideal exponential of the element. -/
theorem hostExp_apply {s : Shape} {φ : FTy} (x : FVec Ideal s φ) (i : s.Idx) : Host.exp x i = Ideal.exp (x i) := rfl

theorem rcm_apply (cvec : FVec Ideal S100000 .f32) (mk : IVec S100000 1) (i : S100000.Idx) :
    rcm cvec mk i = fill (rp mk) cvec i := by
  unfold rcm
  rw [select_apply, bcast_scalar_apply, constant_apply, SoftLayout.ofBits_neg_inf_f32]
  rfl

theorem rmax_apply (cvec : FVec Ideal S100000 .f32) (mk : IVec S100000 1) :
    rmax cvec mk ix0 = top (rp mk) cvec := by
  unfold rmax
  rw [Host.reduce_eq_fold, Finset.filter_true_of_mem (fun i _ => funext fun b => b.elim0), constant_apply,
    SoftLayout.ofBits_neg_inf_f32]
  have e : rcm cvec mk = fill (rp mk) cvec := funext (rcm_apply cvec mk)
  rw [e]
  rfl

theorem re_apply (cvec : FVec Ideal S100000 .f32) (mk : IVec S100000 1) (i : S100000.Idx) :
    re cvec mk i = wt (rp mk) cvec i := by
  unfold re
  rw [select_apply, bcast_scalar_apply, constant_apply, Ideal.ofBits_zero_f32, hostExp_apply, subf_apply, bcast_scalar_apply,
    rcm_apply, rmax_apply]
  rfl

/-- THE REFERENCE AT AN ENTRY: the masked softmax over the 100000 entries. -/
theorem refSoft_apply (cvec : FVec Ideal S100000 .f32) (mk : IVec S100000 1) (i : S100000.Idx) :
    refSoft cvec mk i = msoft (rp mk) cvec i := by
  unfold refSoft
  rw [hostDivf_apply, bcast_scalar_apply, hostReduceAdd_apply, Ideal.hostReduceAdd_total reducesTo_S100000_S_d0 (fun b => b.elim0),
    constant_apply, Ideal.ofBits_zero_f32, zero_add, re_apply]
  unfold msoft
  exact congrArg (Ideal.div (wt (rp mk) cvec i)) (Finset.sum_congr rfl fun j _ => re_apply cvec mk j)

/-- The reference's printed stages ARE these: its softmax of the scores it computed and its mask argument. -/
theorem val_main_v93_eq_refSoft (x0 : (⟨S100000x3, .f32⟩ : BufTy).Contents (Elt Ideal)) (x1 : (⟨S2x3200000, .i32⟩ : BufTy).Contents (Elt Ideal))
    (x2 : (⟨S3200000, .f32⟩ : BufTy).Contents (Elt Ideal)) (x3 : (⟨S100000, .i1⟩ : BufTy).Contents (Elt Ideal))
    (x4 : (⟨S3x16, .f32⟩ : BufTy).Contents (Elt Ideal)) (x5 : (⟨S16, .f32⟩ : BufTy).Contents (Elt Ideal))
    (x6 : (⟨S16x16, .f32⟩ : BufTy).Contents (Elt Ideal)) (x7 : (⟨S16, .f32⟩ : BufTy).Contents (Elt Ideal))
    (x8 : (⟨S16x1, .f32⟩ : BufTy).Contents (Elt Ideal)) (x9 : (⟨S1, .f32⟩ : BufTy).Contents (Elt Ideal)) :
    Read.val_main_v93 (F := Ideal) x0 x1 x2 x3 x4 x5 x6 x7 x8 x9
      = refSoft (Read.val_main_v84 (F := Ideal) x0 x1 x2 x4 x5 x6 x7 x8 x9) x3 := rfl

end Cert.Val

end
-- ==== Proof.Val.SoftPad.lean ====
/- The host's layout around the softmax region, read at indices given by coordinates: a vector of 100000
   entries padded with 96 trailing copies of a scalar and viewed as 782 rows of 128 lanes; and a
   782 x 128 block viewed as a vector of 100096 entries and cut back to its first 100000. -/
import Idealize.ShloMosaic.Lib.ValueIdx
import Idealize.ShloMosaic.Lib.Pipeline.Value
import Idealize.ShloMosaic.Lib.KernelVsHost

noncomputable section

namespace Cert.Val.SoftPad

open Idealize.ShloMosaic Idealize.ShloMosaic.ValueIdx

variable {α : Type}

/-- Entry (r, l) of the padded vector viewed as rows of 128 lanes sits at position 128 r + l: the vector's own
    entry there below 100000, the padding scalar from there on. -/
theorem padView_apply (x : (⟨1, ![100000]⟩ : Shape).Idx → α) (z : (⟨0, ![]⟩ : Shape).Idx → α)
    (hp : (⟨1, ![100000]⟩ : Shape).Pads ![0] ![96] ![0] ⟨1, ![100096]⟩) (hu : 0 < (⟨0, ![]⟩ : Shape).numel)
    (hc : (⟨1, ![100096]⟩ : Shape).ShapeCasts ⟨2, ![782, 128]⟩) (r : Fin 782) (l : Fin 128) :
    shapeCast ⟨2, ![782, 128]⟩ (pad ⟨1, ![100096]⟩ ![0] ![96] ![0] x z hp hu) hc (ix2 r l)
      = if h : r.val * 128 + l.val < 100000 then x (ix1 ⟨r.val * 128 + l.val, h⟩) else z ix0 := by
  have hlt : r.val * 128 + l.val < 100096 := by have := r.isLt; have := l.isLt; omega
  refine (shapeCast_apply _ hc (ix2 r l) (ix1 (⟨r.val * 128 + l.val, hlt⟩ : Fin 100096)) (by
    rw [Shape.rowMajor_val_one, Shape.rowMajor_val_two]; rfl)).trans ?_
  split
  · rename_i h
    refine pad_apply_of_inside ![0] ![96] ![0] x z hp hu _ (ix1 (⟨r.val * 128 + l.val, h⟩ : Fin 100000)) fun a => ?_
    match a with
    | ⟨0, _⟩ => show r.val * 128 + l.val = 0 + (r.val * 128 + l.val) * (0 + 1); omega
  · rename_i h
    refine (pad_apply_of_not_inside ![0] ![96] ![0] x z hp hu _ (0 : Fin 1) ?_).trans (congrArg z (funext fun a => a.elim0))
    show ¬(0 ≤ r.val * 128 + l.val ∧ (r.val * 128 + l.val - 0) % (0 + 1) = 0 ∧ (r.val * 128 + l.val - 0) / (0 + 1) < 100000)
    omega

/-- Entry i of the block viewed as a vector and cut to its first 100000 entries is the block's entry in row
    i / 128, lane i % 128. -/
theorem sliceView_apply (G : (⟨2, ![782, 128]⟩ : Shape).Idx → α)
    (hc : (⟨2, ![782, 128]⟩ : Shape).ShapeCasts ⟨1, ![100096]⟩)
    (hs : (⟨1, ![100096]⟩ : Shape).Slices ![0] ⟨1, ![100000]⟩) (i : Fin 100000) :
    extractStridedSlice ⟨1, ![100000]⟩ ![0] (shapeCast ⟨1, ![100096]⟩ G hc) hs (ix1 i)
      = G (ix2 (⟨i.val / 128, by have := i.isLt; omega⟩ : Fin 782) (⟨i.val % 128, Nat.mod_lt _ (by decide)⟩ : Fin 128)) := by
  have hlt : i.val < 100096 := by have := i.isLt; omega
  refine (extractStridedSlice_apply ![0] _ hs (ix1 i) (ix1 (⟨i.val, hlt⟩ : Fin 100096)) fun a => ?_).trans ?_
  · match a with
    | ⟨0, _⟩ => show i.val = 0 + i.val; omega
  · refine shapeCast_apply G hc _ _ ?_
    rw [Shape.rowMajor_val_one, Shape.rowMajor_val_two]
    show i.val / 128 * 128 + i.val % 128 = i.val
    exact Nat.div_add_mod' _ _

end Cert.Val.SoftPad

end
-- ==== Proof.Val.SoftArr.lean ====
/- What region 9 leaves in its output array, as ONE function of the two arrays it reads: the grid has one
   point and each window's one block is its whole array, so the array ends holding the body's payload of
   the two input arrays. -/
import proofs.«125778_j7670811590827_2_alg».proof.Proof.KI.RegA9
import Idealize.ShloMosaic.Lib.Pipeline.Value

set_option maxRecDepth 16384

noncomputable section

namespace Cert.Val

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b))

theorem hz9 : (![0, 0] : Fin 2 → Nat) = fun _ => 0 := funext fun a => by fin_cases a <;> rfl

/-- The one grid point's block index is zero on both axes, for each of the three windows. -/
theorem idx_facts9 : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0 :=
  (by decide +kernel : ∀ t : Fin grid9.N, _)

/-- Region 9's output as a function of its two input arrays: the body's payload of them. -/
abbrev G9 (a0 : S782x128.Idx → Elt F .f32) (a1 : S782x128.Idx → Elt F .f32) : S782x128.Idx → Elt F .f32 := k9_pay1 a0 a1

/-- Input window 0's block at the point is its whole array. -/
theorem iblk9_0_eq (c : Dev nD) (t : Fin cfg9.N) : iblk9 V c 0 t = V c main_v81 := by
  obtain ⟨e0, e1, e2, e3, e4, e5⟩ := idx_facts9 t
  funext y
  show V c main_v81 (((cfg9.win 0).blk t).view.emb y) = V c main_v81 y
  refine congrArg (V c main_v81) ?_
  funext a; apply Fin.ext
  match a with
  | ⟨0, _⟩ => show win9_0.index t (0 : Fin 2) * 782 + 1 * (y 0).val = (y 0).val; rw [e0]; omega
  | ⟨1, _⟩ => show win9_0.index t (1 : Fin 2) * 128 + 1 * (y 1).val = (y 1).val; rw [e1]; omega

/-- Input window 1's block at the point is its whole array. -/
theorem iblk9_1_eq (c : Dev nD) (t : Fin cfg9.N) : iblk9 V c 1 t = V c main_v82 := by
  obtain ⟨e0, e1, e2, e3, e4, e5⟩ := idx_facts9 t
  funext y
  show V c main_v82 (((cfg9.win 1).blk t).view.emb y) = V c main_v82 y
  refine congrArg (V c main_v82) ?_
  funext a; apply Fin.ext
  match a with
  | ⟨0, _⟩ => show win9_1.index t (0 : Fin 2) * 782 + 1 * (y 0).val = (y 0).val; rw [e2]; omega
  | ⟨1, _⟩ => show win9_1.index t (1 : Fin 2) * 128 + 1 * (y 1).val = (y 1).val; rw [e3]; omega

/-- What the point writes back is the block (the whole) of `G9` of the two input arrays. -/
theorem flushed9_eq (c : Dev nD) (t : Fin cfg9.N) :
    (dat9 V c).flushed 2 t = ((cfg9.win 2).blk t).view.read (Elt F) (G9 (V c main_v81) (V c main_v82)) := by
  show (cfg9.win 2).cut (grid9.coords t) ((dat9 V c).after 2 t) = _
  rw [after9_2]
  unfold out9_2
  rw [View.canon_unit_zero hz9]
  simp only [View.ld_unit_zero (S := S782x128) hz9]
  rw [iblk9_0_eq, iblk9_1_eq]
  obtain ⟨e0, e1, e2, e3, e4, e5⟩ := idx_facts9 t
  funext j
  show k9_pay1 (V c main_v81) (V c main_v82) j = k9_pay1 (V c main_v81) (V c main_v82) (((cfg9.win 2).blk t).view.emb j)
  refine congrArg (k9_pay1 (V c main_v81) (V c main_v82)) ?_
  funext a; apply Fin.ext
  match a with
  | ⟨0, _⟩ => show (j 0).val = win9_2.index t (0 : Fin 2) * 782 + 1 * (j 0).val; rw [e4]; omega
  | ⟨1, _⟩ => show (j 1).val = win9_2.index t (1 : Fin 2) * 128 + 1 * (j 1).val; rw [e5]; omega

/-- An index of the output array is in the point's block iff each coordinate is in the block's range. -/
theorem mem_blk9 (t : Fin cfg9.N) (i : S782x128.Idx) :
    i ∈ ((cfg9.win 2).blk t).view.set ↔ ∀ a : Fin 2, win9_2.index t a * S782x128.size a ≤ (i a).val ∧ (i a).val < win9_2.index t a * S782x128.size a + S782x128.size a := by
  show i ∈ ((View.whole main_v83).slice (win9_2.rect t)).set ↔ _
  rw [View.set_slice_whole, Rect.mem_set_unit]
  exact Iff.rfl

/-- THE ARRAY region 9 leaves: `G9` of the two arrays it reads, whole. -/
theorem arr9 (c : Dev nD) : (dat9 V c).arrAt 2 cfg9.N = G9 (V c main_v81) (V c main_v82) :=
  (dat9 V c).arrAt_eq_of_cover 2 (G9 (V c main_v81) (V c main_v82)) (fun t _ => flushed9_eq V c t) fun i => by
    refine ⟨t9_0, flush9_2 t9_0, ?_⟩
    rw [mem_blk9]
    obtain ⟨e0, e1, e2, e3, e4, e5⟩ := idx_facts9 t9_0
    intro a
    match a with
    | ⟨0, _⟩ => show win9_2.index t9_0 (0 : Fin 2) * 782 ≤ (i 0).val ∧ (i 0).val < win9_2.index t9_0 (0 : Fin 2) * 782 + 782; rw [e4]; have h0 : (i 0).val < 782 := (i 0).isLt; omega
    | ⟨1, _⟩ => show win9_2.index t9_0 (1 : Fin 2) * 128 ≤ (i 1).val ∧ (i 1).val < win9_2.index t9_0 (1 : Fin 2) * 128 + 128; rw [e5]; have h1 : (i 1).val < 128 := (i 1).isLt; omega

end Cert.Val

end
-- ==== Proof.Val.Softmax.lean ====
/- Region 9 end to end at the ideal values. The array it leaves is the softmax payload `Gsoft` of the two
   782 x 128 arrays it reads; and on the host's layout — the 100000 scores and the 100000 mask bits (as
   0 / 1 reals) each padded with 96 zeros and viewed as 782 rows of 128 lanes before, the result viewed
   flat and cut to its first 100000 entries after — it is the reference's masked softmax of the scores
   under the mask bits: the 96 padding entries are masked out (0 does not exceed 1/2), so they join ⊥
   to the maximum and add 0 to the sum. -/
import proofs.«125778_j7670811590827_2_alg».proof.Proof.Val.SoftKernel
import proofs.«125778_j7670811590827_2_alg».proof.Proof.Val.SoftRef
import proofs.«125778_j7670811590827_2_alg».proof.Proof.Val.SoftPad
import proofs.«125778_j7670811590827_2_alg».proof.Proof.Val.SoftArr

set_option maxRecDepth 16384

noncomputable section

open scoped BigOperators

namespace Cert.Val

open Cert.KernelIdeal Cert.KernelIdeal.Gen Cert.KernelIdeal.Hand Idealize.ShloMosaic Idealize.ShloMosaic.TcCoe Idealize.SL.Sem
open Idealize.ShloMosaic.ValueIdx Cert.Val.SoftMath Cert.Val.SoftPad

/-! ## The array region 9 leaves, at the ideal values -/

/-- Region 9's output as a function of its two input arrays, at the ideal values: the softmax payload. -/
abbrev Gsoft (a0 a1 : S782x128.Idx → EReal) : S782x128.Idx → EReal := k9_pay1 (F := Ideal) a0 a1

/-- The array region 9 leaves is `Gsoft` of the two arrays it reads (its windows 0 and 1). -/
theorem arr9_ideal (V : (c : Dev nD) → (b : Ref sig .tc) → Buf (Elt Ideal) ((c : Thread nD τ).loc b)) (c : Dev nD) :
    (dat9 V c).arrAt 2 cfg9.N = Gsoft (V c (Pipeline.arrRef spec9 0)) (V c (Pipeline.arrRef spec9 1)) :=
  arr9 V c

/-! ## The constant 1/2 against the mask's 0 / 1 reals -/

/-- The f32 pattern 0x3F000000 is 1/2. -/
theorem ofBits_half_f32 : Ideal.ofBits .f32 0x3F000000#32 = (((1 : ℝ) / 2 : ℝ) : EReal) := by
  simp [Ideal.ofBits, Ideal.ieee, -EReal.coe_mul]; norm_num

/-- A mask bit as a real exceeds 1/2 exactly when the bit is set. -/
theorem half_lt_bit (w : BitVec 1) : Ideal.ofBits .f32 0x3F000000#32 < ((w.toNat : ℝ) : EReal) ↔ w = 1#1 := by
  rw [ofBits_half_f32, EReal.coe_lt_coe_iff]
  rcases BitVec.eq_zero_or_eq_one w with h | h <;> subst h
  · constructor
    · intro h; norm_num at h
    · intro h; exact absurd h (by decide)
  · constructor
    · intro _; rfl
    · intro _; norm_num

/-- Zero does not exceed 1/2. -/
theorem not_half_lt_zero : ¬ Ideal.ofBits .f32 0x3F000000#32 < (0 : EReal) := by
  rw [ofBits_half_f32, ← EReal.coe_zero, EReal.coe_lt_coe_iff]
  norm_num

/-! ## Entry i of the 100000 sits in row i / 128, lane i % 128 -/

/-- Where entry `i` of the unpadded vector is placed in the 782 x 128 block: its row and lane. -/
def place (i : S100000.Idx) : Fin 782 × Fin 128 :=
  (⟨(i 0).val / 128, by have : (i 0).val < 100000 := (i 0).isLt; omega⟩, ⟨(i 0).val % 128, Nat.mod_lt _ (by decide)⟩)

theorem place_injective : Function.Injective place := fun i j h => by
  have h1 : (i 0).val / 128 = (j 0).val / 128 := congrArg (fun q : Fin 782 × Fin 128 => q.1.val) h
  have h2 : (i 0).val % 128 = (j 0).val % 128 := congrArg (fun q : Fin 782 × Fin 128 => q.2.val) h
  funext a
  match a with
  | ⟨0, _⟩ => exact Fin.ext (by show (i 0).val = (j 0).val; omega)

/-- A (row, lane) pair where no entry is placed lies at or past position 100000. -/
theorem not_place (q : Fin 782 × Fin 128) (hq : q ∉ Set.range place) : ¬ q.1.val * 128 + q.2.val < 100000 := fun h =>
  hq ⟨ix1 (⟨q.1.val * 128 + q.2.val, h⟩ : Fin 100000), Prod.ext (Fin.ext (by
    show (q.1.val * 128 + q.2.val) / 128 = q.1.val; have := q.2.isLt; omega)) (Fin.ext (by
    show (q.1.val * 128 + q.2.val) % 128 = q.2.val; have := q.2.isLt; omega))⟩

section Layout
variable (z : S_.Idx → EReal)
variable (hp : S100000.Pads (![0] : Fin 1 → Nat) ![96] ![0] S100096) (hu : 0 < S_.numel) (hc : S100096.ShapeCasts S782x128)

/-- The padded view of a vector read where an entry is placed is the vector's entry. -/
theorem padView_place {α : Type} (x : S100000.Idx → α) (z : S_.Idx → α) (i : S100000.Idx) :
    shapeCast S782x128 (pad S100096 ![0] ![96] ![0] x z hp hu) hc (ix2 (place i).1 (place i).2) = x i := by
  have hi : (i 0).val < 100000 := (i 0).isLt
  have hlt : (place i).1.val * 128 + (place i).2.val < 100000 := by
    show (i 0).val / 128 * 128 + (i 0).val % 128 < 100000; omega
  rw [padView_apply, dif_pos hlt]
  refine congrArg x (funext fun a => ?_)
  match a with
  | ⟨0, _⟩ => exact Fin.ext (by show (i 0).val / 128 * 128 + (i 0).val % 128 = (i 0).val; omega)

/-- The padded view read where no entry is placed is the padding scalar. -/
theorem padView_not_place {α : Type} (x : S100000.Idx → α) (z : S_.Idx → α) (q : Fin 782 × Fin 128) (hq : q ∉ Set.range place) :
    shapeCast S782x128 (pad S100096 ![0] ![96] ![0] x z hp hu) hc (ix2 q.1 q.2) = z ix0 := by
  rw [padView_apply, dif_neg (not_place q hq)]

end Layout

/-! ## End to end -/

/-- THE SOFTMAX REGION ON THE HOST'S LAYOUT IS THE REFERENCE'S MASKED SOFTMAX, for any scores (no entry needs
    to be finite) and any mask bits, the padding scalar being zero. -/
theorem soft_end_to_end (cvec : S100000.Idx → EReal) (mk : S100000.Idx → BitVec 1) (z : S_.Idx → EReal) (hz : z ix0 = 0)
    (hp : S100000.Pads (![0] : Fin 1 → Nat) ![96] ![0] S100096) (hu : 0 < S_.numel) (hc : S100096.ShapeCasts S782x128)
    (hc' : S782x128.ShapeCasts S100096) (hs : S100096.Slices ![0] S100000) :
    extractStridedSlice S100000 ![0] (shapeCast S100096
        (Gsoft (shapeCast S782x128 (pad S100096 ![0] ![96] ![0] cvec z hp hu) hc)
          (shapeCast S782x128 (pad S100096 ![0] ![96] ![0] (uitofp (F := Ideal) .f32 mk) z hp hu) hc)) hc') hs
      = refSoft cvec mk := by
  funext i
  obtain ⟨b, rfl⟩ : ∃ b : Fin 100000, i = ix1 b := ⟨i 0, eq_ix1 i⟩
  refine (sliceView_apply _ hc' hs b).trans ?_
  refine (pay9_apply _ _ _ _).trans ?_
  rw [refSoft_apply]
  refine (msoft_comp place place_injective _ (rp mk) _ cvec (fun j => ?_) (fun j => ?_) (fun q hq => ?_) (ix1 b)).symm
  · show mk j = 1#1 ↔ Ideal.ofBits .f32 0x3F000000#32 < shapeCast S782x128 (pad S100096 ![0] ![96] ![0] (uitofp (F := Ideal) .f32 mk) z hp hu) hc (ix2 (place j).1 (place j).2)
    rw [padView_place hp hu hc]
    exact (half_lt_bit (mk j)).symm
  · show cvec j = shapeCast S782x128 (pad S100096 ![0] ![96] ![0] cvec z hp hu) hc (ix2 (place j).1 (place j).2)
    rw [padView_place hp hu hc]
  · show ¬ Ideal.ofBits .f32 0x3F000000#32 < shapeCast S782x128 (pad S100096 ![0] ![96] ![0] (uitofp (F := Ideal) .f32 mk) z hp hu) hc (ix2 q.1 q.2)
    rw [padView_not_place hp hu hc _ _ q hq, hz]
    exact not_half_lt_zero

/-- The same with the padding scalar as @main computes it: the integer constant 0 converted to f32. -/
theorem soft_end_to_end_main (cvec : S100000.Idx → EReal) (mk : S100000.Idx → BitVec 1)
    (hp : S100000.Pads (![0] : Fin 1 → Nat) ![96] ![0] S100096) (hu : 0 < S_.numel) (hc : S100096.ShapeCasts S782x128)
    (hc' : S782x128.ShapeCasts S100096) (hs : S100096.Slices ![0] S100000) :
    extractStridedSlice S100000 ![0] (shapeCast S100096
        (Gsoft (shapeCast S782x128 (pad S100096 ![0] ![96] ![0] cvec (sitofp (F := Ideal) .f32 (constantI S_ 32 0#32)) hp hu) hc)
          (shapeCast S782x128 (pad S100096 ![0] ![96] ![0] (uitofp (F := Ideal) .f32 mk) (sitofp (F := Ideal) .f32 (constantI S_ 32 0#32)) hp hu) hc)) hc') hs
      = refSoft cvec mk :=
  soft_end_to_end cvec mk _ (by
    show (((0#32 : BitVec 32).toInt : ℝ) : EReal) = 0
    simp) hp hu hc hc' hs

end Cert.Val

end
-- ==== Proof.Val.SoftBridge.lean ====
/- The softmax region between the host's two layout steps is the reference's masked softmax: the scores and
   the mask bits (as 0 / 1 reals) padded to 782 rows of 128 lanes, the region's payload of the two blocks,
   the result read flat and cut back to its first 100000 entries. -/
import proofs.«125778_j7670811590827_2_alg».proof.Proof.Val.HostRead
import proofs.«125778_j7670811590827_2_alg».proof.Proof.Val.Softmax

noncomputable section

namespace Cert.Val

open Cert.KernelIdeal Idealize.ShloMosaic

/-- THE SOFTMAX REGION, from the 100000 scores and the 100000 mask bits to the 100000 probabilities, is the
    reference's masked softmax, for any scores and any mask bits. -/
theorem soft_region (cvec : S100000.Idx → EReal) (mk : S100000.Idx → BitVec 1) :
    sliceOut (Gsoft (padIn cvec) (padIn (uitofp (F := Ideal) .f32 mk))) = refSoft cvec mk := by
  unfold sliceOut padIn
  exact soft_end_to_end_main cvec mk _ _ _ _ _

end Cert.Val

end
-- ==== Proof.KI.RegR10Out.lean ====
/- Region 10 (the pooled value), third part: the (1,1) array the region leaves, as one function of the arrays it finds. -/
import proofs.«125778_j7670811590827_2_alg».proof.Proof.KI.RegR10
import Idealize.ShloMosaic.Lib.Pipeline.Value
import proofs.«125778_j7670811590827_2_alg».proof.Proof.Gen.KernelIdeal.Launch
import proofs.«125778_j7670811590827_2_alg».proof.Proof.Gen.KernelIdeal.Skeleton
import proofs.«125778_j7670811590827_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The array the region leaves -/

/-- The last point of the grid. -/
def tlast10 : Fin cfg10.N := ⟨49, lt_of_lt_of_eq (by decide : 49 < 50) N10.symm⟩

/-- The (1,1) array the region leaves, as one function of the arrays it finds: the last point's store over the scratch
    after all 50 points, the weight column and the bias. -/
def res10 (c : Dev nD) : Vec F S1x1 .f32 :=
  out10_3 (acc10 V c cfg10.N) (iblk10 V c 1 tlast10) (iblk10 V c 2 tlast10)

/-- The one write-back, at the last point, writes it: block (0, 0) of the (1,1) array read at zero offsets is the array. -/
theorem flushed10_eq (c : Dev nD) (t : Fin cfg10.N) (hf : (cfg10.win 3).flush t = true) :
    (dat10 V c).flushed 3 t = ((cfg10.win 3).blk t).view.read (Elt F) (res10 V c) := by
  have h49 : t.val % 50 = 49 := (flush10_3 t).mp hf
  have hN : t.val < 50 := lt_of_lt_of_eq t.isLt N10
  obtain rfl : t = tlast10 := Fin.ext (by show t.val = 49; omega)
  show (cfg10.win 3).cut (grid10.coords tlast10) ((dat10 V c).after 3 tlast10) = _
  rw [after10_3, show tlast10.val + 1 = cfg10.N from N10.symm]
  have hz' : (fun a => win10_3.index tlast10 a * main_v87.ty.shape.size a) = fun _ => 0 := funext fun a => by fin_cases a <;> decide
  exact (Memref.read_access_unit_zero (Elt F) main_v87 hz' (fun a => by rw [congrFun hz' a]; simp) (res10 V c)).symm

/-- So the array ends holding it: the last point's block is the whole array. -/
theorem out10_last (c : Dev nD) : (dat10 V c).arrAt 3 cfg10.N = res10 V c :=
  (dat10 V c).arrAt_eq_of_cover 3 (res10 V c) (flushed10_eq V c) fun i =>
    ⟨tlast10, (flush10_3 tlast10).mpr rfl, by
      show i ∈ ((View.whole main_v87).slice (win10_3.rect tlast10)).set
      rw [View.set_slice_whole, Rect.mem_set_unit]
      intro a
      have h0 : (i 0 : Nat) < 1 := (i 0).isLt
      have h1 : (i 1 : Nat) < 1 := (i 1).isLt
      match a with
      | ⟨0, _⟩ => show win10_3.index tlast10 0 * win10_3.size 0 ≤ (i 0 : Nat) ∧ (i 0 : Nat) < win10_3.index tlast10 0 * win10_3.size 0 + win10_3.xsize (grid10.coords tlast10) 0
                  rw [show win10_3.index tlast10 0 * win10_3.size 0 = 0 from by decide +kernel, show win10_3.xsize (grid10.coords tlast10) 0 = 1 from by decide +kernel]; omega
      | ⟨1, _⟩ => show win10_3.index tlast10 1 * win10_3.size 1 ≤ (i 1 : Nat) ∧ (i 1 : Nat) < win10_3.index tlast10 1 * win10_3.size 1 + win10_3.xsize (grid10.coords tlast10) 1
                  rw [show win10_3.index tlast10 1 * win10_3.size 1 = 0 from by decide +kernel, show win10_3.xsize (grid10.coords tlast10) 1 = 1 from by decide +kernel]; omega⟩

end Cert.KernelIdeal.Hand

end
-- ==== Proof.Val.Pool.lean ====
/- The pooled value (region 10) at the ideal instance: the (1,1) array the region leaves is the reference's mean over rows
   contracted with the weight column plus the bias. -/
import proofs.«125778_j7670811590827_2_alg».proof.Proof.KI.RegR10Out
import proofs.«125778_j7670811590827_2_alg».proof.Proof.Gen.ReferenceIdeal.Run
import Idealize.ShloMosaic.PureOps.Ideal.Laws
import Idealize.ShloMosaic.Lib.KernelVsHost
import Idealize.ShloMosaic.Lib.IdealHost
import Idealize.ShloMosaic.Lib.Pipeline.Value

set_option maxRecDepth 16384

noncomputable section

namespace Cert.Val.Pool

open Cert.KernelIdeal Cert.KernelIdeal.Gen Cert.KernelIdeal.Hand
open Idealize.ShloMosaic Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! # The pooled value at the ideal instance

At the extended reals the scratch after `n` points holds, in column `k`, the sum of the first `2000·n` rows of that
column of the (100000, 16) array — the zero, then block after block of 2000 rows added —, so after all 50 points the
column's whole sum; the output is that row of sums times 1/100000, contracted with the weight column, plus the bias. -/

theorem hz2 : (![0, 0] : Fin 2 → Nat) = fun _ => 0 := funext fun a => by fin_cases a <;> rfl

/-- The column of a (1,16) index, as a (16) index. -/
abbrev col (y : S1x16.Idx) : S16.Idx := fun a => y a.succ

theorem redA : S100000x16.Reduces [0] S16 := by decide

/-! ## The payloads read at an index -/

/-- The zeroing store's payload is zero everywhere. -/
theorem pay1_apply (y : S1x16.Idx) : k10_pay1 (F := Ideal) y = 0 := by
  show shapeCast S1x16 (broadcast S1x16 (Scalar.ofBits (F := Ideal) .f32 0x00000000#32)) shapeCasts_S1x16_S1x16 y = 0
  rw [shapeCast_self]
  exact Ideal.ofBits_zero_f32

/-- The accumulating store's payload: what the scratch held plus the block's column sum. -/
theorem pay2_apply (a : FVec Ideal S1x16 .f32) (x : FVec Ideal S2000x16 .f32) (y : S1x16.Idx) :
    k10_pay2 (F := Ideal) a x y = a y + ∑ r : Fin 2000, x (reduces_S2000x16_S16.lift (col y) r) := by
  show shapeCast S1x16 (addf a (shapeCast S1x16 (multiReduction (F := Ideal) .add [0] S16 (shapeCast S2000x16 x shapeCasts_S2000x16_S2000x16)
    0x00000000#32 reduces_S2000x16_S16 (.inl rfl) rfl) shapeCasts_S16_S1x16)) shapeCasts_S1x16_S1x16 y = _
  rw [shapeCast_self, shapeCast_self]
  show a y + shapeCast S1x16 (multiReduction (F := Ideal) .add [0] S16 x 0x00000000#32 reduces_S2000x16_S16 (.inl rfl) rfl) shapeCasts_S16_S1x16 y = _
  rw [shapeCast_addUnit_apply ![16]]
  exact congrArg (a y + ·) (Ideal.multiReduction_add_single x 0x00000000#32 reduces_S2000x16_S16 (.inl rfl) rfl (col y))

/-- The kernel's named reciprocal denotes the rational 1/100000. -/
theorem inv_n : Named.named (F := Ideal) κ "inv_100000" (φ := .f32) 0x3727C5AC#32 = ((1 / 100000 : ℝ) : EReal) :=
  IdealRules.named_const.ideal_named_scalar _ _ _ _ rfl

/-- The output store's payload: the scratch times 1/100000, contracted with the weight column, plus the bias. -/
theorem pay3_eq (a : FVec Ideal S1x16 .f32) (w : FVec Ideal S16x1 .f32) (b : FVec Ideal S1x1 .f32) :
    k10_pay3 (F := Ideal) a w b
      = addf (Host.dotGeneral dot_S1x16_S16x1_S1x1_1_0_0_1_n_n none (fun y => a y * ((1 / 100000 : ℝ) : EReal) : FVec Ideal S1x16 .f32) w) b := by
  show addf (matmul dot_S1x16_S16x1_S1x1_1_0_0_1_n_n none
      (truncf (F := Ideal) .bf16 (mulf a (broadcast S1x16 (Named.named (F := Ideal) κ "inv_100000" (φ := .f32) 0x3727C5AC#32))) bitsLt_bf16_f32)
      (truncf (F := Ideal) .bf16 w bitsLt_bf16_f32) (constant S1x1 .f32 0x00000000#32)) (shapeCast S1x1 b shapeCasts_S1x1_S1x1) = _
  rw [matmul_zero_eq_dotGeneral, shapeCast_self, inv_n]
  rfl

/-! ## A block of the (100000, 16) array -/

/-- Window 0's block index is the point, on rows; zero, on columns. -/
theorem idx_facts0 : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)

/-- Row `i` of column `col y` of the (100000, 16) array the region finds — zero past its rows. -/
def G (c : Dev nD) (y : S1x16.Idx) (i : ℕ) : EReal :=
  if h : i < 100000 then V c (Pipeline.arrRef spec10 0) (redA.lift (col y) ⟨i, h⟩) else 0

/-- Row `r` of block `t` is row `2000·t + r` of the array. -/
theorem iblk_apply (c : Dev nD) (t : Fin cfg10.N) (y : S1x16.Idx) (r : Fin 2000) :
    (iblk10 V c 0 t : FVec Ideal S2000x16 .f32) (reduces_S2000x16_S16.lift (col y) r) = G V c y (2000 * t.val + r.val) := by
  have hN : t.val < 50 := lt_of_lt_of_eq t.isLt N10
  have hr : r.val < 2000 := r.isLt
  obtain ⟨e0, e1⟩ := idx_facts0 t
  unfold G
  rw [dif_pos (by omega)]
  unfold iblk10
  rw [View.read_apply]
  show V c (Pipeline.arrRef spec10 0) _ = V c (Pipeline.arrRef spec10 0) _
  congr 1
  funext a
  apply Fin.ext
  match a with
  | ⟨0, _⟩ => show win10_0.index t (0 : Fin 2) * 2000 + 1 * r.val = 2000 * t.val + r.val; rw [e0]; omega
  | ⟨1, _⟩ => show win10_0.index t (1 : Fin 2) * 16 + 1 * (y 1).val = (y 1).val; rw [e1]; omega

/-! ## The scratch point by point: the column's partial sums -/

theorem zero10_apply (y : S1x16.Idx) : (zero10 (F := Ideal)) y = 0 := by
  unfold zero10
  rw [View.canon_unit_zero hz2]
  exact pay1_apply y

theorem step10_apply (a : FVec Ideal S1x16 .f32) (x : FVec Ideal S2000x16 .f32) (y : S1x16.Idx) :
    step10 (F := Ideal) a x y = a y + ∑ r : Fin 2000, x (reduces_S2000x16_S16.lift (col y) r) := by
  unfold step10
  rw [View.canon_unit_zero hz2, View.ld_unit_zero (S := S1x16) hz2, View.ld_unit_zero (S := S2000x16) hz2]
  exact pay2_apply a x y

/-- After `n` points the scratch holds, in each column, the sum of the column's first `2000·n` rows. -/
theorem acc_apply (c : Dev nD) : ∀ n : ℕ, n ≤ 50 → ∀ y : S1x16.Idx,
    acc10 V c n y = ∑ i ∈ Finset.range (2000 * n), G V c y i
  | 0, _, y => by rw [acc10_zero, zero10_apply]; simp
  | n + 1, hn, y => by
    have hlt : n < cfg10.N := by rw [N10]; omega
    rw [show acc10 V c (n + 1) = step10 (acc10 V c n) (iblk10 V c 0 ⟨n, hlt⟩) from acc10_succ V c ⟨n, hlt⟩,
      step10_apply, acc_apply c n (by omega) y, Nat.mul_succ, Finset.sum_range_add]
    congr 1
    rw [← Fin.sum_univ_eq_sum_range (fun r => G V c y (2000 * n + r)) 2000]
    exact Finset.sum_congr rfl fun r _ => iblk_apply V c ⟨n, hlt⟩ y r

/-! ## The reference's column sum -/

/-- The reference's sum over rows, from the zero, is the column's whole sum. -/
theorem host_sum (c : Dev nD) (y : S1x16.Idx) :
    Host.reduceAdd (F := Ideal) (V c (Pipeline.arrRef spec10 0) : FVec Ideal Cert.ReferenceIdeal.S100000x16 .f32)
        (constant (F := Ideal) Cert.ReferenceIdeal.S_ .f32 0x00000000#32) Cert.ReferenceIdeal.Gen.reducesTo_S100000x16_S16_d0 Cert.ReferenceIdeal.Gen.h_S_ (col y)
      = ∑ i ∈ Finset.range 100000, G V c y i := by
  rw [ValueIdx.hostReduceAdd_apply, Ideal.hostReduceAdd_single _ redA]
  show Ideal.ofBits .f32 0x00000000#32 + _ = _
  rw [Ideal.ofBits_zero_f32, zero_add, ← Fin.sum_univ_eq_sum_range (G V c y) 100000]
  refine Finset.sum_congr rfl fun k _ => ?_
  unfold G
  split
  · rfl
  · rename_i h; exact absurd (show k.val < 100000 from k.isLt) h

/-! ## The weight column and the bias: a one-block window's block is its array -/

theorem iblk1_eq (c : Dev nD) : (iblk10 V c 1 tlast10 : FVec Ideal S16x1 .f32) = V c (Pipeline.arrRef spec10 1) := by
  have hz' : (fun a => win10_1.index tlast10 a * main_arg10.ty.shape.size a) = fun _ => 0 := funext fun a => by fin_cases a <;> decide
  exact Memref.read_access_unit_zero (Elt Ideal) main_arg10 hz' (fun a => by rw [congrFun hz' a]; simp) (V c (Pipeline.arrRef spec10 1))

theorem iblk2_eq (c : Dev nD) : (iblk10 V c 2 tlast10 : FVec Ideal S1x1 .f32) = V c (Pipeline.arrRef spec10 2) := by
  have hz' : (fun a => win10_2.index tlast10 a * main_v86.ty.shape.size a) = fun _ => 0 := funext fun a => by fin_cases a <;> decide
  exact Memref.read_access_unit_zero (Elt Ideal) main_v86 hz' (fun a => by rw [congrFun hz' a]; simp) (V c (Pipeline.arrRef spec10 2))

/-! ## The mean row -/

/-- The reference's divisor `100000.0` denotes the real 100000. -/
theorem ofBits_100000 : Ideal.ofBits .f32 0x47C35000#32 = ((100000 : ℝ) : EReal) := by
  simp [Ideal.ofBits, Ideal.ieee, -EReal.coe_mul]; norm_num

set_option maxHeartbeats 1000000 in
/-- The scratch after all 50 points times 1/100000 is the reference's row of column sums divided by 100000: a quotient by
    100000 is the product with 1/100000 on every extended real. -/
theorem mean_eq (c : Dev nD) :
    (fun y => acc10 V c cfg10.N y * ((1 / 100000 : ℝ) : EReal) : FVec Ideal S1x16 .f32)
      = Host.divf (F := Ideal) (broadcastInDim Cert.ReferenceIdeal.S1x16 ![1] Cert.ReferenceIdeal.Gen.bcast_S16_S1x16_1
            (Host.reduceAdd (F := Ideal) (V c (Pipeline.arrRef spec10 0) : FVec Ideal Cert.ReferenceIdeal.S100000x16 .f32) (constant (F := Ideal) Cert.ReferenceIdeal.S_ .f32 0x00000000#32)
              Cert.ReferenceIdeal.Gen.reducesTo_S100000x16_S16_d0 Cert.ReferenceIdeal.Gen.h_S_))
          (broadcastInDim Cert.ReferenceIdeal.S1x16 ![] Cert.ReferenceIdeal.Gen.bcast_S_S1x16 (constant (F := Ideal) Cert.ReferenceIdeal.S_ .f32 0x47C35000#32)) := by
  funext y
  rw [ValueIdx.hostDivf_apply, ValueIdx.broadcastInDim_scalar_apply,
    broadcastInDim_apply ![1] Cert.ReferenceIdeal.Gen.bcast_S16_S1x16_1 _ y (col y) (fun a => by fin_cases a; rfl),
    host_sum]
  show _ = Ideal.div _ (Ideal.ofBits .f32 0x47C35000#32)
  rw [ofBits_100000, Ideal.div_coe (by norm_num : (100000 : ℝ) ≠ 0),
    show acc10 V c cfg10.N y = acc10 V c 50 y from congrArg (fun n => acc10 V c n y) N10, acc_apply V c 50 le_rfl y]

/-! ## The region's array is the reference's pooled value -/

set_option maxHeartbeats 2000000 in
/-- At the ideal instance the (1,1) array region 10 leaves is, of the arrays it finds — the (100000, 16) array, the weight
    column, the bias —, the mean over rows contracted with the weight column plus the bias, as the reference computes it. -/
theorem pool_value (c : Dev nD) :
    (dat10 V c).arrAt 3 cfg10.N
      = addf (F := Ideal) (Host.dotGeneral (F := Ideal) (φ₁ := .f32) (φ₂ := .f32) Cert.ReferenceIdeal.dot_S1x16_S16x1_S1x1_1_0_0_1_n_n none
          (Host.divf (F := Ideal) (broadcastInDim Cert.ReferenceIdeal.S1x16 ![1] Cert.ReferenceIdeal.Gen.bcast_S16_S1x16_1
            (Host.reduceAdd (F := Ideal) (V c (Pipeline.arrRef spec10 0) : FVec Ideal Cert.ReferenceIdeal.S100000x16 .f32) (constant (F := Ideal) Cert.ReferenceIdeal.S_ .f32 0x00000000#32)
              Cert.ReferenceIdeal.Gen.reducesTo_S100000x16_S16_d0 Cert.ReferenceIdeal.Gen.h_S_))
          (broadcastInDim Cert.ReferenceIdeal.S1x16 ![] Cert.ReferenceIdeal.Gen.bcast_S_S1x16 (constant (F := Ideal) Cert.ReferenceIdeal.S_ .f32 0x47C35000#32)))
          (V c (Pipeline.arrRef spec10 1) : FVec Ideal Cert.ReferenceIdeal.S16x1 .f32))
        (V c (Pipeline.arrRef spec10 2) : FVec Ideal Cert.ReferenceIdeal.S1x1 .f32) := by
  rw [out10_last]
  unfold res10 out10_3
  rw [View.canon_unit_zero hz2, View.ld_unit_zero (S := S1x16) hz2, View.ld_unit_zero (S := S16x1) hz2, View.ld_unit_zero (S := S1x1) hz2,
    pay3_eq, iblk1_eq, iblk2_eq, mean_eq]
  rfl

end Cert.Val.Pool

namespace Cert.Val

/-- The same, under the name the run's last step cites. -/
alias pool_eq_host := Cert.Val.Pool.pool_value

end Cert.Val

end
-- ==== Proof.Val.Bridge4.lean ====
/-
  The last two regions and the results.
  Between the third layer and the softmax region the kernel's program recasts the column of scores to a vector,
  pads it and the mask — the boolean argument read as 0 or 1 — with 96 zeros, and lays both out as 782 rows of 128
  lanes; after the region it reads the rows back as one vector and keeps the first 100000 entries. The region's
  array is the masked softmax over all 782·128 entries, whose last 96 are masked out: a maximum with −∞ and a sum
  with zeros added. So the first result is the reference's masked softmax of the scores.
  The pooling region sums the second layer's activations over all rows, scales by 1/100000, contracts with the
  head's weights and adds its bias: the reference's mean, contraction and sum.
-/
import proofs.«125778_j7670811590827_2_alg».proof.Proof.Val.Bridge2
import proofs.«125778_j7670811590827_2_alg».proof.Proof.Val.Softmax
import proofs.«125778_j7670811590827_2_alg».proof.Proof.Val.SoftBridge
import proofs.«125778_j7670811590827_2_alg».proof.Proof.Val.Pool

set_option maxRecDepth 16384

noncomputable section

namespace Cert.Val

open Idealize.ShloMosaic Idealize.ShloMosaic.TcCoe Idealize.SL.Sem Idealize.ShloMosaic.StableHlo
open Cert.KernelIdeal Cert.KernelIdeal.Gen Cert.KernelIdeal.Hand
open Cert.ReferenceIdeal.Read

variable (m : (ℓ : Loc nD τ sig) → Buf (Elt Ideal) ℓ) (ρ : Dev nD → PrngReg) (c : Dev nD)

abbrev a3 : A3 := W0 m ρ c (kb main_arg3)
abbrev a10 : A8 := W0 m ρ c (kb main_arg10)
abbrev a11 : A9 := W0 m ρ c (kb main_arg11)

/-- The scores as a vector. -/
abbrev scores : S100000.Idx → EReal := val_main_v84 (F := Ideal) (a0 m ρ c) (a1 m ρ c) (a2 m ρ c) (a4 m ρ c) (a5 m ρ c) (a6 m ρ c) (a7 m ρ c) (a8 m ρ c) (a9 m ρ c)

theorem s23_scores : (W23 m ρ c (kb main_v81) : S782x128.Idx → EReal) = padIn (scores m ρ c) := by
  refine (soft_in_scores (W18 m ρ c)).trans ?_
  rw [s18]; rfl

theorem s23_mask : (W23 m ρ c (kb main_v82) : S782x128.Idx → EReal) = padIn (uitofp (F := Ideal) .f32 (a3 m ρ c)) := by
  refine (soft_in_mask (W18 m ρ c)).trans ?_
  rw [(keep18 m ρ c main_arg3 (by decide)).trans (arg3 m ρ c main_arg3 (by decide))]

/-- The softmax region's array. -/
theorem s24 : (W24 m ρ c (kb main_v83) : S782x128.Idx → EReal)
    = Gsoft (padIn (scores m ρ c)) (padIn (uitofp (F := Ideal) .f32 (a3 m ρ c))) := by
  refine (W24_arr m ρ c 2).trans ((arr9_ideal (Vin9 m ρ) c).trans ?_)
  have e0 : Vin9 m ρ c (Pipeline.arrRef spec9 0) = padIn (scores m ρ c) := s23_scores m ρ c
  have e1 : Vin9 m ρ c (Pipeline.arrRef spec9 1) = padIn (uitofp (F := Ideal) .f32 (a3 m ρ c)) := s23_mask m ρ c
  rw [e0, e1]

/-- The first result: the reference's masked softmax. -/
theorem s25_choice : W25 m ρ c (kb main_v85)
    = val_main_v93 (F := Ideal) (a0 m ρ c) (a1 m ρ c) (a2 m ρ c) (a3 m ρ c) (a4 m ρ c) (a5 m ρ c) (a6 m ρ c) (a7 m ρ c) (a8 m ρ c) (a9 m ρ c) := by
  refine (soft_out (W24 m ρ c)).trans ?_
  rw [s24, soft_region]
  exact (val_main_v93_eq_refSoft _ _ _ _ _ _ _ _ _ _).symm

theorem s25_bias : (W25 m ρ c (kb main_v86) : S1x1.Idx → EReal) = val_main_v99 (F := Ideal) (a11 m ρ c) := by
  refine (head_bias (W24 m ρ c)).trans ?_
  rw [(keep24 m ρ c main_arg11 (by decide)).trans (arg3 m ρ c main_arg11 (by decide))]
  exact RowCol.reshape_row _ _ _

/-- The second result: the head applied to the mean of the second layer's activations. -/
theorem s26_value : W26 m ρ c (kb main_v87)
    = val_main_v100 (F := Ideal) (a0 m ρ c) (a1 m ρ c) (a2 m ρ c) (a4 m ρ c) (a5 m ρ c) (a6 m ρ c) (a7 m ρ c) (a10 m ρ c) (a11 m ρ c) := by
  refine (W26_arr m ρ c 3).trans ((pool_eq_host (Vin10 m ρ) c).trans ?_)
  have e0 : Vin10 m ρ c (Pipeline.arrRef spec10 0)
      = val_main_v67 (F := Ideal) (a0 m ρ c) (a1 m ρ c) (a2 m ρ c) (a4 m ρ c) (a5 m ρ c) (a6 m ρ c) (a7 m ρ c) :=
    (h2keep25 m ρ c).trans (s13 m ρ c)
  have e1 : Vin10 m ρ c (Pipeline.arrRef spec10 1) = a10 m ρ c :=
    (keep25 m ρ c main_arg10 (by decide)).trans (arg3 m ρ c main_arg10 (by decide))
  have e2 : Vin10 m ρ c (Pipeline.arrRef spec10 2) = val_main_v99 (F := Ideal) (a11 m ρ c) := s25_bias m ρ c
  rw [e0, e1, e2]; rfl

theorem s26_choice : W26 m ρ c (kb main_v85)
    = val_main_v93 (F := Ideal) (a0 m ρ c) (a1 m ρ c) (a2 m ρ c) (a3 m ρ c) (a4 m ρ c) (a5 m ρ c) (a6 m ρ c) (a7 m ρ c) (a8 m ρ c) (a9 m ρ c) :=
  (W26_keep m ρ c main_v85 (by decide)).trans (s25_choice m ρ c)

end Cert.Val

end
-- ==== Proof.Algebraic.lean ====
/-
  The two idealized programs end with equal results.
  The kernel's program runs as its twenty-six items in order; every weakly fair execution terminates with each
  unscoped buffer at the last boundary's contents. There the first result buffer holds the reference's masked
  softmax of the third layer's scores and the second the head applied to the mean of the second layer's
  activations, both as the reference's own stages of the twelve arguments; the reference's run ends at those
  stages of its arguments, and the two memories agree on the arguments. No step uses that the inputs are finite:
  the two sides differ only by identities of formats, the grouping and order of sums and maxima, a maximum with
  −∞, sums with zeros added, and a quotient by 100000 against a product with its reciprocal.
-/
import proofs.«125778_j7670811590827_2_alg».proof.Defs
import proofs.«125778_j7670811590827_2_alg».proof.Proof.Gen.KernelIdeal
import proofs.«125778_j7670811590827_2_alg».proof.Proof.Gen.ReferenceIdeal
import proofs.«125778_j7670811590827_2_alg».proof.Proof.Gen.Pre_finite_inputs
import proofs.«125778_j7670811590827_2_alg».proof.Proof.KI.Run
import proofs.«125778_j7670811590827_2_alg».proof.Proof.Val.Bridge4

set_option maxRecDepth 16384

noncomputable section

namespace Cert.Proof.Alg

open Idealize.ShloMosaic Idealize.ShloMosaic.TcCoe Idealize.SL.Sem

theorem algebraic : Cert.algebraic_KernelIdeal_ReferenceIdeal := by
  intro m ρ m' ρ' _ hagree
  refine ⟨fun c => Cert.ReferenceIdeal.Value.res_main_v93 (F := Ideal) m' c, fun c => Cert.ReferenceIdeal.Value.res_main_v100 (F := Ideal) m' c, ?_,
    Cert.ReferenceIdeal.Value.run (F := Ideal) m' ρ'⟩
  refine (θ_run Cert.KernelIdeal.defs _ _).mono (fun r h c => ?_) (Cert.KernelIdeal.Hand.run_all (F := Ideal) m ρ)
  have hu : ∀ b : Ref Cert.KernelIdeal.sig .tc, ¬ (Proc.devRef .tc b : DevRef Cert.KernelIdeal.τ Cert.KernelIdeal.sig).isScoped →
      r.2.mem (((c : Thread Cert.KernelIdeal.nD Cert.KernelIdeal.τ)).1, Proc.devRef .tc b) = Cert.KernelIdeal.Hand.W26 m ρ c (Proc.devRef .tc b) :=
    fun b hb => h c _ (Cert.KernelIdeal.Hand.mem_uc b hb)
  obtain ⟨h0, h1, h2, h3, h4, h5, h6, h7, h8, h9, h10, h11⟩ := hagree c
  refine ⟨?_, ?_, (hu Cert.KernelIdeal.main_arg0 (by decide)).trans (Cert.KernelIdeal.Hand.W26_main_arg0 m ρ c),
    (hu Cert.KernelIdeal.main_arg1 (by decide)).trans (Cert.KernelIdeal.Hand.W26_main_arg1 m ρ c),
    (hu Cert.KernelIdeal.main_arg2 (by decide)).trans (Cert.KernelIdeal.Hand.W26_main_arg2 m ρ c),
    (hu Cert.KernelIdeal.main_arg3 (by decide)).trans (Cert.KernelIdeal.Hand.W26_main_arg3 m ρ c),
    (hu Cert.KernelIdeal.main_arg4 (by decide)).trans (Cert.KernelIdeal.Hand.W26_main_arg4 m ρ c),
    (hu Cert.KernelIdeal.main_arg5 (by decide)).trans (Cert.KernelIdeal.Hand.W26_main_arg5 m ρ c),
    (hu Cert.KernelIdeal.main_arg6 (by decide)).trans (Cert.KernelIdeal.Hand.W26_main_arg6 m ρ c),
    (hu Cert.KernelIdeal.main_arg7 (by decide)).trans (Cert.KernelIdeal.Hand.W26_main_arg7 m ρ c),
    (hu Cert.KernelIdeal.main_arg8 (by decide)).trans (Cert.KernelIdeal.Hand.W26_main_arg8 m ρ c),
    (hu Cert.KernelIdeal.main_arg9 (by decide)).trans (Cert.KernelIdeal.Hand.W26_main_arg9 m ρ c),
    (hu Cert.KernelIdeal.main_arg10 (by decide)).trans (Cert.KernelIdeal.Hand.W26_main_arg10 m ρ c),
    (hu Cert.KernelIdeal.main_arg11 (by decide)).trans (Cert.KernelIdeal.Hand.W26_main_arg11 m ρ c)⟩
  · refine (hu Cert.KernelIdeal.main_v85 (by decide)).trans ((Cert.Val.s26_choice m ρ c).trans ?_)
    show _ = Cert.ReferenceIdeal.Value.res_main_v93 (F := Ideal) m' c
    rw [Cert.ReferenceIdeal.Read.val_main_v93_eq m' c, h0, h1, h2, h3, h4, h5, h6, h7, h8, h9]
  · refine (hu Cert.KernelIdeal.main_v87 (by decide)).trans ((Cert.Val.s26_value m ρ c).trans ?_)
    show _ = Cert.ReferenceIdeal.Value.res_main_v100 (F := Ideal) m' c
    rw [Cert.ReferenceIdeal.Read.val_main_v100_eq m' c, h0, h1, h2, h4, h5, h6, h7, h10, h11]

end Cert.Proof.Alg

end
-- ==== Proof.lean ====
/-
  A three-layer graph convolution with a masked softmax over the nodes and a mean-pooled value head, as eleven
  kernel regions among host operations, against the same network written with array operations.
  Per layer the kernel's program contracts the node features with the layer's weights (a region), gathers each
  edge's source row and scales it by the edge weight (a host gather, a region), sums the scaled rows into their
  destination nodes (a host accumulating scatter) and adds the bias, with a positive part in the first two layers
  (a region). The scores go through a masked softmax over 782 rows of 128 lanes (one region), and the second
  layer's activations through a running column sum, a scale by the reciprocal of the node count and the head's
  contraction (one region with an accumulator carried over its fifty points).
  The three frames: each program runs to its end, nothing faults, and the twelve argument arrays end as launched;
  for the two kernel programs this is the run of the twenty-six items of the main function, each region entered
  with every unscoped buffer at the boundary's contents and left at the next boundary's; for the reference it is
  its run of host operations. The idealized kernel is the printed one with two constants named. At exact
  arithmetic the two idealized programs end with equal results.
-/
import proofs.«125778_j7670811590827_2_alg».proof.Defs
import proofs.«125778_j7670811590827_2_alg».proof.Proof.Gen.Kernel
import proofs.«125778_j7670811590827_2_alg».proof.Proof.Gen.KernelIdeal
import proofs.«125778_j7670811590827_2_alg».proof.Proof.Gen.ReferenceIdeal
import proofs.«125778_j7670811590827_2_alg».proof.Proof.Gen.Pre_finite_inputs
import proofs.«125778_j7670811590827_2_alg».proof.Proof.Small
import proofs.«125778_j7670811590827_2_alg».proof.Proof.K.Run
import proofs.«125778_j7670811590827_2_alg».proof.Proof.KI.Run
import proofs.«125778_j7670811590827_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, Cert.Proof.Small.frame_ri, Cert.Proof.Small.preserves, Cert.Proof.Alg.algebraic⟩

end Cert.Proof

end
